-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x1 .f32) (main_arg11 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S1x1 : Shape := ⟨2, ![1, 1]⟩
abbrev S2000x128 : Shape := ⟨2, ![2000, 128]⟩
abbrev S2000x1 : Shape := ⟨2, ![2000, 1]⟩
abbrev S800000x128 : Shape := ⟨2, ![800000, 128]⟩

abbrev nBuf : Space → Nat
  | .hbm => 96
  | .vmem => 70
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S50000, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S_, .f32⟩
  | .hbm, ⟨27, _⟩ => ⟨S800000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S128x128, .bf16⟩
  | .hbm, ⟨35, _⟩ => ⟨S128x128, .bf16⟩
  | .hbm, ⟨36, _⟩ => ⟨S128x1, .bf16⟩
  | .hbm, ⟨37, _⟩ => ⟨S1x128, .f32⟩
  | .hbm, ⟨38, _⟩ => ⟨S1x128, .f32⟩
  | .hbm, ⟨39, _⟩ => ⟨S1x1, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S1x128, .f32⟩
  | .hbm, ⟨80, _⟩ => ⟨S50000x1, .f32⟩
  | .hbm, ⟨81, _⟩ => ⟨S50000x1, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x1, .f32⟩
  | .hbm, ⟨91, _⟩ => ⟨S_, .f32⟩
  | .hbm, ⟨92, _⟩ => ⟨S50000x1, .f32⟩
  | .hbm, ⟨93, _⟩ => ⟨S800000x1, .i32⟩
  | .hbm, ⟨94, _⟩ => ⟨S50000x1, .f32⟩
  | .hbm, ⟨95, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x128, .bf16⟩
  | .local _ .vmem, ⟨29, _⟩ => ⟨S2000x1, .f32⟩
  | .local _ .vmem, ⟨30, _⟩ => ⟨S2000x1, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x1, .f32⟩
  | .local _ .vmem, ⟨40, _⟩ => ⟨S2000x1, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S128x1, .bf16⟩
  | .local _ .vmem, ⟨55, _⟩ => ⟨S2000x1, .f32⟩
  | .local _ .vmem, ⟨56, _⟩ => ⟨S2000x1, .f32⟩
  | .local _ .vmem, ⟨57, _⟩ => ⟨S2000x1, .f32⟩
  | .local _ .vmem, ⟨58, _⟩ => ⟨S2000x1, .f32⟩
  | .local _ .vmem, ⟨59, _⟩ => ⟨S2000x1, .f32⟩
  | .local _ .vmem, ⟨60, _⟩ => ⟨S2000x1, .f32⟩
  | .local _ .vmem, ⟨61, _⟩ => ⟨S2000x1, .f32⟩
  | .local _ .vmem, ⟨62, _⟩ => ⟨S2000x1, .f32⟩
  | .local _ .vmem, ⟨63, _⟩ => ⟨S2000x1, .f32⟩
  | .local _ .vmem, ⟨64, _⟩ => ⟨S2000x1, .f32⟩
  | .local _ .vmem, ⟨65, _⟩ => ⟨S2000x1, .f32⟩
  | .local _ .vmem, ⟨66, _⟩ => ⟨S2000x1, .f32⟩
  | .local _ .vmem, ⟨67, _⟩ => ⟨S1x1, .f32⟩
  | .local _ .vmem, ⟨68, _⟩ => ⟨S2000x1, .f32⟩
  | .local _ .vmem, ⟨69, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38_0 : Ref sig .tc := ⟨.hbm, 59, rfl⟩
abbrev main_v38_1 : Ref sig .tc := ⟨.hbm, 60, rfl⟩
abbrev main_v38_2 : Ref sig .tc := ⟨.hbm, 61, rfl⟩
abbrev main_v39_0 : Ref sig .tc := ⟨.hbm, 62, rfl⟩
abbrev main_v39_1 : Ref sig .tc := ⟨.hbm, 63, rfl⟩
abbrev main_c_6 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50_0 : Ref sig .tc := ⟨.hbm, 77, rfl⟩
abbrev main_v50_1 : Ref sig .tc := ⟨.hbm, 78, rfl⟩
abbrev main_v50_2 : Ref sig .tc := ⟨.hbm, 79, rfl⟩
abbrev main_v51_0 : Ref sig .tc := ⟨.hbm, 80, rfl⟩
abbrev main_v51_1 : Ref sig .tc := ⟨.hbm, 81, rfl⟩
abbrev main_c_9 : Ref sig .tc := ⟨.hbm, 82, rfl⟩
abbrev main_v52 : Ref sig .tc := ⟨.hbm, 83, rfl⟩
abbrev main_v53 : Ref sig .tc := ⟨.hbm, 84, rfl⟩
abbrev main_c_10 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc2_stg7_0 : Ref sig .tc := ⟨.vmem, 31, rfl⟩
abbrev cc2_stg7_1 : Ref sig .tc := ⟨.vmem, 32, rfl⟩
abbrev cc2_stg8_0 : Ref sig .tc := ⟨.vmem, 33, rfl⟩
abbrev cc2_stg8_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg6_0 : Ref sig .tc := ⟨.vmem, 45, rfl⟩
abbrev cc3_scratch0 : Ref sig .tc := ⟨.vmem, 46, rfl⟩
abbrev cc3_scratch1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg6_1 : Ref sig .tc := ⟨.vmem, 56, rfl⟩
abbrev cc4_stg7_0 : Ref sig .tc := ⟨.vmem, 57, rfl⟩
abbrev cc4_stg7_1 : Ref sig .tc := ⟨.vmem, 58, rfl⟩
abbrev cc4_stg8_0 : Ref sig .tc := ⟨.vmem, 59, rfl⟩
abbrev cc4_stg8_1 : Ref sig .tc := ⟨.vmem, 60, rfl⟩
abbrev cc5_stg0_0 : Ref sig .tc := ⟨.vmem, 61, rfl⟩
abbrev cc5_stg0_1 : Ref sig .tc := ⟨.vmem, 62, rfl⟩
abbrev cc5_stg1_0 : Ref sig .tc := ⟨.vmem, 63, rfl⟩
abbrev cc5_stg1_1 : Ref sig .tc := ⟨.vmem, 64, rfl⟩
abbrev cc5_stg2_0 : Ref sig .tc := ⟨.vmem, 65, rfl⟩
abbrev cc5_stg2_1 : Ref sig .tc := ⟨.vmem, 66, rfl⟩
abbrev cc5_stg3_0 : Ref sig .tc := ⟨.vmem, 67, rfl⟩
abbrev cc5_stg4_0 : Ref sig .tc := ⟨.vmem, 68, rfl⟩
abbrev cc5_stg4_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem6_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28
abbrev cc2_sem7_0 : DmaSem sig := 29
abbrev cc2_sem7_1 : DmaSem sig := 30
abbrev cc2_sem8_0 : DmaSem sig := 31
abbrev cc2_sem8_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem4_1 : DmaSem sig := 41
abbrev cc3_sem5_0 : DmaSem sig := 42
abbrev cc3_sem6_0 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem6_1 : DmaSem sig := 52
abbrev cc4_sem7_0 : DmaSem sig := 53
abbrev cc4_sem7_1 : DmaSem sig := 54
abbrev cc4_sem8_0 : DmaSem sig := 55
abbrev cc4_sem8_1 : DmaSem sig := 56
abbrev cc5_sem0_0 : DmaSem sig := 57
abbrev cc5_sem0_1 : DmaSem sig := 58
abbrev cc5_sem1_0 : DmaSem sig := 59
abbrev cc5_sem1_1 : DmaSem sig := 60
abbrev cc5_sem2_0 : DmaSem sig := 61
abbrev cc5_sem2_1 : DmaSem sig := 62
abbrev cc5_sem3_0 : DmaSem sig := 63
abbrev cc5_sem4_0 : DmaSem sig := 64
abbrev cc5_sem4_1 : DmaSem sig := 65

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v35 : BitVec 1 := Scalar.cmpi .eq arg0 c24_i32
  let v36 : BitVec 32 := Scalar.extui v35
  let c0_i32_19 : BitVec 32 := 0#32
  let v37 : BitVec 1 := Scalar.cmpi .ne v36 c0_i32_19
  v37

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v35 : BitVec 1 := Scalar.cmpi .eq arg0 c24_i32
  let v36 : BitVec 32 := Scalar.extui v35
  let c0_i32_19 : BitVec 32 := 0#32
  let v37 : BitVec 1 := Scalar.cmpi .ne v36 c0_i32_19
  v37

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x1 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S2000x1 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  shapeCasts_S128_S1x128 : S128.ShapeCasts S1x128
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  broadcasts_S1x128_S2000x128 : S1x128.Broadcasts S2000x128
  reduces_S2000x128_S128 : S2000x128.Reduces [0] S128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  bcast_S_S50000x1 : S_.BroadcastsInDim S50000x1 (![] : Fin 0 → Fin S50000x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x1_S2000x1_1_0_0_1_n_n_wf : DotDims.WF S2000x128 S128x1 S2000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x1.size a ≤ S50000x1.size a
  hwx2_6 : ∀ i : grid2.Coords, EltTy.bits .f32 = 32 ∨ (Rect.block (s := S50000x1) S2000x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x1.size a ≤ S128x1.size a
  hwx4_5 : ∀ i : grid4.Coords, EltTy.bits .bf16 = 32 ∨ (Rect.block (s := S128x1) S128x1.size (cc4_transform_5 i) (hinb4_5 i)).WholeWords (EltTy.packing .bf16)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x1.size a ≤ S50000x1.size a
  hwx4_6 : ∀ i : grid4.Coords, EltTy.bits .f32 = 32 ∨ (Rect.block (s := S50000x1) S2000x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x1.size a ≤ S50000x1.size a
  hwx4_7 : ∀ i : grid4.Coords, EltTy.bits .f32 = 32 ∨ (Rect.block (s := S50000x1) S2000x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x1.size a ≤ S50000x1.size a
  hwx4_8 : ∀ i : grid4.Coords, EltTy.bits .f32 = 32 ∨ (Rect.block (s := S50000x1) S2000x1.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x1.size a ≤ S50000x1.size a
  hwx5_0 : ∀ i : grid5.Coords, EltTy.bits .f32 = 32 ∨ (Rect.block (s := S50000x1) S2000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x1.size a ≤ S50000x1.size a
  hwx5_4 : ∀ i : grid5.Coords, EltTy.bits .f32 = 32 ∨ (Rect.block (s := S50000x1) S2000x1.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v38_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v38_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38_1) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38_2) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S2000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v39_0) S2000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v39_1) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v49) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50_0) S2000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v50_1) S1x128.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v50_2) S1x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v50_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50_1) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50_2) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v25) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v26) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v19) S128x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v16) S2000x1.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v51_0) S2000x1.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v51_1) S2000x1.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v61) S2000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v51_0) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v16) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v22) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v62) S2000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 277
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S50000x128, .f32⟩
  | 17 => ⟨S_, .f32⟩
  | 18 => ⟨S50000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S_, .f32⟩
  | 28 => ⟨S800000, .f32⟩
  | 29 => ⟨S50000, .f32⟩
  | 30 => ⟨S_, .f32⟩
  | 31 => ⟨S50000, .f32⟩
  | 32 => ⟨S50000, .f32⟩
  | 33 => ⟨S50000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S800000x1, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S_, .f32⟩
  | 70 => ⟨S50000, .f32⟩
  | 71 => ⟨S50000, .f32⟩
  | 72 => ⟨S50000x1, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S50000x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S_, .f32⟩
  | 97 => ⟨S128, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .i1⟩
  | 112 => ⟨S_, .f32⟩
  | 113 => ⟨S50000x128, .f32⟩
  | 114 => ⟨S50000x128, .f32⟩
  | 115 => ⟨S50000x128, .f32⟩
  | 116 => ⟨S50000x128, .f32⟩
  | 117 => ⟨S_, .f32⟩
  | 118 => ⟨S50000, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S_, .f32⟩
  | _ => ⟨S50000x128, .f32⟩

abbrev hbmTy0_1 (i : Nat) : BufTy := match i % 128 with
  | 0 => ⟨S800000, .f32⟩
  | 1 => ⟨S50000, .f32⟩
  | 2 => ⟨S_, .f32⟩
  | 3 => ⟨S50000, .f32⟩
  | 4 => ⟨S50000, .f32⟩
  | 5 => ⟨S50000, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000, .f32⟩
  | 24 => ⟨S800000, .f32⟩
  | 25 => ⟨S800000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S800000x128, .f32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S50000x128, .f32⟩
  | 58 => ⟨S50000x128, .f32⟩
  | 59 => ⟨S50000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .i1⟩
  | 84 => ⟨S_, .f32⟩
  | 85 => ⟨S50000x128, .f32⟩
  | 86 => ⟨S50000x128, .f32⟩
  | 87 => ⟨S50000x128, .f32⟩
  | 88 => ⟨S50000x1, .f32⟩
  | 89 => ⟨S_, .f32⟩
  | 90 => ⟨S50000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S_, .f32⟩
  | 100 => ⟨S800000, .f32⟩
  | 101 => ⟨S50000, .f32⟩
  | 102 => ⟨S_, .f32⟩
  | 103 => ⟨S50000, .f32⟩
  | 104 => ⟨S50000, .f32⟩
  | 105 => ⟨S50000, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000, .f32⟩
  | 124 => ⟨S800000, .f32⟩
  | 125 => ⟨S800000x1, .f32⟩
  | 126 => ⟨S_, .i32⟩
  | 127 => ⟨S800000, .i32⟩
  | _ => ⟨S50000x128, .f32⟩

abbrev hbmTy0_2 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x1, .f32⟩
  | 7 => ⟨S800000x1, .f32⟩
  | 8 => ⟨S_, .f32⟩
  | 9 => ⟨S50000x1, .f32⟩
  | 10 => ⟨S800000x1, .i32⟩
  | 11 => ⟨S50000x1, .f32⟩
  | 12 => ⟨S_, .f32⟩
  | 13 => ⟨S50000, .f32⟩
  | 14 => ⟨S50000, .f32⟩
  | 15 => ⟨S50000x1, .f32⟩
  | 16 => ⟨S50000x1, .f32⟩
  | 17 => ⟨S50000x1, .f32⟩
  | 18 => ⟨S1x1, .f32⟩
  | 19 => ⟨S50000x1, .f32⟩
  | 20 => ⟨S50000x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_call0_cst : Ref sig .tc := ⟨.hbm, 109, rfl⟩
abbrev main_call0_v0 : Ref sig .tc := ⟨.hbm, 110, rfl⟩
abbrev main_call0_v1 : Ref sig .tc := ⟨.hbm, 111, rfl⟩
abbrev main_call0_cst_0 : Ref sig .tc := ⟨.hbm, 112, rfl⟩
abbrev main_call0_v2 : Ref sig .tc := ⟨.hbm, 113, rfl⟩
abbrev main_call0_v3 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_c_17 : Ref sig .tc := ⟨.hbm, 119, rfl⟩
abbrev main_v82 : Ref sig .tc := ⟨.hbm, 120, rfl⟩
abbrev main_v83 : Ref sig .tc := ⟨.hbm, 121, rfl⟩
abbrev main_c_18 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_cst_20 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_c_21 : Ref sig .tc := ⟨.hbm, 134, rfl⟩
abbrev main_v93 : Ref sig .tc := ⟨.hbm, 135, rfl⟩
abbrev main_v94 : Ref sig .tc := ⟨.hbm, 136, rfl⟩
abbrev main_c_22 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_23 : Ref sig .tc := ⟨.hbm, 143, rfl⟩
abbrev main_v100 : Ref sig .tc := ⟨.hbm, 144, rfl⟩
abbrev main_v101 : Ref sig .tc := ⟨.hbm, 145, rfl⟩
abbrev main_c_24 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_25 : Ref sig .tc := ⟨.hbm, 154, rfl⟩
abbrev main_v109 : Ref sig .tc := ⟨.hbm, 155, rfl⟩
abbrev main_v110 : Ref sig .tc := ⟨.hbm, 156, rfl⟩
abbrev main_c_26 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_27 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_28 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_29 : Ref sig .tc := ⟨.hbm, 179, rfl⟩
abbrev main_v130 : Ref sig .tc := ⟨.hbm, 180, rfl⟩
abbrev main_cst_30 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_31 : Ref sig .tc := ⟨.hbm, 188, rfl⟩
abbrev main_v137 : Ref sig .tc := ⟨.hbm, 189, rfl⟩
abbrev main_cst_32 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_33 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_call1_cst : Ref sig .tc := ⟨.hbm, 209, rfl⟩
abbrev main_call1_v0 : Ref sig .tc := ⟨.hbm, 210, rfl⟩
abbrev main_call1_v1 : Ref sig .tc := ⟨.hbm, 211, rfl⟩
abbrev main_call1_cst_0 : Ref sig .tc := ⟨.hbm, 212, rfl⟩
abbrev main_call1_v2 : Ref sig .tc := ⟨.hbm, 213, rfl⟩
abbrev main_call1_v3 : Ref sig .tc := ⟨.hbm, 214, rfl⟩
abbrev main_v155 : Ref sig .tc := ⟨.hbm, 215, rfl⟩
abbrev main_v156 : Ref sig .tc := ⟨.hbm, 216, rfl⟩
abbrev main_cst_34 : Ref sig .tc := ⟨.hbm, 217, rfl⟩
abbrev main_v157 : Ref sig .tc := ⟨.hbm, 218, rfl⟩
abbrev main_c_35 : Ref sig .tc := ⟨.hbm, 219, rfl⟩
abbrev main_v158 : Ref sig .tc := ⟨.hbm, 220, rfl⟩
abbrev main_v159 : Ref sig .tc := ⟨.hbm, 221, rfl⟩
abbrev main_c_36 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_cst_37 : Ref sig .tc := ⟨.hbm, 227, rfl⟩
abbrev main_v164 : Ref sig .tc := ⟨.hbm, 228, rfl⟩
abbrev main_v165 : Ref sig .tc := ⟨.hbm, 229, rfl⟩
abbrev main_cst_38 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_c_39 : Ref sig .tc := ⟨.hbm, 234, rfl⟩
abbrev main_v169 : Ref sig .tc := ⟨.hbm, 235, rfl⟩
abbrev main_v170 : Ref sig .tc := ⟨.hbm, 236, rfl⟩
abbrev main_c_40 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_c_41 : Ref sig .tc := ⟨.hbm, 243, rfl⟩
abbrev main_v176 : Ref sig .tc := ⟨.hbm, 244, rfl⟩
abbrev main_v177 : Ref sig .tc := ⟨.hbm, 245, rfl⟩
abbrev main_c_42 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_c_43 : Ref sig .tc := ⟨.hbm, 254, rfl⟩
abbrev main_v185 : Ref sig .tc := ⟨.hbm, 255, rfl⟩
abbrev main_v186 : Ref sig .tc := ⟨.hbm, 256, rfl⟩
abbrev main_c_44 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_cst_45 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_cst_46 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.KRegion0.lean ====
/- The kernel half of region 0 of the word-level program's frame: the windows' blocks as the region finds them,
   what the body leaves in each window's staging buffer, the body's triple, the pipeline's proof data at a parameter
   `V` (the TensorCore's buffer contents when the region is entered), and the body obligation at every grid point.
   The invariant is the class-A one (the scoped rest and the generator register pass through untouched). -/
import proofs.«181351_j65970697667357_2_alg».proof.Proof.Gen.Kernel.Launch
import proofs.«181351_j65970697667357_2_alg».proof.Proof.Gen.Kernel.Skeleton
import proofs.«181351_j65970697667357_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 0: `cc0__matmul_scale_kernel`, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref whole -/

abbrev r0_blk : Rect S2000x128 := Rect.unit (s := S2000x128) ![0, 0] S2000x128.size inb_S2000x128_S2000x128_0_0
abbrev r0_wt : Rect S128x128 := Rect.unit (s := S128x128) ![0, 0] S128x128.size inb_S128x128_S128x128_0_0
abbrev r0_col : Rect S2000x1 := Rect.unit (s := S2000x1) ![0, 0] S2000x1.size inb_S2000x1_S2000x1_0_0

/-! ## What the body leaves in each output window's buffer -/

/-- Window 3's staging buffer after the body, from the input windows' blocks: its one whole-buffer store, whose
    payload is the product `k0_pay1` of what the loads read of windows 0 and 1. -/
def out0_3 (x0 : Vec F S2000x128 .f32) (x1 : Vec F S128x128 .bf16) : Vec F S2000x128 .f32 :=
  View.canon [⟨r0_blk, k0_pay1 (View.ld x0 r0_blk) (View.ld x1 r0_wt)⟩]

/-- Window 4's staging buffer after the body: its one whole-buffer store, whose payload is the row-scaled product
    `k0_pay2` of what the loads read of windows 0, 1 and 2. -/
def out0_4 (x0 : Vec F S2000x128 .f32) (x1 : Vec F S128x128 .bf16) (x2 : Vec F S2000x1 .f32) : Vec F S2000x128 .f32 :=
  View.canon [⟨r0_blk, k0_pay2 (View.ld x0 r0_blk) (View.ld x1 r0_wt) (View.ld x2 r0_col)⟩]

/-- One whole-buffer store tiles the buffer (checked by evaluation), so it covers it. -/
theorem cover0_blk (p0 : Vec F S2000x128 .f32) (y : S2000x128.Idx) :
    ∃ pc ∈ ([⟨r0_blk, p0⟩] : List (View.Piece (Elt F) S2000x128 .f32)), y ∈ pc.1.set :=
  View.cover_of_tiled [⟨r0_blk, p0⟩] S2000x128.size (by rfl) y

/-! ## The body's triple -/

set_option maxHeartbeats 400000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords)
    (arg1 : Memref sig .tc .vmem S2000x128 .f32) (harg1 : arg1.IsWhole) (arg2 : Memref sig .tc .vmem S128x128 .bf16) (harg2 : arg2.IsWhole)
    (arg3 : Memref sig .tc .vmem S2000x1 .f32) (harg3 : arg3.IsWhole) (arg4 : Memref sig .tc .vmem S2000x128 .f32) (harg4 : arg4.IsWhole)
    (arg5 : Memref sig .tc .vmem S2000x128 .f32) (harg5 : arg5.IsWhole)
    (x0 : Vec F S2000x128 .f32) (x1 : Vec F S128x128 .bf16) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__matmul_scale_kernel i arg1 harg1 arg2 harg2 arg3 harg3 arg4 harg4 arg5 harg5) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_blk _)
  iexists _; isplitr
  swap; · iexact H4
  ipureintro
  exact View.read_writes_eq_canon _ _ _ (cover0_blk _)

/-! ## The pipeline's proof data -/

/-- The proof data of pipeline 0 on core `c`: the arrays as the region finds them (`V`); after the body at point `t`
    each input's buffer at its block and each output's at `out0_W` of the input blocks; the class-A invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) := by dsimp only [dat0]
theorem after0_4 (c : Dev nD) (t : Fin cfg0.N) :
    (dat0 V c).after 4 t = out0_4 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- The class-A invariant is the proof data's at the first boundary, -/
theorem Phi_in0 (c : Dev nD) : Pipeline.ΦA spec0 c ⊢ (dat0 V c).Φ 0 := .rfl

/-- and at the last. -/
theorem Phi_out0 (c : Dev nD) : (dat0 V c).Φ (Fin.last cfg0.N) ⊢ Pipeline.ΦA spec0 c := .rfl

end Cert.Kernel.Hand

end
-- ==== Proof.KRegion1.lean ====
/- The kernel half of region 1 (`cc1__finalize_stats_kernel`): a kernel with two accumulators carried between the
   grid points and two outputs stored at the last point only. Three cases over the 25 points — the first, a middle
   one, the last —: per case the whole body's run with the branch conditions decided, what the outputs and the
   accumulators hold point by point by recursion on the point, the three-stage invariant, the proof data, the body
   obligation, and the invariant's entry and exit. -/
import proofs.«181351_j65970697667357_2_alg».proof.Proof.Gen.Kernel.Launch
import proofs.«181351_j65970697667357_2_alg».proof.Proof.Gen.Kernel.Skeleton
import proofs.«181351_j65970697667357_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first `scf.if` (the grid coordinate is 0), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 25 = 0 :=
  (by decide +kernel : ∀ t : Fin grid1.N, cond1_0 (grid1.coords t) ↔ t.val % 25 = 0)

/-- The condition of the body's second `scf.if` (the grid coordinate is 24), from the grid coordinates. -/
abbrev cond1_1 (i : grid1.Coords) : Prop := k1_cond2 i = 1#1
/-- It holds at the last point only. -/
theorem hcond1_1 : ∀ t : Fin cfg1.N, cond1_1 (grid1.coords t) ↔ t.val % 25 = 24 :=
  (by decide +kernel : ∀ t : Fin grid1.N, cond1_1 (grid1.coords t) ↔ t.val % 25 = 24)

set_option maxHeartbeats 1000000 in
/-- The body at the first point (the first `scf.if` taken, the second not): the pieces its stores leave in output 4
    and in the two carried accumulators (zeroed, then added to), with the proof that on whole memrefs — the inputs at
    their contents, output 4 and the accumulators at anything, outputs 5 and 6 at contents handed back untouched —
    the body runs to the continuation holding the inputs as they were and each stored buffer with its pieces written. -/
noncomputable def kernelRun1_A (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) :
    Σ' (L4 : List (View.Piece (Elt F) S2000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__finalize_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__finalize_stats_kernel_eq_skeleton]; unfold cc1__finalize_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 1000000 in
/-- The body at a middle point (neither `scf.if` taken): the pieces its stores leave in output 4 and in the two
    carried accumulators, with the proof that on whole memrefs — the inputs at their contents, output 4 at anything,
    outputs 5 and 6 at contents handed back untouched, the accumulators at what the point before left — the body
    runs to the continuation holding the inputs as they were and each stored buffer with its pieces written. -/
noncomputable def kernelRun1_B (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__finalize_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__finalize_stats_kernel_eq_skeleton]; unfold cc1__finalize_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 1000000 in
/-- The body at the last point (the first `scf.if` not taken, the second taken): the pieces its stores leave in
    outputs 4, 5, 6 and in the two carried accumulators, with the proof that on whole memrefs — the inputs at their
    contents, the outputs at anything, the accumulators at what the point before left — the body runs to the
    continuation holding the inputs as they were and each stored buffer with its pieces written. -/
noncomputable def kernelRun1_C (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__finalize_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__finalize_stats_kernel_eq_skeleton]; unfold cc1__finalize_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The points of the three cases -/

theorem N_val1 (t : Fin cfg1.N) : t.val < 25 := lt_of_lt_of_eq t.isLt (show cfg1.N = 25 from N_1)

theorem cond1_0_of (t : Fin cfg1.N) (h : t.val = 0) : cond1_0 (grid1.coords t) :=
  (hcond1_0 t).mpr (by rw [h])
theorem not_cond1_0_of (t : Fin cfg1.N) (h : t.val ≠ 0) : ¬cond1_0 (grid1.coords t) := fun hc => by
  have h1 := (hcond1_0 t).mp hc; have h2 := N_val1 t; omega
theorem cond1_1_of (t : Fin cfg1.N) (h : t.val % 25 = 24) : cond1_1 (grid1.coords t) :=
  (hcond1_1 t).mpr h
theorem not_cond1_1_of (t : Fin cfg1.N) (h : ¬t.val % 25 = 24) : ¬cond1_1 (grid1.coords t) := fun hc =>
  h ((hcond1_1 t).mp hc)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Where the second condition fails outputs 5 and 6 are idle and not written back; where it holds they are live. -/
theorem idleAt1_5 : ∀ t : Fin cfg1.N, ¬cond1_1 (grid1.coords t) → cfg1.idle 5 (grid1.coords t) = true := by decide +kernel
theorem idleAt1_6 : ∀ t : Fin cfg1.N, ¬cond1_1 (grid1.coords t) → cfg1.idle 6 (grid1.coords t) = true := by decide +kernel
theorem noFlush1_5 : ∀ t : Fin cfg1.N, ¬cond1_1 (grid1.coords t) → (cfg1.win 5).flush t = false := by decide +kernel
theorem noFlush1_6 : ∀ t : Fin cfg1.N, ¬cond1_1 (grid1.coords t) → (cfg1.win 6).flush t = false := by decide +kernel
theorem liveAt1_5 : ∀ t : Fin cfg1.N, cond1_1 (grid1.coords t) → cfg1.idle 5 (grid1.coords t) = false := by decide +kernel
theorem liveAt1_6 : ∀ t : Fin cfg1.N, cond1_1 (grid1.coords t) → cfg1.idle 6 (grid1.coords t) = false := by decide +kernel

/-! ## The memrefs the body is called with -/

/-- One staging buffer of each output window, through which its contents are stated (the choice does not matter). -/
abbrev VO1_4 : View sig .tc .vmem S2000x128 .f32 := (Memref.whole cc1_stg4_0 : Memref sig .tc .vmem S2000x128 .f32).view
abbrev VO1_5 : View sig .tc .vmem S1x128 .f32 := (Memref.whole cc1_stg5_0 : Memref sig .tc .vmem S1x128 .f32).view
abbrev VO1_6 : View sig .tc .vmem S1x128 .f32 := (Memref.whole cc1_stg6_0 : Memref sig .tc .vmem S1x128 .f32).view
/-- Each window's current staging memref at point `t`, and its wholeness. -/
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
/-- The two accumulators: whole scoped buffers of the kernel's own, passed beside the windows. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- Every other scoped buffer of the core, unopened. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The class invariant with the two accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

/-! ## What each case leaves -/

/-- The pieces case A leaves in output 4 tile it, so they cover it. -/
theorem cover1_A_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) (y : S2000x128.Idx) :
    ∃ pc ∈ (kernelRun1_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3).1 S2000x128.size (by sl_kernel_rfl) y

/-- What case A leaves in output 4: its pieces read back. -/
def out1_A_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) : Vec F S2000x128 .f32 :=
  VO1_4.read (Elt F) (VO1_4.writes (Elt F) VO1_4.junk (kernelRun1_A c i arg1 harg1 arg2 harg2 arg3 harg3 arg4 harg4 arg5 harg5 arg6 harg6 arg7 harg7 arg8 harg8 arg9 harg9 hc0 hc1 x0 x1 x2 x3).1)

/-- The pieces case A leaves in accumulator 0 tile it, so they cover it. -/
theorem scover1_A_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) (y : S1x128.Idx) :
    ∃ pc ∈ (kernelRun1_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3).2.1 S1x128.size (by sl_kernel_rfl) y

/-- What case A leaves in accumulator 0: its pieces read back. -/
def sout1_A_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 hc1 x0 x1 x2 x3).2.1)

/-- The pieces case A leaves in accumulator 1 tile it, so they cover it. -/
theorem scover1_A_1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) (y : S1x128.Idx) :
    ∃ pc ∈ (kernelRun1_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3).2.2.1 S1x128.size (by sl_kernel_rfl) y

/-- What case A leaves in accumulator 1: its pieces read back. -/
def sout1_A_1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 hc0 hc1 x0 x1 x2 x3).2.2.1)

/-- The pieces case B leaves in output 4 tile it, so they cover it. -/
theorem cover1_B_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S2000x128.Idx) :
    ∃ pc ∈ (kernelRun1_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 xs0 xs1).1 S2000x128.size (by sl_kernel_rfl) y

/-- What case B leaves in output 4: its pieces read back. -/
def out1_B_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S2000x128 .f32 :=
  VO1_4.read (Elt F) (VO1_4.writes (Elt F) VO1_4.junk (kernelRun1_B c i arg1 harg1 arg2 harg2 arg3 harg3 arg4 harg4 arg5 harg5 arg6 harg6 arg7 harg7 arg8 harg8 arg9 harg9 hc0 hc1 x0 x1 x2 x3 xs0 xs1).1)

/-- The pieces case B leaves in accumulator 0 tile it, so they cover it. -/
theorem scover1_B_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What case B leaves in accumulator 0: its pieces read back. -/
def sout1_B_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 hc1 x0 x1 x2 x3 xs0 xs1).2.1)

/-- The pieces case B leaves in accumulator 1 tile it, so they cover it. -/
theorem scover1_B_1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What case B leaves in accumulator 1: its pieces read back. -/
def sout1_B_1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 hc0 hc1 x0 x1 x2 x3 xs0 xs1).2.2.1)

/-- The pieces case C leaves in output 4 tile it, so they cover it. -/
theorem cover1_C_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S2000x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).1 S2000x128.size (by sl_kernel_rfl) y

/-- What case C leaves in output 4: its pieces read back. -/
def out1_C_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S2000x128 .f32 :=
  VO1_4.read (Elt F) (VO1_4.writes (Elt F) VO1_4.junk (kernelRun1_C c i arg1 harg1 arg2 harg2 arg3 harg3 arg4 harg4 arg5 harg5 arg6 harg6 arg7 harg7 arg8 harg8 arg9 harg9 hc0 hc1 x0 x1 x2 x3 xs0 xs1).1)

/-- The pieces case C leaves in output 5 tile it, so they cover it. -/
theorem cover1_C_5 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What case C leaves in output 5: its pieces read back. -/
def out1_C_5 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VO1_5.read (Elt F) (VO1_5.writes (Elt F) VO1_5.junk (kernelRun1_C c i arg1 harg1 arg2 harg2 arg3 harg3 arg4 harg4 arg5 harg5 arg6 harg6 arg7 harg7 arg8 harg8 arg9 harg9 hc0 hc1 x0 x1 x2 x3 xs0 xs1).2.1)

/-- The pieces case C leaves in output 6 tile it, so they cover it. -/
theorem cover1_C_6 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What case C leaves in output 6: its pieces read back. -/
def out1_C_6 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 hc0 hc1 x0 x1 x2 x3 xs0 xs1).2.2.1)

/-- The pieces case C leaves in accumulator 0 tile it, so they cover it. -/
theorem scover1_C_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What case C leaves in accumulator 0: its pieces read back. -/
def sout1_C_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 hc0 hc1 x0 x1 x2 x3 xs0 xs1).2.2.2.1)

/-- The pieces case C leaves in accumulator 1 tile it, so they cover it. -/
theorem scover1_C_1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What case C leaves in accumulator 1: its pieces read back. -/
def sout1_C_1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- Output 4, output 5, output 6, accumulator 0, accumulator 1. -/
abbrev Outs1 (F : FTy → Type) : Type := Vec F S2000x128 .f32 × Vec F S1x128 .f32 × Vec F S1x128 .f32 × Vec F S1x128 .f32 × Vec F S1x128 .f32

/-- Contents nothing consults: an output window at a point where it is idle. -/
abbrev idleOut1 : Vec F S1x128 .f32 := View.canon ([] : List (View.Piece (Elt F) S1x128 .f32))

/-- The first point: the accumulators zeroed and added to; outputs 5 and 6 idle. -/
def first1 (c : Dev nD) (t : Fin cfg1.N) (h0 : t.val = 0) : Outs1 F :=
  have h1 : ¬t.val % 25 = 24 := by omega
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (cond1_0_of t h0) (not_cond1_1_of t h1) (iblk1 V c 0 t) (iblk1 V c 1 t) (iblk1 V c 2 t) (iblk1 V c 3 t),
   idleOut1, idleOut1,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (cond1_0_of t h0) (not_cond1_1_of t h1) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (cond1_0_of t h0) (not_cond1_1_of t h1) (iblk1 V c 0 t) (iblk1 V c 1 t) (iblk1 V c 2 t) (iblk1 V c 3 t))

/-- A middle point, over what the point before left in the accumulators; outputs 5 and 6 idle. -/
def middle1 (c : Dev nD) (t : Fin cfg1.N) (h0 : t.val ≠ 0) (h1 : ¬t.val % 25 = 24) (xs0 xs1 : Vec F S1x128 .f32) : Outs1 F :=
  (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (not_cond1_1_of t h1) (iblk1 V c 0 t) (iblk1 V c 1 t) (iblk1 V c 2 t) (iblk1 V c 3 t) xs0 xs1,
   idleOut1, idleOut1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (not_cond1_1_of t h1) (iblk1 V c 0 t) (iblk1 V c 1 t) (iblk1 V c 2 t) (iblk1 V c 3 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (not_cond1_1_of t h1) (iblk1 V c 0 t) (iblk1 V c 1 t) (iblk1 V c 2 t) (iblk1 V c 3 t) xs0 xs1)

/-- The last point, over what the point before left in the accumulators: outputs 5 and 6 stored. -/
def last1 (c : Dev nD) (t : Fin cfg1.N) (h0 : t.val ≠ 0) (h1 : t.val % 25 = 24) (xs0 xs1 : Vec F S1x128 .f32) : Outs1 F :=
  (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (cond1_1_of t h1) (iblk1 V c 0 t) (iblk1 V c 1 t) (iblk1 V c 2 t) (iblk1 V c 3 t) xs0 xs1,
   out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (cond1_1_of t h1) (iblk1 V c 0 t) (iblk1 V c 1 t) (iblk1 V c 2 t) (iblk1 V c 3 t) xs0 xs1,
   out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (cond1_1_of t h1) (iblk1 V c 0 t) (iblk1 V c 1 t) (iblk1 V c 2 t) (iblk1 V c 3 t) xs0 xs1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (cond1_1_of t h1) (iblk1 V c 0 t) (iblk1 V c 1 t) (iblk1 V c 2 t) (iblk1 V c 3 t) xs0 xs1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (cond1_1_of t h1) (iblk1 V c 0 t) (iblk1 V c 1 t) (iblk1 V c 2 t) (iblk1 V c 3 t) xs0 xs1)

/-- THE ACCUMULATION: what the outputs' staging buffers and the two accumulators hold after the body at position `n`,
    by recursion on the position — the case of the point, the accumulators at what position `n - 1` left. -/
def outsAt1 (c : Dev nD) : (n : ℕ) → n < cfg1.N → Outs1 F
  | 0, hn => first1 V c ⟨0, hn⟩ rfl
  | n + 1, hn =>
    if h1 : (n + 1) % 25 = 24 then
      last1 V c ⟨n + 1, hn⟩ (Nat.succ_ne_zero n) h1 (outsAt1 c n (Nat.lt_of_succ_lt hn)).2.2.2.1 (outsAt1 c n (Nat.lt_of_succ_lt hn)).2.2.2.2
    else
      middle1 V c ⟨n + 1, hn⟩ (Nat.succ_ne_zero n) h1 (outsAt1 c n (Nat.lt_of_succ_lt hn)).2.2.2.1 (outsAt1 c n (Nat.lt_of_succ_lt hn)).2.2.2.2

theorem outsAt1_first (c : Dev nD) (t : Fin cfg1.N) (h0 : t.val = 0) :
    outsAt1 V c t.val t.isLt = first1 V c t h0 := by
  obtain ⟨n, hn⟩ := t
  cases n with
  | zero => rfl
  | succ n => exact absurd h0 (Nat.succ_ne_zero n)

theorem outsAt1_middle (c : Dev nD) (t : Fin cfg1.N) (h0 : t.val ≠ 0) (h1 : ¬t.val % 25 = 24) :
    outsAt1 V c t.val t.isLt = middle1 V c t h0 h1
      (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact absurd rfl h0
  | succ n => exact (dif_neg h1).trans rfl

theorem outsAt1_last (c : Dev nD) (t : Fin cfg1.N) (h0 : t.val ≠ 0) (h1 : t.val % 25 = 24) :
    outsAt1 V c t.val t.isLt = last1 V c t h0 h1
      (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact absurd rfl h0
  | succ n => exact (dif_pos h1).trans rfl

/-! ## The invariant -/

/-- The region invariant before position `n`: before the first point the class invariant (every scoped buffer that is
    no staging buffer at anything, the generator register at some state); afterwards the two accumulators at what the
    point before left in them, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.2.2.1 ∗ owns (c : Thread nD τ) scM1_1 fullShare (outsAt1 V c n hn).2.2.2.2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.2.2.1 ∗ owns (c : Thread nD τ) scM1_1 fullShare (outsAt1 V c n hn).2.2.2.2) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.2.2.1 ∗ owns (c : Thread nD τ) scM1_1 fullShare (outsAt1 V c (n - 1) (by omega)).2.2.2.2) ∗ rest1 c) ∗ (∃ r, prngReg c r)) := by
  cases n with
  | zero => exact absurd rfl hz
  | succ n => rfl

/-! ## The pipeline's proof data -/

/-- The proof data of the pipeline on core `c`: the arrays as the region finds them; after the body at point `t` each
    input's buffer at its block and the outputs' at `outsAt1`'s components; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point: the inputs' memrefs hold their blocks; the point is the first, a middle one or the last, and
    that case's run applies; the invariant hands the body the two accumulators — at anything at the first point, at what
    the point before left afterwards — and takes them back at this point's contents; outputs 5 and 6 are handed back as
    found except at the last point; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases hz : t.val = 0
  · have h1 : ¬t.val % 25 = 24 := by omega
    rw [Dat.leavesExact_idle (dat1 V c) 5 t (idleAt1_5 t (not_cond1_1_of t h1)) (noFlush1_5 t (not_cond1_1_of t h1))]
    rw [Dat.leavesExact_idle (dat1 V c) 6 t (idleAt1_6 t (not_cond1_1_of t h1)) (noFlush1_6 t (not_cond1_1_of t h1))]
    rw [outsAt1_first V c t hz]
    unfold first1 out1_A_4 sout1_A_0 sout1_A_1; (try dsimp only)
    rw [PhiS1_castSucc V c t, PhiS1_zero V c _ _ hz, PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ (cond1_0_of t hz) (not_cond1_1_of t h1) (iblk1 V c 0 t) (iblk1 V c 1 t) (iblk1 V c 2 t) (iblk1 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _ _ _ _ _)
    isplitl [H5]; · iexists _; iexact H5
    iexists _; iexact H6
  · by_cases h1 : t.val % 25 = 24
    · rw [show (dat1 V c).leavesExact 5 t = owns (c : Thread nD τ) (ms1_5 t) fullShare ((dat1 V c).after 5 t) from by
        unfold Dat.leavesExact; rw [liveAt1_5 t (cond1_1_of t h1)], after1_5]
      rw [show (dat1 V c).leavesExact 6 t = owns (c : Thread nD τ) (ms1_6 t) fullShare ((dat1 V c).after 6 t) from by
        unfold Dat.leavesExact; rw [liveAt1_6 t (cond1_1_of t h1)], after1_6]
      rw [outsAt1_last V c t hz h1]
      unfold last1 out1_C_4 out1_C_5 out1_C_6 sout1_C_0 sout1_C_1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ (not_cond1_0_of t hz) (cond1_1_of t h1) (iblk1 V c 0 t) (iblk1 V c 1 t) (iblk1 V c 2 t) (iblk1 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _ _ _)
    · rw [Dat.leavesExact_idle (dat1 V c) 5 t (idleAt1_5 t (not_cond1_1_of t h1)) (noFlush1_5 t (not_cond1_1_of t h1))]
      rw [Dat.leavesExact_idle (dat1 V c) 6 t (idleAt1_6 t (not_cond1_1_of t h1)) (noFlush1_6 t (not_cond1_1_of t h1))]
      rw [outsAt1_middle V c t hz h1]
      unfold middle1 out1_B_4 sout1_B_0 sout1_B_1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ (not_cond1_0_of t hz) (not_cond1_1_of t h1) (iblk1 V c 0 t) (iblk1 V c 1 t) (iblk1 V c 2 t) (iblk1 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _ _ _ _ _ _)
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi_in1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' named contents are forgotten. -/
theorem Phi_out1_of (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem Phi_out1 (c : Dev nD) : (dat1 V c).Φ (Fin.last cfg1.N) ⊢ Pipeline.ΦA spec1 c :=
  Phi_out1_of V c _ (by rw [Fin.val_last]; have : cfg1.N = 25 := N_1; omega)

end Region

end Cert.Kernel.Hand

end
-- ==== Proof.KRegion2.lean ====
/- The kernel half of region 2 of the program's six kernel regions: `cc2__bn_act_matmul_kernel`, on a grid of 25 points.
   Seven input windows are loaded whole (five of them fetched at the first point only, their block index constant),
   two output windows are stored whole, nothing is carried between points. Stated at a PARAMETER `V` — the
   TensorCore's buffer contents when the region is entered — and at any float model `F`:
   each window's block at a point (`iblk2`), what the body leaves in each output's buffer as a term over the
   skeleton's payloads of the input blocks (`out2_7`, `out2_8`), the body's triple (`sound_kernel2`), the
   pipeline's proof data (`dat2`) and its body obligation (`body_obligation2`). -/
import proofs.«181351_j65970697667357_2_alg».proof.Proof.Gen.Kernel.Launch
import proofs.«181351_j65970697667357_2_alg».proof.Proof.Gen.Kernel.Skeleton
import proofs.«181351_j65970697667357_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 2000 rows: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an input not
    fetched at a point has not moved its block index since the point before), for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an input not
    fetched at a point has not moved its block index since the point before), for any proof data whose array is
    `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an input not
    fetched at a point has not moved its block index since the point before), for any proof data whose array is
    `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (an input not
    fetched at a point has not moved its block index since the point before), for any proof data whose array is
    `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (an input not
    fetched at a point has not moved its block index since the point before), for any proof data whose array is
    `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (an input not
    fetched at a point has not moved its block index since the point before), for any proof data whose array is
    `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (an input not
    fetched at a point has not moved its block index since the point before), for any proof data whose array is
    `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_S2000x128 : Rect S2000x128 := Rect.unit (s := S2000x128) ![0, 0] S2000x128.size inb_S2000x128_S2000x128_0_0
abbrev r2_S1x128 : Rect S1x128 := Rect.unit (s := S1x128) ![0, 0] S1x128.size inb_S1x128_S1x128_0_0
abbrev r2_S128x128 : Rect S128x128 := Rect.unit (s := S128x128) ![0, 0] S128x128.size inb_S128x128_S128x128_0_0
abbrev r2_S2000x1 : Rect S2000x1 := Rect.unit (s := S2000x1) ![0, 0] S2000x1.size inb_S2000x1_S2000x1_0_0

/-! ## What the body leaves in each output window's buffer -/

/-- Window 7's buffer after the body: one whole store of the first payload (the normalized, activated block times
    the weight matrix) of the input blocks. -/
def out2_7 (x0 : Vec F S2000x128 .f32) (x1 : Vec F S1x128 .f32) (x2 : Vec F S1x128 .f32) (x3 : Vec F S1x128 .f32) (x4 : Vec F S1x128 .f32) (x5 : Vec F S128x128 .bf16) : Vec F S2000x128 .f32 :=
  View.canon [⟨r2_S2000x128, k2_pay1 (View.ld x0 r2_S2000x128) (View.ld x2 r2_S1x128) (View.ld x1 r2_S1x128) (View.ld x3 r2_S1x128) (View.ld x4 r2_S1x128) (View.ld x5 r2_S128x128)⟩]

/-- Window 8's buffer after the body: one whole store of the second payload (the first, scaled row by row). -/
def out2_8 (x0 : Vec F S2000x128 .f32) (x1 : Vec F S1x128 .f32) (x2 : Vec F S1x128 .f32) (x3 : Vec F S1x128 .f32) (x4 : Vec F S1x128 .f32) (x5 : Vec F S128x128 .bf16) (x6 : Vec F S2000x1 .f32) : Vec F S2000x128 .f32 :=
  View.canon [⟨r2_S2000x128, k2_pay2 (View.ld x0 r2_S2000x128) (View.ld x2 r2_S1x128) (View.ld x1 r2_S1x128) (View.ld x3 r2_S1x128) (View.ld x4 r2_S1x128) (View.ld x5 r2_S128x128) (View.ld x6 r2_S2000x1)⟩]

/-- A whole store covers the buffer. -/
theorem cover2_out (p0 : Vec F S2000x128 .f32) (y : S2000x128.Idx) :
    ∃ pc ∈ ([⟨r2_S2000x128, p0⟩] : List (View.Piece (Elt F) S2000x128 .f32)), y ∈ pc.1.set :=
  View.cover_of_tiled [⟨r2_S2000x128, p0⟩] S2000x128.size (by rfl) y

/-! ## The body's triple -/

set_option maxHeartbeats 400000 in
/-- The kernel body on whole staging memrefs, the inputs' at read contents `xW` and the outputs' at anything, runs to
    the continuation holding the inputs' as they were and each output's at `out2_W` of the inputs'. The body also
    loads each output buffer before storing to it; what it reads there is not used. -/
theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S2000x1 .f32) (harg7 : arg7.IsWhole) (arg8 : Memref sig .tc .vmem S2000x128 .f32) (harg8 : arg8.IsWhole) (arg9 : Memref sig .tc .vmem S2000x128 .f32) (harg9 : arg9.IsWhole)
    (x0 : Vec F S2000x128 .f32) (x1 : Vec F S1x128 .f32) (x2 : Vec F S1x128 .f32) (x3 : Vec F S1x128 .f32) (x4 : Vec F S1x128 .f32) (x5 : Vec F S128x128 .bf16) (x6 : Vec F S2000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5) ∗ owns (c : Thread nD τ) arg9 fullShare (out2_8 x0 x1 x2 x3 x4 x5 x6)) -∗ K ⟨⟩))
      ⊢ wp frame (wpE (defs₀ (F := F)) Variants.none c none) E (cc2__bn_act_matmul_kernel i arg1 harg1 arg2 harg2 arg3 harg3 arg4 harg4 arg5 harg5 arg6 harg6 arg7 harg7 arg8 harg8 arg9 harg9) K := by
  sl_unfold [cc2__bn_act_matmul_kernel, k2_part1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_out _)
  iexists _; isplitr
  swap; · iexact H8
  ipureintro
  exact View.read_writes_eq_canon _ _ _ (cover2_out _)

/-! ## The pipeline's proof data -/

/-- The proof data of the region's pipeline on core `c`: the arrays as the region finds them (`V`); after the body at
    point `t` each input's buffer at its block and each output's at `out2_W` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 400000 in
/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- The invariant is the same at every point: the region's entry resources are the invariant before the first point, -/
theorem Phi_in2 (c : Dev nD) : Pipeline.ΦA spec2 c ⊢ (dat2 V c).Φ 0 := by
  dsimp only [dat2]; exact .rfl

/-- and the invariant after the last point is the region's exit resources. -/
theorem Phi_out2 (c : Dev nD) : (dat2 V c).Φ (Fin.last cfg2.N) ⊢ Pipeline.ΦA spec2 c := by
  dsimp only [dat2]; exact .rfl

end Cert.Kernel.Hand
-- ==== Proof.KRegion3.lean ====
/- The kernel half of region 3 (`cc3__finalize_stats_kernel`): a kernel with two accumulators carried between the
   grid points and two outputs stored at the last point only. Three cases over the 25 points — the first, a middle
   one, the last —: per case the whole body's run with the branch conditions decided, what the outputs and the
   accumulators hold point by point by recursion on the point, the three-stage invariant, the proof data, the body
   obligation, and the invariant's entry and exit. -/
import proofs.«181351_j65970697667357_2_alg».proof.Proof.Gen.Kernel.Launch
import proofs.«181351_j65970697667357_2_alg».proof.Proof.Gen.Kernel.Skeleton
import proofs.«181351_j65970697667357_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first `scf.if` (the grid coordinate is 0), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 25 = 0 :=
  (by decide +kernel : ∀ t : Fin grid3.N, cond3_0 (grid3.coords t) ↔ t.val % 25 = 0)

/-- The condition of the body's second `scf.if` (the grid coordinate is 24), from the grid coordinates. -/
abbrev cond3_1 (i : grid3.Coords) : Prop := k3_cond2 i = 1#1
/-- It holds at the last point only. -/
theorem hcond3_1 : ∀ t : Fin cfg3.N, cond3_1 (grid3.coords t) ↔ t.val % 25 = 24 :=
  (by decide +kernel : ∀ t : Fin grid3.N, cond3_1 (grid3.coords t) ↔ t.val % 25 = 24)

set_option maxHeartbeats 1000000 in
/-- The body at the first point (the first `scf.if` taken, the second not): the pieces its stores leave in output 4
    and in the two carried accumulators (zeroed, then added to), with the proof that on whole memrefs — the inputs at
    their contents, output 4 and the accumulators at anything, outputs 5 and 6 at contents handed back untouched —
    the body runs to the continuation holding the inputs as they were and each stored buffer with its pieces written. -/
noncomputable def kernelRun3_A (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) :
    Σ' (L4 : List (View.Piece (Elt F) S2000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__finalize_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc3__finalize_stats_kernel_eq_skeleton]; unfold cc3__finalize_stats_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 1000000 in
/-- The body at a middle point (neither `scf.if` taken): the pieces its stores leave in output 4 and in the two
    carried accumulators, with the proof that on whole memrefs — the inputs at their contents, output 4 at anything,
    outputs 5 and 6 at contents handed back untouched, the accumulators at what the point before left — the body
    runs to the continuation holding the inputs as they were and each stored buffer with its pieces written. -/
noncomputable def kernelRun3_B (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__finalize_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc3__finalize_stats_kernel_eq_skeleton]; unfold cc3__finalize_stats_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 1000000 in
/-- The body at the last point (the first `scf.if` not taken, the second taken): the pieces its stores leave in
    outputs 4, 5, 6 and in the two carried accumulators, with the proof that on whole memrefs — the inputs at their
    contents, the outputs at anything, the accumulators at what the point before left — the body runs to the
    continuation holding the inputs as they were and each stored buffer with its pieces written. -/
noncomputable def kernelRun3_C (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__finalize_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc3__finalize_stats_kernel_eq_skeleton]; unfold cc3__finalize_stats_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point, fetched there or not, for any proof
    data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The points of the three cases -/

theorem N_val3 (t : Fin cfg3.N) : t.val < 25 := lt_of_lt_of_eq t.isLt (show cfg3.N = 25 from N_3)

theorem cond3_0_of (t : Fin cfg3.N) (h : t.val = 0) : cond3_0 (grid3.coords t) :=
  (hcond3_0 t).mpr (by rw [h])
theorem not_cond3_0_of (t : Fin cfg3.N) (h : t.val ≠ 0) : ¬cond3_0 (grid3.coords t) := fun hc => by
  have h1 := (hcond3_0 t).mp hc; have h2 := N_val3 t; omega
theorem cond3_1_of (t : Fin cfg3.N) (h : t.val % 25 = 24) : cond3_1 (grid3.coords t) :=
  (hcond3_1 t).mpr h
theorem not_cond3_1_of (t : Fin cfg3.N) (h : ¬t.val % 25 = 24) : ¬cond3_1 (grid3.coords t) := fun hc =>
  h ((hcond3_1 t).mp hc)

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
/-- Where the second condition fails outputs 5 and 6 are idle and not written back; where it holds they are live. -/
theorem idleAt3_5 : ∀ t : Fin cfg3.N, ¬cond3_1 (grid3.coords t) → cfg3.idle 5 (grid3.coords t) = true := by decide +kernel
theorem idleAt3_6 : ∀ t : Fin cfg3.N, ¬cond3_1 (grid3.coords t) → cfg3.idle 6 (grid3.coords t) = true := by decide +kernel
theorem noFlush3_5 : ∀ t : Fin cfg3.N, ¬cond3_1 (grid3.coords t) → (cfg3.win 5).flush t = false := by decide +kernel
theorem noFlush3_6 : ∀ t : Fin cfg3.N, ¬cond3_1 (grid3.coords t) → (cfg3.win 6).flush t = false := by decide +kernel
theorem liveAt3_5 : ∀ t : Fin cfg3.N, cond3_1 (grid3.coords t) → cfg3.idle 5 (grid3.coords t) = false := by decide +kernel
theorem liveAt3_6 : ∀ t : Fin cfg3.N, cond3_1 (grid3.coords t) → cfg3.idle 6 (grid3.coords t) = false := by decide +kernel

/-! ## The memrefs the body is called with -/

/-- One staging buffer of each output window, through which its contents are stated (the choice does not matter). -/
abbrev VO3_4 : View sig .tc .vmem S2000x128 .f32 := (Memref.whole cc3_stg4_0 : Memref sig .tc .vmem S2000x128 .f32).view
abbrev VO3_5 : View sig .tc .vmem S1x128 .f32 := (Memref.whole cc3_stg5_0 : Memref sig .tc .vmem S1x128 .f32).view
abbrev VO3_6 : View sig .tc .vmem S1x128 .f32 := (Memref.whole cc3_stg6_0 : Memref sig .tc .vmem S1x128 .f32).view
/-- Each window's current staging memref at point `t`, and its wholeness. -/
abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2000x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x128 .f32 := win3_6.stage (cfg3.slots t 6)
abbrev hs3_6 (t : Fin cfg3.N) : (ms3_6 t).IsWhole := hstage3_6 ((cfg3.slots t 6).cast nbuf3_6)
/-- The two accumulators: whole scoped buffers of the kernel's own, passed beside the windows. -/
abbrev scM3_0 : Memref sig .tc .vmem S1x128 .f32 := Memref.whole cc3_scratch0
abbrev scM3_1 : Memref sig .tc .vmem S1x128 .f32 := Memref.whole cc3_scratch1
abbrev VS3_0 : View sig .tc .vmem S1x128 .f32 := scM3_0.view
abbrev VS3_1 : View sig .tc .vmem S1x128 .f32 := scM3_1.view

/-- Every other scoped buffer of the core, unopened. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The class invariant with the two accumulators as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 c) ∗ (∃ r, prngReg c r)) := by
  unfold Pipeline.ΦA; rw [scopedRest3_split]; simp only [scM3_0, scM3_1, owns_whole]; try rfl

/-! ## What each case leaves -/

/-- The pieces case A leaves in output 4 tile it, so they cover it. -/
theorem cover3_A_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) (y : S2000x128.Idx) :
    ∃ pc ∈ (kernelRun3_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3).1 S2000x128.size (by sl_kernel_rfl) y

/-- What case A leaves in output 4: its pieces read back. -/
def out3_A_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) : Vec F S2000x128 .f32 :=
  VO3_4.read (Elt F) (VO3_4.writes (Elt F) VO3_4.junk (kernelRun3_A c i arg1 harg1 arg2 harg2 arg3 harg3 arg4 harg4 arg5 harg5 arg6 harg6 arg7 harg7 arg8 harg8 arg9 harg9 hc0 hc1 x0 x1 x2 x3).1)

/-- The pieces case A leaves in accumulator 0 tile it, so they cover it. -/
theorem scover3_A_0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) (y : S1x128.Idx) :
    ∃ pc ∈ (kernelRun3_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3).2.1 S1x128.size (by sl_kernel_rfl) y

/-- What case A leaves in accumulator 0: its pieces read back. -/
def sout3_A_0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) : Vec F S1x128 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 hc0 hc1 x0 x1 x2 x3).2.1)

/-- The pieces case A leaves in accumulator 1 tile it, so they cover it. -/
theorem scover3_A_1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) (y : S1x128.Idx) :
    ∃ pc ∈ (kernelRun3_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3).2.2.1 S1x128.size (by sl_kernel_rfl) y

/-- What case A leaves in accumulator 1: its pieces read back. -/
def sout3_A_1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) : Vec F S1x128 .f32 :=
  VS3_1.read (Elt F) (VS3_1.writes (Elt F) VS3_1.junk (kernelRun3_A c i arg1 harg1 arg2 harg2 arg3 harg3 arg4 harg4 arg5 harg5 arg6 harg6 arg7 harg7 arg8 harg8 arg9 harg9 hc0 hc1 x0 x1 x2 x3).2.2.1)

/-- The pieces case B leaves in output 4 tile it, so they cover it. -/
theorem cover3_B_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S2000x128.Idx) :
    ∃ pc ∈ (kernelRun3_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 xs0 xs1).1 S2000x128.size (by sl_kernel_rfl) y

/-- What case B leaves in output 4: its pieces read back. -/
def out3_B_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S2000x128 .f32 :=
  VO3_4.read (Elt F) (VO3_4.writes (Elt F) VO3_4.junk (kernelRun3_B c i arg1 harg1 arg2 harg2 arg3 harg3 arg4 harg4 arg5 harg5 arg6 harg6 arg7 harg7 arg8 harg8 arg9 harg9 hc0 hc1 x0 x1 x2 x3 xs0 xs1).1)

/-- The pieces case B leaves in accumulator 0 tile it, so they cover it. -/
theorem scover3_B_0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What case B leaves in accumulator 0: its pieces read back. -/
def sout3_B_0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 hc0 hc1 x0 x1 x2 x3 xs0 xs1).2.1)

/-- The pieces case B leaves in accumulator 1 tile it, so they cover it. -/
theorem scover3_B_1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What case B leaves in accumulator 1: its pieces read back. -/
def sout3_B_1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS3_1.read (Elt F) (VS3_1.writes (Elt F) VS3_1.junk (kernelRun3_B c i arg1 harg1 arg2 harg2 arg3 harg3 arg4 harg4 arg5 harg5 arg6 harg6 arg7 harg7 arg8 harg8 arg9 harg9 hc0 hc1 x0 x1 x2 x3 xs0 xs1).2.2.1)

/-- The pieces case C leaves in output 4 tile it, so they cover it. -/
theorem cover3_C_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S2000x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).1 S2000x128.size (by sl_kernel_rfl) y

/-- What case C leaves in output 4: its pieces read back. -/
def out3_C_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S2000x128 .f32 :=
  VO3_4.read (Elt F) (VO3_4.writes (Elt F) VO3_4.junk (kernelRun3_C c i arg1 harg1 arg2 harg2 arg3 harg3 arg4 harg4 arg5 harg5 arg6 harg6 arg7 harg7 arg8 harg8 arg9 harg9 hc0 hc1 x0 x1 x2 x3 xs0 xs1).1)

/-- The pieces case C leaves in output 5 tile it, so they cover it. -/
theorem cover3_C_5 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What case C leaves in output 5: its pieces read back. -/
def out3_C_5 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VO3_5.read (Elt F) (VO3_5.writes (Elt F) VO3_5.junk (kernelRun3_C c i arg1 harg1 arg2 harg2 arg3 harg3 arg4 harg4 arg5 harg5 arg6 harg6 arg7 harg7 arg8 harg8 arg9 harg9 hc0 hc1 x0 x1 x2 x3 xs0 xs1).2.1)

/-- The pieces case C leaves in output 6 tile it, so they cover it. -/
theorem cover3_C_6 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What case C leaves in output 6: its pieces read back. -/
def out3_C_6 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VO3_6.read (Elt F) (VO3_6.writes (Elt F) VO3_6.junk (kernelRun3_C c i arg1 harg1 arg2 harg2 arg3 harg3 arg4 harg4 arg5 harg5 arg6 harg6 arg7 harg7 arg8 harg8 arg9 harg9 hc0 hc1 x0 x1 x2 x3 xs0 xs1).2.2.1)

/-- The pieces case C leaves in accumulator 0 tile it, so they cover it. -/
theorem scover3_C_0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What case C leaves in accumulator 0: its pieces read back. -/
def sout3_C_0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 hc0 hc1 x0 x1 x2 x3 xs0 xs1).2.2.2.1)

/-- The pieces case C leaves in accumulator 1 tile it, so they cover it. -/
theorem scover3_C_1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What case C leaves in accumulator 1: its pieces read back. -/
def sout3_C_1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS3_1.read (Elt F) (VS3_1.writes (Elt F) VS3_1.junk (kernelRun3_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- Output 4, output 5, output 6, accumulator 0, accumulator 1. -/
abbrev Outs3 (F : FTy → Type) : Type := Vec F S2000x128 .f32 × Vec F S1x128 .f32 × Vec F S1x128 .f32 × Vec F S1x128 .f32 × Vec F S1x128 .f32

/-- Contents nothing consults: an output window at a point where it is idle. -/
abbrev idleOut3 : Vec F S1x128 .f32 := View.canon ([] : List (View.Piece (Elt F) S1x128 .f32))

/-- The first point: the accumulators zeroed and added to; outputs 5 and 6 idle. -/
def first3 (c : Dev nD) (t : Fin cfg3.N) (h0 : t.val = 0) : Outs3 F :=
  have h1 : ¬t.val % 25 = 24 := by omega
  (out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (cond3_0_of t h0) (not_cond3_1_of t h1) (iblk3 V c 0 t) (iblk3 V c 1 t) (iblk3 V c 2 t) (iblk3 V c 3 t),
   idleOut3, idleOut3,
   sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (cond3_0_of t h0) (not_cond3_1_of t h1) (iblk3 V c 0 t) (iblk3 V c 1 t) (iblk3 V c 2 t) (iblk3 V c 3 t),
   sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (cond3_0_of t h0) (not_cond3_1_of t h1) (iblk3 V c 0 t) (iblk3 V c 1 t) (iblk3 V c 2 t) (iblk3 V c 3 t))

/-- A middle point, over what the point before left in the accumulators; outputs 5 and 6 idle. -/
def middle3 (c : Dev nD) (t : Fin cfg3.N) (h0 : t.val ≠ 0) (h1 : ¬t.val % 25 = 24) (xs0 xs1 : Vec F S1x128 .f32) : Outs3 F :=
  (out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (not_cond3_1_of t h1) (iblk3 V c 0 t) (iblk3 V c 1 t) (iblk3 V c 2 t) (iblk3 V c 3 t) xs0 xs1,
   idleOut3, idleOut3,
   sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (not_cond3_1_of t h1) (iblk3 V c 0 t) (iblk3 V c 1 t) (iblk3 V c 2 t) (iblk3 V c 3 t) xs0 xs1,
   sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (not_cond3_1_of t h1) (iblk3 V c 0 t) (iblk3 V c 1 t) (iblk3 V c 2 t) (iblk3 V c 3 t) xs0 xs1)

/-- The last point, over what the point before left in the accumulators: outputs 5 and 6 stored. -/
def last3 (c : Dev nD) (t : Fin cfg3.N) (h0 : t.val ≠ 0) (h1 : t.val % 25 = 24) (xs0 xs1 : Vec F S1x128 .f32) : Outs3 F :=
  (out3_C_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (cond3_1_of t h1) (iblk3 V c 0 t) (iblk3 V c 1 t) (iblk3 V c 2 t) (iblk3 V c 3 t) xs0 xs1,
   out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (cond3_1_of t h1) (iblk3 V c 0 t) (iblk3 V c 1 t) (iblk3 V c 2 t) (iblk3 V c 3 t) xs0 xs1,
   out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (cond3_1_of t h1) (iblk3 V c 0 t) (iblk3 V c 1 t) (iblk3 V c 2 t) (iblk3 V c 3 t) xs0 xs1,
   sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (cond3_1_of t h1) (iblk3 V c 0 t) (iblk3 V c 1 t) (iblk3 V c 2 t) (iblk3 V c 3 t) xs0 xs1,
   sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (cond3_1_of t h1) (iblk3 V c 0 t) (iblk3 V c 1 t) (iblk3 V c 2 t) (iblk3 V c 3 t) xs0 xs1)

/-- THE ACCUMULATION: what the outputs' staging buffers and the two accumulators hold after the body at position `n`,
    by recursion on the position — the case of the point, the accumulators at what position `n - 1` left. -/
def outsAt3 (c : Dev nD) : (n : ℕ) → n < cfg3.N → Outs3 F
  | 0, hn => first3 V c ⟨0, hn⟩ rfl
  | n + 1, hn =>
    if h1 : (n + 1) % 25 = 24 then
      last3 V c ⟨n + 1, hn⟩ (Nat.succ_ne_zero n) h1 (outsAt3 c n (Nat.lt_of_succ_lt hn)).2.2.2.1 (outsAt3 c n (Nat.lt_of_succ_lt hn)).2.2.2.2
    else
      middle3 V c ⟨n + 1, hn⟩ (Nat.succ_ne_zero n) h1 (outsAt3 c n (Nat.lt_of_succ_lt hn)).2.2.2.1 (outsAt3 c n (Nat.lt_of_succ_lt hn)).2.2.2.2

theorem outsAt3_first (c : Dev nD) (t : Fin cfg3.N) (h0 : t.val = 0) :
    outsAt3 V c t.val t.isLt = first3 V c t h0 := by
  obtain ⟨n, hn⟩ := t
  cases n with
  | zero => rfl
  | succ n => exact absurd h0 (Nat.succ_ne_zero n)

theorem outsAt3_middle (c : Dev nD) (t : Fin cfg3.N) (h0 : t.val ≠ 0) (h1 : ¬t.val % 25 = 24) :
    outsAt3 V c t.val t.isLt = middle3 V c t h0 h1
      (outsAt3 V c (t.val - 1) (Nat.lt_of_le_of_lt (Nat.sub_le _ _) t.isLt)).2.2.2.1
      (outsAt3 V c (t.val - 1) (Nat.lt_of_le_of_lt (Nat.sub_le _ _) t.isLt)).2.2.2.2 := by
  obtain ⟨n, hn⟩ := t
  cases n with
  | zero => exact absurd rfl h0
  | succ n => exact (dif_neg h1).trans rfl

theorem outsAt3_last (c : Dev nD) (t : Fin cfg3.N) (h0 : t.val ≠ 0) (h1 : t.val % 25 = 24) :
    outsAt3 V c t.val t.isLt = last3 V c t h0 h1
      (outsAt3 V c (t.val - 1) (Nat.lt_of_le_of_lt (Nat.sub_le _ _) t.isLt)).2.2.2.1
      (outsAt3 V c (t.val - 1) (Nat.lt_of_le_of_lt (Nat.sub_le _ _) t.isLt)).2.2.2.2 := by
  obtain ⟨n, hn⟩ := t
  cases n with
  | zero => exact absurd rfl h0
  | succ n => exact (dif_pos h1).trans rfl

/-! ## The invariant -/

/-- The region invariant before position `n`: before the first point the class invariant (every scoped buffer that is
    no staging buffer at anything, the generator register at some state); afterwards the two accumulators at what the
    point before left in them, the other scoped buffers unopened, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (outsAt3 V c n hn).2.2.2.1 ∗ owns (c : Thread nD τ) scM3_1 fullShare (outsAt3 V c n hn).2.2.2.2) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (outsAt3 V c n hn).2.2.2.1 ∗ owns (c : Thread nD τ) scM3_1 fullShare (outsAt3 V c n hn).2.2.2.2) ∗ rest3 c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (outsAt3 V c (n - 1) (by omega)).2.2.2.1 ∗ owns (c : Thread nD τ) scM3_1 fullShare (outsAt3 V c (n - 1) (by omega)).2.2.2.2) ∗ rest3 c) ∗ (∃ r, prngReg c r)) := by
  cases n with
  | zero => exact absurd rfl hz
  | succ n => rfl

/-! ## The pipeline's proof data -/

/-- The proof data of the pipeline on core `c`: the arrays as the region finds them; after the body at point `t` each
    input's buffer at its block and the outputs' at `outsAt3`'s components; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
    | ⟨5, _⟩ => (outsAt3 V c t.val t.isLt).2.1
    | ⟨6, _⟩ => (outsAt3 V c t.val t.isLt).2.2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]
theorem after3_5 (c : Dev nD) (t : Fin cfg3.N) : (dat3 V c).after 5 t = (outsAt3 V c t.val t.isLt).2.1 := by dsimp only [dat3]
theorem after3_6 (c : Dev nD) (t : Fin cfg3.N) : (dat3 V c).after 6 t = (outsAt3 V c t.val t.isLt).2.2.1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4000000 in
/-- The body at any point: the inputs' memrefs hold their blocks; the point is the first, a middle one or the last, and
    that case's run applies; the invariant hands the body the two accumulators — at anything at the first point, at what
    the point before left afterwards — and takes them back at this point's contents; outputs 5 and 6 are handed back as
    found except at the last point; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  by_cases hz : t.val = 0
  · have h1 : ¬t.val % 25 = 24 := by omega
    rw [Dat.leavesExact_idle (dat3 V c) 5 t (idleAt3_5 t (not_cond3_1_of t h1)) (noFlush3_5 t (not_cond3_1_of t h1))]
    rw [Dat.leavesExact_idle (dat3 V c) 6 t (idleAt3_6 t (not_cond3_1_of t h1)) (noFlush3_6 t (not_cond3_1_of t h1))]
    rw [outsAt3_first V c t hz]
    unfold first3 out3_A_4 sout3_A_0 sout3_A_1; (try dsimp only)
    rw [PhiS3_castSucc V c t, PhiS3_zero V c _ _ hz, PhiA3_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun3_A c (grid3.coords t) _ _ _ _ _ _ _ _ _ _ _ _ _ _ _ _ _ _ (cond3_0_of t hz) (not_cond3_1_of t h1) (iblk3 V c 0 t) (iblk3 V c 1 t) (iblk3 V c 2 t) (iblk3 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover3_A_0 c _ _ _ _ _ _ _ _ _ _ _ _ _ _ _ _ _ _ _ _ _ _ _ _ _)
          unfold owns; iexists _; isplitr
          swap; · iexact HS1
          ipureintro; exact View.read_writes_of_cover _ _ _ _ _ (scover3_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover3_A_4 c _ _ _ _ _ _ _ _ _ _ _ _ _ _ _ _ _ _ _ _ _ _ _ _ _)
    isplitl [H5]; · iexists _; iexact H5
    iexists _; iexact H6
  · by_cases h1 : t.val % 25 = 24
    · rw [show (dat3 V c).leavesExact 5 t = owns (c : Thread nD τ) (ms3_5 t) fullShare ((dat3 V c).after 5 t) from by
        unfold Dat.leavesExact; rw [liveAt3_5 t (cond3_1_of t h1)], after3_5]
      rw [show (dat3 V c).leavesExact 6 t = owns (c : Thread nD τ) (ms3_6 t) fullShare ((dat3 V c).after 6 t) from by
        unfold Dat.leavesExact; rw [liveAt3_6 t (cond3_1_of t h1)], after3_6]
      rw [outsAt3_last V c t hz h1]
      unfold last3 out3_C_4 out3_C_5 out3_C_6 sout3_C_0 sout3_C_1; (try dsimp only)
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_C c (grid3.coords t) _ _ _ _ _ _ _ _ _ _ _ _ _ _ _ _ _ _ (not_cond3_0_of t hz) (cond3_1_of t h1) (iblk3 V c 0 t) (iblk3 V c 1 t) (iblk3 V c 2 t) (iblk3 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _)
            unfold owns; iexists _; isplitr
            swap; · iexact HS1
            ipureintro; exact View.read_writes_of_cover _ _ _ _ _ (scover3_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover3_C_5 c _ _ _ _ _ _ _ _ _ _ _ _ _ _ _ _ _ _ _ _ _ _ _ _ _ _ _)
      unfold owns; iexists _; isplitr
      swap; · iexact H6
      ipureintro; exact View.read_writes_of_cover _ _ _ _ _ (cover3_C_6 c _ _ _ _ _ _ _ _ _ _ _ _ _ _ _ _ _ _ _ _ _ _ _ _ _ _ _)
    · rw [Dat.leavesExact_idle (dat3 V c) 5 t (idleAt3_5 t (not_cond3_1_of t h1)) (noFlush3_5 t (not_cond3_1_of t h1))]
      rw [Dat.leavesExact_idle (dat3 V c) 6 t (idleAt3_6 t (not_cond3_1_of t h1)) (noFlush3_6 t (not_cond3_1_of t h1))]
      rw [outsAt3_middle V c t hz h1]
      unfold middle3 out3_B_4 sout3_B_0 sout3_B_1; (try dsimp only)
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_B c (grid3.coords t) _ _ _ _ _ _ _ _ _ _ _ _ _ _ _ _ _ _ (not_cond3_0_of t hz) (not_cond3_1_of t h1) (iblk3 V c 0 t) (iblk3 V c 1 t) (iblk3 V c 2 t) (iblk3 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _)
            unfold owns; iexists _; isplitr
            swap; · iexact HS1
            ipureintro; exact View.read_writes_of_cover _ _ _ _ _ (scover3_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_B_4 c _ _ _ _ _ _ _ _ _ _ _ _ _ _ _ _ _ _ _ _ _ _ _ _ _ _ _)
      isplitl [H5]; · iexists _; iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem Phi_in3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class invariant back: the accumulators' named contents are forgotten. -/
theorem Phi_out3_of (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem Phi_out3 (c : Dev nD) : (dat3 V c).Φ (Fin.last cfg3.N) ⊢ Pipeline.ΦA spec3 c :=
  Phi_out3_of V c _ (by rw [Fin.val_last]; have : cfg3.N = 25 := N_3; omega)

end Region

end Cert.Kernel.Hand

end
-- ==== Proof.KRegion4.lean ====
/- The kernel half of region 4 of the program's six kernel regions: `cc4__bn_act_matmul_kernel`, on a grid of 25 points.
   Seven input windows are loaded whole (five of them fetched at the first point only, their block index constant),
   two output windows are stored whole, nothing is carried between points. Stated at a PARAMETER `V` — the
   TensorCore's buffer contents when the region is entered — and at any float model `F`:
   each window's block at a point (`iblk4`), what the body leaves in each output's buffer as a term over the
   skeleton's payloads of the input blocks (`out4_7`, `out4_8`), the body's triple (`sound_kernel4`), the
   pipeline's proof data (`dat4`) and its body obligation (`body_obligation4`). -/
import proofs.«181351_j65970697667357_2_alg».proof.Proof.Gen.Kernel.Launch
import proofs.«181351_j65970697667357_2_alg».proof.Proof.Gen.Kernel.Skeleton
import proofs.«181351_j65970697667357_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 2000 rows: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (an input not
    fetched at a point has not moved its block index since the point before), for any proof data whose array is
    `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (an input not
    fetched at a point has not moved its block index since the point before), for any proof data whose array is
    `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (an input not
    fetched at a point has not moved its block index since the point before), for any proof data whose array is
    `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (an input not
    fetched at a point has not moved its block index since the point before), for any proof data whose array is
    `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (an input not
    fetched at a point has not moved its block index since the point before), for any proof data whose array is
    `V`'s and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not (an input not
    fetched at a point has not moved its block index since the point before), for any proof data whose array is
    `V`'s and whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not (an input not
    fetched at a point has not moved its block index since the point before), for any proof data whose array is
    `V`'s and whose body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

abbrev r4_S2000x128 : Rect S2000x128 := Rect.unit (s := S2000x128) ![0, 0] S2000x128.size inb_S2000x128_S2000x128_0_0
abbrev r4_S1x128 : Rect S1x128 := Rect.unit (s := S1x128) ![0, 0] S1x128.size inb_S1x128_S1x128_0_0
abbrev r4_S128x1 : Rect S128x1 := Rect.unit (s := S128x1) ![0, 0] S128x1.size inb_S128x1_S128x1_0_0
abbrev r4_S2000x1 : Rect S2000x1 := Rect.unit (s := S2000x1) ![0, 0] S2000x1.size inb_S2000x1_S2000x1_0_0

/-! ## What the body leaves in each output window's buffer -/

/-- Window 7's buffer after the body: one whole store of the first payload (the normalized, activated block times
    the weight matrix) of the input blocks. -/
def out4_7 (x0 : Vec F S2000x128 .f32) (x1 : Vec F S1x128 .f32) (x2 : Vec F S1x128 .f32) (x3 : Vec F S1x128 .f32) (x4 : Vec F S1x128 .f32) (x5 : Vec F S128x1 .bf16) : Vec F S2000x1 .f32 :=
  View.canon [⟨r4_S2000x1, k4_pay1 (View.ld x0 r4_S2000x128) (View.ld x2 r4_S1x128) (View.ld x1 r4_S1x128) (View.ld x3 r4_S1x128) (View.ld x4 r4_S1x128) (View.ld x5 r4_S128x1)⟩]

/-- Window 8's buffer after the body: one whole store of the second payload (the first, scaled row by row). -/
def out4_8 (x0 : Vec F S2000x128 .f32) (x1 : Vec F S1x128 .f32) (x2 : Vec F S1x128 .f32) (x3 : Vec F S1x128 .f32) (x4 : Vec F S1x128 .f32) (x5 : Vec F S128x1 .bf16) (x6 : Vec F S2000x1 .f32) : Vec F S2000x1 .f32 :=
  View.canon [⟨r4_S2000x1, k4_pay2 (View.ld x0 r4_S2000x128) (View.ld x2 r4_S1x128) (View.ld x1 r4_S1x128) (View.ld x3 r4_S1x128) (View.ld x4 r4_S1x128) (View.ld x5 r4_S128x1) (View.ld x6 r4_S2000x1)⟩]

/-- A whole store covers the buffer. -/
theorem cover4_out (p0 : Vec F S2000x1 .f32) (y : S2000x1.Idx) :
    ∃ pc ∈ ([⟨r4_S2000x1, p0⟩] : List (View.Piece (Elt F) S2000x1 .f32)), y ∈ pc.1.set :=
  View.cover_of_tiled [⟨r4_S2000x1, p0⟩] S2000x1.size (by rfl) y

/-! ## The body's triple -/

set_option maxHeartbeats 400000 in
/-- The kernel body on whole staging memrefs, the inputs' at read contents `xW` and the outputs' at anything, runs to
    the continuation holding the inputs' as they were and each output's at `out4_W` of the inputs'. The body also
    loads each output buffer before storing to it; what it reads there is not used. -/
theorem sound_kernel4 (c : Dev nD) (E : Set ℕ) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x1 .bf16) (harg6 : arg6.IsWhole) (arg7 : Memref sig .tc .vmem S2000x1 .f32) (harg7 : arg7.IsWhole) (arg8 : Memref sig .tc .vmem S2000x1 .f32) (harg8 : arg8.IsWhole) (arg9 : Memref sig .tc .vmem S2000x1 .f32) (harg9 : arg9.IsWhole)
    (x0 : Vec F S2000x128 .f32) (x1 : Vec F S1x128 .f32) (x2 : Vec F S1x128 .f32) (x3 : Vec F S1x128 .f32) (x4 : Vec F S1x128 .f32) (x5 : Vec F S128x1 .bf16) (x6 : Vec F S2000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out4_7 x0 x1 x2 x3 x4 x5) ∗ owns (c : Thread nD τ) arg9 fullShare (out4_8 x0 x1 x2 x3 x4 x5 x6)) -∗ K ⟨⟩))
      ⊢ wp frame (wpE (defs₀ (F := F)) Variants.none c none) E (cc4__bn_act_matmul_kernel i arg1 harg1 arg2 harg2 arg3 harg3 arg4 harg4 arg5 harg5 arg6 harg6 arg7 harg7 arg8 harg8 arg9 harg9) K := by
  sl_unfold [cc4__bn_act_matmul_kernel, k4_part1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover4_out _)
  iexists _; isplitr
  swap; · iexact H8
  ipureintro
  exact View.read_writes_eq_canon _ _ _ (cover4_out _)

/-! ## The pipeline's proof data -/

/-- The proof data of the region's pipeline on core `c`: the arrays as the region finds them (`V`); after the body at
    point `t` each input's buffer at its block and each output's at `out4_W` of the input blocks; the invariant the
    scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t)
    | ⟨8, _⟩ => out4_8 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) := by dsimp only [dat4]
theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t))

set_option maxHeartbeats 400000 in
/-- The body at any point: the inputs' memrefs hold their blocks, so the body's triple applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- The invariant is the same at every point: the region's entry resources are the invariant before the first point, -/
theorem Phi_in4 (c : Dev nD) : Pipeline.ΦA spec4 c ⊢ (dat4 V c).Φ 0 := by
  dsimp only [dat4]; exact .rfl

/-- and the invariant after the last point is the region's exit resources. -/
theorem Phi_out4 (c : Dev nD) : (dat4 V c).Φ (Fin.last cfg4.N) ⊢ Pipeline.ΦA spec4 c := by
  dsimp only [dat4]; exact .rfl

end Cert.Kernel.Hand
-- ==== Proof.KRegion5.lean ====
/- The kernel half of region 5 of the word-level program's frame: the windows' blocks as the region finds them,
   what the body leaves in each window's staging buffer, the body's triple, the pipeline's proof data at a parameter
   `V` (the TensorCore's buffer contents when the region is entered), and the body obligation at every grid point.
   The invariant is the class-A one (the scoped rest and the generator register pass through untouched). -/
import proofs.«181351_j65970697667357_2_alg».proof.Proof.Gen.Kernel.Launch
import proofs.«181351_j65970697667357_2_alg».proof.Proof.Gen.Kernel.Skeleton
import proofs.«181351_j65970697667357_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 5: `cc5__finalize_kernel`, at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block index
    has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof
    data whose array is `V`'s (`hA`) and whose body leaves the block in place (`hafter`): unfetched, the block index
    has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof
    data whose array is `V`'s (`hA`) and whose body leaves the block in place (`hafter`): unfetched, the block index
    has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof
    data whose array is `V`'s (`hA`) and whose body leaves the block in place (`hafter`): unfetched, the block index
    has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each memref whole -/

abbrev r5_col : Rect S2000x1 := Rect.unit (s := S2000x1) ![0, 0] S2000x1.size inb_S2000x1_S2000x1_0_0
abbrev r5_one : Rect S1x1 := Rect.unit (s := S1x1) ![0, 0] S1x1.size inb_S1x1_S1x1_0_0

/-! ## What the body leaves in the output window's buffer -/

/-- Window 4's staging buffer after the body, from the input windows' blocks: its one whole-buffer store, whose
    payload is `k5_pay1` of what the loads read of windows 2, 0, 1 and 3 (in the order the body reads them). -/
def out5_4 (x0 x1 x2 : Vec F S2000x1 .f32) (x3 : Vec F S1x1 .f32) : Vec F S2000x1 .f32 :=
  View.canon [⟨r5_col, k5_pay1 (View.ld x2 r5_col) (View.ld x0 r5_col) (View.ld x1 r5_col) (View.ld x3 r5_one)⟩]

/-- The store tiles the buffer (checked by evaluation), so it covers it. -/
theorem cover5_4 (p0 : Vec F S2000x1 .f32) (y : S2000x1.Idx) :
    ∃ pc ∈ ([⟨r5_col, p0⟩] : List (View.Piece (Elt F) S2000x1 .f32)), y ∈ pc.1.set :=
  View.cover_of_tiled [⟨r5_col, p0⟩] S2000x1.size (by rfl) y

/-! ## The body's triple -/

set_option maxHeartbeats 400000 in
/-- The kernel body on whole staging memrefs, the inputs' at read contents `xW` and the output's at anything, runs to
    the continuation holding the inputs' as they were and the output's at `out5_4` of the inputs'. -/
theorem sound_kernel5 (c : Dev nD) (E : Set ℕ) (i : grid5.Coords)
    (arg1 : Memref sig .tc .vmem S2000x1 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S1x1 .f32) (harg4 : arg4.IsWhole)
    (arg5 : Memref sig .tc .vmem S2000x1 .f32) (harg5 : arg5.IsWhole)
    (x0 x1 x2 : Vec F S2000x1 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out5_4 x0 x1 x2 x3)) -∗ K ⟨⟩))
      ⊢ wp frame (wpE (defs₀ (F := F)) Variants.none c none) E (cc5__finalize_kernel i arg1 harg1 arg2 harg2 arg3 harg3 arg4 harg4 arg5 harg5) K := by
  simp only [cc5__finalize_kernel_eq_skeleton]; unfold cc5__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays as the region finds them (`V`); after the body at point `t`
    each input's buffer at its block and the output's at `out5_4` of the input blocks; the class-A invariant; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the invariant
    and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's ends -/

/-- The class-A invariant is the proof data's at the first boundary, -/
theorem Phi_in5 (c : Dev nD) : Pipeline.ΦA spec5 c ⊢ (dat5 V c).Φ 0 := .rfl

/-- and at the last. -/
theorem Phi_out5 (c : Dev nD) : (dat5 V c).Φ (Fin.last cfg5.N) ⊢ Pipeline.ΦA spec5 c := .rfl

end Cert.Kernel.Hand

end
-- ==== Proof.KRun.lean ====
/-
  The run of @main's ten items — four stretches of host operations and six kernel regions — as one chain of thread
  states: between two items core c holds every unscoped buffer at a named valuation, W0 (the launch memory), then
  the fold of each host stretch over it, then, after a region, its windows' arrays at what the region's write-backs
  leave and every other buffer untouched. Each region contributes its pipeline's proof data at the contents it is
  entered from; the launch theorem for several regions then gives: every weakly fair execution ends, faults nowhere,
  and the final memory is the last valuation W10. From W10 the twelve argument arrays are read back to the launch
  memory (no host operation and no region writes one) and the result buffer to the last region's output array.
-/
import proofs.«181351_j65970697667357_2_alg».proof.Proof.Gen.Kernel.Regions
import proofs.«181351_j65970697667357_2_alg».proof.Proof.KRegion0
import proofs.«181351_j65970697667357_2_alg».proof.Proof.KRegion1
import proofs.«181351_j65970697667357_2_alg».proof.Proof.KRegion2
import proofs.«181351_j65970697667357_2_alg».proof.Proof.KRegion3
import proofs.«181351_j65970697667357_2_alg».proof.Proof.KRegion4
import proofs.«181351_j65970697667357_2_alg».proof.Proof.KRegion5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host stretch hostOps0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its windows' arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- An input window's array leaves region 0 as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch hostOps1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its windows' arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
/-- An input window's array leaves region 1 as it entered it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- At region 2's exit: its windows' arrays at what the write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
/-- An input window's array leaves region 2 as it entered it. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (A_eq2 (V4 m ρ) c w))
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the host stretch hostOps3. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- At region 3's exit: its windows' arrays at what the write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
/-- An input window's array leaves region 3 as it entered it. -/
theorem W7_in (c : Dev nD) (w : Fin cfg3.W) (hw : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hw _).trans (A_eq3 (V6 m ρ) c w))
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- At region 4's exit: its windows' arrays at what the write-backs leave, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
/-- An input window's array leaves region 4 as it entered it. -/
theorem W8_in (c : Dev nD) (w : Fin cfg4.W) (hw : (cfg4.win w).isOut = false) :
    W8 m ρ c (Proc.devRef .tc (Pipeline.arrRef spec4 w)) = W7 m ρ c (Proc.devRef .tc (Pipeline.arrRef spec4 w)) :=
  (W8_arr m ρ c w).trans (((dat4 (V7 m ρ) c).arrAt_in w hw _).trans (A_eq4 (V7 m ρ) c w))
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- After the host stretch hostOps5. -/
abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
/-- At region 5's exit: its windows' arrays at what the write-backs leave, every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
/-- An input window's array leaves region 5 as it entered it. -/
theorem W10_in (c : Dev nD) (w : Fin cfg5.W) (hw : (cfg5.win w).isOut = false) :
    W10 m ρ c (Proc.devRef .tc (Pipeline.arrRef spec5 w)) = W9 m ρ c (Proc.devRef .tc (Pipeline.arrRef spec5 w)) :=
  (W10_arr m ρ c w).trans (((dat5 (V9 m ρ) c).arrAt_in w hw _).trans (A_eq5 (V9 m ρ) c w))
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)

/-! ## The arguments end as launched -/

theorem host_keeps (ops : List (HloOp τ sig (Elt F))) (Wl : List (Ref sig .tc)) (W : Valuation τ sig (Elt F))
    (hw : ops.Forall fun op => op.writes ⊆ (Wl.map (Proc.devRef (τ := τ) .tc)).toFinset) (r : Ref sig .tc) (h : r ∉ Wl) :
    StableHlo.after ops W (Proc.devRef .tc r) = W (Proc.devRef .tc r) :=
  StableHlo.after_of_writes_sub ops _ hw h

theorem W10_main_arg0 (c : Dev nD) : W10 m ρ c (Proc.devRef .tc main_arg0) = m ((c : Thread nD τ).loc main_arg0) :=
  (W10_of_ne m ρ c main_arg0 (by decide)).trans <| (host_keeps hostOps5 hostOps5_W _ hostOps5_writes main_arg0 (by decide)).trans <|
  (W8_of_ne m ρ c main_arg0 (by decide)).trans <| (W7_of_ne m ρ c main_arg0 (by decide)).trans <| (host_keeps hostOps3 hostOps3_W _ hostOps3_writes main_arg0 (by decide)).trans <|
  (W5_of_ne m ρ c main_arg0 (by decide)).trans <| (W4_of_ne m ρ c main_arg0 (by decide)).trans <| (host_keeps hostOps1 hostOps1_W _ hostOps1_writes main_arg0 (by decide)).trans <|
  ((W2_arr m ρ c 0).trans (((dat0 (V1 m ρ) c).arrAt_in 0 rfl _).trans (A_eq0 (V1 m ρ) c 0))).trans <|
  (host_keeps hostOps0 hostOps0_W _ hostOps0_writes main_arg0 (by decide)).trans rfl
theorem W10_main_arg1 (c : Dev nD) : W10 m ρ c (Proc.devRef .tc main_arg1) = m ((c : Thread nD τ).loc main_arg1) :=
  (W10_of_ne m ρ c main_arg1 (by decide)).trans <| (host_keeps hostOps5 hostOps5_W _ hostOps5_writes main_arg1 (by decide)).trans <|
  (W8_of_ne m ρ c main_arg1 (by decide)).trans <| (W7_of_ne m ρ c main_arg1 (by decide)).trans <| (host_keeps hostOps3 hostOps3_W _ hostOps3_writes main_arg1 (by decide)).trans <|
  (W5_of_ne m ρ c main_arg1 (by decide)).trans <| (W4_of_ne m ρ c main_arg1 (by decide)).trans <| (host_keeps hostOps1 hostOps1_W _ hostOps1_writes main_arg1 (by decide)).trans <|
  (W2_of_ne m ρ c main_arg1 (by decide)).trans <|
  (host_keeps hostOps0 hostOps0_W _ hostOps0_writes main_arg1 (by decide)).trans rfl
theorem W10_main_arg2 (c : Dev nD) : W10 m ρ c (Proc.devRef .tc main_arg2) = m ((c : Thread nD τ).loc main_arg2) :=
  (W10_of_ne m ρ c main_arg2 (by decide)).trans <| (host_keeps hostOps5 hostOps5_W _ hostOps5_writes main_arg2 (by decide)).trans <|
  (W8_of_ne m ρ c main_arg2 (by decide)).trans <| (W7_of_ne m ρ c main_arg2 (by decide)).trans <| (host_keeps hostOps3 hostOps3_W _ hostOps3_writes main_arg2 (by decide)).trans <|
  (W5_of_ne m ρ c main_arg2 (by decide)).trans <| (W4_of_ne m ρ c main_arg2 (by decide)).trans <| (host_keeps hostOps1 hostOps1_W _ hostOps1_writes main_arg2 (by decide)).trans <|
  (W2_of_ne m ρ c main_arg2 (by decide)).trans <|
  (host_keeps hostOps0 hostOps0_W _ hostOps0_writes main_arg2 (by decide)).trans rfl
theorem W10_main_arg3 (c : Dev nD) : W10 m ρ c (Proc.devRef .tc main_arg3) = m ((c : Thread nD τ).loc main_arg3) :=
  (W10_of_ne m ρ c main_arg3 (by decide)).trans <| (host_keeps hostOps5 hostOps5_W _ hostOps5_writes main_arg3 (by decide)).trans <|
  (W8_of_ne m ρ c main_arg3 (by decide)).trans <| (W7_of_ne m ρ c main_arg3 (by decide)).trans <| (host_keeps hostOps3 hostOps3_W _ hostOps3_writes main_arg3 (by decide)).trans <|
  (W5_of_ne m ρ c main_arg3 (by decide)).trans <| (W4_of_ne m ρ c main_arg3 (by decide)).trans <| (host_keeps hostOps1 hostOps1_W _ hostOps1_writes main_arg3 (by decide)).trans <|
  (W2_of_ne m ρ c main_arg3 (by decide)).trans <|
  (host_keeps hostOps0 hostOps0_W _ hostOps0_writes main_arg3 (by decide)).trans rfl
theorem W10_main_arg4 (c : Dev nD) : W10 m ρ c (Proc.devRef .tc main_arg4) = m ((c : Thread nD τ).loc main_arg4) :=
  (W10_of_ne m ρ c main_arg4 (by decide)).trans <| (host_keeps hostOps5 hostOps5_W _ hostOps5_writes main_arg4 (by decide)).trans <|
  (W8_of_ne m ρ c main_arg4 (by decide)).trans <| (W7_of_ne m ρ c main_arg4 (by decide)).trans <| (host_keeps hostOps3 hostOps3_W _ hostOps3_writes main_arg4 (by decide)).trans <|
  (W5_of_ne m ρ c main_arg4 (by decide)).trans <| (W4_of_ne m ρ c main_arg4 (by decide)).trans <| (host_keeps hostOps1 hostOps1_W _ hostOps1_writes main_arg4 (by decide)).trans <|
  (W2_of_ne m ρ c main_arg4 (by decide)).trans <|
  (host_keeps hostOps0 hostOps0_W _ hostOps0_writes main_arg4 (by decide)).trans rfl
theorem W10_main_arg5 (c : Dev nD) : W10 m ρ c (Proc.devRef .tc main_arg5) = m ((c : Thread nD τ).loc main_arg5) :=
  (W10_of_ne m ρ c main_arg5 (by decide)).trans <| (host_keeps hostOps5 hostOps5_W _ hostOps5_writes main_arg5 (by decide)).trans <|
  (W8_of_ne m ρ c main_arg5 (by decide)).trans <| (W7_of_ne m ρ c main_arg5 (by decide)).trans <| (host_keeps hostOps3 hostOps3_W _ hostOps3_writes main_arg5 (by decide)).trans <|
  (W5_of_ne m ρ c main_arg5 (by decide)).trans <| (W4_of_ne m ρ c main_arg5 (by decide)).trans <| (host_keeps hostOps1 hostOps1_W _ hostOps1_writes main_arg5 (by decide)).trans <|
  (W2_of_ne m ρ c main_arg5 (by decide)).trans <|
  (host_keeps hostOps0 hostOps0_W _ hostOps0_writes main_arg5 (by decide)).trans rfl
theorem W10_main_arg6 (c : Dev nD) : W10 m ρ c (Proc.devRef .tc main_arg6) = m ((c : Thread nD τ).loc main_arg6) :=
  (W10_of_ne m ρ c main_arg6 (by decide)).trans <| (host_keeps hostOps5 hostOps5_W _ hostOps5_writes main_arg6 (by decide)).trans <|
  (W8_of_ne m ρ c main_arg6 (by decide)).trans <| (W7_of_ne m ρ c main_arg6 (by decide)).trans <| (host_keeps hostOps3 hostOps3_W _ hostOps3_writes main_arg6 (by decide)).trans <|
  (W5_of_ne m ρ c main_arg6 (by decide)).trans <| (W4_of_ne m ρ c main_arg6 (by decide)).trans <| (host_keeps hostOps1 hostOps1_W _ hostOps1_writes main_arg6 (by decide)).trans <|
  (W2_of_ne m ρ c main_arg6 (by decide)).trans <|
  (host_keeps hostOps0 hostOps0_W _ hostOps0_writes main_arg6 (by decide)).trans rfl
theorem W10_main_arg7 (c : Dev nD) : W10 m ρ c (Proc.devRef .tc main_arg7) = m ((c : Thread nD τ).loc main_arg7) :=
  (W10_of_ne m ρ c main_arg7 (by decide)).trans <| (host_keeps hostOps5 hostOps5_W _ hostOps5_writes main_arg7 (by decide)).trans <|
  (W8_of_ne m ρ c main_arg7 (by decide)).trans <| (W7_of_ne m ρ c main_arg7 (by decide)).trans <| (host_keeps hostOps3 hostOps3_W _ hostOps3_writes main_arg7 (by decide)).trans <|
  (W5_of_ne m ρ c main_arg7 (by decide)).trans <| (W4_of_ne m ρ c main_arg7 (by decide)).trans <| (host_keeps hostOps1 hostOps1_W _ hostOps1_writes main_arg7 (by decide)).trans <|
  (W2_of_ne m ρ c main_arg7 (by decide)).trans <|
  (host_keeps hostOps0 hostOps0_W _ hostOps0_writes main_arg7 (by decide)).trans rfl
theorem W10_main_arg8 (c : Dev nD) : W10 m ρ c (Proc.devRef .tc main_arg8) = m ((c : Thread nD τ).loc main_arg8) :=
  (W10_of_ne m ρ c main_arg8 (by decide)).trans <| (host_keeps hostOps5 hostOps5_W _ hostOps5_writes main_arg8 (by decide)).trans <|
  (W8_of_ne m ρ c main_arg8 (by decide)).trans <| (W7_of_ne m ρ c main_arg8 (by decide)).trans <| (host_keeps hostOps3 hostOps3_W _ hostOps3_writes main_arg8 (by decide)).trans <|
  (W5_of_ne m ρ c main_arg8 (by decide)).trans <| (W4_of_ne m ρ c main_arg8 (by decide)).trans <| (host_keeps hostOps1 hostOps1_W _ hostOps1_writes main_arg8 (by decide)).trans <|
  (W2_of_ne m ρ c main_arg8 (by decide)).trans <|
  (host_keeps hostOps0 hostOps0_W _ hostOps0_writes main_arg8 (by decide)).trans rfl
theorem W10_main_arg9 (c : Dev nD) : W10 m ρ c (Proc.devRef .tc main_arg9) = m ((c : Thread nD τ).loc main_arg9) :=
  (W10_of_ne m ρ c main_arg9 (by decide)).trans <| (host_keeps hostOps5 hostOps5_W _ hostOps5_writes main_arg9 (by decide)).trans <|
  (W8_of_ne m ρ c main_arg9 (by decide)).trans <| (W7_of_ne m ρ c main_arg9 (by decide)).trans <| (host_keeps hostOps3 hostOps3_W _ hostOps3_writes main_arg9 (by decide)).trans <|
  (W5_of_ne m ρ c main_arg9 (by decide)).trans <| (W4_of_ne m ρ c main_arg9 (by decide)).trans <| (host_keeps hostOps1 hostOps1_W _ hostOps1_writes main_arg9 (by decide)).trans <|
  (W2_of_ne m ρ c main_arg9 (by decide)).trans <|
  (host_keeps hostOps0 hostOps0_W _ hostOps0_writes main_arg9 (by decide)).trans rfl
theorem W10_main_arg10 (c : Dev nD) : W10 m ρ c (Proc.devRef .tc main_arg10) = m ((c : Thread nD τ).loc main_arg10) :=
  (W10_of_ne m ρ c main_arg10 (by decide)).trans <| (host_keeps hostOps5 hostOps5_W _ hostOps5_writes main_arg10 (by decide)).trans <|
  (W8_of_ne m ρ c main_arg10 (by decide)).trans <| (W7_of_ne m ρ c main_arg10 (by decide)).trans <| (host_keeps hostOps3 hostOps3_W _ hostOps3_writes main_arg10 (by decide)).trans <|
  (W5_of_ne m ρ c main_arg10 (by decide)).trans <| (W4_of_ne m ρ c main_arg10 (by decide)).trans <| (host_keeps hostOps1 hostOps1_W _ hostOps1_writes main_arg10 (by decide)).trans <|
  (W2_of_ne m ρ c main_arg10 (by decide)).trans <|
  (host_keeps hostOps0 hostOps0_W _ hostOps0_writes main_arg10 (by decide)).trans rfl
theorem W10_main_arg11 (c : Dev nD) : W10 m ρ c (Proc.devRef .tc main_arg11) = m ((c : Thread nD τ).loc main_arg11) :=
  (W10_of_ne m ρ c main_arg11 (by decide)).trans <| (host_keeps hostOps5 hostOps5_W _ hostOps5_writes main_arg11 (by decide)).trans <|
  (W8_of_ne m ρ c main_arg11 (by decide)).trans <| (W7_of_ne m ρ c main_arg11 (by decide)).trans <| (host_keeps hostOps3 hostOps3_W _ hostOps3_writes main_arg11 (by decide)).trans <|
  (W5_of_ne m ρ c main_arg11 (by decide)).trans <| (W4_of_ne m ρ c main_arg11 (by decide)).trans <| (host_keeps hostOps1 hostOps1_W _ hostOps1_writes main_arg11 (by decide)).trans <|
  (W2_of_ne m ρ c main_arg11 (by decide)).trans <|
  (host_keeps hostOps0 hostOps0_W _ hostOps0_writes main_arg11 (by decide)).trans rfl

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its owes, at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered from every unscoped buffer at W1, left at W2. Its windows' arrays are split
    out of the unscoped buffers and put back at the exit contents; the generator register goes into the pipeline's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec0 c ∗ ∃ r, prngReg c r) ⊢ (pdats m ρ 0 c).Φ 0 := by
      have h' := Phi_in0 (V1 m ρ) c; unfold Pipeline.ΦA at h'; exact h'
    iintro ⟨Hp, -, Hr⟩
    iapply h
    isplitl [Hr]; · iexact Hr
    iexact Hp
  hout c := by
    rw [Pipeline.ownSems0_none]
    have h : (pdats m ρ 0 c).Φ (Fin.last _) ⊢ iprop(Pipeline.scopedRest spec0 c ∗ ∃ r, prngReg c r) := by
      have h' := Phi_out0 (V1 m ρ) c; unfold Pipeline.ΦA at h'; exact h'
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its windows' arrays are split
    out of the unscoped buffers and put back at the exit contents; the generator register goes into the pipeline's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec1 c ∗ ∃ r, prngReg c r) ⊢ (pdats m ρ 1 c).Φ 0 := by
      have h' := Phi_in1 (V3 m ρ) c; unfold Pipeline.ΦA at h'; exact h'
    iintro ⟨Hp, -, Hr⟩
    iapply h
    isplitl [Hr]; · iexact Hr
    iexact Hp
  hout c := by
    rw [Pipeline.ownSems0_none]
    have h : (pdats m ρ 1 c).Φ (Fin.last _) ⊢ iprop(Pipeline.scopedRest spec1 c ∗ ∃ r, prngReg c r) := by
      have h' := Phi_out1 (V3 m ρ) c; unfold Pipeline.ΦA at h'; exact h'
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W4, left at W5. Its windows' arrays are split
    out of the unscoped buffers and put back at the exit contents; the generator register goes into the pipeline's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec2 c ∗ ∃ r, prngReg c r) ⊢ (pdats m ρ 2 c).Φ 0 := by
      have h' := Phi_in2 (V4 m ρ) c; unfold Pipeline.ΦA at h'; exact h'
    iintro ⟨Hp, -, Hr⟩
    iapply h
    isplitl [Hr]; · iexact Hr
    iexact Hp
  hout c := by
    rw [Pipeline.ownSems0_none]
    have h : (pdats m ρ 2 c).Φ (Fin.last _) ⊢ iprop(Pipeline.scopedRest spec2 c ∗ ∃ r, prngReg c r) := by
      have h' := Phi_out2 (V4 m ρ) c; unfold Pipeline.ΦA at h'; exact h'
    refine h.trans ?_
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W6, left at W7. Its windows' arrays are split
    out of the unscoped buffers and put back at the exit contents; the generator register goes into the pipeline's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec3 c ∗ ∃ r, prngReg c r) ⊢ (pdats m ρ 3 c).Φ 0 := by
      have h' := Phi_in3 (V6 m ρ) c; unfold Pipeline.ΦA at h'; exact h'
    iintro ⟨Hp, -, Hr⟩
    iapply h
    isplitl [Hr]; · iexact Hr
    iexact Hp
  hout c := by
    rw [Pipeline.ownSems0_none]
    have h : (pdats m ρ 3 c).Φ (Fin.last _) ⊢ iprop(Pipeline.scopedRest spec3 c ∗ ∃ r, prngReg c r) := by
      have h' := Phi_out3 (V6 m ρ) c; unfold Pipeline.ΦA at h'; exact h'
    refine h.trans ?_
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W7, left at W8. Its windows' arrays are split
    out of the unscoped buffers and put back at the exit contents; the generator register goes into the pipeline's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec4 c ∗ ∃ r, prngReg c r) ⊢ (pdats m ρ 4 c).Φ 0 := by
      have h' := Phi_in4 (V7 m ρ) c; unfold Pipeline.ΦA at h'; exact h'
    iintro ⟨Hp, -, Hr⟩
    iapply h
    isplitl [Hr]; · iexact Hr
    iexact Hp
  hout c := by
    rw [Pipeline.ownSems0_none]
    have h : (pdats m ρ 4 c).Φ (Fin.last _) ⊢ iprop(Pipeline.scopedRest spec4 c ∗ ∃ r, prngReg c r) := by
      have h' := Phi_out4 (V7 m ρ) c; unfold Pipeline.ΦA at h'; exact h'
    refine h.trans ?_
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at W9, left at W10. Its windows' arrays are split
    out of the unscoped buffers and put back at the exit contents; the generator register goes into the pipeline's
    invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec5 c ∗ ∃ r, prngReg c r) ⊢ (pdats m ρ 5 c).Φ 0 := by
      have h' := Phi_in5 (V9 m ρ) c; unfold Pipeline.ΦA at h'; exact h'
    iintro ⟨Hp, -, Hr⟩
    iapply h
    isplitl [Hr]; · iexact Hr
    iexact Hp
  hout c := by
    rw [Pipeline.ownSems0_none]
    have h : (pdats m ρ 5 c).Φ (Fin.last _) ⊢ iprop(Pipeline.scopedRest spec5 c ∗ ∃ r, prngReg c r) := by
      have h' := Phi_out5 (V9 m ρ) c; unfold Pipeline.ΦA at h'; exact h'
    refine h.trans ?_
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last region's exit state is the last thread state beside the core owing nothing (the same three resources, regrouped). -/
theorem last_state (c : Dev nD) :
    iprop(StableHlo.held (c : Thread nD τ) (Pipeline.ucRefs τ sig) (W10 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## @main as segments, and the launch -/

/-- @main's ten items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ) ]
/-- @main is the run of the segments. -/
theorem main_run (c : Dev nD) : main (F := F) c = Pipeline.Seg.run (segs m ρ) := (main_chain c).trans (by chain_rfl)

set_option backward.isDefEq.respectTransparency.types false in
/-- Every weakly fair execution of @main from memory m with zero counters terminates, nothing faulting, and the final
    memory holds, on every core, every unscoped buffer at the last valuation W10. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The run with the result named: every execution ends with the result buffer at the last valuation's contents and every
    argument array as launched. -/
theorem run_result : θ_run defs (onTc (τ := τ) (main (F := F))) ⟨m, fun _ => 0, ρ⟩ (fun r => ∀ c : Dev nD,
      r.2.mem ((c.tc : Thread nD τ).loc main_v62) = W10 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v62 (by decide)),
      (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c),
      (h c _ (mem_uc main_arg9 (by decide))).trans (W10_main_arg9 m ρ c),
      (h c _ (mem_uc main_arg10 (by decide))).trans (W10_main_arg10 m ρ c),
      (h c _ (mem_uc main_arg11 (by decide))).trans (W10_main_arg11 m ρ c)⟩) (run_all m ρ)

/-- The frame: every execution ends, faults nowhere, and leaves the twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.Kernel.Hand

end
-- ==== Proof.KIRegion0.lean ====
/- The kernel half of region 0 of the idealized program's frame: the windows' blocks as the region finds them,
   what the body leaves in each window's staging buffer, the body's triple, the pipeline's proof data at a parameter
   `V` (the TensorCore's buffer contents when the region is entered), and the body obligation at every grid point.
   The invariant is the class-A one (the scoped rest and the generator register pass through untouched). -/
import proofs.«181351_j65970697667357_2_alg».proof.Proof.Gen.KernelIdeal.Launch
import proofs.«181351_j65970697667357_2_alg».proof.Proof.Gen.KernelIdeal.Skeleton
import proofs.«181351_j65970697667357_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 0: `cc0__matmul_scale_kernel`, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref whole -/

abbrev r0_blk : Rect S2000x128 := Rect.unit (s := S2000x128) ![0, 0] S2000x128.size inb_S2000x128_S2000x128_0_0
abbrev r0_wt : Rect S128x128 := Rect.unit (s := S128x128) ![0, 0] S128x128.size inb_S128x128_S128x128_0_0
abbrev r0_col : Rect S2000x1 := Rect.unit (s := S2000x1) ![0, 0] S2000x1.size inb_S2000x1_S2000x1_0_0

/-! ## What the body leaves in each output window's buffer -/

/-- Window 3's staging buffer after the body, from the input windows' blocks: its one whole-buffer store, whose
    payload is the product `k0_pay1` of what the loads read of windows 0 and 1. -/
def out0_3 (x0 : Vec F S2000x128 .f32) (x1 : Vec F S128x128 .bf16) : Vec F S2000x128 .f32 :=
  View.canon [⟨r0_blk, k0_pay1 (View.ld x0 r0_blk) (View.ld x1 r0_wt)⟩]

/-- Window 4's staging buffer after the body: its one whole-buffer store, whose payload is the row-scaled product
    `k0_pay2` of what the loads read of windows 0, 1 and 2. -/
def out0_4 (x0 : Vec F S2000x128 .f32) (x1 : Vec F S128x128 .bf16) (x2 : Vec F S2000x1 .f32) : Vec F S2000x128 .f32 :=
  View.canon [⟨r0_blk, k0_pay2 (View.ld x0 r0_blk) (View.ld x1 r0_wt) (View.ld x2 r0_col)⟩]

/-- One whole-buffer store tiles the buffer (checked by evaluation), so it covers it. -/
theorem cover0_blk (p0 : Vec F S2000x128 .f32) (y : S2000x128.Idx) :
    ∃ pc ∈ ([⟨r0_blk, p0⟩] : List (View.Piece (Elt F) S2000x128 .f32)), y ∈ pc.1.set :=
  View.cover_of_tiled [⟨r0_blk, p0⟩] S2000x128.size (by rfl) y

/-! ## The body's triple -/

set_option maxHeartbeats 400000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords)
    (arg1 : Memref sig .tc .vmem S2000x128 .f32) (harg1 : arg1.IsWhole) (arg2 : Memref sig .tc .vmem S128x128 .bf16) (harg2 : arg2.IsWhole)
    (arg3 : Memref sig .tc .vmem S2000x1 .f32) (harg3 : arg3.IsWhole) (arg4 : Memref sig .tc .vmem S2000x128 .f32) (harg4 : arg4.IsWhole)
    (arg5 : Memref sig .tc .vmem S2000x128 .f32) (harg5 : arg5.IsWhole)
    (x0 : Vec F S2000x128 .f32) (x1 : Vec F S128x128 .bf16) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__matmul_scale_kernel i arg1 harg1 arg2 harg2 arg3 harg3 arg4 harg4 arg5 harg5) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_blk _)
  iexists _; isplitr
  swap; · iexact H4
  ipureintro
  exact View.read_writes_eq_canon _ _ _ (cover0_blk _)

/-! ## The pipeline's proof data -/

/-- The proof data of pipeline 0 on core `c`: the arrays as the region finds them (`V`); after the body at point `t`
    each input's buffer at its block and each output's at `out0_W` of the input blocks; the class-A invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) := by dsimp only [dat0]
theorem after0_4 (c : Dev nD) (t : Fin cfg0.N) :
    (dat0 V c).after 4 t = out0_4 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- The class-A invariant is the proof data's at the first boundary, -/
theorem Phi_in0 (c : Dev nD) : Pipeline.ΦA spec0 c ⊢ (dat0 V c).Φ 0 := .rfl

/-- and at the last. -/
theorem Phi_out0 (c : Dev nD) : (dat0 V c).Φ (Fin.last cfg0.N) ⊢ Pipeline.ΦA spec0 c := .rfl

end Cert.KernelIdeal.Hand

end
-- ==== Proof.KIRegion1.lean ====
/- The kernel half of region 1 (`cc1__finalize_stats_kernel`): a kernel with two accumulators carried between the
   grid points and two outputs stored at the last point only. Three cases over the 25 points — the first, a middle
   one, the last —: per case the whole body's run with the branch conditions decided, what the outputs and the
   accumulators hold point by point by recursion on the point, the three-stage invariant, the proof data, the body
   obligation, and the invariant's entry and exit. -/
import proofs.«181351_j65970697667357_2_alg».proof.Proof.Gen.KernelIdeal.Launch
import proofs.«181351_j65970697667357_2_alg».proof.Proof.Gen.KernelIdeal.Skeleton
import proofs.«181351_j65970697667357_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's first `scf.if` (the grid coordinate is 0), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 25 = 0 :=
  (by decide +kernel : ∀ t : Fin grid1.N, cond1_0 (grid1.coords t) ↔ t.val % 25 = 0)

/-- The condition of the body's second `scf.if` (the grid coordinate is 24), from the grid coordinates. -/
abbrev cond1_1 (i : grid1.Coords) : Prop := k1_cond2 i = 1#1
/-- It holds at the last point only. -/
theorem hcond1_1 : ∀ t : Fin cfg1.N, cond1_1 (grid1.coords t) ↔ t.val % 25 = 24 :=
  (by decide +kernel : ∀ t : Fin grid1.N, cond1_1 (grid1.coords t) ↔ t.val % 25 = 24)

set_option maxHeartbeats 1000000 in
/-- The body at the first point (the first `scf.if` taken, the second not): the pieces its stores leave in output 4
    and in the two carried accumulators (zeroed, then added to), with the proof that on whole memrefs — the inputs at
    their contents, output 4 and the accumulators at anything, outputs 5 and 6 at contents handed back untouched —
    the body runs to the continuation holding the inputs as they were and each stored buffer with its pieces written. -/
noncomputable def kernelRun1_A (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) :
    Σ' (L4 : List (View.Piece (Elt F) S2000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__finalize_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__finalize_stats_kernel_eq_skeleton]; unfold cc1__finalize_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 1000000 in
/-- The body at a middle point (neither `scf.if` taken): the pieces its stores leave in output 4 and in the two
    carried accumulators, with the proof that on whole memrefs — the inputs at their contents, output 4 at anything,
    outputs 5 and 6 at contents handed back untouched, the accumulators at what the point before left — the body
    runs to the continuation holding the inputs as they were and each stored buffer with its pieces written. -/
noncomputable def kernelRun1_B (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__finalize_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__finalize_stats_kernel_eq_skeleton]; unfold cc1__finalize_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 1000000 in
/-- The body at the last point (the first `scf.if` not taken, the second taken): the pieces its stores leave in
    outputs 4, 5, 6 and in the two carried accumulators, with the proof that on whole memrefs — the inputs at their
    contents, the outputs at anything, the accumulators at what the point before left — the body runs to the
    continuation holding the inputs as they were and each stored buffer with its pieces written. -/
noncomputable def kernelRun1_C (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__finalize_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__finalize_stats_kernel_eq_skeleton]; unfold cc1__finalize_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The points of the three cases -/

theorem N_val1 (t : Fin cfg1.N) : t.val < 25 := lt_of_lt_of_eq t.isLt (show cfg1.N = 25 from N_1)

theorem cond1_0_of (t : Fin cfg1.N) (h : t.val = 0) : cond1_0 (grid1.coords t) :=
  (hcond1_0 t).mpr (by rw [h])
theorem not_cond1_0_of (t : Fin cfg1.N) (h : t.val ≠ 0) : ¬cond1_0 (grid1.coords t) := fun hc => by
  have h1 := (hcond1_0 t).mp hc; have h2 := N_val1 t; omega
theorem cond1_1_of (t : Fin cfg1.N) (h : t.val % 25 = 24) : cond1_1 (grid1.coords t) :=
  (hcond1_1 t).mpr h
theorem not_cond1_1_of (t : Fin cfg1.N) (h : ¬t.val % 25 = 24) : ¬cond1_1 (grid1.coords t) := fun hc =>
  h ((hcond1_1 t).mp hc)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Where the second condition fails outputs 5 and 6 are idle and not written back; where it holds they are live. -/
theorem idleAt1_5 : ∀ t : Fin cfg1.N, ¬cond1_1 (grid1.coords t) → cfg1.idle 5 (grid1.coords t) = true := by decide +kernel
theorem idleAt1_6 : ∀ t : Fin cfg1.N, ¬cond1_1 (grid1.coords t) → cfg1.idle 6 (grid1.coords t) = true := by decide +kernel
theorem noFlush1_5 : ∀ t : Fin cfg1.N, ¬cond1_1 (grid1.coords t) → (cfg1.win 5).flush t = false := by decide +kernel
theorem noFlush1_6 : ∀ t : Fin cfg1.N, ¬cond1_1 (grid1.coords t) → (cfg1.win 6).flush t = false := by decide +kernel
theorem liveAt1_5 : ∀ t : Fin cfg1.N, cond1_1 (grid1.coords t) → cfg1.idle 5 (grid1.coords t) = false := by decide +kernel
theorem liveAt1_6 : ∀ t : Fin cfg1.N, cond1_1 (grid1.coords t) → cfg1.idle 6 (grid1.coords t) = false := by decide +kernel

/-! ## The memrefs the body is called with -/

/-- One staging buffer of each output window, through which its contents are stated (the choice does not matter). -/
abbrev VO1_4 : View sig .tc .vmem S2000x128 .f32 := (Memref.whole cc1_stg4_0 : Memref sig .tc .vmem S2000x128 .f32).view
abbrev VO1_5 : View sig .tc .vmem S1x128 .f32 := (Memref.whole cc1_stg5_0 : Memref sig .tc .vmem S1x128 .f32).view
abbrev VO1_6 : View sig .tc .vmem S1x128 .f32 := (Memref.whole cc1_stg6_0 : Memref sig .tc .vmem S1x128 .f32).view
/-- Each window's current staging memref at point `t`, and its wholeness. -/
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
/-- The two accumulators: whole scoped buffers of the kernel's own, passed beside the windows. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- Every other scoped buffer of the core, unopened. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The class invariant with the two accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

/-! ## What each case leaves -/

/-- The pieces case A leaves in output 4 tile it, so they cover it. -/
theorem cover1_A_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) (y : S2000x128.Idx) :
    ∃ pc ∈ (kernelRun1_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3).1 S2000x128.size (by sl_kernel_rfl) y

/-- What case A leaves in output 4: its pieces read back. -/
def out1_A_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) : Vec F S2000x128 .f32 :=
  VO1_4.read (Elt F) (VO1_4.writes (Elt F) VO1_4.junk (kernelRun1_A c i arg1 harg1 arg2 harg2 arg3 harg3 arg4 harg4 arg5 harg5 arg6 harg6 arg7 harg7 arg8 harg8 arg9 harg9 hc0 hc1 x0 x1 x2 x3).1)

/-- The pieces case A leaves in accumulator 0 tile it, so they cover it. -/
theorem scover1_A_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) (y : S1x128.Idx) :
    ∃ pc ∈ (kernelRun1_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3).2.1 S1x128.size (by sl_kernel_rfl) y

/-- What case A leaves in accumulator 0: its pieces read back. -/
def sout1_A_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 hc1 x0 x1 x2 x3).2.1)

/-- The pieces case A leaves in accumulator 1 tile it, so they cover it. -/
theorem scover1_A_1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) (y : S1x128.Idx) :
    ∃ pc ∈ (kernelRun1_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3).2.2.1 S1x128.size (by sl_kernel_rfl) y

/-- What case A leaves in accumulator 1: its pieces read back. -/
def sout1_A_1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 hc0 hc1 x0 x1 x2 x3).2.2.1)

/-- The pieces case B leaves in output 4 tile it, so they cover it. -/
theorem cover1_B_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S2000x128.Idx) :
    ∃ pc ∈ (kernelRun1_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 xs0 xs1).1 S2000x128.size (by sl_kernel_rfl) y

/-- What case B leaves in output 4: its pieces read back. -/
def out1_B_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S2000x128 .f32 :=
  VO1_4.read (Elt F) (VO1_4.writes (Elt F) VO1_4.junk (kernelRun1_B c i arg1 harg1 arg2 harg2 arg3 harg3 arg4 harg4 arg5 harg5 arg6 harg6 arg7 harg7 arg8 harg8 arg9 harg9 hc0 hc1 x0 x1 x2 x3 xs0 xs1).1)

/-- The pieces case B leaves in accumulator 0 tile it, so they cover it. -/
theorem scover1_B_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What case B leaves in accumulator 0: its pieces read back. -/
def sout1_B_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 hc1 x0 x1 x2 x3 xs0 xs1).2.1)

/-- The pieces case B leaves in accumulator 1 tile it, so they cover it. -/
theorem scover1_B_1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What case B leaves in accumulator 1: its pieces read back. -/
def sout1_B_1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 hc0 hc1 x0 x1 x2 x3 xs0 xs1).2.2.1)

/-- The pieces case C leaves in output 4 tile it, so they cover it. -/
theorem cover1_C_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S2000x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).1 S2000x128.size (by sl_kernel_rfl) y

/-- What case C leaves in output 4: its pieces read back. -/
def out1_C_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S2000x128 .f32 :=
  VO1_4.read (Elt F) (VO1_4.writes (Elt F) VO1_4.junk (kernelRun1_C c i arg1 harg1 arg2 harg2 arg3 harg3 arg4 harg4 arg5 harg5 arg6 harg6 arg7 harg7 arg8 harg8 arg9 harg9 hc0 hc1 x0 x1 x2 x3 xs0 xs1).1)

/-- The pieces case C leaves in output 5 tile it, so they cover it. -/
theorem cover1_C_5 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What case C leaves in output 5: its pieces read back. -/
def out1_C_5 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VO1_5.read (Elt F) (VO1_5.writes (Elt F) VO1_5.junk (kernelRun1_C c i arg1 harg1 arg2 harg2 arg3 harg3 arg4 harg4 arg5 harg5 arg6 harg6 arg7 harg7 arg8 harg8 arg9 harg9 hc0 hc1 x0 x1 x2 x3 xs0 xs1).2.1)

/-- The pieces case C leaves in output 6 tile it, so they cover it. -/
theorem cover1_C_6 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What case C leaves in output 6: its pieces read back. -/
def out1_C_6 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 hc0 hc1 x0 x1 x2 x3 xs0 xs1).2.2.1)

/-- The pieces case C leaves in accumulator 0 tile it, so they cover it. -/
theorem scover1_C_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What case C leaves in accumulator 0: its pieces read back. -/
def sout1_C_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 hc0 hc1 x0 x1 x2 x3 xs0 xs1).2.2.2.1)

/-- The pieces case C leaves in accumulator 1 tile it, so they cover it. -/
theorem scover1_C_1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What case C leaves in accumulator 1: its pieces read back. -/
def sout1_C_1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- Output 4, output 5, output 6, accumulator 0, accumulator 1. -/
abbrev Outs1 (F : FTy → Type) : Type := Vec F S2000x128 .f32 × Vec F S1x128 .f32 × Vec F S1x128 .f32 × Vec F S1x128 .f32 × Vec F S1x128 .f32

/-- Contents nothing consults: an output window at a point where it is idle. -/
abbrev idleOut1 : Vec F S1x128 .f32 := View.canon ([] : List (View.Piece (Elt F) S1x128 .f32))

/-- The first point: the accumulators zeroed and added to; outputs 5 and 6 idle. -/
def first1 (c : Dev nD) (t : Fin cfg1.N) (h0 : t.val = 0) : Outs1 F :=
  have h1 : ¬t.val % 25 = 24 := by omega
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (cond1_0_of t h0) (not_cond1_1_of t h1) (iblk1 V c 0 t) (iblk1 V c 1 t) (iblk1 V c 2 t) (iblk1 V c 3 t),
   idleOut1, idleOut1,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (cond1_0_of t h0) (not_cond1_1_of t h1) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (cond1_0_of t h0) (not_cond1_1_of t h1) (iblk1 V c 0 t) (iblk1 V c 1 t) (iblk1 V c 2 t) (iblk1 V c 3 t))

/-- A middle point, over what the point before left in the accumulators; outputs 5 and 6 idle. -/
def middle1 (c : Dev nD) (t : Fin cfg1.N) (h0 : t.val ≠ 0) (h1 : ¬t.val % 25 = 24) (xs0 xs1 : Vec F S1x128 .f32) : Outs1 F :=
  (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (not_cond1_1_of t h1) (iblk1 V c 0 t) (iblk1 V c 1 t) (iblk1 V c 2 t) (iblk1 V c 3 t) xs0 xs1,
   idleOut1, idleOut1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (not_cond1_1_of t h1) (iblk1 V c 0 t) (iblk1 V c 1 t) (iblk1 V c 2 t) (iblk1 V c 3 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (not_cond1_1_of t h1) (iblk1 V c 0 t) (iblk1 V c 1 t) (iblk1 V c 2 t) (iblk1 V c 3 t) xs0 xs1)

/-- The last point, over what the point before left in the accumulators: outputs 5 and 6 stored. -/
def last1 (c : Dev nD) (t : Fin cfg1.N) (h0 : t.val ≠ 0) (h1 : t.val % 25 = 24) (xs0 xs1 : Vec F S1x128 .f32) : Outs1 F :=
  (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (cond1_1_of t h1) (iblk1 V c 0 t) (iblk1 V c 1 t) (iblk1 V c 2 t) (iblk1 V c 3 t) xs0 xs1,
   out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (cond1_1_of t h1) (iblk1 V c 0 t) (iblk1 V c 1 t) (iblk1 V c 2 t) (iblk1 V c 3 t) xs0 xs1,
   out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (cond1_1_of t h1) (iblk1 V c 0 t) (iblk1 V c 1 t) (iblk1 V c 2 t) (iblk1 V c 3 t) xs0 xs1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (cond1_1_of t h1) (iblk1 V c 0 t) (iblk1 V c 1 t) (iblk1 V c 2 t) (iblk1 V c 3 t) xs0 xs1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (not_cond1_0_of t h0) (cond1_1_of t h1) (iblk1 V c 0 t) (iblk1 V c 1 t) (iblk1 V c 2 t) (iblk1 V c 3 t) xs0 xs1)

/-- THE ACCUMULATION: what the outputs' staging buffers and the two accumulators hold after the body at position `n`,
    by recursion on the position — the case of the point, the accumulators at what position `n - 1` left. -/
def outsAt1 (c : Dev nD) : (n : ℕ) → n < cfg1.N → Outs1 F
  | 0, hn => first1 V c ⟨0, hn⟩ rfl
  | n + 1, hn =>
    if h1 : (n + 1) % 25 = 24 then
      last1 V c ⟨n + 1, hn⟩ (Nat.succ_ne_zero n) h1 (outsAt1 c n (Nat.lt_of_succ_lt hn)).2.2.2.1 (outsAt1 c n (Nat.lt_of_succ_lt hn)).2.2.2.2
    else
      middle1 V c ⟨n + 1, hn⟩ (Nat.succ_ne_zero n) h1 (outsAt1 c n (Nat.lt_of_succ_lt hn)).2.2.2.1 (outsAt1 c n (Nat.lt_of_succ_lt hn)).2.2.2.2

theorem outsAt1_first (c : Dev nD) (t : Fin cfg1.N) (h0 : t.val = 0) :
    outsAt1 V c t.val t.isLt = first1 V c t h0 := by
  obtain ⟨n, hn⟩ := t
  cases n with
  | zero => rfl
  | succ n => exact absurd h0 (Nat.succ_ne_zero n)

theorem outsAt1_middle (c : Dev nD) (t : Fin cfg1.N) (h0 : t.val ≠ 0) (h1 : ¬t.val % 25 = 24) :
    outsAt1 V c t.val t.isLt = middle1 V c t h0 h1
      (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact absurd rfl h0
  | succ n => exact (dif_neg h1).trans rfl

theorem outsAt1_last (c : Dev nD) (t : Fin cfg1.N) (h0 : t.val ≠ 0) (h1 : t.val % 25 = 24) :
    outsAt1 V c t.val t.isLt = last1 V c t h0 h1
      (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact absurd rfl h0
  | succ n => exact (dif_pos h1).trans rfl

/-! ## The invariant -/

/-- The region invariant before position `n`: before the first point the class invariant (every scoped buffer that is
    no staging buffer at anything, the generator register at some state); afterwards the two accumulators at what the
    point before left in them, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.2.2.1 ∗ owns (c : Thread nD τ) scM1_1 fullShare (outsAt1 V c n hn).2.2.2.2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.2.2.1 ∗ owns (c : Thread nD τ) scM1_1 fullShare (outsAt1 V c n hn).2.2.2.2) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.2.2.1 ∗ owns (c : Thread nD τ) scM1_1 fullShare (outsAt1 V c (n - 1) (by omega)).2.2.2.2) ∗ rest1 c) ∗ (∃ r, prngReg c r)) := by
  cases n with
  | zero => exact absurd rfl hz
  | succ n => rfl

/-! ## The pipeline's proof data -/

/-- The proof data of the pipeline on core `c`: the arrays as the region finds them; after the body at point `t` each
    input's buffer at its block and the outputs' at `outsAt1`'s components; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point: the inputs' memrefs hold their blocks; the point is the first, a middle one or the last, and
    that case's run applies; the invariant hands the body the two accumulators — at anything at the first point, at what
    the point before left afterwards — and takes them back at this point's contents; outputs 5 and 6 are handed back as
    found except at the last point; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases hz : t.val = 0
  · have h1 : ¬t.val % 25 = 24 := by omega
    rw [Dat.leavesExact_idle (dat1 V c) 5 t (idleAt1_5 t (not_cond1_1_of t h1)) (noFlush1_5 t (not_cond1_1_of t h1))]
    rw [Dat.leavesExact_idle (dat1 V c) 6 t (idleAt1_6 t (not_cond1_1_of t h1)) (noFlush1_6 t (not_cond1_1_of t h1))]
    rw [outsAt1_first V c t hz]
    unfold first1 out1_A_4 sout1_A_0 sout1_A_1; (try dsimp only)
    rw [PhiS1_castSucc V c t, PhiS1_zero V c _ _ hz, PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ (cond1_0_of t hz) (not_cond1_1_of t h1) (iblk1 V c 0 t) (iblk1 V c 1 t) (iblk1 V c 2 t) (iblk1 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _ _ _ _ _)
    isplitl [H5]; · iexists _; iexact H5
    iexists _; iexact H6
  · by_cases h1 : t.val % 25 = 24
    · rw [show (dat1 V c).leavesExact 5 t = owns (c : Thread nD τ) (ms1_5 t) fullShare ((dat1 V c).after 5 t) from by
        unfold Dat.leavesExact; rw [liveAt1_5 t (cond1_1_of t h1)], after1_5]
      rw [show (dat1 V c).leavesExact 6 t = owns (c : Thread nD τ) (ms1_6 t) fullShare ((dat1 V c).after 6 t) from by
        unfold Dat.leavesExact; rw [liveAt1_6 t (cond1_1_of t h1)], after1_6]
      rw [outsAt1_last V c t hz h1]
      unfold last1 out1_C_4 out1_C_5 out1_C_6 sout1_C_0 sout1_C_1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ (not_cond1_0_of t hz) (cond1_1_of t h1) (iblk1 V c 0 t) (iblk1 V c 1 t) (iblk1 V c 2 t) (iblk1 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _ _ _)
    · rw [Dat.leavesExact_idle (dat1 V c) 5 t (idleAt1_5 t (not_cond1_1_of t h1)) (noFlush1_5 t (not_cond1_1_of t h1))]
      rw [Dat.leavesExact_idle (dat1 V c) 6 t (idleAt1_6 t (not_cond1_1_of t h1)) (noFlush1_6 t (not_cond1_1_of t h1))]
      rw [outsAt1_middle V c t hz h1]
      unfold middle1 out1_B_4 sout1_B_0 sout1_B_1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ (not_cond1_0_of t hz) (not_cond1_1_of t h1) (iblk1 V c 0 t) (iblk1 V c 1 t) (iblk1 V c 2 t) (iblk1 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _ _ _ _ _ _)
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi_in1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' named contents are forgotten. -/
theorem Phi_out1_of (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem Phi_out1 (c : Dev nD) : (dat1 V c).Φ (Fin.last cfg1.N) ⊢ Pipeline.ΦA spec1 c :=
  Phi_out1_of V c _ (by rw [Fin.val_last]; have : cfg1.N = 25 := N_1; omega)

end Region

end Cert.KernelIdeal.Hand

end
-- ==== Proof.KIRegion2.lean ====
/- The kernel half of region 2 of the program's six kernel regions: `cc2__bn_act_matmul_kernel`, on a grid of 25 points.
   Seven input windows are loaded whole (five of them fetched at the first point only, their block index constant),
   two output windows are stored whole, nothing is carried between points. Stated at a PARAMETER `V` — the
   TensorCore's buffer contents when the region is entered — and at any float model `F`:
   each window's block at a point (`iblk2`), what the body leaves in each output's buffer as a term over the
   skeleton's payloads of the input blocks (`out2_7`, `out2_8`), the body's triple (`sound_kernel2`), the
   pipeline's proof data (`dat2`) and its body obligation (`body_obligation2`). -/
import proofs.«181351_j65970697667357_2_alg».proof.Proof.Gen.KernelIdeal.Launch
import proofs.«181351_j65970697667357_2_alg».proof.Proof.Gen.KernelIdeal.Skeleton
import proofs.«181351_j65970697667357_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 2000 rows: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an input not
    fetched at a point has not moved its block index since the point before), for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an input not
    fetched at a point has not moved its block index since the point before), for any proof data whose array is
    `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an input not
    fetched at a point has not moved its block index since the point before), for any proof data whose array is
    `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (an input not
    fetched at a point has not moved its block index since the point before), for any proof data whose array is
    `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (an input not
    fetched at a point has not moved its block index since the point before), for any proof data whose array is
    `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (an input not
    fetched at a point has not moved its block index since the point before), for any proof data whose array is
    `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (an input not
    fetched at a point has not moved its block index since the point before), for any proof data whose array is
    `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_S2000x128 : Rect S2000x128 := Rect.unit (s := S2000x128) ![0, 0] S2000x128.size inb_S2000x128_S2000x128_0_0
abbrev r2_S1x128 : Rect S1x128 := Rect.unit (s := S1x128) ![0, 0] S1x128.size inb_S1x128_S1x128_0_0
abbrev r2_S128x128 : Rect S128x128 := Rect.unit (s := S128x128) ![0, 0] S128x128.size inb_S128x128_S128x128_0_0
abbrev r2_S2000x1 : Rect S2000x1 := Rect.unit (s := S2000x1) ![0, 0] S2000x1.size inb_S2000x1_S2000x1_0_0

/-! ## What the body leaves in each output window's buffer -/

/-- Window 7's buffer after the body: one whole store of the first payload (the normalized, activated block times
    the weight matrix) of the input blocks. -/
def out2_7 (x0 : Vec F S2000x128 .f32) (x1 : Vec F S1x128 .f32) (x2 : Vec F S1x128 .f32) (x3 : Vec F S1x128 .f32) (x4 : Vec F S1x128 .f32) (x5 : Vec F S128x128 .bf16) : Vec F S2000x128 .f32 :=
  View.canon [⟨r2_S2000x128, k2_pay1 (View.ld x0 r2_S2000x128) (View.ld x2 r2_S1x128) (View.ld x1 r2_S1x128) (View.ld x3 r2_S1x128) (View.ld x4 r2_S1x128) (View.ld x5 r2_S128x128)⟩]

/-- Window 8's buffer after the body: one whole store of the second payload (the first, scaled row by row). -/
def out2_8 (x0 : Vec F S2000x128 .f32) (x1 : Vec F S1x128 .f32) (x2 : Vec F S1x128 .f32) (x3 : Vec F S1x128 .f32) (x4 : Vec F S1x128 .f32) (x5 : Vec F S128x128 .bf16) (x6 : Vec F S2000x1 .f32) : Vec F S2000x128 .f32 :=
  View.canon [⟨r2_S2000x128, k2_pay2 (View.ld x0 r2_S2000x128) (View.ld x2 r2_S1x128) (View.ld x1 r2_S1x128) (View.ld x3 r2_S1x128) (View.ld x4 r2_S1x128) (View.ld x5 r2_S128x128) (View.ld x6 r2_S2000x1)⟩]

/-- A whole store covers the buffer. -/
theorem cover2_out (p0 : Vec F S2000x128 .f32) (y : S2000x128.Idx) :
    ∃ pc ∈ ([⟨r2_S2000x128, p0⟩] : List (View.Piece (Elt F) S2000x128 .f32)), y ∈ pc.1.set :=
  View.cover_of_tiled [⟨r2_S2000x128, p0⟩] S2000x128.size (by rfl) y

/-! ## The body's triple -/

set_option maxHeartbeats 400000 in
/-- The kernel body on whole staging memrefs, the inputs' at read contents `xW` and the outputs' at anything, runs to
    the continuation holding the inputs' as they were and each output's at `out2_W` of the inputs'. The body also
    loads each output buffer before storing to it; what it reads there is not used. -/
theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S2000x1 .f32) (harg7 : arg7.IsWhole) (arg8 : Memref sig .tc .vmem S2000x128 .f32) (harg8 : arg8.IsWhole) (arg9 : Memref sig .tc .vmem S2000x128 .f32) (harg9 : arg9.IsWhole)
    (x0 : Vec F S2000x128 .f32) (x1 : Vec F S1x128 .f32) (x2 : Vec F S1x128 .f32) (x3 : Vec F S1x128 .f32) (x4 : Vec F S1x128 .f32) (x5 : Vec F S128x128 .bf16) (x6 : Vec F S2000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5) ∗ owns (c : Thread nD τ) arg9 fullShare (out2_8 x0 x1 x2 x3 x4 x5 x6)) -∗ K ⟨⟩))
      ⊢ wp frame (wpE (defs₀ (F := F)) Variants.none c none) E (cc2__bn_act_matmul_kernel i arg1 harg1 arg2 harg2 arg3 harg3 arg4 harg4 arg5 harg5 arg6 harg6 arg7 harg7 arg8 harg8 arg9 harg9) K := by
  sl_unfold [cc2__bn_act_matmul_kernel, k2_part1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_out _)
  iexists _; isplitr
  swap; · iexact H8
  ipureintro
  exact View.read_writes_eq_canon _ _ _ (cover2_out _)

/-! ## The pipeline's proof data -/

/-- The proof data of the region's pipeline on core `c`: the arrays as the region finds them (`V`); after the body at
    point `t` each input's buffer at its block and each output's at `out2_W` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 400000 in
/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- The invariant is the same at every point: the region's entry resources are the invariant before the first point, -/
theorem Phi_in2 (c : Dev nD) : Pipeline.ΦA spec2 c ⊢ (dat2 V c).Φ 0 := by
  dsimp only [dat2]; exact .rfl

/-- and the invariant after the last point is the region's exit resources. -/
theorem Phi_out2 (c : Dev nD) : (dat2 V c).Φ (Fin.last cfg2.N) ⊢ Pipeline.ΦA spec2 c := by
  dsimp only [dat2]; exact .rfl

end Cert.KernelIdeal.Hand
-- ==== Proof.KIRegion3.lean ====
/- The kernel half of region 3 (`cc3__finalize_stats_kernel`): a kernel with two accumulators carried between the
   grid points and two outputs stored at the last point only. Three cases over the 25 points — the first, a middle
   one, the last —: per case the whole body's run with the branch conditions decided, what the outputs and the
   accumulators hold point by point by recursion on the point, the three-stage invariant, the proof data, the body
   obligation, and the invariant's entry and exit. -/
import proofs.«181351_j65970697667357_2_alg».proof.Proof.Gen.KernelIdeal.Launch
import proofs.«181351_j65970697667357_2_alg».proof.Proof.Gen.KernelIdeal.Skeleton
import proofs.«181351_j65970697667357_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's first `scf.if` (the grid coordinate is 0), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 25 = 0 :=
  (by decide +kernel : ∀ t : Fin grid3.N, cond3_0 (grid3.coords t) ↔ t.val % 25 = 0)

/-- The condition of the body's second `scf.if` (the grid coordinate is 24), from the grid coordinates. -/
abbrev cond3_1 (i : grid3.Coords) : Prop := k3_cond2 i = 1#1
/-- It holds at the last point only. -/
theorem hcond3_1 : ∀ t : Fin cfg3.N, cond3_1 (grid3.coords t) ↔ t.val % 25 = 24 :=
  (by decide +kernel : ∀ t : Fin grid3.N, cond3_1 (grid3.coords t) ↔ t.val % 25 = 24)

set_option maxHeartbeats 1000000 in
/-- The body at the first point (the first `scf.if` taken, the second not): the pieces its stores leave in output 4
    and in the two carried accumulators (zeroed, then added to), with the proof that on whole memrefs — the inputs at
    their contents, output 4 and the accumulators at anything, outputs 5 and 6 at contents handed back untouched —
    the body runs to the continuation holding the inputs as they were and each stored buffer with its pieces written. -/
noncomputable def kernelRun3_A (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) :
    Σ' (L4 : List (View.Piece (Elt F) S2000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__finalize_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc3__finalize_stats_kernel_eq_skeleton]; unfold cc3__finalize_stats_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 1000000 in
/-- The body at a middle point (neither `scf.if` taken): the pieces its stores leave in output 4 and in the two
    carried accumulators, with the proof that on whole memrefs — the inputs at their contents, output 4 at anything,
    outputs 5 and 6 at contents handed back untouched, the accumulators at what the point before left — the body
    runs to the continuation holding the inputs as they were and each stored buffer with its pieces written. -/
noncomputable def kernelRun3_B (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__finalize_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc3__finalize_stats_kernel_eq_skeleton]; unfold cc3__finalize_stats_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 1000000 in
/-- The body at the last point (the first `scf.if` not taken, the second taken): the pieces its stores leave in
    outputs 4, 5, 6 and in the two carried accumulators, with the proof that on whole memrefs — the inputs at their
    contents, the outputs at anything, the accumulators at what the point before left — the body runs to the
    continuation holding the inputs as they were and each stored buffer with its pieces written. -/
noncomputable def kernelRun3_C (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__finalize_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc3__finalize_stats_kernel_eq_skeleton]; unfold cc3__finalize_stats_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point, fetched there or not, for any proof
    data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The points of the three cases -/

theorem N_val3 (t : Fin cfg3.N) : t.val < 25 := lt_of_lt_of_eq t.isLt (show cfg3.N = 25 from N_3)

theorem cond3_0_of (t : Fin cfg3.N) (h : t.val = 0) : cond3_0 (grid3.coords t) :=
  (hcond3_0 t).mpr (by rw [h])
theorem not_cond3_0_of (t : Fin cfg3.N) (h : t.val ≠ 0) : ¬cond3_0 (grid3.coords t) := fun hc => by
  have h1 := (hcond3_0 t).mp hc; have h2 := N_val3 t; omega
theorem cond3_1_of (t : Fin cfg3.N) (h : t.val % 25 = 24) : cond3_1 (grid3.coords t) :=
  (hcond3_1 t).mpr h
theorem not_cond3_1_of (t : Fin cfg3.N) (h : ¬t.val % 25 = 24) : ¬cond3_1 (grid3.coords t) := fun hc =>
  h ((hcond3_1 t).mp hc)

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
/-- Where the second condition fails outputs 5 and 6 are idle and not written back; where it holds they are live. -/
theorem idleAt3_5 : ∀ t : Fin cfg3.N, ¬cond3_1 (grid3.coords t) → cfg3.idle 5 (grid3.coords t) = true := by decide +kernel
theorem idleAt3_6 : ∀ t : Fin cfg3.N, ¬cond3_1 (grid3.coords t) → cfg3.idle 6 (grid3.coords t) = true := by decide +kernel
theorem noFlush3_5 : ∀ t : Fin cfg3.N, ¬cond3_1 (grid3.coords t) → (cfg3.win 5).flush t = false := by decide +kernel
theorem noFlush3_6 : ∀ t : Fin cfg3.N, ¬cond3_1 (grid3.coords t) → (cfg3.win 6).flush t = false := by decide +kernel
theorem liveAt3_5 : ∀ t : Fin cfg3.N, cond3_1 (grid3.coords t) → cfg3.idle 5 (grid3.coords t) = false := by decide +kernel
theorem liveAt3_6 : ∀ t : Fin cfg3.N, cond3_1 (grid3.coords t) → cfg3.idle 6 (grid3.coords t) = false := by decide +kernel

/-! ## The memrefs the body is called with -/

/-- One staging buffer of each output window, through which its contents are stated (the choice does not matter). -/
abbrev VO3_4 : View sig .tc .vmem S2000x128 .f32 := (Memref.whole cc3_stg4_0 : Memref sig .tc .vmem S2000x128 .f32).view
abbrev VO3_5 : View sig .tc .vmem S1x128 .f32 := (Memref.whole cc3_stg5_0 : Memref sig .tc .vmem S1x128 .f32).view
abbrev VO3_6 : View sig .tc .vmem S1x128 .f32 := (Memref.whole cc3_stg6_0 : Memref sig .tc .vmem S1x128 .f32).view
/-- Each window's current staging memref at point `t`, and its wholeness. -/
abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2000x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x128 .f32 := win3_6.stage (cfg3.slots t 6)
abbrev hs3_6 (t : Fin cfg3.N) : (ms3_6 t).IsWhole := hstage3_6 ((cfg3.slots t 6).cast nbuf3_6)
/-- The two accumulators: whole scoped buffers of the kernel's own, passed beside the windows. -/
abbrev scM3_0 : Memref sig .tc .vmem S1x128 .f32 := Memref.whole cc3_scratch0
abbrev scM3_1 : Memref sig .tc .vmem S1x128 .f32 := Memref.whole cc3_scratch1
abbrev VS3_0 : View sig .tc .vmem S1x128 .f32 := scM3_0.view
abbrev VS3_1 : View sig .tc .vmem S1x128 .f32 := scM3_1.view

/-- Every other scoped buffer of the core, unopened. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The class invariant with the two accumulators as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 c) ∗ (∃ r, prngReg c r)) := by
  unfold Pipeline.ΦA; rw [scopedRest3_split]; simp only [scM3_0, scM3_1, owns_whole]; try rfl

/-! ## What each case leaves -/

/-- The pieces case A leaves in output 4 tile it, so they cover it. -/
theorem cover3_A_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) (y : S2000x128.Idx) :
    ∃ pc ∈ (kernelRun3_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3).1 S2000x128.size (by sl_kernel_rfl) y

/-- What case A leaves in output 4: its pieces read back. -/
def out3_A_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) : Vec F S2000x128 .f32 :=
  VO3_4.read (Elt F) (VO3_4.writes (Elt F) VO3_4.junk (kernelRun3_A c i arg1 harg1 arg2 harg2 arg3 harg3 arg4 harg4 arg5 harg5 arg6 harg6 arg7 harg7 arg8 harg8 arg9 harg9 hc0 hc1 x0 x1 x2 x3).1)

/-- The pieces case A leaves in accumulator 0 tile it, so they cover it. -/
theorem scover3_A_0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) (y : S1x128.Idx) :
    ∃ pc ∈ (kernelRun3_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3).2.1 S1x128.size (by sl_kernel_rfl) y

/-- What case A leaves in accumulator 0: its pieces read back. -/
def sout3_A_0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) : Vec F S1x128 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 hc0 hc1 x0 x1 x2 x3).2.1)

/-- The pieces case A leaves in accumulator 1 tile it, so they cover it. -/
theorem scover3_A_1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) (y : S1x128.Idx) :
    ∃ pc ∈ (kernelRun3_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3).2.2.1 S1x128.size (by sl_kernel_rfl) y

/-- What case A leaves in accumulator 1: its pieces read back. -/
def sout3_A_1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) : Vec F S1x128 .f32 :=
  VS3_1.read (Elt F) (VS3_1.writes (Elt F) VS3_1.junk (kernelRun3_A c i arg1 harg1 arg2 harg2 arg3 harg3 arg4 harg4 arg5 harg5 arg6 harg6 arg7 harg7 arg8 harg8 arg9 harg9 hc0 hc1 x0 x1 x2 x3).2.2.1)

/-- The pieces case B leaves in output 4 tile it, so they cover it. -/
theorem cover3_B_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S2000x128.Idx) :
    ∃ pc ∈ (kernelRun3_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 xs0 xs1).1 S2000x128.size (by sl_kernel_rfl) y

/-- What case B leaves in output 4: its pieces read back. -/
def out3_B_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S2000x128 .f32 :=
  VO3_4.read (Elt F) (VO3_4.writes (Elt F) VO3_4.junk (kernelRun3_B c i arg1 harg1 arg2 harg2 arg3 harg3 arg4 harg4 arg5 harg5 arg6 harg6 arg7 harg7 arg8 harg8 arg9 harg9 hc0 hc1 x0 x1 x2 x3 xs0 xs1).1)

/-- The pieces case B leaves in accumulator 0 tile it, so they cover it. -/
theorem scover3_B_0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What case B leaves in accumulator 0: its pieces read back. -/
def sout3_B_0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 hc0 hc1 x0 x1 x2 x3 xs0 xs1).2.1)

/-- The pieces case B leaves in accumulator 1 tile it, so they cover it. -/
theorem scover3_B_1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What case B leaves in accumulator 1: its pieces read back. -/
def sout3_B_1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS3_1.read (Elt F) (VS3_1.writes (Elt F) VS3_1.junk (kernelRun3_B c i arg1 harg1 arg2 harg2 arg3 harg3 arg4 harg4 arg5 harg5 arg6 harg6 arg7 harg7 arg8 harg8 arg9 harg9 hc0 hc1 x0 x1 x2 x3 xs0 xs1).2.2.1)

/-- The pieces case C leaves in output 4 tile it, so they cover it. -/
theorem cover3_C_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S2000x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).1 S2000x128.size (by sl_kernel_rfl) y

/-- What case C leaves in output 4: its pieces read back. -/
def out3_C_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S2000x128 .f32 :=
  VO3_4.read (Elt F) (VO3_4.writes (Elt F) VO3_4.junk (kernelRun3_C c i arg1 harg1 arg2 harg2 arg3 harg3 arg4 harg4 arg5 harg5 arg6 harg6 arg7 harg7 arg8 harg8 arg9 harg9 hc0 hc1 x0 x1 x2 x3 xs0 xs1).1)

/-- The pieces case C leaves in output 5 tile it, so they cover it. -/
theorem cover3_C_5 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What case C leaves in output 5: its pieces read back. -/
def out3_C_5 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VO3_5.read (Elt F) (VO3_5.writes (Elt F) VO3_5.junk (kernelRun3_C c i arg1 harg1 arg2 harg2 arg3 harg3 arg4 harg4 arg5 harg5 arg6 harg6 arg7 harg7 arg8 harg8 arg9 harg9 hc0 hc1 x0 x1 x2 x3 xs0 xs1).2.1)

/-- The pieces case C leaves in output 6 tile it, so they cover it. -/
theorem cover3_C_6 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What case C leaves in output 6: its pieces read back. -/
def out3_C_6 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VO3_6.read (Elt F) (VO3_6.writes (Elt F) VO3_6.junk (kernelRun3_C c i arg1 harg1 arg2 harg2 arg3 harg3 arg4 harg4 arg5 harg5 arg6 harg6 arg7 harg7 arg8 harg8 arg9 harg9 hc0 hc1 x0 x1 x2 x3 xs0 xs1).2.2.1)

/-- The pieces case C leaves in accumulator 0 tile it, so they cover it. -/
theorem scover3_C_0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What case C leaves in accumulator 0: its pieces read back. -/
def sout3_C_0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 hc0 hc1 x0 x1 x2 x3 xs0 xs1).2.2.2.1)

/-- The pieces case C leaves in accumulator 1 tile it, so they cover it. -/
theorem scover3_C_1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What case C leaves in accumulator 1: its pieces read back. -/
def sout3_C_1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) : Vec F S1x128 .f32 :=
  VS3_1.read (Elt F) (VS3_1.writes (Elt F) VS3_1.junk (kernelRun3_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- Output 4, output 5, output 6, accumulator 0, accumulator 1. -/
abbrev Outs3 (F : FTy → Type) : Type := Vec F S2000x128 .f32 × Vec F S1x128 .f32 × Vec F S1x128 .f32 × Vec F S1x128 .f32 × Vec F S1x128 .f32

/-- Contents nothing consults: an output window at a point where it is idle. -/
abbrev idleOut3 : Vec F S1x128 .f32 := View.canon ([] : List (View.Piece (Elt F) S1x128 .f32))

/-- The first point: the accumulators zeroed and added to; outputs 5 and 6 idle. -/
def first3 (c : Dev nD) (t : Fin cfg3.N) (h0 : t.val = 0) : Outs3 F :=
  have h1 : ¬t.val % 25 = 24 := by omega
  (out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (cond3_0_of t h0) (not_cond3_1_of t h1) (iblk3 V c 0 t) (iblk3 V c 1 t) (iblk3 V c 2 t) (iblk3 V c 3 t),
   idleOut3, idleOut3,
   sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (cond3_0_of t h0) (not_cond3_1_of t h1) (iblk3 V c 0 t) (iblk3 V c 1 t) (iblk3 V c 2 t) (iblk3 V c 3 t),
   sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (cond3_0_of t h0) (not_cond3_1_of t h1) (iblk3 V c 0 t) (iblk3 V c 1 t) (iblk3 V c 2 t) (iblk3 V c 3 t))

/-- A middle point, over what the point before left in the accumulators; outputs 5 and 6 idle. -/
def middle3 (c : Dev nD) (t : Fin cfg3.N) (h0 : t.val ≠ 0) (h1 : ¬t.val % 25 = 24) (xs0 xs1 : Vec F S1x128 .f32) : Outs3 F :=
  (out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (not_cond3_1_of t h1) (iblk3 V c 0 t) (iblk3 V c 1 t) (iblk3 V c 2 t) (iblk3 V c 3 t) xs0 xs1,
   idleOut3, idleOut3,
   sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (not_cond3_1_of t h1) (iblk3 V c 0 t) (iblk3 V c 1 t) (iblk3 V c 2 t) (iblk3 V c 3 t) xs0 xs1,
   sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (not_cond3_1_of t h1) (iblk3 V c 0 t) (iblk3 V c 1 t) (iblk3 V c 2 t) (iblk3 V c 3 t) xs0 xs1)

/-- The last point, over what the point before left in the accumulators: outputs 5 and 6 stored. -/
def last3 (c : Dev nD) (t : Fin cfg3.N) (h0 : t.val ≠ 0) (h1 : t.val % 25 = 24) (xs0 xs1 : Vec F S1x128 .f32) : Outs3 F :=
  (out3_C_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (cond3_1_of t h1) (iblk3 V c 0 t) (iblk3 V c 1 t) (iblk3 V c 2 t) (iblk3 V c 3 t) xs0 xs1,
   out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (cond3_1_of t h1) (iblk3 V c 0 t) (iblk3 V c 1 t) (iblk3 V c 2 t) (iblk3 V c 3 t) xs0 xs1,
   out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (cond3_1_of t h1) (iblk3 V c 0 t) (iblk3 V c 1 t) (iblk3 V c 2 t) (iblk3 V c 3 t) xs0 xs1,
   sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (cond3_1_of t h1) (iblk3 V c 0 t) (iblk3 V c 1 t) (iblk3 V c 2 t) (iblk3 V c 3 t) xs0 xs1,
   sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (not_cond3_0_of t h0) (cond3_1_of t h1) (iblk3 V c 0 t) (iblk3 V c 1 t) (iblk3 V c 2 t) (iblk3 V c 3 t) xs0 xs1)

/-- THE ACCUMULATION: what the outputs' staging buffers and the two accumulators hold after the body at position `n`,
    by recursion on the position — the case of the point, the accumulators at what position `n - 1` left. -/
def outsAt3 (c : Dev nD) : (n : ℕ) → n < cfg3.N → Outs3 F
  | 0, hn => first3 V c ⟨0, hn⟩ rfl
  | n + 1, hn =>
    if h1 : (n + 1) % 25 = 24 then
      last3 V c ⟨n + 1, hn⟩ (Nat.succ_ne_zero n) h1 (outsAt3 c n (Nat.lt_of_succ_lt hn)).2.2.2.1 (outsAt3 c n (Nat.lt_of_succ_lt hn)).2.2.2.2
    else
      middle3 V c ⟨n + 1, hn⟩ (Nat.succ_ne_zero n) h1 (outsAt3 c n (Nat.lt_of_succ_lt hn)).2.2.2.1 (outsAt3 c n (Nat.lt_of_succ_lt hn)).2.2.2.2

theorem outsAt3_first (c : Dev nD) (t : Fin cfg3.N) (h0 : t.val = 0) :
    outsAt3 V c t.val t.isLt = first3 V c t h0 := by
  obtain ⟨n, hn⟩ := t
  cases n with
  | zero => rfl
  | succ n => exact absurd h0 (Nat.succ_ne_zero n)

theorem outsAt3_middle (c : Dev nD) (t : Fin cfg3.N) (h0 : t.val ≠ 0) (h1 : ¬t.val % 25 = 24) :
    outsAt3 V c t.val t.isLt = middle3 V c t h0 h1
      (outsAt3 V c (t.val - 1) (Nat.lt_of_le_of_lt (Nat.sub_le _ _) t.isLt)).2.2.2.1
      (outsAt3 V c (t.val - 1) (Nat.lt_of_le_of_lt (Nat.sub_le _ _) t.isLt)).2.2.2.2 := by
  obtain ⟨n, hn⟩ := t
  cases n with
  | zero => exact absurd rfl h0
  | succ n => exact (dif_neg h1).trans rfl

theorem outsAt3_last (c : Dev nD) (t : Fin cfg3.N) (h0 : t.val ≠ 0) (h1 : t.val % 25 = 24) :
    outsAt3 V c t.val t.isLt = last3 V c t h0 h1
      (outsAt3 V c (t.val - 1) (Nat.lt_of_le_of_lt (Nat.sub_le _ _) t.isLt)).2.2.2.1
      (outsAt3 V c (t.val - 1) (Nat.lt_of_le_of_lt (Nat.sub_le _ _) t.isLt)).2.2.2.2 := by
  obtain ⟨n, hn⟩ := t
  cases n with
  | zero => exact absurd rfl h0
  | succ n => exact (dif_pos h1).trans rfl

/-! ## The invariant -/

/-- The region invariant before position `n`: before the first point the class invariant (every scoped buffer that is
    no staging buffer at anything, the generator register at some state); afterwards the two accumulators at what the
    point before left in them, the other scoped buffers unopened, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (outsAt3 V c n hn).2.2.2.1 ∗ owns (c : Thread nD τ) scM3_1 fullShare (outsAt3 V c n hn).2.2.2.2) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (outsAt3 V c n hn).2.2.2.1 ∗ owns (c : Thread nD τ) scM3_1 fullShare (outsAt3 V c n hn).2.2.2.2) ∗ rest3 c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (outsAt3 V c (n - 1) (by omega)).2.2.2.1 ∗ owns (c : Thread nD τ) scM3_1 fullShare (outsAt3 V c (n - 1) (by omega)).2.2.2.2) ∗ rest3 c) ∗ (∃ r, prngReg c r)) := by
  cases n with
  | zero => exact absurd rfl hz
  | succ n => rfl

/-! ## The pipeline's proof data -/

/-- The proof data of the pipeline on core `c`: the arrays as the region finds them; after the body at point `t` each
    input's buffer at its block and the outputs' at `outsAt3`'s components; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
    | ⟨5, _⟩ => (outsAt3 V c t.val t.isLt).2.1
    | ⟨6, _⟩ => (outsAt3 V c t.val t.isLt).2.2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]
theorem after3_5 (c : Dev nD) (t : Fin cfg3.N) : (dat3 V c).after 5 t = (outsAt3 V c t.val t.isLt).2.1 := by dsimp only [dat3]
theorem after3_6 (c : Dev nD) (t : Fin cfg3.N) : (dat3 V c).after 6 t = (outsAt3 V c t.val t.isLt).2.2.1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4000000 in
/-- The body at any point: the inputs' memrefs hold their blocks; the point is the first, a middle one or the last, and
    that case's run applies; the invariant hands the body the two accumulators — at anything at the first point, at what
    the point before left afterwards — and takes them back at this point's contents; outputs 5 and 6 are handed back as
    found except at the last point; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  by_cases hz : t.val = 0
  · have h1 : ¬t.val % 25 = 24 := by omega
    rw [Dat.leavesExact_idle (dat3 V c) 5 t (idleAt3_5 t (not_cond3_1_of t h1)) (noFlush3_5 t (not_cond3_1_of t h1))]
    rw [Dat.leavesExact_idle (dat3 V c) 6 t (idleAt3_6 t (not_cond3_1_of t h1)) (noFlush3_6 t (not_cond3_1_of t h1))]
    rw [outsAt3_first V c t hz]
    unfold first3 out3_A_4 sout3_A_0 sout3_A_1; (try dsimp only)
    rw [PhiS3_castSucc V c t, PhiS3_zero V c _ _ hz, PhiA3_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun3_A c (grid3.coords t) _ _ _ _ _ _ _ _ _ _ _ _ _ _ _ _ _ _ (cond3_0_of t hz) (not_cond3_1_of t h1) (iblk3 V c 0 t) (iblk3 V c 1 t) (iblk3 V c 2 t) (iblk3 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover3_A_0 c _ _ _ _ _ _ _ _ _ _ _ _ _ _ _ _ _ _ _ _ _ _ _ _ _)
          unfold owns; iexists _; isplitr
          swap; · iexact HS1
          ipureintro; exact View.read_writes_of_cover _ _ _ _ _ (scover3_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover3_A_4 c _ _ _ _ _ _ _ _ _ _ _ _ _ _ _ _ _ _ _ _ _ _ _ _ _)
    isplitl [H5]; · iexists _; iexact H5
    iexists _; iexact H6
  · by_cases h1 : t.val % 25 = 24
    · rw [show (dat3 V c).leavesExact 5 t = owns (c : Thread nD τ) (ms3_5 t) fullShare ((dat3 V c).after 5 t) from by
        unfold Dat.leavesExact; rw [liveAt3_5 t (cond3_1_of t h1)], after3_5]
      rw [show (dat3 V c).leavesExact 6 t = owns (c : Thread nD τ) (ms3_6 t) fullShare ((dat3 V c).after 6 t) from by
        unfold Dat.leavesExact; rw [liveAt3_6 t (cond3_1_of t h1)], after3_6]
      rw [outsAt3_last V c t hz h1]
      unfold last3 out3_C_4 out3_C_5 out3_C_6 sout3_C_0 sout3_C_1; (try dsimp only)
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_C c (grid3.coords t) _ _ _ _ _ _ _ _ _ _ _ _ _ _ _ _ _ _ (not_cond3_0_of t hz) (cond3_1_of t h1) (iblk3 V c 0 t) (iblk3 V c 1 t) (iblk3 V c 2 t) (iblk3 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _)
            unfold owns; iexists _; isplitr
            swap; · iexact HS1
            ipureintro; exact View.read_writes_of_cover _ _ _ _ _ (scover3_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover3_C_5 c _ _ _ _ _ _ _ _ _ _ _ _ _ _ _ _ _ _ _ _ _ _ _ _ _ _ _)
      unfold owns; iexists _; isplitr
      swap; · iexact H6
      ipureintro; exact View.read_writes_of_cover _ _ _ _ _ (cover3_C_6 c _ _ _ _ _ _ _ _ _ _ _ _ _ _ _ _ _ _ _ _ _ _ _ _ _ _ _)
    · rw [Dat.leavesExact_idle (dat3 V c) 5 t (idleAt3_5 t (not_cond3_1_of t h1)) (noFlush3_5 t (not_cond3_1_of t h1))]
      rw [Dat.leavesExact_idle (dat3 V c) 6 t (idleAt3_6 t (not_cond3_1_of t h1)) (noFlush3_6 t (not_cond3_1_of t h1))]
      rw [outsAt3_middle V c t hz h1]
      unfold middle3 out3_B_4 sout3_B_0 sout3_B_1; (try dsimp only)
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_B c (grid3.coords t) _ _ _ _ _ _ _ _ _ _ _ _ _ _ _ _ _ _ (not_cond3_0_of t hz) (not_cond3_1_of t h1) (iblk3 V c 0 t) (iblk3 V c 1 t) (iblk3 V c 2 t) (iblk3 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _)
            unfold owns; iexists _; isplitr
            swap; · iexact HS1
            ipureintro; exact View.read_writes_of_cover _ _ _ _ _ (scover3_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_B_4 c _ _ _ _ _ _ _ _ _ _ _ _ _ _ _ _ _ _ _ _ _ _ _ _ _ _ _)
      isplitl [H5]; · iexists _; iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem Phi_in3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class invariant back: the accumulators' named contents are forgotten. -/
theorem Phi_out3_of (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem Phi_out3 (c : Dev nD) : (dat3 V c).Φ (Fin.last cfg3.N) ⊢ Pipeline.ΦA spec3 c :=
  Phi_out3_of V c _ (by rw [Fin.val_last]; have : cfg3.N = 25 := N_3; omega)

end Region

end Cert.KernelIdeal.Hand

end
-- ==== Proof.KIRegion4.lean ====
/- The kernel half of region 4 of the program's six kernel regions: `cc4__bn_act_matmul_kernel`, on a grid of 25 points.
   Seven input windows are loaded whole (five of them fetched at the first point only, their block index constant),
   two output windows are stored whole, nothing is carried between points. Stated at a PARAMETER `V` — the
   TensorCore's buffer contents when the region is entered — and at any float model `F`:
   each window's block at a point (`iblk4`), what the body leaves in each output's buffer as a term over the
   skeleton's payloads of the input blocks (`out4_7`, `out4_8`), the body's triple (`sound_kernel4`), the
   pipeline's proof data (`dat4`) and its body obligation (`body_obligation4`). -/
import proofs.«181351_j65970697667357_2_alg».proof.Proof.Gen.KernelIdeal.Launch
import proofs.«181351_j65970697667357_2_alg».proof.Proof.Gen.KernelIdeal.Skeleton
import proofs.«181351_j65970697667357_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 2000 rows: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (an input not
    fetched at a point has not moved its block index since the point before), for any proof data whose array is
    `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (an input not
    fetched at a point has not moved its block index since the point before), for any proof data whose array is
    `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (an input not
    fetched at a point has not moved its block index since the point before), for any proof data whose array is
    `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (an input not
    fetched at a point has not moved its block index since the point before), for any proof data whose array is
    `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (an input not
    fetched at a point has not moved its block index since the point before), for any proof data whose array is
    `V`'s and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not (an input not
    fetched at a point has not moved its block index since the point before), for any proof data whose array is
    `V`'s and whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not (an input not
    fetched at a point has not moved its block index since the point before), for any proof data whose array is
    `V`'s and whose body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

abbrev r4_S2000x128 : Rect S2000x128 := Rect.unit (s := S2000x128) ![0, 0] S2000x128.size inb_S2000x128_S2000x128_0_0
abbrev r4_S1x128 : Rect S1x128 := Rect.unit (s := S1x128) ![0, 0] S1x128.size inb_S1x128_S1x128_0_0
abbrev r4_S128x1 : Rect S128x1 := Rect.unit (s := S128x1) ![0, 0] S128x1.size inb_S128x1_S128x1_0_0
abbrev r4_S2000x1 : Rect S2000x1 := Rect.unit (s := S2000x1) ![0, 0] S2000x1.size inb_S2000x1_S2000x1_0_0

/-! ## What the body leaves in each output window's buffer -/

/-- Window 7's buffer after the body: one whole store of the first payload (the normalized, activated block times
    the weight matrix) of the input blocks. -/
def out4_7 (x0 : Vec F S2000x128 .f32) (x1 : Vec F S1x128 .f32) (x2 : Vec F S1x128 .f32) (x3 : Vec F S1x128 .f32) (x4 : Vec F S1x128 .f32) (x5 : Vec F S128x1 .bf16) : Vec F S2000x1 .f32 :=
  View.canon [⟨r4_S2000x1, k4_pay1 (View.ld x0 r4_S2000x128) (View.ld x2 r4_S1x128) (View.ld x1 r4_S1x128) (View.ld x3 r4_S1x128) (View.ld x4 r4_S1x128) (View.ld x5 r4_S128x1)⟩]

/-- Window 8's buffer after the body: one whole store of the second payload (the first, scaled row by row). -/
def out4_8 (x0 : Vec F S2000x128 .f32) (x1 : Vec F S1x128 .f32) (x2 : Vec F S1x128 .f32) (x3 : Vec F S1x128 .f32) (x4 : Vec F S1x128 .f32) (x5 : Vec F S128x1 .bf16) (x6 : Vec F S2000x1 .f32) : Vec F S2000x1 .f32 :=
  View.canon [⟨r4_S2000x1, k4_pay2 (View.ld x0 r4_S2000x128) (View.ld x2 r4_S1x128) (View.ld x1 r4_S1x128) (View.ld x3 r4_S1x128) (View.ld x4 r4_S1x128) (View.ld x5 r4_S128x1) (View.ld x6 r4_S2000x1)⟩]

/-- A whole store covers the buffer. -/
theorem cover4_out (p0 : Vec F S2000x1 .f32) (y : S2000x1.Idx) :
    ∃ pc ∈ ([⟨r4_S2000x1, p0⟩] : List (View.Piece (Elt F) S2000x1 .f32)), y ∈ pc.1.set :=
  View.cover_of_tiled [⟨r4_S2000x1, p0⟩] S2000x1.size (by rfl) y

/-! ## The body's triple -/

set_option maxHeartbeats 400000 in
/-- The kernel body on whole staging memrefs, the inputs' at read contents `xW` and the outputs' at anything, runs to
    the continuation holding the inputs' as they were and each output's at `out4_W` of the inputs'. The body also
    loads each output buffer before storing to it; what it reads there is not used. -/
theorem sound_kernel4 (c : Dev nD) (E : Set ℕ) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x1 .bf16) (harg6 : arg6.IsWhole) (arg7 : Memref sig .tc .vmem S2000x1 .f32) (harg7 : arg7.IsWhole) (arg8 : Memref sig .tc .vmem S2000x1 .f32) (harg8 : arg8.IsWhole) (arg9 : Memref sig .tc .vmem S2000x1 .f32) (harg9 : arg9.IsWhole)
    (x0 : Vec F S2000x128 .f32) (x1 : Vec F S1x128 .f32) (x2 : Vec F S1x128 .f32) (x3 : Vec F S1x128 .f32) (x4 : Vec F S1x128 .f32) (x5 : Vec F S128x1 .bf16) (x6 : Vec F S2000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out4_7 x0 x1 x2 x3 x4 x5) ∗ owns (c : Thread nD τ) arg9 fullShare (out4_8 x0 x1 x2 x3 x4 x5 x6)) -∗ K ⟨⟩))
      ⊢ wp frame (wpE (defs₀ (F := F)) Variants.none c none) E (cc4__bn_act_matmul_kernel i arg1 harg1 arg2 harg2 arg3 harg3 arg4 harg4 arg5 harg5 arg6 harg6 arg7 harg7 arg8 harg8 arg9 harg9) K := by
  sl_unfold [cc4__bn_act_matmul_kernel, k4_part1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover4_out _)
  iexists _; isplitr
  swap; · iexact H8
  ipureintro
  exact View.read_writes_eq_canon _ _ _ (cover4_out _)

/-! ## The pipeline's proof data -/

/-- The proof data of the region's pipeline on core `c`: the arrays as the region finds them (`V`); after the body at
    point `t` each input's buffer at its block and each output's at `out4_W` of the input blocks; the invariant the
    scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t)
    | ⟨8, _⟩ => out4_8 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) := by dsimp only [dat4]
theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t))

set_option maxHeartbeats 400000 in
/-- The body at any point: the inputs' memrefs hold their blocks, so the body's triple applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- The invariant is the same at every point: the region's entry resources are the invariant before the first point, -/
theorem Phi_in4 (c : Dev nD) : Pipeline.ΦA spec4 c ⊢ (dat4 V c).Φ 0 := by
  dsimp only [dat4]; exact .rfl

/-- and the invariant after the last point is the region's exit resources. -/
theorem Phi_out4 (c : Dev nD) : (dat4 V c).Φ (Fin.last cfg4.N) ⊢ Pipeline.ΦA spec4 c := by
  dsimp only [dat4]; exact .rfl

end Cert.KernelIdeal.Hand
-- ==== Proof.KIRegion5.lean ====
/- The kernel half of region 5 of the idealized program's frame: the windows' blocks as the region finds them,
   what the body leaves in each window's staging buffer, the body's triple, the pipeline's proof data at a parameter
   `V` (the TensorCore's buffer contents when the region is entered), and the body obligation at every grid point.
   The invariant is the class-A one (the scoped rest and the generator register pass through untouched). -/
import proofs.«181351_j65970697667357_2_alg».proof.Proof.Gen.KernelIdeal.Launch
import proofs.«181351_j65970697667357_2_alg».proof.Proof.Gen.KernelIdeal.Skeleton
import proofs.«181351_j65970697667357_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 5: `cc5__finalize_kernel`, at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block index
    has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof
    data whose array is `V`'s (`hA`) and whose body leaves the block in place (`hafter`): unfetched, the block index
    has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof
    data whose array is `V`'s (`hA`) and whose body leaves the block in place (`hafter`): unfetched, the block index
    has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof
    data whose array is `V`'s (`hA`) and whose body leaves the block in place (`hafter`): unfetched, the block index
    has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each memref whole -/

abbrev r5_col : Rect S2000x1 := Rect.unit (s := S2000x1) ![0, 0] S2000x1.size inb_S2000x1_S2000x1_0_0
abbrev r5_one : Rect S1x1 := Rect.unit (s := S1x1) ![0, 0] S1x1.size inb_S1x1_S1x1_0_0

/-! ## What the body leaves in the output window's buffer -/

/-- Window 4's staging buffer after the body, from the input windows' blocks: its one whole-buffer store, whose
    payload is `k5_pay1` of what the loads read of windows 2, 0, 1 and 3 (in the order the body reads them). -/
def out5_4 (x0 x1 x2 : Vec F S2000x1 .f32) (x3 : Vec F S1x1 .f32) : Vec F S2000x1 .f32 :=
  View.canon [⟨r5_col, k5_pay1 (View.ld x2 r5_col) (View.ld x0 r5_col) (View.ld x1 r5_col) (View.ld x3 r5_one)⟩]

/-- The store tiles the buffer (checked by evaluation), so it covers it. -/
theorem cover5_4 (p0 : Vec F S2000x1 .f32) (y : S2000x1.Idx) :
    ∃ pc ∈ ([⟨r5_col, p0⟩] : List (View.Piece (Elt F) S2000x1 .f32)), y ∈ pc.1.set :=
  View.cover_of_tiled [⟨r5_col, p0⟩] S2000x1.size (by rfl) y

/-! ## The body's triple -/

set_option maxHeartbeats 400000 in
/-- The kernel body on whole staging memrefs, the inputs' at read contents `xW` and the output's at anything, runs to
    the continuation holding the inputs' as they were and the output's at `out5_4` of the inputs'. -/
theorem sound_kernel5 (c : Dev nD) (E : Set ℕ) (i : grid5.Coords)
    (arg1 : Memref sig .tc .vmem S2000x1 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S1x1 .f32) (harg4 : arg4.IsWhole)
    (arg5 : Memref sig .tc .vmem S2000x1 .f32) (harg5 : arg5.IsWhole)
    (x0 x1 x2 : Vec F S2000x1 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out5_4 x0 x1 x2 x3)) -∗ K ⟨⟩))
      ⊢ wp frame (wpE (defs₀ (F := F)) Variants.none c none) E (cc5__finalize_kernel i arg1 harg1 arg2 harg2 arg3 harg3 arg4 harg4 arg5 harg5) K := by
  simp only [cc5__finalize_kernel_eq_skeleton]; unfold cc5__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays as the region finds them (`V`); after the body at point `t`
    each input's buffer at its block and the output's at `out5_4` of the input blocks; the class-A invariant; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the invariant
    and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's ends -/

/-- The class-A invariant is the proof data's at the first boundary, -/
theorem Phi_in5 (c : Dev nD) : Pipeline.ΦA spec5 c ⊢ (dat5 V c).Φ 0 := .rfl

/-- and at the last. -/
theorem Phi_out5 (c : Dev nD) : (dat5 V c).Φ (Fin.last cfg5.N) ⊢ Pipeline.ΦA spec5 c := .rfl

end Cert.KernelIdeal.Hand

end
-- ==== Proof.KIRun.lean ====
/-
  The run of @main's ten items — four stretches of host operations and six kernel regions — as one chain of thread
  states: between two items core c holds every unscoped buffer at a named valuation, W0 (the launch memory), then
  the fold of each host stretch over it, then, after a region, its windows' arrays at what the region's write-backs
  leave and every other buffer untouched. Each region contributes its pipeline's proof data at the contents it is
  entered from; the launch theorem for several regions then gives: every weakly fair execution ends, faults nowhere,
  and the final memory is the last valuation W10. From W10 the twelve argument arrays are read back to the launch
  memory (no host operation and no region writes one) and the result buffer to the last region's output array.
-/
import proofs.«181351_j65970697667357_2_alg».proof.Proof.Gen.KernelIdeal.Regions
import proofs.«181351_j65970697667357_2_alg».proof.Proof.KIRegion0
import proofs.«181351_j65970697667357_2_alg».proof.Proof.KIRegion1
import proofs.«181351_j65970697667357_2_alg».proof.Proof.KIRegion2
import proofs.«181351_j65970697667357_2_alg».proof.Proof.KIRegion3
import proofs.«181351_j65970697667357_2_alg».proof.Proof.KIRegion4
import proofs.«181351_j65970697667357_2_alg».proof.Proof.KIRegion5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host stretch hostOps0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its windows' arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- An input window's array leaves region 0 as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch hostOps1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its windows' arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
/-- An input window's array leaves region 1 as it entered it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- At region 2's exit: its windows' arrays at what the write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
/-- An input window's array leaves region 2 as it entered it. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (A_eq2 (V4 m ρ) c w))
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the host stretch hostOps3. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- At region 3's exit: its windows' arrays at what the write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
/-- An input window's array leaves region 3 as it entered it. -/
theorem W7_in (c : Dev nD) (w : Fin cfg3.W) (hw : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hw _).trans (A_eq3 (V6 m ρ) c w))
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- At region 4's exit: its windows' arrays at what the write-backs leave, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
/-- An input window's array leaves region 4 as it entered it. -/
theorem W8_in (c : Dev nD) (w : Fin cfg4.W) (hw : (cfg4.win w).isOut = false) :
    W8 m ρ c (Proc.devRef .tc (Pipeline.arrRef spec4 w)) = W7 m ρ c (Proc.devRef .tc (Pipeline.arrRef spec4 w)) :=
  (W8_arr m ρ c w).trans (((dat4 (V7 m ρ) c).arrAt_in w hw _).trans (A_eq4 (V7 m ρ) c w))
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- After the host stretch hostOps5. -/
abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
/-- At region 5's exit: its windows' arrays at what the write-backs leave, every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
/-- An input window's array leaves region 5 as it entered it. -/
theorem W10_in (c : Dev nD) (w : Fin cfg5.W) (hw : (cfg5.win w).isOut = false) :
    W10 m ρ c (Proc.devRef .tc (Pipeline.arrRef spec5 w)) = W9 m ρ c (Proc.devRef .tc (Pipeline.arrRef spec5 w)) :=
  (W10_arr m ρ c w).trans (((dat5 (V9 m ρ) c).arrAt_in w hw _).trans (A_eq5 (V9 m ρ) c w))
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)

/-! ## The arguments end as launched -/

theorem host_keeps (ops : List (HloOp τ sig (Elt F))) (Wl : List (Ref sig .tc)) (W : Valuation τ sig (Elt F))
    (hw : ops.Forall fun op => op.writes ⊆ (Wl.map (Proc.devRef (τ := τ) .tc)).toFinset) (r : Ref sig .tc) (h : r ∉ Wl) :
    StableHlo.after ops W (Proc.devRef .tc r) = W (Proc.devRef .tc r) :=
  StableHlo.after_of_writes_sub ops _ hw h

theorem W10_main_arg0 (c : Dev nD) : W10 m ρ c (Proc.devRef .tc main_arg0) = m ((c : Thread nD τ).loc main_arg0) :=
  (W10_of_ne m ρ c main_arg0 (by decide)).trans <| (host_keeps hostOps5 hostOps5_W _ hostOps5_writes main_arg0 (by decide)).trans <|
  (W8_of_ne m ρ c main_arg0 (by decide)).trans <| (W7_of_ne m ρ c main_arg0 (by decide)).trans <| (host_keeps hostOps3 hostOps3_W _ hostOps3_writes main_arg0 (by decide)).trans <|
  (W5_of_ne m ρ c main_arg0 (by decide)).trans <| (W4_of_ne m ρ c main_arg0 (by decide)).trans <| (host_keeps hostOps1 hostOps1_W _ hostOps1_writes main_arg0 (by decide)).trans <|
  ((W2_arr m ρ c 0).trans (((dat0 (V1 m ρ) c).arrAt_in 0 rfl _).trans (A_eq0 (V1 m ρ) c 0))).trans <|
  (host_keeps hostOps0 hostOps0_W _ hostOps0_writes main_arg0 (by decide)).trans rfl
theorem W10_main_arg1 (c : Dev nD) : W10 m ρ c (Proc.devRef .tc main_arg1) = m ((c : Thread nD τ).loc main_arg1) :=
  (W10_of_ne m ρ c main_arg1 (by decide)).trans <| (host_keeps hostOps5 hostOps5_W _ hostOps5_writes main_arg1 (by decide)).trans <|
  (W8_of_ne m ρ c main_arg1 (by decide)).trans <| (W7_of_ne m ρ c main_arg1 (by decide)).trans <| (host_keeps hostOps3 hostOps3_W _ hostOps3_writes main_arg1 (by decide)).trans <|
  (W5_of_ne m ρ c main_arg1 (by decide)).trans <| (W4_of_ne m ρ c main_arg1 (by decide)).trans <| (host_keeps hostOps1 hostOps1_W _ hostOps1_writes main_arg1 (by decide)).trans <|
  (W2_of_ne m ρ c main_arg1 (by decide)).trans <|
  (host_keeps hostOps0 hostOps0_W _ hostOps0_writes main_arg1 (by decide)).trans rfl
theorem W10_main_arg2 (c : Dev nD) : W10 m ρ c (Proc.devRef .tc main_arg2) = m ((c : Thread nD τ).loc main_arg2) :=
  (W10_of_ne m ρ c main_arg2 (by decide)).trans <| (host_keeps hostOps5 hostOps5_W _ hostOps5_writes main_arg2 (by decide)).trans <|
  (W8_of_ne m ρ c main_arg2 (by decide)).trans <| (W7_of_ne m ρ c main_arg2 (by decide)).trans <| (host_keeps hostOps3 hostOps3_W _ hostOps3_writes main_arg2 (by decide)).trans <|
  (W5_of_ne m ρ c main_arg2 (by decide)).trans <| (W4_of_ne m ρ c main_arg2 (by decide)).trans <| (host_keeps hostOps1 hostOps1_W _ hostOps1_writes main_arg2 (by decide)).trans <|
  (W2_of_ne m ρ c main_arg2 (by decide)).trans <|
  (host_keeps hostOps0 hostOps0_W _ hostOps0_writes main_arg2 (by decide)).trans rfl
theorem W10_main_arg3 (c : Dev nD) : W10 m ρ c (Proc.devRef .tc main_arg3) = m ((c : Thread nD τ).loc main_arg3) :=
  (W10_of_ne m ρ c main_arg3 (by decide)).trans <| (host_keeps hostOps5 hostOps5_W _ hostOps5_writes main_arg3 (by decide)).trans <|
  (W8_of_ne m ρ c main_arg3 (by decide)).trans <| (W7_of_ne m ρ c main_arg3 (by decide)).trans <| (host_keeps hostOps3 hostOps3_W _ hostOps3_writes main_arg3 (by decide)).trans <|
  (W5_of_ne m ρ c main_arg3 (by decide)).trans <| (W4_of_ne m ρ c main_arg3 (by decide)).trans <| (host_keeps hostOps1 hostOps1_W _ hostOps1_writes main_arg3 (by decide)).trans <|
  (W2_of_ne m ρ c main_arg3 (by decide)).trans <|
  (host_keeps hostOps0 hostOps0_W _ hostOps0_writes main_arg3 (by decide)).trans rfl
theorem W10_main_arg4 (c : Dev nD) : W10 m ρ c (Proc.devRef .tc main_arg4) = m ((c : Thread nD τ).loc main_arg4) :=
  (W10_of_ne m ρ c main_arg4 (by decide)).trans <| (host_keeps hostOps5 hostOps5_W _ hostOps5_writes main_arg4 (by decide)).trans <|
  (W8_of_ne m ρ c main_arg4 (by decide)).trans <| (W7_of_ne m ρ c main_arg4 (by decide)).trans <| (host_keeps hostOps3 hostOps3_W _ hostOps3_writes main_arg4 (by decide)).trans <|
  (W5_of_ne m ρ c main_arg4 (by decide)).trans <| (W4_of_ne m ρ c main_arg4 (by decide)).trans <| (host_keeps hostOps1 hostOps1_W _ hostOps1_writes main_arg4 (by decide)).trans <|
  (W2_of_ne m ρ c main_arg4 (by decide)).trans <|
  (host_keeps hostOps0 hostOps0_W _ hostOps0_writes main_arg4 (by decide)).trans rfl
theorem W10_main_arg5 (c : Dev nD) : W10 m ρ c (Proc.devRef .tc main_arg5) = m ((c : Thread nD τ).loc main_arg5) :=
  (W10_of_ne m ρ c main_arg5 (by decide)).trans <| (host_keeps hostOps5 hostOps5_W _ hostOps5_writes main_arg5 (by decide)).trans <|
  (W8_of_ne m ρ c main_arg5 (by decide)).trans <| (W7_of_ne m ρ c main_arg5 (by decide)).trans <| (host_keeps hostOps3 hostOps3_W _ hostOps3_writes main_arg5 (by decide)).trans <|
  (W5_of_ne m ρ c main_arg5 (by decide)).trans <| (W4_of_ne m ρ c main_arg5 (by decide)).trans <| (host_keeps hostOps1 hostOps1_W _ hostOps1_writes main_arg5 (by decide)).trans <|
  (W2_of_ne m ρ c main_arg5 (by decide)).trans <|
  (host_keeps hostOps0 hostOps0_W _ hostOps0_writes main_arg5 (by decide)).trans rfl
theorem W10_main_arg6 (c : Dev nD) : W10 m ρ c (Proc.devRef .tc main_arg6) = m ((c : Thread nD τ).loc main_arg6) :=
  (W10_of_ne m ρ c main_arg6 (by decide)).trans <| (host_keeps hostOps5 hostOps5_W _ hostOps5_writes main_arg6 (by decide)).trans <|
  (W8_of_ne m ρ c main_arg6 (by decide)).trans <| (W7_of_ne m ρ c main_arg6 (by decide)).trans <| (host_keeps hostOps3 hostOps3_W _ hostOps3_writes main_arg6 (by decide)).trans <|
  (W5_of_ne m ρ c main_arg6 (by decide)).trans <| (W4_of_ne m ρ c main_arg6 (by decide)).trans <| (host_keeps hostOps1 hostOps1_W _ hostOps1_writes main_arg6 (by decide)).trans <|
  (W2_of_ne m ρ c main_arg6 (by decide)).trans <|
  (host_keeps hostOps0 hostOps0_W _ hostOps0_writes main_arg6 (by decide)).trans rfl
theorem W10_main_arg7 (c : Dev nD) : W10 m ρ c (Proc.devRef .tc main_arg7) = m ((c : Thread nD τ).loc main_arg7) :=
  (W10_of_ne m ρ c main_arg7 (by decide)).trans <| (host_keeps hostOps5 hostOps5_W _ hostOps5_writes main_arg7 (by decide)).trans <|
  (W8_of_ne m ρ c main_arg7 (by decide)).trans <| (W7_of_ne m ρ c main_arg7 (by decide)).trans <| (host_keeps hostOps3 hostOps3_W _ hostOps3_writes main_arg7 (by decide)).trans <|
  (W5_of_ne m ρ c main_arg7 (by decide)).trans <| (W4_of_ne m ρ c main_arg7 (by decide)).trans <| (host_keeps hostOps1 hostOps1_W _ hostOps1_writes main_arg7 (by decide)).trans <|
  (W2_of_ne m ρ c main_arg7 (by decide)).trans <|
  (host_keeps hostOps0 hostOps0_W _ hostOps0_writes main_arg7 (by decide)).trans rfl
theorem W10_main_arg8 (c : Dev nD) : W10 m ρ c (Proc.devRef .tc main_arg8) = m ((c : Thread nD τ).loc main_arg8) :=
  (W10_of_ne m ρ c main_arg8 (by decide)).trans <| (host_keeps hostOps5 hostOps5_W _ hostOps5_writes main_arg8 (by decide)).trans <|
  (W8_of_ne m ρ c main_arg8 (by decide)).trans <| (W7_of_ne m ρ c main_arg8 (by decide)).trans <| (host_keeps hostOps3 hostOps3_W _ hostOps3_writes main_arg8 (by decide)).trans <|
  (W5_of_ne m ρ c main_arg8 (by decide)).trans <| (W4_of_ne m ρ c main_arg8 (by decide)).trans <| (host_keeps hostOps1 hostOps1_W _ hostOps1_writes main_arg8 (by decide)).trans <|
  (W2_of_ne m ρ c main_arg8 (by decide)).trans <|
  (host_keeps hostOps0 hostOps0_W _ hostOps0_writes main_arg8 (by decide)).trans rfl
theorem W10_main_arg9 (c : Dev nD) : W10 m ρ c (Proc.devRef .tc main_arg9) = m ((c : Thread nD τ).loc main_arg9) :=
  (W10_of_ne m ρ c main_arg9 (by decide)).trans <| (host_keeps hostOps5 hostOps5_W _ hostOps5_writes main_arg9 (by decide)).trans <|
  (W8_of_ne m ρ c main_arg9 (by decide)).trans <| (W7_of_ne m ρ c main_arg9 (by decide)).trans <| (host_keeps hostOps3 hostOps3_W _ hostOps3_writes main_arg9 (by decide)).trans <|
  (W5_of_ne m ρ c main_arg9 (by decide)).trans <| (W4_of_ne m ρ c main_arg9 (by decide)).trans <| (host_keeps hostOps1 hostOps1_W _ hostOps1_writes main_arg9 (by decide)).trans <|
  (W2_of_ne m ρ c main_arg9 (by decide)).trans <|
  (host_keeps hostOps0 hostOps0_W _ hostOps0_writes main_arg9 (by decide)).trans rfl
theorem W10_main_arg10 (c : Dev nD) : W10 m ρ c (Proc.devRef .tc main_arg10) = m ((c : Thread nD τ).loc main_arg10) :=
  (W10_of_ne m ρ c main_arg10 (by decide)).trans <| (host_keeps hostOps5 hostOps5_W _ hostOps5_writes main_arg10 (by decide)).trans <|
  (W8_of_ne m ρ c main_arg10 (by decide)).trans <| (W7_of_ne m ρ c main_arg10 (by decide)).trans <| (host_keeps hostOps3 hostOps3_W _ hostOps3_writes main_arg10 (by decide)).trans <|
  (W5_of_ne m ρ c main_arg10 (by decide)).trans <| (W4_of_ne m ρ c main_arg10 (by decide)).trans <| (host_keeps hostOps1 hostOps1_W _ hostOps1_writes main_arg10 (by decide)).trans <|
  (W2_of_ne m ρ c main_arg10 (by decide)).trans <|
  (host_keeps hostOps0 hostOps0_W _ hostOps0_writes main_arg10 (by decide)).trans rfl
theorem W10_main_arg11 (c : Dev nD) : W10 m ρ c (Proc.devRef .tc main_arg11) = m ((c : Thread nD τ).loc main_arg11) :=
  (W10_of_ne m ρ c main_arg11 (by decide)).trans <| (host_keeps hostOps5 hostOps5_W _ hostOps5_writes main_arg11 (by decide)).trans <|
  (W8_of_ne m ρ c main_arg11 (by decide)).trans <| (W7_of_ne m ρ c main_arg11 (by decide)).trans <| (host_keeps hostOps3 hostOps3_W _ hostOps3_writes main_arg11 (by decide)).trans <|
  (W5_of_ne m ρ c main_arg11 (by decide)).trans <| (W4_of_ne m ρ c main_arg11 (by decide)).trans <| (host_keeps hostOps1 hostOps1_W _ hostOps1_writes main_arg11 (by decide)).trans <|
  (W2_of_ne m ρ c main_arg11 (by decide)).trans <|
  (host_keeps hostOps0 hostOps0_W _ hostOps0_writes main_arg11 (by decide)).trans rfl

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its owes, at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered from every unscoped buffer at W1, left at W2. Its windows' arrays are split
    out of the unscoped buffers and put back at the exit contents; the generator register goes into the pipeline's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec0 c ∗ ∃ r, prngReg c r) ⊢ (pdats m ρ 0 c).Φ 0 := by
      have h' := Phi_in0 (V1 m ρ) c; unfold Pipeline.ΦA at h'; exact h'
    iintro ⟨Hp, -, Hr⟩
    iapply h
    isplitl [Hr]; · iexact Hr
    iexact Hp
  hout c := by
    rw [Pipeline.ownSems0_none]
    have h : (pdats m ρ 0 c).Φ (Fin.last _) ⊢ iprop(Pipeline.scopedRest spec0 c ∗ ∃ r, prngReg c r) := by
      have h' := Phi_out0 (V1 m ρ) c; unfold Pipeline.ΦA at h'; exact h'
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its windows' arrays are split
    out of the unscoped buffers and put back at the exit contents; the generator register goes into the pipeline's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec1 c ∗ ∃ r, prngReg c r) ⊢ (pdats m ρ 1 c).Φ 0 := by
      have h' := Phi_in1 (V3 m ρ) c; unfold Pipeline.ΦA at h'; exact h'
    iintro ⟨Hp, -, Hr⟩
    iapply h
    isplitl [Hr]; · iexact Hr
    iexact Hp
  hout c := by
    rw [Pipeline.ownSems0_none]
    have h : (pdats m ρ 1 c).Φ (Fin.last _) ⊢ iprop(Pipeline.scopedRest spec1 c ∗ ∃ r, prngReg c r) := by
      have h' := Phi_out1 (V3 m ρ) c; unfold Pipeline.ΦA at h'; exact h'
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W4, left at W5. Its windows' arrays are split
    out of the unscoped buffers and put back at the exit contents; the generator register goes into the pipeline's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec2 c ∗ ∃ r, prngReg c r) ⊢ (pdats m ρ 2 c).Φ 0 := by
      have h' := Phi_in2 (V4 m ρ) c; unfold Pipeline.ΦA at h'; exact h'
    iintro ⟨Hp, -, Hr⟩
    iapply h
    isplitl [Hr]; · iexact Hr
    iexact Hp
  hout c := by
    rw [Pipeline.ownSems0_none]
    have h : (pdats m ρ 2 c).Φ (Fin.last _) ⊢ iprop(Pipeline.scopedRest spec2 c ∗ ∃ r, prngReg c r) := by
      have h' := Phi_out2 (V4 m ρ) c; unfold Pipeline.ΦA at h'; exact h'
    refine h.trans ?_
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W6, left at W7. Its windows' arrays are split
    out of the unscoped buffers and put back at the exit contents; the generator register goes into the pipeline's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec3 c ∗ ∃ r, prngReg c r) ⊢ (pdats m ρ 3 c).Φ 0 := by
      have h' := Phi_in3 (V6 m ρ) c; unfold Pipeline.ΦA at h'; exact h'
    iintro ⟨Hp, -, Hr⟩
    iapply h
    isplitl [Hr]; · iexact Hr
    iexact Hp
  hout c := by
    rw [Pipeline.ownSems0_none]
    have h : (pdats m ρ 3 c).Φ (Fin.last _) ⊢ iprop(Pipeline.scopedRest spec3 c ∗ ∃ r, prngReg c r) := by
      have h' := Phi_out3 (V6 m ρ) c; unfold Pipeline.ΦA at h'; exact h'
    refine h.trans ?_
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W7, left at W8. Its windows' arrays are split
    out of the unscoped buffers and put back at the exit contents; the generator register goes into the pipeline's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec4 c ∗ ∃ r, prngReg c r) ⊢ (pdats m ρ 4 c).Φ 0 := by
      have h' := Phi_in4 (V7 m ρ) c; unfold Pipeline.ΦA at h'; exact h'
    iintro ⟨Hp, -, Hr⟩
    iapply h
    isplitl [Hr]; · iexact Hr
    iexact Hp
  hout c := by
    rw [Pipeline.ownSems0_none]
    have h : (pdats m ρ 4 c).Φ (Fin.last _) ⊢ iprop(Pipeline.scopedRest spec4 c ∗ ∃ r, prngReg c r) := by
      have h' := Phi_out4 (V7 m ρ) c; unfold Pipeline.ΦA at h'; exact h'
    refine h.trans ?_
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at W9, left at W10. Its windows' arrays are split
    out of the unscoped buffers and put back at the exit contents; the generator register goes into the pipeline's
    invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec5 c ∗ ∃ r, prngReg c r) ⊢ (pdats m ρ 5 c).Φ 0 := by
      have h' := Phi_in5 (V9 m ρ) c; unfold Pipeline.ΦA at h'; exact h'
    iintro ⟨Hp, -, Hr⟩
    iapply h
    isplitl [Hr]; · iexact Hr
    iexact Hp
  hout c := by
    rw [Pipeline.ownSems0_none]
    have h : (pdats m ρ 5 c).Φ (Fin.last _) ⊢ iprop(Pipeline.scopedRest spec5 c ∗ ∃ r, prngReg c r) := by
      have h' := Phi_out5 (V9 m ρ) c; unfold Pipeline.ΦA at h'; exact h'
    refine h.trans ?_
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last region's exit state is the last thread state beside the core owing nothing (the same three resources, regrouped). -/
theorem last_state (c : Dev nD) :
    iprop(StableHlo.held (c : Thread nD τ) (Pipeline.ucRefs τ sig) (W10 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## @main as segments, and the launch -/

/-- @main's ten items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ) ]
/-- @main is the run of the segments. -/
theorem main_run (c : Dev nD) : main (F := F) c = Pipeline.Seg.run (segs m ρ) := (main_chain c).trans (by chain_rfl)

set_option backward.isDefEq.respectTransparency.types false in
/-- Every weakly fair execution of @main from memory m with zero counters terminates, nothing faulting, and the final
    memory holds, on every core, every unscoped buffer at the last valuation W10. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The run with the result named: every execution ends with the result buffer at the last valuation's contents and every
    argument array as launched. -/
theorem run_result : θ_run defs (onTc (τ := τ) (main (F := F))) ⟨m, fun _ => 0, ρ⟩ (fun r => ∀ c : Dev nD,
      r.2.mem ((c.tc : Thread nD τ).loc main_v62) = W10 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v62 (by decide)),
      (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c),
      (h c _ (mem_uc main_arg9 (by decide))).trans (W10_main_arg9 m ρ c),
      (h c _ (mem_uc main_arg10 (by decide))).trans (W10_main_arg10 m ρ c),
      (h c _ (mem_uc main_arg11 (by decide))).trans (W10_main_arg11 m ρ c)⟩) (run_all m ρ)

/-- The frame: every execution ends, faults nowhere, and leaves the twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.KernelIdeal.Hand

end
-- ==== Proof.RefOps.lean ====
import proofs.«181351_j65970697667357_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the reference's window 0 (operations 1 … 60 of the whole line), in order. -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x00000000#32),
    unary main_cst main_v5 (broadcastInDim S50000 ![] bcast_S_S50000 : (⟨S_, .f32⟩ : BufTy).Contents (Elt F) → (⟨S50000, .f32⟩ : BufTy).Contents (Elt F)),
    nullary main_c (constantI S_ 32 0#32),
    unary main_c main_v6 (broadcastInDim S800000 ![] bcast_S_S800000 : (⟨S_, .i32⟩ : BufTy).Contents (Elt F) → (⟨S800000, .i32⟩ : BufTy).Contents (Elt F)),
    binary main_v3 main_v6 main_v7 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v8 (broadcastInDim S800000 ![] bcast_S_S800000 : (⟨S_, .i32⟩ : BufTy).Contents (Elt F) → (⟨S800000, .i32⟩ : BufTy).Contents (Elt F)),
    binary main_v3 main_v8 main_v9 (addi : (⟨S800000, .i32⟩ : BufTy).Contents (Elt F) → (⟨S800000, .i32⟩ : BufTy).Contents (Elt F) → (⟨S800000, .i32⟩ : BufTy).Contents (Elt F)),
    ternary main_v7 main_v9 main_v3 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v10 main_v11 (broadcastInDim S800000x1 ![0] bcast_S800000_S800000x1_0 : (⟨S800000, .i32⟩ : BufTy).Contents (Elt F) → (⟨S800000x1, .i32⟩ : BufTy).Contents (Elt F)),
    nullary main_cst_1 (constant S_ .f32 0x3F800000#32),
    unary main_cst_1 main_v12 (broadcastInDim S800000 ![] bcast_S_S800000 : (⟨S_, .f32⟩ : BufTy).Contents (Elt F) → (⟨S800000, .f32⟩ : BufTy).Contents (Elt F)),
    ternary main_v5 main_v11 main_v12 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v13 main_v14 main_v15 (addf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_c_3 (constantI S_ 32 0#32),
    unary main_c_3 main_v17 (broadcastInDim S800000 ![] bcast_S_S800000 : (⟨S_, .i32⟩ : BufTy).Contents (Elt F) → (⟨S800000, .i32⟩ : BufTy).Contents (Elt F)),
    binary main_v1 main_v17 main_v18 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v19 (broadcastInDim S800000 ![] bcast_S_S800000 : (⟨S_, .i32⟩ : BufTy).Contents (Elt F) → (⟨S800000, .i32⟩ : BufTy).Contents (Elt F)),
    binary main_v1 main_v19 main_v20 (addi : (⟨S800000, .i32⟩ : BufTy).Contents (Elt F) → (⟨S800000, .i32⟩ : BufTy).Contents (Elt F) → (⟨S800000, .i32⟩ : BufTy).Contents (Elt F)),
    ternary main_v18 main_v20 main_v1 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v21 main_v22 (broadcastInDim S800000x1 ![0] bcast_S800000_S800000x1_0 : (⟨S800000, .i32⟩ : BufTy).Contents (Elt F) → (⟨S800000x1, .i32⟩ : BufTy).Contents (Elt F)),
    binary main_v16 main_v22 main_v23 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_5 (constantI S_ 32 0#32),
    unary main_c_5 main_v24 (broadcastInDim S800000 ![] bcast_S_S800000 : (⟨S_, .i32⟩ : BufTy).Contents (Elt F) → (⟨S800000, .i32⟩ : BufTy).Contents (Elt F)),
    binary main_v3 main_v24 main_v25 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v26 (broadcastInDim S800000 ![] bcast_S_S800000 : (⟨S_, .i32⟩ : BufTy).Contents (Elt F) → (⟨S800000, .i32⟩ : BufTy).Contents (Elt F)),
    binary main_v3 main_v26 main_v27 (addi : (⟨S800000, .i32⟩ : BufTy).Contents (Elt F) → (⟨S800000, .i32⟩ : BufTy).Contents (Elt F) → (⟨S800000, .i32⟩ : BufTy).Contents (Elt F)),
    ternary main_v25 main_v27 main_v3 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v28 main_v29 (broadcastInDim S800000x1 ![0] bcast_S800000_S800000x1_0 : (⟨S800000, .i32⟩ : BufTy).Contents (Elt F) → (⟨S800000x1, .i32⟩ : BufTy).Contents (Elt F)),
    binary main_v16 main_v29 main_v30 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v23 main_v30 main_v31 (mulf : (⟨S800000, .f32⟩ : BufTy).Contents (Elt F) → (⟨S800000, .f32⟩ : BufTy).Contents (Elt F) → (⟨S800000, .f32⟩ : BufTy).Contents (Elt F)),
    unary main_v31 main_v32 (broadcastInDim S800000x1 ![0] bcast_S800000_S800000x1_0 : (⟨S800000, .f32⟩ : BufTy).Contents (Elt F) → (⟨S800000x1, .f32⟩ : BufTy).Contents (Elt F)),
    nullary main_c_7 (constantI S_ 32 0#32),
    unary main_c_7 main_v33 (broadcastInDim S800000 ![] bcast_S_S800000 : (⟨S_, .i32⟩ : BufTy).Contents (Elt F) → (⟨S800000, .i32⟩ : BufTy).Contents (Elt F)),
    binary main_v1 main_v33 main_v34 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v35 (broadcastInDim S800000 ![] bcast_S_S800000 : (⟨S_, .i32⟩ : BufTy).Contents (Elt F) → (⟨S800000, .i32⟩ : BufTy).Contents (Elt F)),
    binary main_v1 main_v35 main_v36 (addi : (⟨S800000, .i32⟩ : BufTy).Contents (Elt F) → (⟨S800000, .i32⟩ : BufTy).Contents (Elt F) → (⟨S800000, .i32⟩ : BufTy).Contents (Elt F)),
    ternary main_v34 main_v36 main_v1 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v37 main_v38 (broadcastInDim S800000x1 ![0] bcast_S800000_S800000x1_0 : (⟨S800000, .i32⟩ : BufTy).Contents (Elt F) → (⟨S800000x1, .i32⟩ : BufTy).Contents (Elt F)),
    binary main_v4 main_v38 main_v39 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v32 main_v40 (broadcastInDim S800000x128 ![0, 1] bcast_S800000x1_S800000x128_0_1 : (⟨S800000x1, .f32⟩ : BufTy).Contents (Elt F) → (⟨S800000x128, .f32⟩ : BufTy).Contents (Elt F)),
    binary main_v39 main_v40 main_v41 (mulf : (⟨S800000x128, .f32⟩ : BufTy).Contents (Elt F) → (⟨S800000x128, .f32⟩ : BufTy).Contents (Elt F) → (⟨S800000x128, .f32⟩ : BufTy).Contents (Elt F)),
    nullary main_cst_9 (constant S_ .f32 0x00000000#32),
    unary main_cst_9 main_v42 (broadcastInDim S50000x128 ![] bcast_S_S50000x128 : (⟨S_, .f32⟩ : BufTy).Contents (Elt F) → (⟨S50000x128, .f32⟩ : BufTy).Contents (Elt F)),
    unary main_v3 main_v43 (broadcastInDim S800000x1 ![0] bcast_S800000_S800000x1_0 : (⟨S800000, .i32⟩ : BufTy).Contents (Elt F) → (⟨S800000x1, .i32⟩ : BufTy).Contents (Elt F)),
    ternary main_v42 main_v43 main_v41 main_v44 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_10 (constant S_ .f32 0x3F800000#32),
    unary main_cst_10 main_v45 (broadcastInDim S50000 ![] bcast_S_S50000 : (⟨S_, .f32⟩ : BufTy).Contents (Elt F) → (⟨S50000, .f32⟩ : BufTy).Contents (Elt F)),
    binary main_v45 main_v15 main_v46 (Host.divf : (⟨S50000, .f32⟩ : BufTy).Contents (Elt F) → (⟨S50000, .f32⟩ : BufTy).Contents (Elt F) → (⟨S50000, .f32⟩ : BufTy).Contents (Elt F)) ]

/-- The buffers window 0's operations write, in order. -/
abbrev ops0_W : List (Ref sig .tc) :=
  [main_v0, main_v1, main_v2, main_v3, main_v4, main_cst, main_v5, main_c, main_v6, main_v7, main_c_0, main_v8, main_v9, main_v10, main_v11, main_cst_1, main_v12, main_v13, main_cst_2, main_v14, main_v15, main_v16, main_c_3, main_v17, main_v18, main_c_4, main_v19, main_v20, main_v21, main_v22, main_v23, main_c_5, main_v24, main_v25, main_c_6, main_v26, main_v27, main_v28, main_v29, main_v30, main_v31, main_v32, main_c_7, main_v33, main_v34, main_c_8, main_v35, main_v36, main_v37, main_v38, main_v39, main_v40, main_v41, main_cst_9, main_v42, main_v43, main_v44, main_cst_10, main_v45, main_v46]

/-- The operations of the reference's window 1 (operations 61 … 126 of the whole line), in order. -/
abbrev ops1 : List (HloOp τ sig (Elt F)) :=
  [ unary main_v46 main_v47 (broadcastInDim S50000x1 ![0] bcast_S50000_S50000x1_0 : (⟨S50000, .f32⟩ : BufTy).Contents (Elt F) → (⟨S50000x1, .f32⟩ : BufTy).Contents (Elt F)),
    unary main_v47 main_v48 (broadcastInDim S50000x128 ![0, 1] bcast_S50000x1_S50000x128_0_1 : (⟨S50000x1, .f32⟩ : BufTy).Contents (Elt F) → (⟨S50000x128, .f32⟩ : BufTy).Contents (Elt F)),
    binary main_v4 main_v48 main_v49 (mulf : (⟨S50000x128, .f32⟩ : BufTy).Contents (Elt F) → (⟨S50000x128, .f32⟩ : BufTy).Contents (Elt F) → (⟨S50000x128, .f32⟩ : BufTy).Contents (Elt F)),
    binary main_v44 main_v49 main_v50 (addf : (⟨S50000x128, .f32⟩ : BufTy).Contents (Elt F) → (⟨S50000x128, .f32⟩ : BufTy).Contents (Elt F) → (⟨S50000x128, .f32⟩ : BufTy).Contents (Elt F)),
    unary main_arg3 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v53 main_cst_11 main_v54 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v55 (broadcastInDim S128 ![] bcast_S_S128 : (⟨S_, .f32⟩ : BufTy).Contents (Elt F) → (⟨S128, .f32⟩ : BufTy).Contents (Elt F)),
    binary main_v54 main_v55 main_v56 (Host.divf : (⟨S128, .f32⟩ : BufTy).Contents (Elt F) → (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v53 main_v58 main_v59 (subf : (⟨S50000x128, .f32⟩ : BufTy).Contents (Elt F) → (⟨S50000x128, .f32⟩ : BufTy).Contents (Elt F) → (⟨S50000x128, .f32⟩ : BufTy).Contents (Elt F)),
    binary main_v59 main_v59 main_v60 (mulf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    binary main_v60 main_cst_13 main_v61 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_14 (constant S_ .f32 0x47435000#32),
    unary main_cst_14 main_v62 (broadcastInDim S128 ![] bcast_S_S128 : (⟨S_, .f32⟩ : BufTy).Contents (Elt F) → (⟨S128, .f32⟩ : BufTy).Contents (Elt F)),
    binary main_v61 main_v62 main_v63 (Host.divf : (⟨S128, .f32⟩ : BufTy).Contents (Elt F) → (⟨S128, .f32⟩ : BufTy).Contents (Elt F) → (⟨S128, .f32⟩ : BufTy).Contents (Elt F)),
    unary main_v56 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v53 main_v65 main_v66 (subf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v67 (broadcastInDim S128 ![] bcast_S_S128 : (⟨S_, .f32⟩ : BufTy).Contents (Elt F) → (⟨S128, .f32⟩ : BufTy).Contents (Elt F)),
    binary main_v63 main_v67 main_v68 (addf : (⟨S128, .f32⟩ : BufTy).Contents (Elt F) → (⟨S128, .f32⟩ : BufTy).Contents (Elt F) → (⟨S128, .f32⟩ : BufTy).Contents (Elt F)),
    unary main_v68 main_v69 (Host.rsqrt : (⟨S128, .f32⟩ : BufTy).Contents (Elt F) → (⟨S128, .f32⟩ : BufTy).Contents (Elt F)),
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v66 main_v71 main_v72 (mulf : (⟨S50000x128, .f32⟩ : BufTy).Contents (Elt F) → (⟨S50000x128, .f32⟩ : BufTy).Contents (Elt F) → (⟨S50000x128, .f32⟩ : BufTy).Contents (Elt F)),
    unary main_arg4 main_v73 (broadcastInDim S1x128 ![1] bcast_S128_S1x128_1 : (⟨S128, .f32⟩ : BufTy).Contents (Elt F) → (⟨S1x128, .f32⟩ : BufTy).Contents (Elt F)),
    unary main_v73 main_v74 (broadcastInDim S50000x128 ![0, 1] bcast_S1x128_S50000x128_0_1 : (⟨S1x128, .f32⟩ : BufTy).Contents (Elt F) → (⟨S50000x128, .f32⟩ : BufTy).Contents (Elt F)),
    binary main_v72 main_v74 main_v75 (mulf : (⟨S50000x128, .f32⟩ : BufTy).Contents (Elt F) → (⟨S50000x128, .f32⟩ : BufTy).Contents (Elt F) → (⟨S50000x128, .f32⟩ : BufTy).Contents (Elt F)),
    unary main_arg5 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v75 main_v77 main_v78 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (TRef.of main_v78 : TRef sig ⟨S50000x128, .f32⟩) main_call0.v0 main_call0.v1 (cmpf .oge),
    TRef.nullary main_call0.cst_0 (constant S_ .f32 0x3C23D70A#32),
    TRef.unary main_call0.cst_0 main_call0.v2 (broadcastInDim S50000x128 ![] bcast_S_S50000x128),
    TRef.binary main_call0.v2 (TRef.of main_v78 : TRef sig ⟨S50000x128, .f32⟩) main_call0.v3 mulf,
    TRef.ternary main_call0.v1 (TRef.of main_v78 : TRef sig ⟨S50000x128, .f32⟩) main_call0.v3 main_call0.call0.v0 select,
    binary main_v79 main_arg6 main_v80 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_16 (constant S_ .f32 0x00000000#32),
    unary main_cst_16 main_v81 (broadcastInDim S50000 ![] bcast_S_S50000 : (⟨S_, .f32⟩ : BufTy).Contents (Elt F) → (⟨S50000, .f32⟩ : BufTy).Contents (Elt F)),
    nullary main_c_17 (constantI S_ 32 0#32),
    unary main_c_17 main_v82 (broadcastInDim S800000 ![] bcast_S_S800000 : (⟨S_, .i32⟩ : BufTy).Contents (Elt F) → (⟨S800000, .i32⟩ : BufTy).Contents (Elt F)),
    binary main_v3 main_v82 main_v83 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v84 (broadcastInDim S800000 ![] bcast_S_S800000 : (⟨S_, .i32⟩ : BufTy).Contents (Elt F) → (⟨S800000, .i32⟩ : BufTy).Contents (Elt F)),
    binary main_v3 main_v84 main_v85 (addi : (⟨S800000, .i32⟩ : BufTy).Contents (Elt F) → (⟨S800000, .i32⟩ : BufTy).Contents (Elt F) → (⟨S800000, .i32⟩ : BufTy).Contents (Elt F)),
    ternary main_v83 main_v85 main_v3 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v86 main_v87 (broadcastInDim S800000x1 ![0] bcast_S800000_S800000x1_0 : (⟨S800000, .i32⟩ : BufTy).Contents (Elt F) → (⟨S800000x1, .i32⟩ : BufTy).Contents (Elt F)),
    nullary main_cst_19 (constant S_ .f32 0x3F800000#32),
    unary main_cst_19 main_v88 (broadcastInDim S800000 ![] bcast_S_S800000 : (⟨S_, .f32⟩ : BufTy).Contents (Elt F) → (⟨S800000, .f32⟩ : BufTy).Contents (Elt F)),
    ternary main_v81 main_v87 main_v88 main_v89 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_20 (constant S_ .f32 0x3F800000#32),
    unary main_cst_20 main_v90 (broadcastInDim S50000 ![] bcast_S_S50000 : (⟨S_, .f32⟩ : BufTy).Contents (Elt F) → (⟨S50000, .f32⟩ : BufTy).Contents (Elt F)),
    binary main_v89 main_v90 main_v91 (addf : (⟨S50000, .f32⟩ : BufTy).Contents (Elt F) → (⟨S50000, .f32⟩ : BufTy).Contents (Elt F) → (⟨S50000, .f32⟩ : BufTy).Contents (Elt F)),
    unary main_v91 main_v92 (Host.rsqrt : (⟨S50000, .f32⟩ : BufTy).Contents (Elt F) → (⟨S50000, .f32⟩ : BufTy).Contents (Elt F)),
    nullary main_c_21 (constantI S_ 32 0#32),
    unary main_c_21 main_v93 (broadcastInDim S800000 ![] bcast_S_S800000 : (⟨S_, .i32⟩ : BufTy).Contents (Elt F) → (⟨S800000, .i32⟩ : BufTy).Contents (Elt F)),
    binary main_v1 main_v93 main_v94 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32) ]

/-- The buffers window 1's operations write, in order. -/
abbrev ops1_W : List (Ref sig .tc) :=
  [main_v47, main_v48, main_v49, main_v50, main_v51, main_v52, main_v53, main_cst_11, main_v54, main_cst_12, main_v55, main_v56, main_v57, main_v58, main_v59, main_v60, main_cst_13, main_v61, main_cst_14, main_v62, main_v63, main_v64, main_v65, main_v66, main_cst_15, main_v67, main_v68, main_v69, main_v70, main_v71, main_v72, main_v73, main_v74, main_v75, main_v76, main_v77, main_v78, main_call0_cst, main_call0_v0, main_call0_v1, main_call0_cst_0, main_call0_v2, main_call0_v3, main_v79, main_v80, main_cst_16, main_v81, main_c_17, main_v82, main_v83, main_c_18, main_v84, main_v85, main_v86, main_v87, main_cst_19, main_v88, main_v89, main_cst_20, main_v90, main_v91, main_v92, main_c_21, main_v93, main_v94, main_c_22]

/-- The operations of the reference's window 2 (operations 127 … 186 of the whole line), in order. -/
abbrev ops2 : List (HloOp τ sig (Elt F)) :=
  [ unary main_c_22 main_v95 (broadcastInDim S800000 ![] bcast_S_S800000 : (⟨S_, .i32⟩ : BufTy).Contents (Elt F) → (⟨S800000, .i32⟩ : BufTy).Contents (Elt F)),
    binary main_v1 main_v95 main_v96 (addi : (⟨S800000, .i32⟩ : BufTy).Contents (Elt F) → (⟨S800000, .i32⟩ : BufTy).Contents (Elt F) → (⟨S800000, .i32⟩ : BufTy).Contents (Elt F)),
    ternary main_v94 main_v96 main_v1 main_v97 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v97 main_v98 (broadcastInDim S800000x1 ![0] bcast_S800000_S800000x1_0 : (⟨S800000, .i32⟩ : BufTy).Contents (Elt F) → (⟨S800000x1, .i32⟩ : BufTy).Contents (Elt F)),
    binary main_v92 main_v98 main_v99 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_23 (constantI S_ 32 0#32),
    unary main_c_23 main_v100 (broadcastInDim S800000 ![] bcast_S_S800000 : (⟨S_, .i32⟩ : BufTy).Contents (Elt F) → (⟨S800000, .i32⟩ : BufTy).Contents (Elt F)),
    binary main_v3 main_v100 main_v101 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v102 (broadcastInDim S800000 ![] bcast_S_S800000 : (⟨S_, .i32⟩ : BufTy).Contents (Elt F) → (⟨S800000, .i32⟩ : BufTy).Contents (Elt F)),
    binary main_v3 main_v102 main_v103 (addi : (⟨S800000, .i32⟩ : BufTy).Contents (Elt F) → (⟨S800000, .i32⟩ : BufTy).Contents (Elt F) → (⟨S800000, .i32⟩ : BufTy).Contents (Elt F)),
    ternary main_v101 main_v103 main_v3 main_v104 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v104 main_v105 (broadcastInDim S800000x1 ![0] bcast_S800000_S800000x1_0 : (⟨S800000, .i32⟩ : BufTy).Contents (Elt F) → (⟨S800000x1, .i32⟩ : BufTy).Contents (Elt F)),
    binary main_v92 main_v105 main_v106 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v99 main_v106 main_v107 (mulf : (⟨S800000, .f32⟩ : BufTy).Contents (Elt F) → (⟨S800000, .f32⟩ : BufTy).Contents (Elt F) → (⟨S800000, .f32⟩ : BufTy).Contents (Elt F)),
    unary main_v107 main_v108 (broadcastInDim S800000x1 ![0] bcast_S800000_S800000x1_0 : (⟨S800000, .f32⟩ : BufTy).Contents (Elt F) → (⟨S800000x1, .f32⟩ : BufTy).Contents (Elt F)),
    nullary main_c_25 (constantI S_ 32 0#32),
    unary main_c_25 main_v109 (broadcastInDim S800000 ![] bcast_S_S800000 : (⟨S_, .i32⟩ : BufTy).Contents (Elt F) → (⟨S800000, .i32⟩ : BufTy).Contents (Elt F)),
    binary main_v1 main_v109 main_v110 (cmpi .slt : (⟨S800000, .i32⟩ : BufTy).Contents (Elt F) → (⟨S800000, .i32⟩ : BufTy).Contents (Elt F) → (⟨S800000, .i1⟩ : BufTy).Contents (Elt F)),
    nullary main_c_26 (constantI S_ 32 50000#32),
    unary main_c_26 main_v111 (broadcastInDim S800000 ![] bcast_S_S800000 : (⟨S_, .i32⟩ : BufTy).Contents (Elt F) → (⟨S800000, .i32⟩ : BufTy).Contents (Elt F)),
    binary main_v1 main_v111 main_v112 (addi : (⟨S800000, .i32⟩ : BufTy).Contents (Elt F) → (⟨S800000, .i32⟩ : BufTy).Contents (Elt F) → (⟨S800000, .i32⟩ : BufTy).Contents (Elt F)),
    ternary main_v110 main_v112 main_v1 main_v113 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v113 main_v114 (broadcastInDim S800000x1 ![0] bcast_S800000_S800000x1_0 : (⟨S800000, .i32⟩ : BufTy).Contents (Elt F) → (⟨S800000x1, .i32⟩ : BufTy).Contents (Elt F)),
    binary main_v80 main_v114 main_v115 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v108 main_v116 (broadcastInDim S800000x128 ![0, 1] bcast_S800000x1_S800000x128_0_1 : (⟨S800000x1, .f32⟩ : BufTy).Contents (Elt F) → (⟨S800000x128, .f32⟩ : BufTy).Contents (Elt F)),
    binary main_v115 main_v116 main_v117 (mulf : (⟨S800000x128, .f32⟩ : BufTy).Contents (Elt F) → (⟨S800000x128, .f32⟩ : BufTy).Contents (Elt F) → (⟨S800000x128, .f32⟩ : BufTy).Contents (Elt F)),
    nullary main_cst_27 (constant S_ .f32 0x00000000#32),
    unary main_cst_27 main_v118 (broadcastInDim S50000x128 ![] bcast_S_S50000x128 : (⟨S_, .f32⟩ : BufTy).Contents (Elt F) → (⟨S50000x128, .f32⟩ : BufTy).Contents (Elt F)),
    unary main_v3 main_v119 (broadcastInDim S800000x1 ![0] bcast_S800000_S800000x1_0 : (⟨S800000, .i32⟩ : BufTy).Contents (Elt F) → (⟨S800000x1, .i32⟩ : BufTy).Contents (Elt F)),
    ternary main_v118 main_v119 main_v117 main_v120 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_28 (constant S_ .f32 0x3F800000#32),
    unary main_cst_28 main_v121 (broadcastInDim S50000 ![] bcast_S_S50000 : (⟨S_, .f32⟩ : BufTy).Contents (Elt F) → (⟨S50000, .f32⟩ : BufTy).Contents (Elt F)),
    binary main_v121 main_v91 main_v122 (Host.divf : (⟨S50000, .f32⟩ : BufTy).Contents (Elt F) → (⟨S50000, .f32⟩ : BufTy).Contents (Elt F) → (⟨S50000, .f32⟩ : BufTy).Contents (Elt F)),
    unary main_v122 main_v123 (broadcastInDim S50000x1 ![0] bcast_S50000_S50000x1_0 : (⟨S50000, .f32⟩ : BufTy).Contents (Elt F) → (⟨S50000x1, .f32⟩ : BufTy).Contents (Elt F)),
    unary main_v123 main_v124 (broadcastInDim S50000x128 ![0, 1] bcast_S50000x1_S50000x128_0_1 : (⟨S50000x1, .f32⟩ : BufTy).Contents (Elt F) → (⟨S50000x128, .f32⟩ : BufTy).Contents (Elt F)),
    binary main_v80 main_v124 main_v125 (mulf : (⟨S50000x128, .f32⟩ : BufTy).Contents (Elt F) → (⟨S50000x128, .f32⟩ : BufTy).Contents (Elt F) → (⟨S50000x128, .f32⟩ : BufTy).Contents (Elt F)),
    binary main_v120 main_v125 main_v126 (addf : (⟨S50000x128, .f32⟩ : BufTy).Contents (Elt F) → (⟨S50000x128, .f32⟩ : BufTy).Contents (Elt F) → (⟨S50000x128, .f32⟩ : BufTy).Contents (Elt F)),
    unary main_arg7 main_v127 (broadcastInDim S1x128 ![1] bcast_S128_S1x128_1 : (⟨S128, .f32⟩ : BufTy).Contents (Elt F) → (⟨S1x128, .f32⟩ : BufTy).Contents (Elt F)),
    unary main_v127 main_v128 (broadcastInDim S50000x128 ![0, 1] bcast_S1x128_S50000x128_0_1 : (⟨S1x128, .f32⟩ : BufTy).Contents (Elt F) → (⟨S50000x128, .f32⟩ : BufTy).Contents (Elt F)),
    binary main_v126 main_v128 main_v129 (addf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x00000000#32),
    binary main_v129 main_cst_29 main_v130 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_30 (constant S_ .f32 0x47435000#32),
    unary main_cst_30 main_v131 (broadcastInDim S128 ![] bcast_S_S128 : (⟨S_, .f32⟩ : BufTy).Contents (Elt F) → (⟨S128, .f32⟩ : BufTy).Contents (Elt F)),
    binary main_v130 main_v131 main_v132 (Host.divf : (⟨S128, .f32⟩ : BufTy).Contents (Elt F) → (⟨S128, .f32⟩ : BufTy).Contents (Elt F) → (⟨S128, .f32⟩ : BufTy).Contents (Elt F)),
    unary main_v132 main_v133 (broadcastInDim S1x128 ![1] bcast_S128_S1x128_1 : (⟨S128, .f32⟩ : BufTy).Contents (Elt F) → (⟨S1x128, .f32⟩ : BufTy).Contents (Elt F)),
    unary main_v133 main_v134 (broadcastInDim S50000x128 ![0, 1] bcast_S1x128_S50000x128_0_1 : (⟨S1x128, .f32⟩ : BufTy).Contents (Elt F) → (⟨S50000x128, .f32⟩ : BufTy).Contents (Elt F)),
    binary main_v129 main_v134 main_v135 (subf : (⟨S50000x128, .f32⟩ : BufTy).Contents (Elt F) → (⟨S50000x128, .f32⟩ : BufTy).Contents (Elt F) → (⟨S50000x128, .f32⟩ : BufTy).Contents (Elt F)),
    binary main_v135 main_v135 main_v136 (mulf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x00000000#32),
    binary main_v136 main_cst_31 main_v137 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_32 (constant S_ .f32 0x47435000#32),
    unary main_cst_32 main_v138 (broadcastInDim S128 ![] bcast_S_S128 : (⟨S_, .f32⟩ : BufTy).Contents (Elt F) → (⟨S128, .f32⟩ : BufTy).Contents (Elt F)),
    binary main_v137 main_v138 main_v139 (Host.divf : (⟨S128, .f32⟩ : BufTy).Contents (Elt F) → (⟨S128, .f32⟩ : BufTy).Contents (Elt F) → (⟨S128, .f32⟩ : BufTy).Contents (Elt F)),
    unary main_v132 main_v140 (broadcastInDim S1x128 ![1] bcast_S128_S1x128_1 : (⟨S128, .f32⟩ : BufTy).Contents (Elt F) → (⟨S1x128, .f32⟩ : BufTy).Contents (Elt F)),
    unary main_v140 main_v141 (broadcastInDim S50000x128 ![0, 1] bcast_S1x128_S50000x128_0_1 : (⟨S1x128, .f32⟩ : BufTy).Contents (Elt F) → (⟨S50000x128, .f32⟩ : BufTy).Contents (Elt F)),
    binary main_v129 main_v141 main_v142 (subf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x3727C5AC#32),
    unary main_cst_33 main_v143 (broadcastInDim S128 ![] bcast_S_S128 : (⟨S_, .f32⟩ : BufTy).Contents (Elt F) → (⟨S128, .f32⟩ : BufTy).Contents (Elt F)) ]

/-- The buffers window 2's operations write, in order. -/
abbrev ops2_W : List (Ref sig .tc) :=
  [main_v95, main_v96, main_v97, main_v98, main_v99, main_c_23, main_v100, main_v101, main_c_24, main_v102, main_v103, main_v104, main_v105, main_v106, main_v107, main_v108, main_c_25, main_v109, main_v110, main_c_26, main_v111, main_v112, main_v113, main_v114, main_v115, main_v116, main_v117, main_cst_27, main_v118, main_v119, main_v120, main_cst_28, main_v121, main_v122, main_v123, main_v124, main_v125, main_v126, main_v127, main_v128, main_v129, main_cst_29, main_v130, main_cst_30, main_v131, main_v132, main_v133, main_v134, main_v135, main_v136, main_cst_31, main_v137, main_cst_32, main_v138, main_v139, main_v140, main_v141, main_v142, main_cst_33, main_v143]

/-- The operations of the reference's window 3 (operations 187 … 252 of the whole line), in order. -/
abbrev ops3 : List (HloOp τ sig (Elt F)) :=
  [ binary main_v139 main_v143 main_v144 (addf : (⟨S128, .f32⟩ : BufTy).Contents (Elt F) → (⟨S128, .f32⟩ : BufTy).Contents (Elt F) → (⟨S128, .f32⟩ : BufTy).Contents (Elt F)),
    unary main_v144 main_v145 (Host.rsqrt : (⟨S128, .f32⟩ : BufTy).Contents (Elt F) → (⟨S128, .f32⟩ : BufTy).Contents (Elt F)),
    unary main_v145 main_v146 (broadcastInDim S1x128 ![1] bcast_S128_S1x128_1 : (⟨S128, .f32⟩ : BufTy).Contents (Elt F) → (⟨S1x128, .f32⟩ : BufTy).Contents (Elt F)),
    unary main_v146 main_v147 (broadcastInDim S50000x128 ![0, 1] bcast_S1x128_S50000x128_0_1 : (⟨S1x128, .f32⟩ : BufTy).Contents (Elt F) → (⟨S50000x128, .f32⟩ : BufTy).Contents (Elt F)),
    binary main_v142 main_v147 main_v148 (mulf : (⟨S50000x128, .f32⟩ : BufTy).Contents (Elt F) → (⟨S50000x128, .f32⟩ : BufTy).Contents (Elt F) → (⟨S50000x128, .f32⟩ : BufTy).Contents (Elt F)),
    unary main_arg8 main_v149 (broadcastInDim S1x128 ![1] bcast_S128_S1x128_1 : (⟨S128, .f32⟩ : BufTy).Contents (Elt F) → (⟨S1x128, .f32⟩ : BufTy).Contents (Elt F)),
    unary main_v149 main_v150 (broadcastInDim S50000x128 ![0, 1] bcast_S1x128_S50000x128_0_1 : (⟨S1x128, .f32⟩ : BufTy).Contents (Elt F) → (⟨S50000x128, .f32⟩ : BufTy).Contents (Elt F)),
    binary main_v148 main_v150 main_v151 (mulf : (⟨S50000x128, .f32⟩ : BufTy).Contents (Elt F) → (⟨S50000x128, .f32⟩ : BufTy).Contents (Elt F) → (⟨S50000x128, .f32⟩ : BufTy).Contents (Elt F)),
    unary main_arg9 main_v152 (broadcastInDim S1x128 ![1] bcast_S128_S1x128_1 : (⟨S128, .f32⟩ : BufTy).Contents (Elt F) → (⟨S1x128, .f32⟩ : BufTy).Contents (Elt F)),
    unary main_v152 main_v153 (broadcastInDim S50000x128 ![0, 1] bcast_S1x128_S50000x128_0_1 : (⟨S1x128, .f32⟩ : BufTy).Contents (Elt F) → (⟨S50000x128, .f32⟩ : BufTy).Contents (Elt F)),
    binary main_v151 main_v153 main_v154 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (TRef.of main_v154 : TRef sig ⟨S50000x128, .f32⟩) main_call1.v0 main_call1.v1 (cmpf .oge),
    TRef.nullary main_call1.cst_0 (constant S_ .f32 0x3C23D70A#32),
    TRef.unary main_call1.cst_0 main_call1.v2 (broadcastInDim S50000x128 ![] bcast_S_S50000x128),
    TRef.binary main_call1.v2 (TRef.of main_v154 : TRef sig ⟨S50000x128, .f32⟩) main_call1.v3 mulf,
    TRef.ternary main_call1.v1 (TRef.of main_v154 : TRef sig ⟨S50000x128, .f32⟩) main_call1.v3 main_call1.call0.v0 select,
    binary main_v155 main_arg10 main_v156 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    nullary main_cst_34 (constant S_ .f32 0x00000000#32),
    unary main_cst_34 main_v157 (broadcastInDim S50000 ![] bcast_S_S50000 : (⟨S_, .f32⟩ : BufTy).Contents (Elt F) → (⟨S50000, .f32⟩ : BufTy).Contents (Elt F)),
    nullary main_c_35 (constantI S_ 32 0#32),
    unary main_c_35 main_v158 (broadcastInDim S800000 ![] bcast_S_S800000 : (⟨S_, .i32⟩ : BufTy).Contents (Elt F) → (⟨S800000, .i32⟩ : BufTy).Contents (Elt F)),
    binary main_v3 main_v158 main_v159 (cmpi .slt : (⟨S800000, .i32⟩ : BufTy).Contents (Elt F) → (⟨S800000, .i32⟩ : BufTy).Contents (Elt F) → (⟨S800000, .i1⟩ : BufTy).Contents (Elt F)),
    nullary main_c_36 (constantI S_ 32 50000#32),
    unary main_c_36 main_v160 (broadcastInDim S800000 ![] bcast_S_S800000 : (⟨S_, .i32⟩ : BufTy).Contents (Elt F) → (⟨S800000, .i32⟩ : BufTy).Contents (Elt F)),
    binary main_v3 main_v160 main_v161 (addi : (⟨S800000, .i32⟩ : BufTy).Contents (Elt F) → (⟨S800000, .i32⟩ : BufTy).Contents (Elt F) → (⟨S800000, .i32⟩ : BufTy).Contents (Elt F)),
    ternary main_v159 main_v161 main_v3 main_v162 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v162 main_v163 (broadcastInDim S800000x1 ![0] bcast_S800000_S800000x1_0 : (⟨S800000, .i32⟩ : BufTy).Contents (Elt F) → (⟨S800000x1, .i32⟩ : BufTy).Contents (Elt F)),
    nullary main_cst_37 (constant S_ .f32 0x3F800000#32),
    unary main_cst_37 main_v164 (broadcastInDim S800000 ![] bcast_S_S800000 : (⟨S_, .f32⟩ : BufTy).Contents (Elt F) → (⟨S800000, .f32⟩ : BufTy).Contents (Elt F)),
    ternary main_v157 main_v163 main_v164 main_v165 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_38 (constant S_ .f32 0x3F800000#32),
    unary main_cst_38 main_v166 (broadcastInDim S50000 ![] bcast_S_S50000 : (⟨S_, .f32⟩ : BufTy).Contents (Elt F) → (⟨S50000, .f32⟩ : BufTy).Contents (Elt F)),
    binary main_v165 main_v166 main_v167 (addf : (⟨S50000, .f32⟩ : BufTy).Contents (Elt F) → (⟨S50000, .f32⟩ : BufTy).Contents (Elt F) → (⟨S50000, .f32⟩ : BufTy).Contents (Elt F)),
    unary main_v167 main_v168 (Host.rsqrt : (⟨S50000, .f32⟩ : BufTy).Contents (Elt F) → (⟨S50000, .f32⟩ : BufTy).Contents (Elt F)),
    nullary main_c_39 (constantI S_ 32 0#32),
    unary main_c_39 main_v169 (broadcastInDim S800000 ![] bcast_S_S800000 : (⟨S_, .i32⟩ : BufTy).Contents (Elt F) → (⟨S800000, .i32⟩ : BufTy).Contents (Elt F)),
    binary main_v1 main_v169 main_v170 (cmpi .slt : (⟨S800000, .i32⟩ : BufTy).Contents (Elt F) → (⟨S800000, .i32⟩ : BufTy).Contents (Elt F) → (⟨S800000, .i1⟩ : BufTy).Contents (Elt F)),
    nullary main_c_40 (constantI S_ 32 50000#32),
    unary main_c_40 main_v171 (broadcastInDim S800000 ![] bcast_S_S800000 : (⟨S_, .i32⟩ : BufTy).Contents (Elt F) → (⟨S800000, .i32⟩ : BufTy).Contents (Elt F)),
    binary main_v1 main_v171 main_v172 (addi : (⟨S800000, .i32⟩ : BufTy).Contents (Elt F) → (⟨S800000, .i32⟩ : BufTy).Contents (Elt F) → (⟨S800000, .i32⟩ : BufTy).Contents (Elt F)),
    ternary main_v170 main_v172 main_v1 main_v173 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v173 main_v174 (broadcastInDim S800000x1 ![0] bcast_S800000_S800000x1_0 : (⟨S800000, .i32⟩ : BufTy).Contents (Elt F) → (⟨S800000x1, .i32⟩ : BufTy).Contents (Elt F)),
    binary main_v168 main_v174 main_v175 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_41 (constantI S_ 32 0#32),
    unary main_c_41 main_v176 (broadcastInDim S800000 ![] bcast_S_S800000 : (⟨S_, .i32⟩ : BufTy).Contents (Elt F) → (⟨S800000, .i32⟩ : BufTy).Contents (Elt F)),
    binary main_v3 main_v176 main_v177 (cmpi .slt : (⟨S800000, .i32⟩ : BufTy).Contents (Elt F) → (⟨S800000, .i32⟩ : BufTy).Contents (Elt F) → (⟨S800000, .i1⟩ : BufTy).Contents (Elt F)),
    nullary main_c_42 (constantI S_ 32 50000#32),
    unary main_c_42 main_v178 (broadcastInDim S800000 ![] bcast_S_S800000 : (⟨S_, .i32⟩ : BufTy).Contents (Elt F) → (⟨S800000, .i32⟩ : BufTy).Contents (Elt F)),
    binary main_v3 main_v178 main_v179 (addi : (⟨S800000, .i32⟩ : BufTy).Contents (Elt F) → (⟨S800000, .i32⟩ : BufTy).Contents (Elt F) → (⟨S800000, .i32⟩ : BufTy).Contents (Elt F)),
    ternary main_v177 main_v179 main_v3 main_v180 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v180 main_v181 (broadcastInDim S800000x1 ![0] bcast_S800000_S800000x1_0 : (⟨S800000, .i32⟩ : BufTy).Contents (Elt F) → (⟨S800000x1, .i32⟩ : BufTy).Contents (Elt F)),
    binary main_v168 main_v181 main_v182 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v175 main_v182 main_v183 (mulf : (⟨S800000, .f32⟩ : BufTy).Contents (Elt F) → (⟨S800000, .f32⟩ : BufTy).Contents (Elt F) → (⟨S800000, .f32⟩ : BufTy).Contents (Elt F)),
    unary main_v183 main_v184 (broadcastInDim S800000x1 ![0] bcast_S800000_S800000x1_0 : (⟨S800000, .f32⟩ : BufTy).Contents (Elt F) → (⟨S800000x1, .f32⟩ : BufTy).Contents (Elt F)),
    nullary main_c_43 (constantI S_ 32 0#32),
    unary main_c_43 main_v185 (broadcastInDim S800000 ![] bcast_S_S800000 : (⟨S_, .i32⟩ : BufTy).Contents (Elt F) → (⟨S800000, .i32⟩ : BufTy).Contents (Elt F)),
    binary main_v1 main_v185 main_v186 (cmpi .slt : (⟨S800000, .i32⟩ : BufTy).Contents (Elt F) → (⟨S800000, .i32⟩ : BufTy).Contents (Elt F) → (⟨S800000, .i1⟩ : BufTy).Contents (Elt F)),
    nullary main_c_44 (constantI S_ 32 50000#32),
    unary main_c_44 main_v187 (broadcastInDim S800000 ![] bcast_S_S800000 : (⟨S_, .i32⟩ : BufTy).Contents (Elt F) → (⟨S800000, .i32⟩ : BufTy).Contents (Elt F)),
    binary main_v1 main_v187 main_v188 (addi : (⟨S800000, .i32⟩ : BufTy).Contents (Elt F) → (⟨S800000, .i32⟩ : BufTy).Contents (Elt F) → (⟨S800000, .i32⟩ : BufTy).Contents (Elt F)),
    ternary main_v186 main_v188 main_v1 main_v189 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v189 main_v190 (broadcastInDim S800000x1 ![0] bcast_S800000_S800000x1_0 : (⟨S800000, .i32⟩ : BufTy).Contents (Elt F) → (⟨S800000x1, .i32⟩ : BufTy).Contents (Elt F)),
    binary main_v156 main_v190 main_v191 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    binary main_v191 main_v184 main_v192 (mulf : (⟨S800000x1, .f32⟩ : BufTy).Contents (Elt F) → (⟨S800000x1, .f32⟩ : BufTy).Contents (Elt F) → (⟨S800000x1, .f32⟩ : BufTy).Contents (Elt F)) ]

/-- The buffers window 3's operations write, in order. -/
abbrev ops3_W : List (Ref sig .tc) :=
  [main_v144, main_v145, main_v146, main_v147, main_v148, main_v149, main_v150, main_v151, main_v152, main_v153, main_v154, main_call1_cst, main_call1_v0, main_call1_v1, main_call1_cst_0, main_call1_v2, main_call1_v3, main_v155, main_v156, main_cst_34, main_v157, main_c_35, main_v158, main_v159, main_c_36, main_v160, main_v161, main_v162, main_v163, main_cst_37, main_v164, main_v165, main_cst_38, main_v166, main_v167, main_v168, main_c_39, main_v169, main_v170, main_c_40, main_v171, main_v172, main_v173, main_v174, main_v175, main_c_41, main_v176, main_v177, main_c_42, main_v178, main_v179, main_v180, main_v181, main_v182, main_v183, main_v184, main_c_43, main_v185, main_v186, main_c_44, main_v187, main_v188, main_v189, main_v190, main_v191, main_v192]

/-- The operations of the reference's window 4 (operations 253 … 265 of the whole line), in order. -/
abbrev ops4 : List (HloOp τ sig (Elt F)) :=
  [ nullary main_cst_45 (constant S_ .f32 0x00000000#32),
    unary main_cst_45 main_v193 (broadcastInDim S50000x1 ![] bcast_S_S50000x1 : (⟨S_, .f32⟩ : BufTy).Contents (Elt F) → (⟨S50000x1, .f32⟩ : BufTy).Contents (Elt F)),
    unary main_v3 main_v194 (broadcastInDim S800000x1 ![0] bcast_S800000_S800000x1_0 : (⟨S800000, .i32⟩ : BufTy).Contents (Elt F) → (⟨S800000x1, .i32⟩ : BufTy).Contents (Elt F)),
    ternary main_v193 main_v194 main_v192 main_v195 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_46 (constant S_ .f32 0x3F800000#32),
    unary main_cst_46 main_v196 (broadcastInDim S50000 ![] bcast_S_S50000 : (⟨S_, .f32⟩ : BufTy).Contents (Elt F) → (⟨S50000, .f32⟩ : BufTy).Contents (Elt F)),
    binary main_v196 main_v167 main_v197 (Host.divf : (⟨S50000, .f32⟩ : BufTy).Contents (Elt F) → (⟨S50000, .f32⟩ : BufTy).Contents (Elt F) → (⟨S50000, .f32⟩ : BufTy).Contents (Elt F)),
    unary main_v197 main_v198 (broadcastInDim S50000x1 ![0] bcast_S50000_S50000x1_0 : (⟨S50000, .f32⟩ : BufTy).Contents (Elt F) → (⟨S50000x1, .f32⟩ : BufTy).Contents (Elt F)),
    binary main_v156 main_v198 main_v199 (mulf : (⟨S50000x1, .f32⟩ : BufTy).Contents (Elt F) → (⟨S50000x1, .f32⟩ : BufTy).Contents (Elt F) → (⟨S50000x1, .f32⟩ : BufTy).Contents (Elt F)),
    binary main_v195 main_v199 main_v200 (addf : (⟨S50000x1, .f32⟩ : BufTy).Contents (Elt F) → (⟨S50000x1, .f32⟩ : BufTy).Contents (Elt F) → (⟨S50000x1, .f32⟩ : BufTy).Contents (Elt F)),
    unary main_arg11 main_v201 (broadcastInDim S1x1 ![1] bcast_S1_S1x1_1 : (⟨S1, .f32⟩ : BufTy).Contents (Elt F) → (⟨S1x1, .f32⟩ : BufTy).Contents (Elt F)),
    unary main_v201 main_v202 (broadcastInDim S50000x1 ![0, 1] bcast_S1x1_S50000x1_0_1 : (⟨S1x1, .f32⟩ : BufTy).Contents (Elt F) → (⟨S50000x1, .f32⟩ : BufTy).Contents (Elt F)),
    binary main_v200 main_v202 main_v203 (addf : (⟨S50000x1, .f32⟩ : BufTy).Contents (Elt F) → (⟨S50000x1, .f32⟩ : BufTy).Contents (Elt F) → (⟨S50000x1, .f32⟩ : BufTy).Contents (Elt F)) ]

/-- The buffers window 4's operations write, in order. -/
abbrev ops4_W : List (Ref sig .tc) :=
  [main_cst_45, main_v193, main_v194, main_v195, main_cst_46, main_v196, main_v197, main_v198, main_v199, main_v200, main_v201, main_v202, main_v203]

end Cert.ReferenceIdeal.RefRun

end
-- ==== Proof.RefStages.lean ====
/- The reference (a three-layer graph convolution with batch normalisation between the layers) as a pure function of
   its twelve argument arrays, composed of small named stages. Every stage is the composition of the program's own
   operations in the program's order, so that the run of the program reads each buffer as one of these stages
   applied to the buffers it was computed from.

   One convolution layer, for node features `h`, weight `W`, bias `b` and edge list (src, dst):
     xw   = h · W
     deg  = (number of edges into each node) + 1          (scatter-add of ones over dst, plus the self loop)
     dinv = 1/√deg
     coef = dinv[src] · dinv[dst]                          (per edge)
     msg  = xw[src] · coef                                 (per edge, per feature)
     agg  = Σ over edges into the node of msg              (scatter-add over dst)
     out  = agg + xw · (1/deg) + b
   Batch normalisation of `x` with scale `g` and shift `β` over the node axis (N = 50000 rows):
     μ = (Σ x)/N,  σ² = (Σ (x − μ)²)/N,  y = (x − μ) · 1/√(σ² + ε) · g + β,
   followed by leaky_relu(y) = y if y ≥ 0 else 0.01·y. -/
import proofs.«181351_j65970697667357_2_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

/-- the contents of an array of shape `s` and element type `e` -/
abbrev Arr (F : FTy → Type) (s : Shape) (e : EltTy) : Type := (⟨s, e⟩ : BufTy).Contents (Elt F)

variable {F : FTy → Type} [FloatOps F]

/-! ## Constants, broadcast -/

/-- the float constant with bit pattern `b` at every index of shape `s` (the program's scalar constant, broadcast) -/
def fill (s : Shape) (h : S_.BroadcastsInDim s (![] : Fin 0 → Fin s.rank)) (b : BitVec 32) : (Arr F s .f32) :=
  broadcastInDim s ![] h (constant S_ .f32 b)

/-- the 32-bit integer constant `b` at every edge -/
def fillE (b : BitVec 32) : (Arr F S800000 .i32) :=
  broadcastInDim S800000 ![] bcast_S_S800000 (constantI S_ 32 b)

/-- a vector of 128 feature values repeated on every one of the 50000 rows -/
def rows128 (v : (Arr F S128 .f32)) : (Arr F S50000x128 .f32) :=
  broadcastInDim S50000x128 ![0, 1] bcast_S1x128_S50000x128_0_1 (broadcastInDim S1x128 ![1] bcast_S128_S1x128_1 v)

/-! ## The edge list -/

/-- the edges' source nodes: row 0 of the edge list -/
def srcIdx (ei : (Arr F S2x800000 .i32)) : (Arr F S800000 .i32) :=
  shapeCast S800000 (extractStridedSlice S1x800000 ![0, 0] ei slices_S2x800000_S1x800000_0_0) shapeCasts_S1x800000_S800000

/-- the edges' destination nodes: row 1 of the edge list -/
def dstIdx (ei : (Arr F S2x800000 .i32)) : (Arr F S800000 .i32) :=
  shapeCast S800000 (extractStridedSlice S1x800000 ![1, 0] ei slices_S2x800000_S1x800000_1_0) shapeCasts_S1x800000_S800000

/-- a node index that may be negative, counted from the end when it is (`i < 0 ↦ i + 50000`): the test `lt` and the
    node count `n` given, as a column of start indices -/
def wrapWith (lt : (Arr F S800000 .i1)) (n : (Arr F S_ .i32)) (i : (Arr F S800000 .i32)) : (Arr F S800000x1 .i32) :=
  broadcastInDim S800000x1 ![0] bcast_S800000_S800000x1_0
    (select lt (addi i (broadcastInDim S800000 ![] bcast_S_S800000 n)) i)

/-- the test `i < 0` at every edge -/
def isNeg (i : (Arr F S800000 .i32)) : (Arr F S800000 .i1) := cmpi .slt i (fillE (F := F) 0#32)

/-- the node indices `i` as a column of start indices, a negative one counted from the end -/
def wrap (i : (Arr F S800000 .i32)) : (Arr F S800000x1 .i32) := wrapWith (isNeg i) (constantI S_ 32 50000#32) i

/-- the node indices as they are, as a column of start indices -/
def col (i : (Arr F S800000 .i32)) : (Arr F S800000x1 .i32) :=
  broadcastInDim S800000x1 ![0] bcast_S800000_S800000x1_0 i

/-! ## The normalisation by degree -/

/-- each node's degree: the number of edges into it (a scatter-add of ones over the destinations), plus one for the self loop -/
def degree (dst : (Arr F S800000 .i32)) : (Arr F S50000 .f32) :=
  addf (Host.scatterAdd scatter_S50000_S800000x1_S800000_n_0_0_1 (fill S50000 bcast_S_S50000 0x00000000#32) (wrap dst)
      (fill S800000 bcast_S_S800000 0x3F800000#32))
    (fill S50000 bcast_S_S50000 0x3F800000#32)

/-- 1/√deg -/
def dinvOf (deg : (Arr F S50000 .f32)) : (Arr F S50000 .f32) := Host.rsqrt deg

/-- 1/deg -/
def invDeg (deg : (Arr F S50000 .f32)) : (Arr F S50000 .f32) := Host.divf (fill S50000 bcast_S_S50000 0x3F800000#32) deg

/-- a per-node value read at the nodes `ix` names (a gather along the node axis) -/
def atNodes (v : (Arr F S50000 .f32)) (ix : (Arr F S800000x1 .i32)) : (Arr F S800000 .f32) :=
  Host.gather gather_S50000_S800000x1_S800000_n_0_n_n_0_1_1 v ix

/-- the edges' coefficients dinv[src] · dinv[dst], as a column; the two index columns given -/
def coefWith (dinv : (Arr F S50000 .f32)) (srcIx dstIx : (Arr F S800000x1 .i32)) : (Arr F S800000x1 .f32) :=
  broadcastInDim S800000x1 ![0] bcast_S800000_S800000x1_0 (mulf (atNodes dinv srcIx) (atNodes dinv dstIx))

/-- the edges' coefficients dinv[src] · dinv[dst], as a column -/
def coef (dinv : (Arr F S50000 .f32)) (src dst : (Arr F S800000 .i32)) : (Arr F S800000x1 .f32) :=
  coefWith dinv (wrap src) (wrap dst)

/-! ## One convolution, 128 features -/

/-- the product of the node features and the weight matrix -/
def matmul128 (h : (Arr F S50000x128 .f32)) (W : (Arr F S128x128 .f32)) : (Arr F S50000x128 .f32) :=
  Host.dotGeneral dot_S50000x128_S128x128_S50000x128_1_0_0_1_n_n none h W

/-- the messages: the source node's row of `xw` times the edge's coefficient; the source index column given -/
def msg128With (xw : (Arr F S50000x128 .f32)) (srcIx : (Arr F S800000x1 .i32)) (c : (Arr F S800000x1 .f32)) : (Arr F S800000x128 .f32) :=
  mulf (Host.gather gather_S50000x128_S800000x1_S800000x128_1_0_n_n_0_1_1128 xw srcIx)
    (broadcastInDim S800000x128 ![0, 1] bcast_S800000x1_S800000x128_0_1 c)

/-- the messages summed at their destination nodes (a scatter-add over the destinations into zeros) -/
def agg128 (msg : (Arr F S800000x128 .f32)) (dst : (Arr F S800000 .i32)) : (Arr F S50000x128 .f32) :=
  Host.scatterAdd scatter_S50000x128_S800000x1_S800000x128_1_0_0_1 (fill S50000x128 bcast_S_S50000x128 0x00000000#32) (col dst) msg

/-- the self-loop term: each node's own row of `xw` times 1/deg (given as `r`) -/
def self128 (xw : (Arr F S50000x128 .f32)) (r : (Arr F S50000 .f32)) : (Arr F S50000x128 .f32) :=
  mulf xw (broadcastInDim S50000x128 ![0, 1] bcast_S50000x1_S50000x128_0_1 (broadcastInDim S50000x1 ![0] bcast_S50000_S50000x1_0 r))

/-- aggregate + self loop + bias -/
def convOut128 (agg : (Arr F S50000x128 .f32)) (xw : (Arr F S50000x128 .f32)) (r : (Arr F S50000 .f32)) (b : (Arr F S128 .f32)) :
    (Arr F S50000x128 .f32) :=
  addf (addf agg (self128 xw r)) (rows128 b)

/-- one convolution layer from its parts: the product `xw`, the degrees and 1/√deg, and the source index column
    the first gather of 1/√deg reads -/
def conv128From (xw : (Arr F S50000x128 .f32)) (deg dinv : (Arr F S50000 .f32)) (srcIx : (Arr F S800000x1 .i32))
    (src dst : (Arr F S800000 .i32)) (b : (Arr F S128 .f32)) : (Arr F S50000x128 .f32) :=
  convOut128 (agg128 (msg128With xw (wrap src) (coefWith dinv srcIx (wrap dst))) dst) xw (invDeg deg) b

/-- one convolution layer over 128 output features, from the product `xw` = h · W -/
def conv128 (xw : (Arr F S50000x128 .f32)) (src dst : (Arr F S800000 .i32)) (b : (Arr F S128 .f32)) : (Arr F S50000x128 .f32) :=
  conv128From xw (degree dst) (dinvOf (degree dst)) (wrap src) src dst b

/-! ## Batch normalisation and the activation -/

/-- the sum over the 50000 rows, per feature -/
def colSum (x : (Arr F S50000x128 .f32)) : (Arr F S128 .f32) :=
  Host.reduceAdd x (constant S_ .f32 0x00000000#32) reducesTo_S50000x128_S128_d0 h_S_

/-- the mean over the rows, per feature: the sum divided by 50000 -/
def colMean (x : (Arr F S50000x128 .f32)) : (Arr F S128 .f32) :=
  Host.divf (colSum x) (fill S128 bcast_S_S128 0x47435000#32)

/-- x − μ, the per-feature value `mu` taken off every row -/
def centredBy (x : (Arr F S50000x128 .f32)) (mu : (Arr F S128 .f32)) : (Arr F S50000x128 .f32) := subf x (rows128 mu)

/-- the variance over the rows, per feature: the mean of (x − μ)² -/
def colVar (x : (Arr F S50000x128 .f32)) : (Arr F S128 .f32) :=
  Host.divf (colSum (mulf (centredBy x (colMean x)) (centredBy x (colMean x)))) (fill S128 bcast_S_S128 0x47435000#32)

/-- ε = 1e-5 on every feature -/
def epsRow : (Arr F S128 .f32) := fill S128 bcast_S_S128 0x3727C5AC#32

/-- (xc · 1/√(var + ε)) · g + β, from the centred values `xc`, the variance and ε given -/
def normWith (xc : (Arr F S50000x128 .f32)) (var eps g beta : (Arr F S128 .f32)) : (Arr F S50000x128 .f32) :=
  addf (mulf (mulf xc (rows128 (Host.rsqrt (addf var eps)))) (rows128 g)) (rows128 beta)

/-- batch normalisation over the rows -/
def batchNorm (x : (Arr F S50000x128 .f32)) (g beta : (Arr F S128 .f32)) : (Arr F S50000x128 .f32) :=
  normWith (centredBy x (colMean x)) (colVar x) epsRow g beta

/-- leaky_relu with slope 0.01: x where x ≥ 0, 0.01·x elsewhere -/
def leakyRelu (x : (Arr F S50000x128 .f32)) : (Arr F S50000x128 .f32) :=
  select (cmpf .oge x (fill S50000x128 bcast_S_S50000x128 0x00000000#32)) x
    (mulf (fill S50000x128 bcast_S_S50000x128 0x3C23D70A#32) x)

/-! ## The last convolution, one feature -/

/-- the product of the node features and the last weight column -/
def matmul1 (h : (Arr F S50000x128 .f32)) (W : (Arr F S128x1 .f32)) : (Arr F S50000x1 .f32) :=
  Host.dotGeneral dot_S50000x128_S128x1_S50000x1_1_0_0_1_n_n none h W

/-- the messages of the last layer: the source node's value times the edge's coefficient -/
def msg1With (xw : (Arr F S50000x1 .f32)) (srcIx : (Arr F S800000x1 .i32)) (c : (Arr F S800000x1 .f32)) : (Arr F S800000x1 .f32) :=
  mulf (Host.gather gather_S50000x1_S800000x1_S800000x1_1_0_n_n_0_1_11 xw srcIx) c

/-- aggregate + self loop + bias, one feature -/
def convOut1 (msg : (Arr F S800000x1 .f32)) (dst : (Arr F S800000 .i32)) (xw : (Arr F S50000x1 .f32)) (deg : (Arr F S50000 .f32))
    (b : (Arr F S1 .f32)) : (Arr F S50000x1 .f32) :=
  addf
    (addf (Host.scatterAdd scatter_S50000x1_S800000x1_S800000x1_1_0_0_1 (fill S50000x1 bcast_S_S50000x1 0x00000000#32) (col dst) msg)
      (mulf xw (broadcastInDim S50000x1 ![0] bcast_S50000_S50000x1_0 (invDeg deg))))
    (broadcastInDim S50000x1 ![0, 1] bcast_S1x1_S50000x1_0_1 (broadcastInDim S1x1 ![1] bcast_S1_S1x1_1 b))

/-- the last convolution layer, from the product `xw` = h · W₃ -/
def conv1 (xw : (Arr F S50000x1 .f32)) (src dst : (Arr F S800000 .i32)) (b : (Arr F S1 .f32)) : (Arr F S50000x1 .f32) :=
  convOut1 (msg1With xw (wrap src) (coef (dinvOf (degree dst)) src dst)) dst xw (degree dst) b

/-! ## The three layers -/

/-- the first layer's output before normalisation -/
def layer1 (a0 : (Arr F S50000x128 .f32)) (a1 : (Arr F S2x800000 .i32)) (a2 : (Arr F S128x128 .f32)) (a3 : (Arr F S128 .f32)) : (Arr F S50000x128 .f32) :=
  conv128 (matmul128 a0 a2) (srcIdx a1) (dstIdx a1) a3

/-- the first hidden features: layer 1, normalised and activated -/
def hidden1 (a0 : (Arr F S50000x128 .f32)) (a1 : (Arr F S2x800000 .i32)) (a2 : (Arr F S128x128 .f32)) (a3 a4 a5 : (Arr F S128 .f32)) : (Arr F S50000x128 .f32) :=
  leakyRelu (batchNorm (layer1 a0 a1 a2 a3) a4 a5)

/-- the second layer's output before normalisation -/
def layer2 (h1 : (Arr F S50000x128 .f32)) (a1 : (Arr F S2x800000 .i32)) (a6 : (Arr F S128x128 .f32)) (a7 : (Arr F S128 .f32)) : (Arr F S50000x128 .f32) :=
  conv128 (matmul128 h1 a6) (srcIdx a1) (dstIdx a1) a7

/-- the second hidden features -/
def hidden2 (h1 : (Arr F S50000x128 .f32)) (a1 : (Arr F S2x800000 .i32)) (a6 : (Arr F S128x128 .f32)) (a7 a8 a9 : (Arr F S128 .f32)) : (Arr F S50000x128 .f32) :=
  leakyRelu (batchNorm (layer2 h1 a1 a6 a7) a8 a9)

/-- the reference's result as one pure term of the twelve argument arrays -/
def result (a0 : (Arr F S50000x128 .f32)) (a1 : (Arr F S2x800000 .i32)) (a2 : (Arr F S128x128 .f32)) (a3 a4 a5 : (Arr F S128 .f32))
    (a6 : (Arr F S128x128 .f32)) (a7 a8 a9 : (Arr F S128 .f32)) (a10 : (Arr F S128x1 .f32)) (a11 : (Arr F S1 .f32)) : (Arr F S50000x1 .f32) :=
  conv1 (matmul1 (hidden2 (hidden1 a0 a1 a2 a3 a4 a5) a1 a6 a7 a8 a9) a10) (srcIdx a1) (dstIdx a1) a11

end Cert.ReferenceIdeal.RefRun

end
-- ==== Proof.RefRun0.lean ====
import proofs.«181351_j65970697667357_2_alg».proof.Proof.RefOps
import proofs.«181351_j65970697667357_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Window 0 of the reference's line is its list of operations -/

set_option maxRecDepth 8192 in
/-- the window's statements, one `hlo` step each, are the list run in order -/
theorem main_part0_eq (c : Dev nD) : main_part0 (F := F) c = seq ops0 := rfl

set_option maxRecDepth 8192 in
/-- every operation of the window touches TensorCore buffers only -/
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
/-- every operation of the window determines its result -/
theorem ops0_fresh : ∀ op ∈ (ops0 : List (HloOp τ sig (Elt F))), op.fresh = ∅ := by
  intro _ h; (repeat (cases h with | head => rfl | tail _ h => ?_)); exact nomatch h

set_option maxRecDepth 8192 in
/-- the window writes only the buffers listed in `ops0_W` -/
theorem ops0_writes : (ops0 : List (HloOp τ sig (Elt F))).Forall fun op =>
    op.writes ⊆ (ops0_W.map (Proc.devRef (τ := τ) .tc)).toFinset := by
  simp only [List.Forall, nullary_writes, unary_writes, binary_writes, ternary_writes, reshape_writes,
    Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- a buffer the window does not write keeps its contents through it -/
theorem keep0 (V : Valuation τ sig (Elt F)) (r : Ref sig .tc) (h : r ∉ ops0_W) :
    after ops0 V (Proc.devRef .tc r) = V (Proc.devRef .tc r) :=
  after_of_writes_sub ops0 V ops0_writes h

/-! ## What the window leaves in the buffers read after it -/

set_option maxRecDepth 8192 in
set_option maxHeartbeats 2000000 in
/-- the source nodes -/
theorem out0_v1 (V : Valuation τ sig (Elt F)) :
    after ops0 V (Proc.devRef .tc main_v1)
      = srcIdx (V (Proc.devRef .tc main_arg1)) := by
  after_results_simp
  rfl

set_option maxRecDepth 8192 in
set_option maxHeartbeats 2000000 in
/-- the destination nodes -/
theorem out0_v3 (V : Valuation τ sig (Elt F)) :
    after ops0 V (Proc.devRef .tc main_v3)
      = dstIdx (V (Proc.devRef .tc main_arg1)) := by
  after_results_simp
  rfl

set_option maxRecDepth 8192 in
set_option maxHeartbeats 2000000 in
/-- the first layer's product x · W₁ -/
theorem out0_v4 (V : Valuation τ sig (Elt F)) :
    after ops0 V (Proc.devRef .tc main_v4)
      = matmul128 (V (Proc.devRef .tc main_arg0)) (V (Proc.devRef .tc main_arg2)) := by
  after_results_simp
  rfl

set_option maxRecDepth 8192 in
set_option maxHeartbeats 2000000 in
/-- 1/deg -/
theorem out0_v46 (V : Valuation τ sig (Elt F)) :
    after ops0 V (Proc.devRef .tc main_v46)
      = invDeg (degree (dstIdx (V (Proc.devRef .tc main_arg1)))) := by
  after_results_simp
  rfl

set_option maxRecDepth 8192 in
set_option maxHeartbeats 2000000 in
/-- the first layer's messages summed at their destinations -/
theorem out0_v44 (V : Valuation τ sig (Elt F)) :
    after ops0 V (Proc.devRef .tc main_v44)
      = agg128 (msg128With (matmul128 (V (Proc.devRef .tc main_arg0)) (V (Proc.devRef .tc main_arg2))) (wrap (srcIdx (V (Proc.devRef .tc main_arg1))))
            (coef (dinvOf (degree (dstIdx (V (Proc.devRef .tc main_arg1))))) (srcIdx (V (Proc.devRef .tc main_arg1))) (dstIdx (V (Proc.devRef .tc main_arg1)))))
          (dstIdx (V (Proc.devRef .tc main_arg1))) := by
  after_results_simp
  rfl

end Cert.ReferenceIdeal.RefRun

end
-- ==== Proof.RefRun1.lean ====
import proofs.«181351_j65970697667357_2_alg».proof.Proof.RefOps
import proofs.«181351_j65970697667357_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Window 1 of the reference's line is its list of operations -/

set_option maxRecDepth 8192 in
/-- the window's statements, one `hlo` step each, are the list run in order -/
theorem main_part1_eq (c : Dev nD) : main_part1 (F := F) c = seq ops1 := rfl

set_option maxRecDepth 8192 in
/-- every operation of the window touches TensorCore buffers only -/
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
/-- every operation of the window determines its result -/
theorem ops1_fresh : ∀ op ∈ (ops1 : List (HloOp τ sig (Elt F))), op.fresh = ∅ := by
  intro _ h; (repeat (cases h with | head => rfl | tail _ h => ?_)); exact nomatch h

set_option maxRecDepth 8192 in
/-- the window writes only the buffers listed in `ops1_W` -/
theorem ops1_writes : (ops1 : List (HloOp τ sig (Elt F))).Forall fun op =>
    op.writes ⊆ (ops1_W.map (Proc.devRef (τ := τ) .tc)).toFinset := by
  simp only [List.Forall, nullary_writes, unary_writes, binary_writes, ternary_writes, reshape_writes,
    Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- a buffer the window does not write keeps its contents through it -/
theorem keep1 (V : Valuation τ sig (Elt F)) (r : Ref sig .tc) (h : r ∉ ops1_W) :
    after ops1 V (Proc.devRef .tc r) = V (Proc.devRef .tc r) :=
  after_of_writes_sub ops1 V ops1_writes h

/-! ## What the window leaves in the buffers read after it -/

set_option maxRecDepth 8192 in
set_option maxHeartbeats 2000000 in
/-- the second layer's product h₁ · W₂, h₁ the first layer's output normalised and activated -/
theorem out1_v80 (V : Valuation τ sig (Elt F)) :
    after ops1 V (Proc.devRef .tc main_v80)
      = matmul128 (leakyRelu (batchNorm (convOut128 (V (Proc.devRef .tc main_v44)) (V (Proc.devRef .tc main_v4)) (V (Proc.devRef .tc main_v46)) (V (Proc.devRef .tc main_arg3))) (V (Proc.devRef .tc main_arg4)) (V (Proc.devRef .tc main_arg5)))) (V (Proc.devRef .tc main_arg6)) := by
  after_results_simp
  rfl

set_option maxRecDepth 8192 in
set_option maxHeartbeats 2000000 in
/-- the degrees (computed again for the second layer) -/
theorem out1_v91 (V : Valuation τ sig (Elt F)) :
    after ops1 V (Proc.devRef .tc main_v91)
      = degree (V (Proc.devRef .tc main_v3)) := by
  after_results_simp
  rfl

set_option maxRecDepth 8192 in
set_option maxHeartbeats 2000000 in
/-- 1/√deg -/
theorem out1_v92 (V : Valuation τ sig (Elt F)) :
    after ops1 V (Proc.devRef .tc main_v92)
      = dinvOf (degree (V (Proc.devRef .tc main_v3))) := by
  after_results_simp
  rfl

set_option maxRecDepth 8192 in
set_option maxHeartbeats 2000000 in
/-- the test src < 0 -/
theorem out1_v94 (V : Valuation τ sig (Elt F)) :
    after ops1 V (Proc.devRef .tc main_v94)
      = isNeg (V (Proc.devRef .tc main_v1)) := by
  after_results_simp
  rfl

set_option maxRecDepth 8192 in
set_option maxHeartbeats 2000000 in
/-- the node count -/
theorem out1_c_22 (V : Valuation τ sig (Elt F)) :
    after ops1 V (Proc.devRef .tc main_c_22)
      = (constantI S_ 32 50000#32 : Arr F S_ .i32) := by
  after_results_simp

end Cert.ReferenceIdeal.RefRun

end
-- ==== Proof.RefRun2.lean ====
import proofs.«181351_j65970697667357_2_alg».proof.Proof.RefOps
import proofs.«181351_j65970697667357_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Window 2 of the reference's line is its list of operations -/

set_option maxRecDepth 8192 in
/-- the window's statements, one `hlo` step each, are the list run in order -/
theorem main_part2_eq (c : Dev nD) : main_part2 (F := F) c = seq ops2 := rfl

set_option maxRecDepth 8192 in
/-- every operation of the window touches TensorCore buffers only -/
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
/-- every operation of the window determines its result -/
theorem ops2_fresh : ∀ op ∈ (ops2 : List (HloOp τ sig (Elt F))), op.fresh = ∅ := by
  intro _ h; (repeat (cases h with | head => rfl | tail _ h => ?_)); exact nomatch h

set_option maxRecDepth 8192 in
/-- the window writes only the buffers listed in `ops2_W` -/
theorem ops2_writes : (ops2 : List (HloOp τ sig (Elt F))).Forall fun op =>
    op.writes ⊆ (ops2_W.map (Proc.devRef (τ := τ) .tc)).toFinset := by
  simp only [List.Forall, nullary_writes, unary_writes, binary_writes, ternary_writes, reshape_writes,
    Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- a buffer the window does not write keeps its contents through it -/
theorem keep2 (V : Valuation τ sig (Elt F)) (r : Ref sig .tc) (h : r ∉ ops2_W) :
    after ops2 V (Proc.devRef .tc r) = V (Proc.devRef .tc r) :=
  after_of_writes_sub ops2 V ops2_writes h

/-! ## What the window leaves in the buffers read after it -/

set_option maxRecDepth 8192 in
set_option maxHeartbeats 2000000 in
/-- the variance of the second layer's output -/
theorem out2_v139 (V : Valuation τ sig (Elt F)) :
    after ops2 V (Proc.devRef .tc main_v139)
      = colVar (conv128From (V (Proc.devRef .tc main_v80)) (V (Proc.devRef .tc main_v91)) (V (Proc.devRef .tc main_v92)) (wrapWith (V (Proc.devRef .tc main_v94)) (V (Proc.devRef .tc main_c_22)) (V (Proc.devRef .tc main_v1))) (V (Proc.devRef .tc main_v1)) (V (Proc.devRef .tc main_v3)) (V (Proc.devRef .tc main_arg7))) := by
  after_results_simp
  rfl

set_option maxRecDepth 8192 in
set_option maxHeartbeats 2000000 in
/-- the second layer's output, centred -/
theorem out2_v142 (V : Valuation τ sig (Elt F)) :
    after ops2 V (Proc.devRef .tc main_v142)
      = centredBy (conv128From (V (Proc.devRef .tc main_v80)) (V (Proc.devRef .tc main_v91)) (V (Proc.devRef .tc main_v92)) (wrapWith (V (Proc.devRef .tc main_v94)) (V (Proc.devRef .tc main_c_22)) (V (Proc.devRef .tc main_v1))) (V (Proc.devRef .tc main_v1)) (V (Proc.devRef .tc main_v3)) (V (Proc.devRef .tc main_arg7))) (colMean (conv128From (V (Proc.devRef .tc main_v80)) (V (Proc.devRef .tc main_v91)) (V (Proc.devRef .tc main_v92)) (wrapWith (V (Proc.devRef .tc main_v94)) (V (Proc.devRef .tc main_c_22)) (V (Proc.devRef .tc main_v1))) (V (Proc.devRef .tc main_v1)) (V (Proc.devRef .tc main_v3)) (V (Proc.devRef .tc main_arg7)))) := by
  after_results_simp
  rfl

set_option maxRecDepth 8192 in
set_option maxHeartbeats 2000000 in
/-- ε -/
theorem out2_v143 (V : Valuation τ sig (Elt F)) :
    after ops2 V (Proc.devRef .tc main_v143)
      = (epsRow : Arr F S128 .f32) := by
  after_results_simp
  rfl

end Cert.ReferenceIdeal.RefRun

end
-- ==== Proof.RefRun3.lean ====
import proofs.«181351_j65970697667357_2_alg».proof.Proof.RefOps
import proofs.«181351_j65970697667357_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Window 3 of the reference's line is its list of operations -/

set_option maxRecDepth 8192 in
/-- the window's statements, one `hlo` step each, are the list run in order -/
theorem main_part3_eq (c : Dev nD) : main_part3 (F := F) c = seq ops3 := rfl

set_option maxRecDepth 8192 in
/-- every operation of the window touches TensorCore buffers only -/
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
/-- every operation of the window determines its result -/
theorem ops3_fresh : ∀ op ∈ (ops3 : List (HloOp τ sig (Elt F))), op.fresh = ∅ := by
  intro _ h; (repeat (cases h with | head => rfl | tail _ h => ?_)); exact nomatch h

set_option maxRecDepth 8192 in
/-- the window writes only the buffers listed in `ops3_W` -/
theorem ops3_writes : (ops3 : List (HloOp τ sig (Elt F))).Forall fun op =>
    op.writes ⊆ (ops3_W.map (Proc.devRef (τ := τ) .tc)).toFinset := by
  simp only [List.Forall, nullary_writes, unary_writes, binary_writes, ternary_writes, reshape_writes,
    Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- a buffer the window does not write keeps its contents through it -/
theorem keep3 (V : Valuation τ sig (Elt F)) (r : Ref sig .tc) (h : r ∉ ops3_W) :
    after ops3 V (Proc.devRef .tc r) = V (Proc.devRef .tc r) :=
  after_of_writes_sub ops3 V ops3_writes h

/-! ## What the window leaves in the buffers read after it -/

set_option maxRecDepth 8192 in
set_option maxHeartbeats 2000000 in
/-- the last layer's product h₂ · W₃, h₂ the second layer's output normalised and activated -/
theorem out3_v156 (V : Valuation τ sig (Elt F)) :
    after ops3 V (Proc.devRef .tc main_v156)
      = (matmul1 (leakyRelu (normWith (V (Proc.devRef .tc main_v142)) (V (Proc.devRef .tc main_v139)) (V (Proc.devRef .tc main_v143)) (V (Proc.devRef .tc main_arg8)) (V (Proc.devRef .tc main_arg9)))) (V (Proc.devRef .tc main_arg10))) := by
  after_results_simp
  rfl

set_option maxRecDepth 8192 in
set_option maxHeartbeats 2000000 in
/-- the degrees (computed again for the last layer) -/
theorem out3_v167 (V : Valuation τ sig (Elt F)) :
    after ops3 V (Proc.devRef .tc main_v167)
      = degree (V (Proc.devRef .tc main_v3)) := by
  after_results_simp
  rfl

set_option maxRecDepth 8192 in
set_option maxHeartbeats 2000000 in
/-- the last layer's messages -/
theorem out3_v192 (V : Valuation τ sig (Elt F)) :
    after ops3 V (Proc.devRef .tc main_v192)
      = msg1With (matmul1 (leakyRelu (normWith (V (Proc.devRef .tc main_v142)) (V (Proc.devRef .tc main_v139)) (V (Proc.devRef .tc main_v143)) (V (Proc.devRef .tc main_arg8)) (V (Proc.devRef .tc main_arg9)))) (V (Proc.devRef .tc main_arg10))) (wrap (V (Proc.devRef .tc main_v1))) (coef (dinvOf (degree (V (Proc.devRef .tc main_v3)))) (V (Proc.devRef .tc main_v1)) (V (Proc.devRef .tc main_v3))) := by
  after_results_simp
  rfl

end Cert.ReferenceIdeal.RefRun

end
-- ==== Proof.RefRun4.lean ====
import proofs.«181351_j65970697667357_2_alg».proof.Proof.RefOps
import proofs.«181351_j65970697667357_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Window 4 of the reference's line is its list of operations -/

set_option maxRecDepth 8192 in
/-- the window's statements, one `hlo` step each, are the list run in order -/
theorem main_part4_eq (c : Dev nD) : main_part4 (F := F) c = seq ops4 := rfl

set_option maxRecDepth 8192 in
/-- every operation of the window touches TensorCore buffers only -/
theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
/-- every operation of the window determines its result -/
theorem ops4_fresh : ∀ op ∈ (ops4 : List (HloOp τ sig (Elt F))), op.fresh = ∅ := by
  intro _ h; (repeat (cases h with | head => rfl | tail _ h => ?_)); exact nomatch h

set_option maxRecDepth 8192 in
/-- the window writes only the buffers listed in `ops4_W` -/
theorem ops4_writes : (ops4 : List (HloOp τ sig (Elt F))).Forall fun op =>
    op.writes ⊆ (ops4_W.map (Proc.devRef (τ := τ) .tc)).toFinset := by
  simp only [List.Forall, nullary_writes, unary_writes, binary_writes, ternary_writes, reshape_writes,
    Finset.singleton_subset_iff, List.mem_toFinset]
  refine ⟨?_, ?_, ?_, ?_, ?_, ?_, ?_, ?_, ?_, ?_, ?_, ?_, ?_⟩ <;> exact List.mem_map_of_mem (by decide)

/-- a buffer the window does not write keeps its contents through it -/
theorem keep4 (V : Valuation τ sig (Elt F)) (r : Ref sig .tc) (h : r ∉ ops4_W) :
    after ops4 V (Proc.devRef .tc r) = V (Proc.devRef .tc r) :=
  after_of_writes_sub ops4 V ops4_writes h

/-! ## What the window leaves in the buffers read after it -/

set_option maxRecDepth 8192 in
set_option maxHeartbeats 400000 in
/-- the result: the last layer's messages summed at their destinations, plus the self-loop term, plus the bias -/
theorem out4_v203 (V : Valuation τ sig (Elt F)) :
    after ops4 V (Proc.devRef .tc main_v203)
      = convOut1 (V (Proc.devRef .tc main_v192)) (V (Proc.devRef .tc main_v3)) (V (Proc.devRef .tc main_v156))
          (V (Proc.devRef .tc main_v167)) (V (Proc.devRef .tc main_arg11)) := by
  after_results_simp
  rfl

end Cert.ReferenceIdeal.RefRun

end
-- ==== Proof.RefRun.lean ====
import proofs.«181351_j65970697667357_2_alg».proof.Proof.RefRun0
import proofs.«181351_j65970697667357_2_alg».proof.Proof.RefRun1
import proofs.«181351_j65970697667357_2_alg».proof.Proof.RefRun2
import proofs.«181351_j65970697667357_2_alg».proof.Proof.RefRun3
import proofs.«181351_j65970697667357_2_alg».proof.Proof.RefRun4
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The whole line -/

/-- the reference's operations, in order: the five windows one after the other -/
abbrev ops : List (HloOp τ sig (Elt F)) := ops0 ++ (ops1 ++ (ops2 ++ (ops3 ++ ops4)))

set_option maxRecDepth 8192 in
/-- the reference runs its five windows in order, and each is its list of operations -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h]

theorem ops_fresh : ∀ op ∈ (ops : List (HloOp τ sig (Elt F))), op.fresh = ∅ := fun op h => by
  simp only [ops, List.mem_append] at h
  rcases h with h | h | h | h | h
  exacts [ops0_fresh op h, ops1_fresh op h, ops2_fresh op h, ops3_fresh op h, ops4_fresh op h]

/-! ## The buffers after each window, from any contents `V` at the start -/

/-- the buffers' contents after the first window -/
def val1 (V : Valuation τ sig (Elt F)) : Valuation τ sig (Elt F) := after ops0 V
/-- after the first two windows -/
def val2 (V : Valuation τ sig (Elt F)) : Valuation τ sig (Elt F) := after ops1 (val1 V)
/-- after the first three windows -/
def val3 (V : Valuation τ sig (Elt F)) : Valuation τ sig (Elt F) := after ops2 (val2 V)
/-- after the first four windows -/
def val4 (V : Valuation τ sig (Elt F)) : Valuation τ sig (Elt F) := after ops3 (val3 V)
/-- after all five windows -/
def val5 (V : Valuation τ sig (Elt F)) : Valuation τ sig (Elt F) := after ops4 (val4 V)

theorem after_ops (V : Valuation τ sig (Elt F)) : after ops V = val5 V := by
  simp only [ops, after_append]
  rfl

/-- a buffer none of the first 1 window writes still holds what it held at the start -/
theorem val1_keep (V : Valuation τ sig (Elt F)) (r : Ref sig .tc) (h0 : r ∉ ops0_W) :
    val1 V (Proc.devRef .tc r) = V (Proc.devRef .tc r) := by
  unfold val1
  rw [keep0 _ r h0]

/-- a buffer none of the first 2 windows writes still holds what it held at the start -/
theorem val2_keep (V : Valuation τ sig (Elt F)) (r : Ref sig .tc) (h0 : r ∉ ops0_W) (h1 : r ∉ ops1_W) :
    val2 V (Proc.devRef .tc r) = V (Proc.devRef .tc r) := by
  unfold val2 val1
  rw [keep1 _ r h1, keep0 _ r h0]

/-- a buffer none of the first 3 windows writes still holds what it held at the start -/
theorem val3_keep (V : Valuation τ sig (Elt F)) (r : Ref sig .tc) (h0 : r ∉ ops0_W) (h1 : r ∉ ops1_W) (h2 : r ∉ ops2_W) :
    val3 V (Proc.devRef .tc r) = V (Proc.devRef .tc r) := by
  unfold val3 val2 val1
  rw [keep2 _ r h2, keep1 _ r h1, keep0 _ r h0]

/-- a buffer none of the first 4 windows writes still holds what it held at the start -/
theorem val4_keep (V : Valuation τ sig (Elt F)) (r : Ref sig .tc) (h0 : r ∉ ops0_W) (h1 : r ∉ ops1_W) (h2 : r ∉ ops2_W) (h3 : r ∉ ops3_W) :
    val4 V (Proc.devRef .tc r) = V (Proc.devRef .tc r) := by
  unfold val4 val3 val2 val1
  rw [keep3 _ r h3, keep2 _ r h2, keep1 _ r h1, keep0 _ r h0]

/-- a buffer none of the first 5 windows writes still holds what it held at the start -/
theorem val5_keep (V : Valuation τ sig (Elt F)) (r : Ref sig .tc) (h0 : r ∉ ops0_W) (h1 : r ∉ ops1_W) (h2 : r ∉ ops2_W) (h3 : r ∉ ops3_W) (h4 : r ∉ ops4_W) :
    val5 V (Proc.devRef .tc r) = V (Proc.devRef .tc r) := by
  unfold val5 val4 val3 val2 val1
  rw [keep4 _ r h4, keep3 _ r h3, keep2 _ r h2, keep1 _ r h1, keep0 _ r h0]

/-! ### After window 0: the edge list's two rows, the first product, its aggregate and 1/deg -/

theorem val1_v1 (V : Valuation τ sig (Elt F)) : val1 V (Proc.devRef .tc main_v1) = srcIdx (V (Proc.devRef .tc main_arg1)) := out0_v1 V
theorem val1_v3 (V : Valuation τ sig (Elt F)) : val1 V (Proc.devRef .tc main_v3) = dstIdx (V (Proc.devRef .tc main_arg1)) := out0_v3 V
theorem val1_v4 (V : Valuation τ sig (Elt F)) : val1 V (Proc.devRef .tc main_v4) = matmul128 (V (Proc.devRef .tc main_arg0)) (V (Proc.devRef .tc main_arg2)) := out0_v4 V
theorem val1_v46 (V : Valuation τ sig (Elt F)) : val1 V (Proc.devRef .tc main_v46) = invDeg (degree (dstIdx (V (Proc.devRef .tc main_arg1)))) := out0_v46 V
theorem val1_v44 (V : Valuation τ sig (Elt F)) : val1 V (Proc.devRef .tc main_v44)
    = agg128 (msg128With (matmul128 (V (Proc.devRef .tc main_arg0)) (V (Proc.devRef .tc main_arg2))) (wrap (srcIdx (V (Proc.devRef .tc main_arg1)))) (coef (dinvOf (degree (dstIdx (V (Proc.devRef .tc main_arg1))))) (srcIdx (V (Proc.devRef .tc main_arg1))) (dstIdx (V (Proc.devRef .tc main_arg1))))) (dstIdx (V (Proc.devRef .tc main_arg1))) :=
  out0_v44 V

/-! ### After window 1: the first hidden features times W₂, the degrees again -/

/-- the source nodes, untouched by window 1 -/
theorem val2_v1 (V : Valuation τ sig (Elt F)) :
    val2 V (Proc.devRef .tc main_v1) = srcIdx (V (Proc.devRef .tc main_arg1)) := by
  unfold val2
  rw [keep1 _ main_v1 (by decide), val1_v1]

/-- the destination nodes, untouched by window 1 -/
theorem val2_v3 (V : Valuation τ sig (Elt F)) :
    val2 V (Proc.devRef .tc main_v3) = dstIdx (V (Proc.devRef .tc main_arg1)) := by
  unfold val2
  rw [keep1 _ main_v3 (by decide), val1_v3]

/-- h₁ · W₂ -/
theorem val2_v80 (V : Valuation τ sig (Elt F)) :
    val2 V (Proc.devRef .tc main_v80) = matmul128 (hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)) := by
  unfold val2
  rw [out1_v80, val1_v44, val1_v4, val1_v46, val1_keep V main_arg3 (by decide), val1_keep V main_arg4 (by decide), val1_keep V main_arg5 (by decide), val1_keep V main_arg6 (by decide)]
  rfl

/-- the degrees -/
theorem val2_v91 (V : Valuation τ sig (Elt F)) :
    val2 V (Proc.devRef .tc main_v91) = degree (dstIdx (V (Proc.devRef .tc main_arg1))) := by
  unfold val2
  rw [out1_v91, val1_v3]

/-- 1/√deg -/
theorem val2_v92 (V : Valuation τ sig (Elt F)) :
    val2 V (Proc.devRef .tc main_v92) = dinvOf (degree (dstIdx (V (Proc.devRef .tc main_arg1)))) := by
  unfold val2
  rw [out1_v92, val1_v3]

/-- the test src < 0 -/
theorem val2_v94 (V : Valuation τ sig (Elt F)) :
    val2 V (Proc.devRef .tc main_v94) = isNeg (srcIdx (V (Proc.devRef .tc main_arg1))) := by
  unfold val2
  rw [out1_v94, val1_v1]

/-- the node count -/
theorem val2_c_22 (V : Valuation τ sig (Elt F)) :
    val2 V (Proc.devRef .tc main_c_22) = (constantI S_ 32 50000#32 : Arr F S_ .i32) := by
  unfold val2
  rw [out1_c_22]

/-! ### After window 2: the second layer's output centred, its variance, ε -/

/-- the source nodes -/
theorem val3_v1 (V : Valuation τ sig (Elt F)) :
    val3 V (Proc.devRef .tc main_v1) = srcIdx (V (Proc.devRef .tc main_arg1)) := by
  unfold val3
  rw [keep2 _ main_v1 (by decide), val2_v1]

/-- the destination nodes -/
theorem val3_v3 (V : Valuation τ sig (Elt F)) :
    val3 V (Proc.devRef .tc main_v3) = dstIdx (V (Proc.devRef .tc main_arg1)) := by
  unfold val3
  rw [keep2 _ main_v3 (by decide), val2_v3]

/-- the variance of the second layer's output -/
theorem val3_v139 (V : Valuation τ sig (Elt F)) :
    val3 V (Proc.devRef .tc main_v139) = colVar (layer2 (hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg1)) (V (Proc.devRef .tc main_arg6)) (V (Proc.devRef .tc main_arg7))) := by
  unfold val3
  rw [out2_v139, val2_v80, val2_v91, val2_v92, val2_v94, val2_c_22, val2_v1, val2_v3, val2_keep V main_arg7 (by decide) (by decide)]
  rfl

/-- the second layer's output, centred -/
theorem val3_v142 (V : Valuation τ sig (Elt F)) :
    val3 V (Proc.devRef .tc main_v142) = centredBy (layer2 (hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg1)) (V (Proc.devRef .tc main_arg6)) (V (Proc.devRef .tc main_arg7))) (colMean (layer2 (hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg1)) (V (Proc.devRef .tc main_arg6)) (V (Proc.devRef .tc main_arg7)))) := by
  unfold val3
  rw [out2_v142, val2_v80, val2_v91, val2_v92, val2_v94, val2_c_22, val2_v1, val2_v3, val2_keep V main_arg7 (by decide) (by decide)]
  rfl

/-- ε -/
theorem val3_v143 (V : Valuation τ sig (Elt F)) :
    val3 V (Proc.devRef .tc main_v143) = (epsRow : Arr F S128 .f32) := by
  unfold val3
  rw [out2_v143]

/-! ### After window 3: the second hidden features times W₃, the degrees again, the last messages -/

/-- the destination nodes -/
theorem val4_v3 (V : Valuation τ sig (Elt F)) :
    val4 V (Proc.devRef .tc main_v3) = dstIdx (V (Proc.devRef .tc main_arg1)) := by
  unfold val4
  rw [keep3 _ main_v3 (by decide), val3_v3]

/-- h₂ · W₃ -/
theorem val4_v156 (V : Valuation τ sig (Elt F)) :
    val4 V (Proc.devRef .tc main_v156) = (matmul1 (hidden2 (hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg1)) (V (Proc.devRef .tc main_arg6)) (V (Proc.devRef .tc main_arg7)) (V (Proc.devRef .tc main_arg8)) (V (Proc.devRef .tc main_arg9))) (V (Proc.devRef .tc main_arg10))) := by
  unfold val4
  rw [out3_v156, val3_v142, val3_v139, val3_v143, val3_keep V main_arg8 (by decide) (by decide) (by decide), val3_keep V main_arg9 (by decide) (by decide) (by decide), val3_keep V main_arg10 (by decide) (by decide) (by decide)]
  rfl

/-- the degrees -/
theorem val4_v167 (V : Valuation τ sig (Elt F)) :
    val4 V (Proc.devRef .tc main_v167) = degree (dstIdx (V (Proc.devRef .tc main_arg1))) := by
  unfold val4
  rw [out3_v167, val3_v3]

/-- the last layer's messages -/
theorem val4_v192 (V : Valuation τ sig (Elt F)) :
    val4 V (Proc.devRef .tc main_v192) = msg1With (matmul1 (hidden2 (hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg1)) (V (Proc.devRef .tc main_arg6)) (V (Proc.devRef .tc main_arg7)) (V (Proc.devRef .tc main_arg8)) (V (Proc.devRef .tc main_arg9))) (V (Proc.devRef .tc main_arg10))) (wrap (srcIdx (V (Proc.devRef .tc main_arg1)))) (coef (dinvOf (degree (dstIdx (V (Proc.devRef .tc main_arg1))))) (srcIdx (V (Proc.devRef .tc main_arg1))) (dstIdx (V (Proc.devRef .tc main_arg1)))) := by
  unfold val4
  rw [out3_v192, val3_v142, val3_v139, val3_v143, val3_keep V main_arg8 (by decide) (by decide) (by decide), val3_keep V main_arg9 (by decide) (by decide) (by decide), val3_keep V main_arg10 (by decide) (by decide) (by decide), val3_v1, val3_v3]
  rfl

/-! ### After window 4: the result -/

/-- the result buffer holds the reference's value of the twelve arguments -/
theorem val5_v203 (V : Valuation τ sig (Elt F)) :
    val5 V (Proc.devRef .tc main_v203) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  unfold val5
  rw [out4_v203, val4_v192, val4_v3, val4_v156, val4_v167, val4_keep V main_arg11 (by decide) (by decide) (by decide) (by decide)]
  rfl

/-! ## The run -/

/-- On every device, for any float values, from any memory with zero counters: every weakly fair execution of the
    reference terminates with its result buffer at `result` of the twelve arguments' contents at the start, and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v203)
          = result (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v203).trans (by rw [after_ops]; exact val5_v203 (launchContents m c)),
      (h c main_arg0).trans (by rw [after_ops]; exact val5_keep (launchContents m c) main_arg0 (by decide) (by decide) (by decide) (by decide) (by decide)),
      (h c main_arg1).trans (by rw [after_ops]; exact val5_keep (launchContents m c) main_arg1 (by decide) (by decide) (by decide) (by decide) (by decide)),
      (h c main_arg2).trans (by rw [after_ops]; exact val5_keep (launchContents m c) main_arg2 (by decide) (by decide) (by decide) (by decide) (by decide)),
      (h c main_arg3).trans (by rw [after_ops]; exact val5_keep (launchContents m c) main_arg3 (by decide) (by decide) (by decide) (by decide) (by decide)),
      (h c main_arg4).trans (by rw [after_ops]; exact val5_keep (launchContents m c) main_arg4 (by decide) (by decide) (by decide) (by decide) (by decide)),
      (h c main_arg5).trans (by rw [after_ops]; exact val5_keep (launchContents m c) main_arg5 (by decide) (by decide) (by decide) (by decide) (by decide)),
      (h c main_arg6).trans (by rw [after_ops]; exact val5_keep (launchContents m c) main_arg6 (by decide) (by decide) (by decide) (by decide) (by decide)),
      (h c main_arg7).trans (by rw [after_ops]; exact val5_keep (launchContents m c) main_arg7 (by decide) (by decide) (by decide) (by decide) (by decide)),
      (h c main_arg8).trans (by rw [after_ops]; exact val5_keep (launchContents m c) main_arg8 (by decide) (by decide) (by decide) (by decide) (by decide)),
      (h c main_arg9).trans (by rw [after_ops]; exact val5_keep (launchContents m c) main_arg9 (by decide) (by decide) (by decide) (by decide) (by decide)),
      (h c main_arg10).trans (by rw [after_ops]; exact val5_keep (launchContents m c) main_arg10 (by decide) (by decide) (by decide) (by decide) (by decide)),
      (h c main_arg11).trans (by rw [after_ops]; exact val5_keep (launchContents m c) main_arg11 (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.LibGatherScatter.lean ====
/-
  THREE HOST INDEX OPERATIONS READ AT AN INDEX, for any extents and any element type: a gather
  of a vector, or of the rows of a matrix, at a column of start indices, and where a scatter at
  a column of start indices lands each update element.

    vecGatherDims / gather_vec_apply      a vector [N] gathered at an index column [E, 1] to [E]
    rowGatherDims / gather_rows_apply     the rows of a matrix [N, D] gathered at an index column [E, 1] to [E, D]
    vecScatterDims / resultIdx?_vec       where update element e of [E] lands in a vector [N]
    rowScatterDims / resultIdx?_rows      where update element (e, j) of [E, D] lands in a matrix [N, D] scattered by rows

  A gather reads its start index SIGNED and CLAMPS it into the operand; a scatter reads it signed
  and DROPS the update when it is outside. So an update that lands has its start inside, and a
  gather at the same start reads the row it landed on (lands_vec / lands_rows and
  clamp_eq_of_lands).

  Each dimension record is an abbrev built from its well-formedness proof, so that a record
  written out field by field with the same lists equals it by rfl. Every index is written with
  ix1 / ix2 over coordinates of literal Fin type.
-/
import Idealize.ShloMosaic.Lib.ValueIdx

namespace Idealize.ShloMosaic.GatherScatterIdx

open Idealize.ShloMosaic Idealize.ShloMosaic.ValueIdx

section Gather
variable {α : Type}

/-- The dimension numbers of a vector [N] gathered at an index column [E, 1] to [E]: the one
    operand axis collapsed, named by the start index map, slice size 1, the index vector along
    axis 1 of the start indices. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT e: the operand at the start index idx[e, 0], read signed and
    clamped into [0, N − 1]. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e (0 : Fin 1))).toInt.toNat (N - 1), by omega⟩) := by
  unfold Host.gather
  refine congrArg x ?_
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of the rows of a matrix [N, D] gathered at an index column [E, 1] to
    [E, D]: the row axis collapsed and named by the start index map, a whole row of D the slice,
    the result's axis 1 its offset axis, the index vector along axis 1 of the start indices. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT (e, j): column j of the operand's row at the start index idx[e, 0],
    read signed and clamped into [0, N − 1]. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e (0 : Fin 1))).toInt.toNat (N - 1), by omega⟩ j) := by
  -- the one component of the start index is read at [e, 0]
  have hsi : ∀ c, (rowGatherDims N D E wf).siIdx (ix2 e j) c = ix2 e (0 : Fin 1) := by
    intro c; funext b; refine Fin.ext ?_
    match b with
    | ⟨0, _⟩ => rfl
    | ⟨1, _⟩ =>
      show c.val = 0
      have hc : c.val < 1 := c.isLt
      omega
  unfold Host.gather
  refine congrArg x ?_
  funext a
  refine Fin.ext ?_
  show (rowGatherDims N D E wf).start (ix2 e j) idx a + (rowGatherDims N D E wf).batchCoord (ix2 e j) a
    + (rowGatherDims N D E wf).offCoord (ix2 e j) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    split
    · rw [hsi]; rfl
    · rename_i ha; exact absurd (List.mem_singleton.mpr rfl) ha
  | ⟨1, _⟩ =>
    have h1 : (⟨1, by decide⟩ : Fin 2) ∉ (rowGatherDims N D E wf).startIndexMap := by
      intro h; exact absurd (congrArg Fin.val (List.mem_singleton.mp h)) Nat.one_ne_zero
    have h2 : (⟨1, by decide⟩ : Fin 2) ∈ (rowGatherDims N D E wf).sKept :=
      (GatherDims.mem_sKept _ _).mpr ⟨fun h => absurd (congrArg Fin.val (List.mem_singleton.mp h)) Nat.one_ne_zero,
        List.not_mem_nil⟩
    unfold GatherDims.start GatherDims.offCoord
    rw [dif_neg h1, dif_pos h2]
    simp only [Nat.zero_add]
    rfl

end Gather

section Scatter

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of [E] update elements into a vector [N] at an index
    column [E, 1]: no window axis, the operand's one axis inserted and named by the map, the
    index vector along axis 1 of the scatter indices. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update element e starts at idx[e, 0], read signed. -/
theorem start_vec {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e (0 : Fin 1))).toInt := by
  have hsi : ∀ c, (vecScatterDims N E wf).siIdx (ix1 e) c = ix2 e (0 : Fin 1) := by
    intro c; funext b; refine Fin.ext ?_
    match b with
    | ⟨0, _⟩ => rfl
    | ⟨1, _⟩ =>
      show c.val = 0
      have hc : c.val < 1 := c.isLt
      omega
  unfold ScatterDims.start
  split
  · rw [hsi]
  · rename_i ha; exact absurd (List.mem_singleton.mpr rfl) ha

/-- It has no window coordinate. -/
theorem window_vec {N E : Nat} (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (fun h => (mem_kept _ _).mp h (List.mem_singleton.mpr rfl))]

/-- WHERE UPDATE ELEMENT e LANDS: at its start index idx[e, 0], read signed, when that is in
    [0, N); nowhere otherwise. -/
theorem resultIdx?_vec {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).resultIdx? (ix1 e) idx
      = if h : 0 ≤ (idx (ix2 e (0 : Fin 1))).toInt ∧ (idx (ix2 e (0 : Fin 1))).toInt < (N : Int) then
          some (ix1 ⟨(idx (ix2 e (0 : Fin 1))).toInt.toNat, by omega⟩)
        else none := by
  have hs := start_vec wf idx e
  have hw := window_vec wf e
  unfold ScatterDims.resultIdx?
  split_ifs with h1 h2 h2
  · refine congrArg some ?_
    funext a
    obtain rfl : a = 0 := Subsingleton.elim _ _
    refine Fin.ext ?_
    show ((vecScatterDims N E wf).start (ix1 e) idx 0 + ((vecScatterDims N E wf).window (ix1 e) 0 : Int)).toNat
      = (idx (ix2 e (0 : Fin 1))).toInt.toNat
    rw [hs, hw]; simp
  · have h0 := h1 0
    rw [hs, hw] at h0
    exact h2 (by simpa using h0)
  · refine h1 (fun a => ?_)
    obtain rfl : a = 0 := Subsingleton.elim _ _
    rw [hs, hw]
    simpa using h2
  · rfl

/-- An update element that lands on n has its start at n. -/
theorem lands_vec {N E w : Nat} (wf : ScatterDims.WF ⟨1, ![N]⟩ ⟨2, ![E, 1]⟩ ⟨1, ![E]⟩ [] [0] [0] 1)
    (idx : IVec ⟨2, ![E, 1]⟩ w) (e : Fin E) (n : Fin N)
    (h : (vecScatterDims N E wf).resultIdx? (ix1 e) idx = some (ix1 n)) :
    (idx (ix2 e (0 : Fin 1))).toInt = (n.val : Int) := by
  rw [resultIdx?_vec] at h
  split_ifs at h with hk
  have h' := congrFun (Option.some.inj h) 0
  have h'' : (idx (ix2 e (0 : Fin 1))).toInt.toNat = n.val := congrArg Fin.val h'
  omega

/-- The dimension numbers of a scatter of [E, D] update rows into a matrix [N, D] at an index
    column [E, 1]: the updates' axis 1 the window axis, going to the operand's column axis; the
    operand's row axis inserted and named by the map; the index vector along axis 1 of the
    scatter indices. -/
abbrev rowScatterDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Update element (e, j) starts, on the row axis, at idx[e, 0], read signed … -/
theorem start_rows0 {N D E w : Nat} (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N D E wf).start (ix2 e j) idx 0 = (idx (ix2 e (0 : Fin 1))).toInt := by
  have hsi : ∀ c, (rowScatterDims N D E wf).siIdx (ix2 e j) c = ix2 e (0 : Fin 1) := by
    intro c; funext b; refine Fin.ext ?_
    match b with
    | ⟨0, _⟩ => rfl
    | ⟨1, _⟩ =>
      show c.val = 0
      have hc : c.val < 1 := c.isLt
      omega
  unfold ScatterDims.start
  split
  · rw [hsi]
  · rename_i ha; exact absurd (List.mem_singleton.mpr rfl) ha

/-- … and on the column axis at 0. -/
theorem start_rows1 {N D E w : Nat} (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N D E wf).start (ix2 e j) idx 1 = 0 := by
  unfold ScatterDims.start
  rw [dif_neg (fun h => absurd (congrArg Fin.val (List.mem_singleton.mp h)) Nat.one_ne_zero)]

/-- Its window coordinate is 0 on the row axis … -/
theorem window_rows0 {N D E : Nat} (wf : ScatterDims.WF ⟨2, ![N, D]⟩ ⟨2, ![E, 1]⟩ ⟨2, ![E, D]⟩ [1] [0] [0] 1)
    (e : Fin E) (j : Fin D) : (rowScatterDims N D E wf).window (ix2 e j) 0 = 0 := by
  unfold ScatterDims.window
  rw [dif_neg (fun h => (mem_kept _ _).mp h (List.mem_singleton.mpr rfl))]

/-- … and its column j on the column axis. -/
theorem window_rows1 {N D E : Nat} (wf : ScatterDims.WF ⟨2, ![N, D]⟩ ⟨2, ![E, 1]⟩ ⟨2, ![E, D]⟩ [1] [0] [0] 1)
    (e : Fin E) (j : Fin D) : (rowScatterDims N D E wf).window (ix2 e j) 1 = j.val := by
  unfold ScatterDims.window
  rw [dif_pos ((mem_kept _ _).mpr (fun h => absurd (congrArg Fin.val (List.mem_singleton.mp h)) Nat.one_ne_zero))]
  rfl

/-- WHERE UPDATE ELEMENT (e, j) LANDS: in column j of the row at its start index idx[e, 0], read
    signed, when that is in [0, N); nowhere otherwise. -/
theorem resultIdx?_rows {N D E w : Nat} (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N D E wf).resultIdx? (ix2 e j) idx
      = if h : 0 ≤ (idx (ix2 e (0 : Fin 1))).toInt ∧ (idx (ix2 e (0 : Fin 1))).toInt < (N : Int) then
          some (ix2 ⟨(idx (ix2 e (0 : Fin 1))).toInt.toNat, by omega⟩ j)
        else none := by
  have hs0 := start_rows0 wf idx e j
  have hs1 := start_rows1 wf idx e j
  have hw0 := window_rows0 wf e j
  have hw1 := window_rows1 wf e j
  unfold ScatterDims.resultIdx?
  split_ifs with h1 h2 h2
  · refine congrArg some ?_
    funext a
    refine Fin.ext ?_
    match a with
    | ⟨0, _⟩ =>
      show ((rowScatterDims N D E wf).start (ix2 e j) idx 0 + ((rowScatterDims N D E wf).window (ix2 e j) 0 : Int)).toNat
        = (idx (ix2 e (0 : Fin 1))).toInt.toNat
      rw [hs0, hw0]; simp
    | ⟨1, _⟩ =>
      show ((rowScatterDims N D E wf).start (ix2 e j) idx 1 + ((rowScatterDims N D E wf).window (ix2 e j) 1 : Int)).toNat
        = j.val
      rw [hs1, hw1]; simp
  · have h0 := h1 0
    rw [hs0, hw0] at h0
    exact h2 (by simpa using h0)
  · refine h1 (fun a => ?_)
    match a with
    | ⟨0, _⟩ =>
      show 0 ≤ (rowScatterDims N D E wf).start (ix2 e j) idx 0 + ((rowScatterDims N D E wf).window (ix2 e j) 0 : Int)
        ∧ (rowScatterDims N D E wf).start (ix2 e j) idx 0 + ((rowScatterDims N D E wf).window (ix2 e j) 0 : Int) < (N : Int)
      rw [hs0, hw0]
      simpa using h2
    | ⟨1, _⟩ =>
      show 0 ≤ (rowScatterDims N D E wf).start (ix2 e j) idx 1 + ((rowScatterDims N D E wf).window (ix2 e j) 1 : Int)
        ∧ (rowScatterDims N D E wf).start (ix2 e j) idx 1 + ((rowScatterDims N D E wf).window (ix2 e j) 1 : Int) < (D : Int)
      rw [hs1, hw1]
      have hj : j.val < D := j.isLt
      omega
  · rfl

/-- An update element that lands on (n, j') is in column j' and has its start at n. -/
theorem lands_rows {N D E w : Nat} (wf : ScatterDims.WF ⟨2, ![N, D]⟩ ⟨2, ![E, 1]⟩ ⟨2, ![E, D]⟩ [1] [0] [0] 1)
    (idx : IVec ⟨2, ![E, 1]⟩ w) (e : Fin E) (j : Fin D) (n : Fin N) (j' : Fin D)
    (h : (rowScatterDims N D E wf).resultIdx? (ix2 e j) idx = some (ix2 n j')) :
    j = j' ∧ (idx (ix2 e (0 : Fin 1))).toInt = (n.val : Int) := by
  rw [resultIdx?_rows] at h
  split_ifs at h with hk
  have h' := Option.some.inj h
  have h0 : (idx (ix2 e (0 : Fin 1))).toInt.toNat = n.val := congrArg Fin.val (congrFun h' 0)
  have h1 : j = j' := congrFun h' 1
  exact ⟨h1, by omega⟩

/-- A start that is a row index n is its own clamp into [0, N − 1]: a gather at the start of an
    update element that landed on row n reads row n. -/
theorem clamp_eq_of_lands {N : Nat} {k : Int} (n : Fin N) (h : k = (n.val : Int)) :
    min k.toNat (N - 1) = n.val := by
  have hn : n.val < N := n.isLt
  subst h
  simp only [Int.toNat_natCast]
  omega

end Scatter

section Generic

/-- lands_vec for an update index given whole: one that lands on n has its start at n. -/
theorem lands_vec' {N E w : Nat} (wf : ScatterDims.WF ⟨1, ![N]⟩ ⟨2, ![E, 1]⟩ ⟨1, ![E]⟩ [] [0] [0] 1)
    (idx : IVec ⟨2, ![E, 1]⟩ w) (u : (⟨1, ![E]⟩ : Shape).Idx) (n : Fin N)
    (h : (vecScatterDims N E wf).resultIdx? u idx = some (ix1 n)) :
    (idx (ix2 (u 0) (0 : Fin 1))).toInt = (n.val : Int) := by
  rw [eq_ix1 u] at h
  exact lands_vec wf idx (u 0) n h

/-- … so a gather at the same start, which clamps it, reads element n. -/
theorem clamp_of_lands_vec {N E w : Nat} (wf : ScatterDims.WF ⟨1, ![N]⟩ ⟨2, ![E, 1]⟩ ⟨1, ![E]⟩ [] [0] [0] 1)
    (idx : IVec ⟨2, ![E, 1]⟩ w) (u : (⟨1, ![E]⟩ : Shape).Idx) (n : Fin N)
    (h : (vecScatterDims N E wf).resultIdx? u idx = some (ix1 n)) :
    min (idx (ix2 (u 0) (0 : Fin 1))).toInt.toNat (N - 1) = n.val :=
  clamp_eq_of_lands n (lands_vec' wf idx u n h)

/-- lands_rows for an update index given whole: one that lands on (n, j) is in column j and has
    its start at n. -/
theorem lands_rows' {N D E w : Nat} (wf : ScatterDims.WF ⟨2, ![N, D]⟩ ⟨2, ![E, 1]⟩ ⟨2, ![E, D]⟩ [1] [0] [0] 1)
    (idx : IVec ⟨2, ![E, 1]⟩ w) (u : (⟨2, ![E, D]⟩ : Shape).Idx) (n : Fin N) (j : Fin D)
    (h : (rowScatterDims N D E wf).resultIdx? u idx = some (ix2 n j)) :
    u 1 = j ∧ (idx (ix2 (u 0) (0 : Fin 1))).toInt = (n.val : Int) := by
  rw [eq_ix2 u] at h
  exact lands_rows wf idx (u 0) (u 1) n j h

/-- … so a gather at the same start, which clamps it, reads row n. -/
theorem clamp_of_lands_rows {N D E w : Nat} (wf : ScatterDims.WF ⟨2, ![N, D]⟩ ⟨2, ![E, 1]⟩ ⟨2, ![E, D]⟩ [1] [0] [0] 1)
    (idx : IVec ⟨2, ![E, 1]⟩ w) (u : (⟨2, ![E, D]⟩ : Shape).Idx) (n : Fin N) (j : Fin D)
    (h : (rowScatterDims N D E wf).resultIdx? u idx = some (ix2 n j)) :
    min (idx (ix2 (u 0) (0 : Fin 1))).toInt.toNat (N - 1) = n.val :=
  clamp_eq_of_lands n (lands_rows' wf idx u n j h).2

end Generic

end Idealize.ShloMosaic.GatherScatterIdx
-- ==== Proof.GcnSpec.lean ====
/-
  The value the six-kernel program computes, written once as plain functions of arrays of extended reals, index by
  index — a three-layer graph convolution over 50000 nodes and 800000 edges in its node-granularity form:
  per layer  xw = h · W,  deg n = 1 + #{edges landing on n},  dinv = deg^(-1/2),  the pre-scaled rows xw · dinv are
  gathered along the edges' sources and summed onto their destinations, and the layer's output at node n is
  dinv n · (that sum) + xw n · (dinv n · dinv n) + b; between layers a batch normalisation over the nodes with the
  one-pass variance max (E[x²] − (E x)², 0), a leaky rectifier, and the next product. Nothing here mentions a
  program: the kernel's run is read against these functions, and the reference's stages are proved equal to them.
-/
import Idealize.ShloMosaic.PureOps.Ideal
import Idealize.ShloMosaic.Lib.ValueIdx

noncomputable section

namespace Cert.GcnSpec

open Idealize.ShloMosaic Idealize.ShloMosaic.ValueIdx

/-- Arrays of extended reals and of 32-bit words over literal shapes. -/
abbrev Mat (a b : Nat) : Type := (⟨2, ![a, b]⟩ : Shape).Idx → EReal
abbrev Vct (a : Nat) : Type := (⟨1, ![a]⟩ : Shape).Idx → EReal
abbrev IdxCol : Type := IVec (⟨2, ![800000, 1]⟩ : Shape) 32

/-- The row an index column names for edge `e` when it is used to GATHER: the start read signed, clamped into the nodes. -/
def grow (ix : IdxCol) (e : Fin 800000) : Fin 50000 := ⟨min (ix (ix2 e 0)).toInt.toNat 49999, by omega⟩

/-- The product of a node-feature matrix with a weight matrix. -/
def xw {D : Nat} (h : Mat 50000 128) (W : Mat 128 D) : Mat 50000 D := fun i => ∑ k : Fin 128, h (ix2 (i 0) k) * W (ix2 k (i 1))

section Graph
variable (dV : ScatterDims (⟨1, ![50000]⟩ : Shape) (⟨2, ![800000, 1]⟩ : Shape) (⟨1, ![800000]⟩ : Shape))
variable {D : Nat} (dM : ScatterDims (⟨2, ![50000, D]⟩ : Shape) (⟨2, ![800000, 1]⟩ : Shape) (⟨2, ![800000, D]⟩ : Shape))

/-- A node's degree with its self-loop: one per edge whose (wrapped) destination is the node, plus one. -/
def deg (dstW : IdxCol) : Vct 50000 := fun i => (0 + ∑ e ∈ Finset.univ.filter (fun e => dV.resultIdx? e dstW = some i), (1 : EReal)) + 1

/-- The inverse square root of the degree. -/
def dinv (dstW : IdxCol) : Vct 50000 := fun i => Ideal.rsqrt (deg dV dstW i)

/-- The pre-scaled product: row n of xw times dinv n. -/
def xws (xwv : Mat 50000 D) (dinvv : Vct 50000) : Mat 50000 D := fun i => xwv i * dinvv (ix1 (i 0))

/-- The rows gathered along the edges' sources, summed onto the edges' (raw) destinations. -/
def agg (src : IdxCol) (dstC : IdxCol) (rows : Mat 50000 D) : Mat 50000 D :=
  fun i => 0 + ∑ u ∈ Finset.univ.filter (fun u => dM.resultIdx? u dstC = some i), rows (ix2 (grow src (u 0)) (u 1))

/-- A layer's output: the normalised neighbourhood sum, the self-loop term, the bias. -/
def conv (xwv : Mat 50000 D) (dinvv : Vct 50000) (aggv : Mat 50000 D) (b : Vct D) : Mat 50000 D :=
  fun i => dinvv (ix1 (i 0)) * aggv i + xwv i * (dinvv (ix1 (i 0)) * dinvv (ix1 (i 0))) + b (ix1 (i 1))

end Graph

/-- The column means of a layer's output over the 50000 nodes, the reciprocal count a named rational. -/
def mean (h : Mat 50000 128) : Vct 128 := fun j => (∑ n : Fin 50000, h (ix2 n (j 0))) * ((1 / 50000 : ℝ) : EReal)

/-- The one-pass column variances, clamped at zero. -/
def var (h : Mat 50000 128) : Vct 128 :=
  fun j => max ((∑ n : Fin 50000, h (ix2 n (j 0)) * h (ix2 n (j 0))) * ((1 / 50000 : ℝ) : EReal) - mean h j * mean h j) 0

/-- The leaky rectifier on one value, as both programs spell it: a comparison with zero selecting the value or its slope multiple. -/
def leaky (y : EReal) : EReal :=
  Scalar.select (FloatOps.cmpf (F := Ideal) .oge y (Ideal.ofBits .f32 0x00000000#32)) y (Ideal.ofBits .f32 0x3C23D70A#32 * y)

/-- Normalise with given column statistics, scale, shift, rectify. -/
def act (h : Mat 50000 128) (mu v g beta : Vct 128) : Mat 50000 128 :=
  fun i => leaky ((h i - mu (ix1 (i 1))) * Ideal.rsqrt (v (ix1 (i 1)) + Ideal.ofBits .f32 0x3727C5AC#32) * g (ix1 (i 1)) + beta (ix1 (i 1)))

/-- The whole network in the kernels' form: three convolutions sharing one degree vector and one edge list
    (`srcW` the wrapped sources used to gather, `dstW` the wrapped destinations counted for the degree, `dstC` the raw
    destinations the sums are scattered to), two normalise-and-rectify steps between them, the last layer one column wide. -/
def result (dV : ScatterDims (⟨1, ![50000]⟩ : Shape) (⟨2, ![800000, 1]⟩ : Shape) (⟨1, ![800000]⟩ : Shape))
    (dM : ScatterDims (⟨2, ![50000, 128]⟩ : Shape) (⟨2, ![800000, 1]⟩ : Shape) (⟨2, ![800000, 128]⟩ : Shape))
    (d1 : ScatterDims (⟨2, ![50000, 1]⟩ : Shape) (⟨2, ![800000, 1]⟩ : Shape) (⟨2, ![800000, 1]⟩ : Shape))
    (srcW dstW dstC : IdxCol) (x : Mat 50000 128)
    (W1 : Mat 128 128) (b1 g1 be1 : Vct 128) (W2 : Mat 128 128) (b2 g2 be2 : Vct 128) (W3 : Mat 128 1) (b3 : Vct 1) : Mat 50000 1 :=
  let dv := dinv dV dstW
  let h1 := conv (xw x W1) dv (agg dM srcW dstC (xws (xw x W1) dv)) b1
  let a1 := act h1 (mean h1) (var h1) g1 be1
  let h2 := conv (xw a1 W2) dv (agg dM srcW dstC (xws (xw a1 W2) dv)) b2
  let a2 := act h2 (mean h2) (var h2) g2 be2
  conv (xw a2 W3) dv (agg d1 srcW dstC (xws (xw a2 W3) dv)) b3

end Cert.GcnSpec

end
-- ==== Proof.KIHost.lean ====
/-
  What the four stretches of host operations between the kernels leave in the buffers the kernels read, at the ideal
  instance, as functions of whatever the buffers held when the stretch began, read at an index.

  The first stretch cuts the two rows out of the edge table (sources, destinations), counts for every node the edges
  whose wrapped destination is the node, adds one, and takes the inverse square root; it narrows the three weight
  matrices (the same extended reals) and turns each one-dimensional parameter into a one-row matrix. Each of the other
  three stretches gathers the rows of a node array at the edges' wrapped sources and sums them onto the edges' raw
  destinations, starting from zero.

  The three index columns are written once, as the program's own operations composed: wrapCol is "negative numbers
  wrapped around by the node count" (compare below zero, add 50000, select) laid out as a column, rawCol the row laid
  out as a column unchanged; srcW, dstW and dstC are these applied to the rows of the edge table.
-/
import proofs.«181351_j65970697667357_2_alg».proof.Proof.Gen.KernelIdeal.Launch
import Idealize.ShloMosaic.Lib.StableHlo.Run
import Idealize.ShloMosaic.Lib.ValueIdx
import Idealize.ShloMosaic.Lib.ValueLayout
import Idealize.ShloMosaic.Lib.IdealHost
import proofs.«181351_j65970697667357_2_alg».proof.Proof.LibGatherScatter
import proofs.«181351_j65970697667357_2_alg».proof.Proof.GcnSpec

noncomputable section

namespace Cert.KernelIdeal.HandHost

open Cert.KernelIdeal Cert.KernelIdeal.Gen
open Idealize.ShloMosaic Idealize.ShloMosaic.ValueIdx Idealize.ShloMosaic.StableHlo
open Idealize.ShloMosaic.GatherScatterIdx
open Idealize.SL.Sem

/-! ## The index columns, as the program computes them from the edge table -/

/-- Row 0 of the edge table (the edges' sources), cut out and flattened. -/
def srcRow (ei : IVec S2x800000 32) : IVec S800000 32 :=
  shapeCast S800000 (extractStridedSlice S1x800000 ![0, 0] ei slices_S2x800000_S1x800000_0_0) shapeCasts_S1x800000_S800000

/-- Row 1 of the edge table (the edges' destinations), cut out and flattened. -/
def dstRow (ei : IVec S2x800000 32) : IVec S800000 32 :=
  shapeCast S800000 (extractStridedSlice S1x800000 ![1, 0] ei slices_S2x800000_S1x800000_1_0) shapeCasts_S1x800000_S800000

/-- A row of node numbers with the negative ones wrapped around by the node count, as a column of start indices. -/
def wrapCol (c : IVec S800000 32) : IVec S800000x1 32 :=
  broadcastInDim S800000x1 ![0] bcast_S800000_S800000x1_0
    (select (cmpi .slt c (broadcastInDim S800000 ![] bcast_S_S800000 (constantI S_ 32 0#32)))
      (addi c (broadcastInDim S800000 ![] bcast_S_S800000 (constantI S_ 32 50000#32))) c)

/-- A row of node numbers as it stands, as a column of start indices. -/
def rawCol (c : IVec S800000 32) : IVec S800000x1 32 :=
  broadcastInDim S800000x1 ![0] bcast_S800000_S800000x1_0 c

/-- The wrapped sources: the column the rows are gathered at. -/
def srcW (ei : IVec S2x800000 32) : IVec S800000x1 32 := wrapCol (srcRow ei)
/-- The wrapped destinations: the column the degrees are counted at. -/
def dstW (ei : IVec S2x800000 32) : IVec S800000x1 32 := wrapCol (dstRow ei)
/-- The raw destinations: the column the gathered rows are summed onto. -/
def dstC (ei : IVec S2x800000 32) : IVec S800000x1 32 := rawCol (dstRow ei)

theorem srcW_eq (ei : IVec S2x800000 32) : srcW ei = wrapCol (srcRow ei) := rfl
theorem dstW_eq (ei : IVec S2x800000 32) : dstW ei = wrapCol (dstRow ei) := rfl
theorem dstC_eq (ei : IVec S2x800000 32) : dstC ei = rawCol (dstRow ei) := rfl

/-! ## Reshapes and constants read at an index -/

/-- A vector cast to a one-column matrix reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The host's accumulating scatter read at an index: the operand there plus the updates that land there. -/
theorem scatterAdd_apply {s si su : Shape} (d : ScatterDims s si su) {w : Nat} (x : FVec Ideal s .f32) (idx : IVec si w)
    (upd : FVec Ideal su .f32) (i : s.Idx) :
    Host.scatterAdd d x idx upd i = x i + ∑ j ∈ Finset.univ.filter (fun j => d.resultIdx? j idx = some i), upd j := rfl

/-- The host's inverse square root read at an index. -/
theorem hostRsqrt_apply {s : Shape} (x : FVec Ideal s .f32) (i : s.Idx) : Host.rsqrt x i = Ideal.rsqrt (x i) := rfl

/-- A float constant broadcast to any shape reads the extended real its word encodes. -/
theorem bcast_const_apply {T : Shape} (h : S_.BroadcastsInDim T ![]) (b : BitVec 32) (j : T.Idx) :
    broadcastInDim T ![] h (constant (F := Ideal) S_ .f32 b) j = Ideal.ofBits .f32 b := rfl

/-- The degree chain read at a node: zeros, plus one per edge landing on the node, plus one, under the inverse square root. -/
theorem dinv_read (d : ScatterDims S50000 S800000x1 S800000) (idx : IVec S800000x1 32)
    (h1 : S_.BroadcastsInDim S50000 ![]) (h2 : S_.BroadcastsInDim S800000 ![]) (i : S50000.Idx) :
    Host.rsqrt (addf (Host.scatterAdd d (broadcastInDim S50000 ![] h1 (constant (F := Ideal) S_ .f32 0x00000000#32)) idx
        (broadcastInDim S800000 ![] h2 (constant (F := Ideal) S_ .f32 0x3F800000#32)))
      (broadcastInDim S50000 ![] h1 (constant (F := Ideal) S_ .f32 0x3F800000#32))) i = Cert.GcnSpec.dinv d idx i := by
  have e : ∀ j, broadcastInDim S800000 ![] h2 (constant (F := Ideal) S_ .f32 0x3F800000#32) j = (1 : EReal) :=
    fun j => (bcast_const_apply h2 _ j).trans Ideal.ofBits_one_f32
  rw [hostRsqrt_apply, addf_apply, scatterAdd_apply, Finset.sum_congr rfl (fun j _ => e j), bcast_const_apply, bcast_const_apply,
    Ideal.ofBits_zero_f32, Ideal.ofBits_one_f32]
  rfl

/-- The gather-then-scatter chain read at an entry: zero, plus the source rows of the edges landing on the entry's row. -/
theorem agg_read {D : ℕ} (wfg : GatherDims.WF ⟨2, ![50000, D]⟩ ⟨2, ![800000, 1]⟩ ⟨2, ![800000, D]⟩ [1] [0] [] [0] [] 1 ![1, D])
    (ds : ScatterDims ⟨2, ![50000, D]⟩ ⟨2, ![800000, 1]⟩ ⟨2, ![800000, D]⟩)
    (h0 : S_.BroadcastsInDim ⟨2, ![50000, D]⟩ ![]) (rows : FVec Ideal ⟨2, ![50000, D]⟩ .f32) (src dst : IVec S800000x1 32)
    (i : (⟨2, ![50000, D]⟩ : Shape).Idx) :
    Host.scatterAdd ds (broadcastInDim ⟨2, ![50000, D]⟩ ![] h0 (constant (F := Ideal) S_ .f32 0x00000000#32)) dst
        (Host.gather (rowGatherDims 50000 D 800000 wfg) rows src) i
      = Cert.GcnSpec.agg ds src dst rows i := by
  rw [scatterAdd_apply, bcast_const_apply, Ideal.ofBits_zero_f32]
  unfold Cert.GcnSpec.agg
  refine congrArg (fun t => (0 : EReal) + t) (Finset.sum_congr rfl (fun u _ => ?_))
  exact (congrArg (Host.gather (rowGatherDims 50000 D 800000 wfg) rows src) (eq_ix2 u)).trans
    (gather_rows_apply (by decide) wfg rows src (u 0) (u 1))

variable (W : Valuation τ sig (Elt Ideal))

/-! ## The first stretch: edge rows, inverse square root degrees, weights, parameters -/

/-- The flattened source row of the edge table. -/
theorem host0_v1 :
    (after (hostOps0 (F := Ideal)) W (Proc.devRef .tc main_v1) : S800000.Idx → BitVec 32) = srcRow (W (Proc.devRef .tc main_arg1)) := by
  dsimp only [hostOps0]; after_results_simp; rfl

/-- The flattened destination row of the edge table. -/
theorem host0_v3 :
    (after (hostOps0 (F := Ideal)) W (Proc.devRef .tc main_v3) : S800000.Idx → BitVec 32) = dstRow (W (Proc.devRef .tc main_arg1)) := by
  dsimp only [hostOps0]; after_results_simp; rfl

set_option maxHeartbeats 400000 in
/-- The inverse square root degrees as the operations compose them. -/
theorem host0_v16_eq :
    (after (hostOps0 (F := Ideal)) W (Proc.devRef .tc main_v16) : S50000x1.Idx → EReal)
      = shapeCast S50000x1 (Host.rsqrt (addf
          (Host.scatterAdd scatter_S50000_S800000x1_S800000_n_0_0_1
            (broadcastInDim S50000 ![] bcast_S_S50000 (constant (F := Ideal) S_ .f32 0x00000000#32))
            (wrapCol (dstRow (W (Proc.devRef .tc main_arg1))))
            (broadcastInDim S800000 ![] bcast_S_S800000 (constant (F := Ideal) S_ .f32 0x3F800000#32)))
          (broadcastInDim S50000 ![] bcast_S_S50000 (constant (F := Ideal) S_ .f32 0x3F800000#32)))) shapeCasts_S50000_S50000x1 := by
  dsimp only [hostOps0]; after_results_simp; rfl

/-- Node n's inverse square root degree: one per edge whose wrapped destination is n, plus one. -/
theorem host0_dinv_apply (n : Fin 50000) (u : Fin 1) :
    (after (hostOps0 (F := Ideal)) W (Proc.devRef .tc main_v16) : S50000x1.Idx → EReal) (ix2 n u)
      = Cert.GcnSpec.dinv scatter_S50000_S800000x1_S800000_n_0_0_1 (wrapCol (dstRow (W (Proc.devRef .tc main_arg1)))) (ix1 n) := by
  rw [host0_v16_eq, shapeCast_a_a1_apply]
  exact dinv_read _ _ _ _ _

/-- The inverse square root degrees as an array: row n holds node n's. -/
theorem host0_dinv :
    (after (hostOps0 (F := Ideal)) W (Proc.devRef .tc main_v16) : S50000x1.Idx → EReal)
      = fun i => Cert.GcnSpec.dinv scatter_S50000_S800000x1_S800000_n_0_0_1 (wrapCol (dstRow (W (Proc.devRef .tc main_arg1)))) (ix1 (i 0)) := by
  funext i
  exact (congrArg (after (hostOps0 (F := Ideal)) W (Proc.devRef .tc main_v16) : S50000x1.Idx → EReal) (eq_ix2 i)).trans
    (host0_dinv_apply W (i 0) (i 1))

/-- The three weight matrices narrowed to bf16 hold the same numbers. -/
theorem host0_v17 :
    (after (hostOps0 (F := Ideal)) W (Proc.devRef .tc main_v17) : S128x128.Idx → EReal) = W (Proc.devRef .tc main_arg2) := by
  dsimp only [hostOps0]; after_results_simp; rfl
theorem host0_v18 :
    (after (hostOps0 (F := Ideal)) W (Proc.devRef .tc main_v18) : S128x128.Idx → EReal) = W (Proc.devRef .tc main_arg6) := by
  dsimp only [hostOps0]; after_results_simp; rfl
theorem host0_v19 :
    (after (hostOps0 (F := Ideal)) W (Proc.devRef .tc main_v19) : S128x1.Idx → EReal) = W (Proc.devRef .tc main_arg10) := by
  dsimp only [hostOps0]; after_results_simp; rfl

/-- The one-dimensional parameters as one-row matrices: entry (0, j) is entry j. -/
theorem host0_v20_apply (u : Fin 1) (j : Fin 128) :
    (after (hostOps0 (F := Ideal)) W (Proc.devRef .tc main_v20) : S1x128.Idx → EReal) (ix2 u j)
      = (W (Proc.devRef .tc main_arg3) : S128.Idx → EReal) (ix1 j) := by
  have e : (after (hostOps0 (F := Ideal)) W (Proc.devRef .tc main_v20) : S1x128.Idx → EReal)
      = shapeCast S1x128 (W (Proc.devRef .tc main_arg3) : S128.Idx → EReal) shapeCasts_S128_S1x128 := by
    dsimp only [hostOps0]; after_results_simp; rfl
  rw [e]; exact shapeCast_a_1a_apply _ _ u j
theorem host0_v20 :
    (after (hostOps0 (F := Ideal)) W (Proc.devRef .tc main_v20) : S1x128.Idx → EReal)
      = fun i => (W (Proc.devRef .tc main_arg3) : S128.Idx → EReal) (ix1 (i 1)) := by
  funext i
  exact (congrArg (after (hostOps0 (F := Ideal)) W (Proc.devRef .tc main_v20) : S1x128.Idx → EReal) (eq_ix2 i)).trans
    (host0_v20_apply W (i 0) (i 1))
theorem host0_v21_apply (u : Fin 1) (j : Fin 128) :
    (after (hostOps0 (F := Ideal)) W (Proc.devRef .tc main_v21) : S1x128.Idx → EReal) (ix2 u j)
      = (W (Proc.devRef .tc main_arg7) : S128.Idx → EReal) (ix1 j) := by
  have e : (after (hostOps0 (F := Ideal)) W (Proc.devRef .tc main_v21) : S1x128.Idx → EReal)
      = shapeCast S1x128 (W (Proc.devRef .tc main_arg7) : S128.Idx → EReal) shapeCasts_S128_S1x128 := by
    dsimp only [hostOps0]; after_results_simp; rfl
  rw [e]; exact shapeCast_a_1a_apply _ _ u j
theorem host0_v21 :
    (after (hostOps0 (F := Ideal)) W (Proc.devRef .tc main_v21) : S1x128.Idx → EReal)
      = fun i => (W (Proc.devRef .tc main_arg7) : S128.Idx → EReal) (ix1 (i 1)) := by
  funext i
  exact (congrArg (after (hostOps0 (F := Ideal)) W (Proc.devRef .tc main_v21) : S1x128.Idx → EReal) (eq_ix2 i)).trans
    (host0_v21_apply W (i 0) (i 1))
theorem host0_v23_apply (u : Fin 1) (j : Fin 128) :
    (after (hostOps0 (F := Ideal)) W (Proc.devRef .tc main_v23) : S1x128.Idx → EReal) (ix2 u j)
      = (W (Proc.devRef .tc main_arg4) : S128.Idx → EReal) (ix1 j) := by
  have e : (after (hostOps0 (F := Ideal)) W (Proc.devRef .tc main_v23) : S1x128.Idx → EReal)
      = shapeCast S1x128 (W (Proc.devRef .tc main_arg4) : S128.Idx → EReal) shapeCasts_S128_S1x128 := by
    dsimp only [hostOps0]; after_results_simp; rfl
  rw [e]; exact shapeCast_a_1a_apply _ _ u j
theorem host0_v23 :
    (after (hostOps0 (F := Ideal)) W (Proc.devRef .tc main_v23) : S1x128.Idx → EReal)
      = fun i => (W (Proc.devRef .tc main_arg4) : S128.Idx → EReal) (ix1 (i 1)) := by
  funext i
  exact (congrArg (after (hostOps0 (F := Ideal)) W (Proc.devRef .tc main_v23) : S1x128.Idx → EReal) (eq_ix2 i)).trans
    (host0_v23_apply W (i 0) (i 1))
theorem host0_v24_apply (u : Fin 1) (j : Fin 128) :
    (after (hostOps0 (F := Ideal)) W (Proc.devRef .tc main_v24) : S1x128.Idx → EReal) (ix2 u j)
      = (W (Proc.devRef .tc main_arg5) : S128.Idx → EReal) (ix1 j) := by
  have e : (after (hostOps0 (F := Ideal)) W (Proc.devRef .tc main_v24) : S1x128.Idx → EReal)
      = shapeCast S1x128 (W (Proc.devRef .tc main_arg5) : S128.Idx → EReal) shapeCasts_S128_S1x128 := by
    dsimp only [hostOps0]; after_results_simp; rfl
  rw [e]; exact shapeCast_a_1a_apply _ _ u j
theorem host0_v24 :
    (after (hostOps0 (F := Ideal)) W (Proc.devRef .tc main_v24) : S1x128.Idx → EReal)
      = fun i => (W (Proc.devRef .tc main_arg5) : S128.Idx → EReal) (ix1 (i 1)) := by
  funext i
  exact (congrArg (after (hostOps0 (F := Ideal)) W (Proc.devRef .tc main_v24) : S1x128.Idx → EReal) (eq_ix2 i)).trans
    (host0_v24_apply W (i 0) (i 1))
theorem host0_v25_apply (u : Fin 1) (j : Fin 128) :
    (after (hostOps0 (F := Ideal)) W (Proc.devRef .tc main_v25) : S1x128.Idx → EReal) (ix2 u j)
      = (W (Proc.devRef .tc main_arg8) : S128.Idx → EReal) (ix1 j) := by
  have e : (after (hostOps0 (F := Ideal)) W (Proc.devRef .tc main_v25) : S1x128.Idx → EReal)
      = shapeCast S1x128 (W (Proc.devRef .tc main_arg8) : S128.Idx → EReal) shapeCasts_S128_S1x128 := by
    dsimp only [hostOps0]; after_results_simp; rfl
  rw [e]; exact shapeCast_a_1a_apply _ _ u j
theorem host0_v25 :
    (after (hostOps0 (F := Ideal)) W (Proc.devRef .tc main_v25) : S1x128.Idx → EReal)
      = fun i => (W (Proc.devRef .tc main_arg8) : S128.Idx → EReal) (ix1 (i 1)) := by
  funext i
  exact (congrArg (after (hostOps0 (F := Ideal)) W (Proc.devRef .tc main_v25) : S1x128.Idx → EReal) (eq_ix2 i)).trans
    (host0_v25_apply W (i 0) (i 1))
theorem host0_v26_apply (u : Fin 1) (j : Fin 128) :
    (after (hostOps0 (F := Ideal)) W (Proc.devRef .tc main_v26) : S1x128.Idx → EReal) (ix2 u j)
      = (W (Proc.devRef .tc main_arg9) : S128.Idx → EReal) (ix1 j) := by
  have e : (after (hostOps0 (F := Ideal)) W (Proc.devRef .tc main_v26) : S1x128.Idx → EReal)
      = shapeCast S1x128 (W (Proc.devRef .tc main_arg9) : S128.Idx → EReal) shapeCasts_S128_S1x128 := by
    dsimp only [hostOps0]; after_results_simp; rfl
  rw [e]; exact shapeCast_a_1a_apply _ _ u j
theorem host0_v26 :
    (after (hostOps0 (F := Ideal)) W (Proc.devRef .tc main_v26) : S1x128.Idx → EReal)
      = fun i => (W (Proc.devRef .tc main_arg9) : S128.Idx → EReal) (ix1 (i 1)) := by
  funext i
  exact (congrArg (after (hostOps0 (F := Ideal)) W (Proc.devRef .tc main_v26) : S1x128.Idx → EReal) (eq_ix2 i)).trans
    (host0_v26_apply W (i 0) (i 1))
theorem host0_v22_apply (u : Fin 1) (j : Fin 1) :
    (after (hostOps0 (F := Ideal)) W (Proc.devRef .tc main_v22) : S1x1.Idx → EReal) (ix2 u j)
      = (W (Proc.devRef .tc main_arg11) : S1.Idx → EReal) (ix1 j) := by
  have e : (after (hostOps0 (F := Ideal)) W (Proc.devRef .tc main_v22) : S1x1.Idx → EReal)
      = shapeCast S1x1 (W (Proc.devRef .tc main_arg11) : S1.Idx → EReal) shapeCasts_S1_S1x1 := by
    dsimp only [hostOps0]; after_results_simp; rfl
  rw [e]; exact shapeCast_a_1a_apply _ _ u j
theorem host0_v22 :
    (after (hostOps0 (F := Ideal)) W (Proc.devRef .tc main_v22) : S1x1.Idx → EReal)
      = fun i => (W (Proc.devRef .tc main_arg11) : S1.Idx → EReal) (ix1 (i 1)) := by
  funext i
  exact (congrArg (after (hostOps0 (F := Ideal)) W (Proc.devRef .tc main_v22) : S1x1.Idx → EReal) (eq_ix2 i)).trans
    (host0_v22_apply W (i 0) (i 1))

/-! ## The three gather-and-scatter stretches -/

/-- The stretch's scatter result as the operations compose it. -/
theorem host1_v37_eq :
    (after (hostOps1 (F := Ideal)) W (Proc.devRef .tc main_v37) : S50000x128.Idx → EReal)
      = Host.scatterAdd scatter_S50000x128_S800000x1_S800000x128_1_0_0_1
          (broadcastInDim S50000x128 ![] bcast_S_S50000x128 (constant (F := Ideal) S_ .f32 0x00000000#32))
          (rawCol (W (Proc.devRef .tc main_v3)))
          (Host.gather gather_S50000x128_S800000x1_S800000x128_1_0_n_n_0_1_1128 (W (Proc.devRef .tc main_v27_1) : S50000x128.Idx → EReal)
            (wrapCol (W (Proc.devRef .tc main_v1)))) := by
  dsimp only [hostOps1]; after_results_simp; rfl

/-- Read at an entry: the rows at the edges' wrapped sources, summed onto the edges' raw destinations. -/
theorem host1_agg_apply (i : S50000x128.Idx) :
    (after (hostOps1 (F := Ideal)) W (Proc.devRef .tc main_v37) : S50000x128.Idx → EReal) i
      = Cert.GcnSpec.agg scatter_S50000x128_S800000x1_S800000x128_1_0_0_1 (wrapCol (W (Proc.devRef .tc main_v1))) (rawCol (W (Proc.devRef .tc main_v3)))
          (W (Proc.devRef .tc main_v27_1) : S50000x128.Idx → EReal) i := by
  rw [host1_v37_eq]
  exact agg_read (D := 128) gather_S50000x128_S800000x1_S800000x128_1_0_n_n_0_1_1128_wf _ _ _ _ _ i

/-- The same as an array. -/
theorem host1_agg :
    (after (hostOps1 (F := Ideal)) W (Proc.devRef .tc main_v37) : S50000x128.Idx → EReal)
      = Cert.GcnSpec.agg scatter_S50000x128_S800000x1_S800000x128_1_0_0_1 (wrapCol (W (Proc.devRef .tc main_v1))) (rawCol (W (Proc.devRef .tc main_v3)))
          (W (Proc.devRef .tc main_v27_1) : S50000x128.Idx → EReal) :=
  funext (host1_agg_apply W)

/-- The stretch's scatter result as the operations compose it. -/
theorem host3_v49_eq :
    (after (hostOps3 (F := Ideal)) W (Proc.devRef .tc main_v49) : S50000x128.Idx → EReal)
      = Host.scatterAdd scatter_S50000x128_S800000x1_S800000x128_1_0_0_1
          (broadcastInDim S50000x128 ![] bcast_S_S50000x128 (constant (F := Ideal) S_ .f32 0x00000000#32))
          (rawCol (W (Proc.devRef .tc main_v3)))
          (Host.gather gather_S50000x128_S800000x1_S800000x128_1_0_n_n_0_1_1128 (W (Proc.devRef .tc main_v39_1) : S50000x128.Idx → EReal)
            (wrapCol (W (Proc.devRef .tc main_v1)))) := by
  dsimp only [hostOps3]; after_results_simp; rfl

/-- Read at an entry: the rows at the edges' wrapped sources, summed onto the edges' raw destinations. -/
theorem host3_agg_apply (i : S50000x128.Idx) :
    (after (hostOps3 (F := Ideal)) W (Proc.devRef .tc main_v49) : S50000x128.Idx → EReal) i
      = Cert.GcnSpec.agg scatter_S50000x128_S800000x1_S800000x128_1_0_0_1 (wrapCol (W (Proc.devRef .tc main_v1))) (rawCol (W (Proc.devRef .tc main_v3)))
          (W (Proc.devRef .tc main_v39_1) : S50000x128.Idx → EReal) i := by
  rw [host3_v49_eq]
  exact agg_read (D := 128) gather_S50000x128_S800000x1_S800000x128_1_0_n_n_0_1_1128_wf _ _ _ _ _ i

/-- The same as an array. -/
theorem host3_agg :
    (after (hostOps3 (F := Ideal)) W (Proc.devRef .tc main_v49) : S50000x128.Idx → EReal)
      = Cert.GcnSpec.agg scatter_S50000x128_S800000x1_S800000x128_1_0_0_1 (wrapCol (W (Proc.devRef .tc main_v1))) (rawCol (W (Proc.devRef .tc main_v3)))
          (W (Proc.devRef .tc main_v39_1) : S50000x128.Idx → EReal) :=
  funext (host3_agg_apply W)

/-- The stretch's scatter result as the operations compose it. -/
theorem host5_v61_eq :
    (after (hostOps5 (F := Ideal)) W (Proc.devRef .tc main_v61) : S50000x1.Idx → EReal)
      = Host.scatterAdd scatter_S50000x1_S800000x1_S800000x1_1_0_0_1
          (broadcastInDim S50000x1 ![] bcast_S_S50000x1 (constant (F := Ideal) S_ .f32 0x00000000#32))
          (rawCol (W (Proc.devRef .tc main_v3)))
          (Host.gather gather_S50000x1_S800000x1_S800000x1_1_0_n_n_0_1_11 (W (Proc.devRef .tc main_v51_1) : S50000x1.Idx → EReal)
            (wrapCol (W (Proc.devRef .tc main_v1)))) := by
  dsimp only [hostOps5]; after_results_simp; rfl

/-- Read at an entry: the rows at the edges' wrapped sources, summed onto the edges' raw destinations. -/
theorem host5_agg_apply (i : S50000x1.Idx) :
    (after (hostOps5 (F := Ideal)) W (Proc.devRef .tc main_v61) : S50000x1.Idx → EReal) i
      = Cert.GcnSpec.agg scatter_S50000x1_S800000x1_S800000x1_1_0_0_1 (wrapCol (W (Proc.devRef .tc main_v1))) (rawCol (W (Proc.devRef .tc main_v3)))
          (W (Proc.devRef .tc main_v51_1) : S50000x1.Idx → EReal) i := by
  rw [host5_v61_eq]
  exact agg_read (D := 1) gather_S50000x1_S800000x1_S800000x1_1_0_n_n_0_1_11_wf _ _ _ _ _ i

/-- The same as an array. -/
theorem host5_agg :
    (after (hostOps5 (F := Ideal)) W (Proc.devRef .tc main_v61) : S50000x1.Idx → EReal)
      = Cert.GcnSpec.agg scatter_S50000x1_S800000x1_S800000x1_1_0_0_1 (wrapCol (W (Proc.devRef .tc main_v1))) (rawCol (W (Proc.devRef .tc main_v3)))
          (W (Proc.devRef .tc main_v51_1) : S50000x1.Idx → EReal) :=
  funext (host5_agg_apply W)

end Cert.KernelIdeal.HandHost

end
-- ==== Proof.PreFinite.lean ====
/-
  From the precondition to the reals. The precondition is the conjunction, over the eleven float arguments, of
  "every entry has absolute value below plus infinity". At the ideal instance an entry is an extended real, and an
  extended real whose absolute value max x (-x) is below the top element is a real number: neither infinity passes the
  comparison. The integer edge table is not constrained by the predicate.
-/
import proofs.«181351_j65970697667357_2_alg».proof.Proof.Gen.Pre_finite_inputs
import Idealize.ShloMosaic.Lib.ReduceAll
import Idealize.ShloMosaic.Lib.IdealHost

namespace Cert.PreFinite

open Idealize.ShloMosaic Idealize.ShloMosaic.ValueIdx Cert.Pre_finite_inputs

/-- The rank-0 shape has one index. -/
instance subsingleton_scalar_idx : Subsingleton S_.Idx := ⟨fun a b => funext fun d => d.elim0⟩

/-- The f32 pattern with all exponent bits set and no fraction bit is plus infinity. -/
theorem ofBits_inf_f32 : Ideal.ofBits .f32 0x7F800000#32 = (⊤ : EReal) := by
  simp [Ideal.ofBits, Ideal.ieee]

/-- An extended real whose absolute value compares below plus infinity is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

/-- One conjunct of the predicate: if the reduction by `and`, over all axes, of the elementwise test |x| < +inf is 1,
    every entry of `x` is a real number. -/
theorem all_real {s : Shape} {axes : List (Fin s.rank)} (x : FVec Ideal s .f32) (hb : S_.BroadcastsInDim s ![])
    (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) (i : s.Idx) : ∃ r : ℝ, x i = (r : EReal) :=
  real_of_abs_lt_inf (x i) (Host.reduce_andi_all _ _ hr hu j h i)

/-- A conjunction of two rank-0 bits read at the one index. -/
theorem andi_apply0 (a b : IVec S_ 1) (j : S_.Idx) : andi a b j = IntOp.andi (a j) (b j) := rfl

/-- Under the precondition every entry of every float argument is a real number. -/
theorem finite_args (x0 : FVec Ideal S50000x128 .f32) (x1 : IVec S2x800000 32) (x2 : FVec Ideal S128x128 .f32)
    (x3 x4 x5 : FVec Ideal S128 .f32) (x6 : FVec Ideal S128x128 .f32) (x7 x8 x9 : FVec Ideal S128 .f32)
    (x10 : FVec Ideal S128x1 .f32) (x11 : FVec Ideal S1 .f32)
    (h : Cert.Pre_finite_inputs.fn (F := Ideal) x0 x1 x2 x3 x4 x5 x6 x7 x8 x9 x10 x11 = (fun _ => 1#1)) :
    (∀ i, ∃ r : ℝ, x0 i = (r : EReal)) ∧ (∀ i, ∃ r : ℝ, x2 i = (r : EReal)) ∧ (∀ i, ∃ r : ℝ, x3 i = (r : EReal)) ∧
    (∀ i, ∃ r : ℝ, x4 i = (r : EReal)) ∧ (∀ i, ∃ r : ℝ, x5 i = (r : EReal)) ∧ (∀ i, ∃ r : ℝ, x6 i = (r : EReal)) ∧
    (∀ i, ∃ r : ℝ, x7 i = (r : EReal)) ∧ (∀ i, ∃ r : ℝ, x8 i = (r : EReal)) ∧ (∀ i, ∃ r : ℝ, x9 i = (r : EReal)) ∧
    (∀ i, ∃ r : ℝ, x10 i = (r : EReal)) ∧ (∀ i, ∃ r : ℝ, x11 i = (r : EReal)) := by
  have h0 := congrFun h ix0
  dsimp only [fn, fn_part1, fn_part2, fn_part3] at h0
  simp only [andi_apply0, IntOp.andi_eq_one] at h0
  obtain ⟨⟨⟨⟨⟨⟨⟨⟨⟨⟨a0, a2⟩, a3⟩, a4⟩, a5⟩, a6⟩, a7⟩, a8⟩, a9⟩, a10⟩, a11⟩ := h0
  exact ⟨all_real x0 _ _ _ _ a0, all_real x2 _ _ _ _ a2, all_real x3 _ _ _ _ a3, all_real x4 _ _ _ _ a4,
    all_real x5 _ _ _ _ a5, all_real x6 _ _ _ _ a6, all_real x7 _ _ _ _ a7, all_real x8 _ _ _ _ a8,
    all_real x9 _ _ _ _ a9, all_real x10 _ _ _ _ a10, all_real x11 _ _ _ _ a11⟩

end Cert.PreFinite
-- ==== Proof.BridgeCore.lean ====
/- The glue between the two programs' spellings. The kernel program's run is read against the network's
   node-granularity form over ITS three scatter-dimension records and ITS index columns cut out of the edge table; the
   reference's stages are proved equal to the same form over the reference program's copies of those. The copies are
   the same terms — each program restates the shape abbreviations, the records (whose only difference is the proof of
   well-formedness) and the column operations (the same library operations under proofs of the same side conditions) —
   so the two statements compose once the precondition has made every float argument entry a real number. -/
import proofs.«181351_j65970697667357_2_alg».proof.Proof.KIHost
import proofs.«181351_j65970697667357_2_alg».proof.Proof.RefStages
import proofs.«181351_j65970697667357_2_alg».proof.Proof.PreFinite
import proofs.«181351_j65970697667357_2_alg».proof.Proof.GcnSpec

noncomputable section

namespace Cert.Bridge

open Idealize.ShloMosaic Idealize.SL.Sem

/-! ## The two programs' spellings of the same things

Each program states its own copy of the shape abbreviations, of the three scatter-dimension records and of the
operations that cut the two index columns out of the edge table; the copies are the same terms up to the names of
the abbreviations and the proofs of the same side conditions. -/

/-- The scatter-dimension records (degree vector, 128-wide rows, one-wide rows) are the same records. -/
theorem scatterV_eq : Cert.KernelIdeal.scatter_S50000_S800000x1_S800000_n_0_0_1 = Cert.ReferenceIdeal.scatter_S50000_S800000x1_S800000_n_0_0_1 := rfl
theorem scatterM_eq : Cert.KernelIdeal.scatter_S50000x128_S800000x1_S800000x128_1_0_0_1 = Cert.ReferenceIdeal.scatter_S50000x128_S800000x1_S800000x128_1_0_0_1 := rfl
theorem scatter1_eq : Cert.KernelIdeal.scatter_S50000x1_S800000x1_S800000x1_1_0_0_1 = Cert.ReferenceIdeal.scatter_S50000x1_S800000x1_S800000x1_1_0_0_1 := rfl

/-- The wrapped sources, the wrapped destinations and the raw destinations are cut out of the edge table by the same
    operations in both programs. -/
theorem srcW_eq (ei : Cert.ReferenceIdeal.RefRun.Arr Ideal Cert.ReferenceIdeal.S2x800000 .i32) :
    Cert.KernelIdeal.HandHost.srcW ei = Cert.ReferenceIdeal.RefRun.wrap (F := Ideal) (Cert.ReferenceIdeal.RefRun.srcIdx (F := Ideal) ei) := rfl
theorem dstW_eq (ei : Cert.ReferenceIdeal.RefRun.Arr Ideal Cert.ReferenceIdeal.S2x800000 .i32) :
    Cert.KernelIdeal.HandHost.dstW ei = Cert.ReferenceIdeal.RefRun.wrap (F := Ideal) (Cert.ReferenceIdeal.RefRun.dstIdx (F := Ideal) ei) := rfl
theorem dstC_eq (ei : Cert.ReferenceIdeal.RefRun.Arr Ideal Cert.ReferenceIdeal.S2x800000 .i32) :
    Cert.KernelIdeal.HandHost.dstC ei = Cert.ReferenceIdeal.RefRun.col (F := Ideal) (Cert.ReferenceIdeal.RefRun.dstIdx (F := Ideal) ei) := rfl

/-- The glue: an array that is the network's node-granularity form over the kernel program's records and columns
    (`hchain`) is the reference's composed stages, given that the two forms agree on real inputs (`hspec`) and that
    the precondition holds of the arguments (`hpre`: every float entry is then a real). -/
theorem bridge_core (a0 : Cert.ReferenceIdeal.RefRun.Arr Ideal Cert.ReferenceIdeal.S50000x128 .f32) (a1 : Cert.ReferenceIdeal.RefRun.Arr Ideal Cert.ReferenceIdeal.S2x800000 .i32) (a2 : Cert.ReferenceIdeal.RefRun.Arr Ideal Cert.ReferenceIdeal.S128x128 .f32) (a3 a4 a5 : Cert.ReferenceIdeal.RefRun.Arr Ideal Cert.ReferenceIdeal.S128 .f32) (a6 : Cert.ReferenceIdeal.RefRun.Arr Ideal Cert.ReferenceIdeal.S128x128 .f32) (a7 a8 a9 : Cert.ReferenceIdeal.RefRun.Arr Ideal Cert.ReferenceIdeal.S128 .f32) (a10 : Cert.ReferenceIdeal.RefRun.Arr Ideal Cert.ReferenceIdeal.S128x1 .f32) (a11 : Cert.ReferenceIdeal.RefRun.Arr Ideal Cert.ReferenceIdeal.S1 .f32)
    (X : Cert.ReferenceIdeal.RefRun.Arr Ideal Cert.ReferenceIdeal.S50000x1 .f32)
    (hchain : X = Cert.GcnSpec.result Cert.KernelIdeal.scatter_S50000_S800000x1_S800000_n_0_0_1 Cert.KernelIdeal.scatter_S50000x128_S800000x1_S800000x128_1_0_0_1 Cert.KernelIdeal.scatter_S50000x1_S800000x1_S800000x1_1_0_0_1
        (Cert.KernelIdeal.HandHost.srcW a1) (Cert.KernelIdeal.HandHost.dstW a1) (Cert.KernelIdeal.HandHost.dstC a1) a0 a2 a3 a4 a5 a6 a7 a8 a9 a10 a11)
    (hspec : (∀ i, ∃ r : ℝ, a0 i = (r : EReal)) → (∀ i, ∃ r : ℝ, a2 i = (r : EReal)) → (∀ i, ∃ r : ℝ, a3 i = (r : EReal)) → (∀ i, ∃ r : ℝ, a4 i = (r : EReal)) → (∀ i, ∃ r : ℝ, a5 i = (r : EReal)) → (∀ i, ∃ r : ℝ, a6 i = (r : EReal)) → (∀ i, ∃ r : ℝ, a7 i = (r : EReal)) → (∀ i, ∃ r : ℝ, a8 i = (r : EReal)) → (∀ i, ∃ r : ℝ, a9 i = (r : EReal)) → (∀ i, ∃ r : ℝ, a10 i = (r : EReal)) → (∀ i, ∃ r : ℝ, a11 i = (r : EReal)) →
      Cert.GcnSpec.result Cert.ReferenceIdeal.scatter_S50000_S800000x1_S800000_n_0_0_1 Cert.ReferenceIdeal.scatter_S50000x128_S800000x1_S800000x128_1_0_0_1 Cert.ReferenceIdeal.scatter_S50000x1_S800000x1_S800000x1_1_0_0_1
        (Cert.ReferenceIdeal.RefRun.wrap (F := Ideal) (Cert.ReferenceIdeal.RefRun.srcIdx (F := Ideal) a1)) (Cert.ReferenceIdeal.RefRun.wrap (F := Ideal) (Cert.ReferenceIdeal.RefRun.dstIdx (F := Ideal) a1))
        (Cert.ReferenceIdeal.RefRun.col (F := Ideal) (Cert.ReferenceIdeal.RefRun.dstIdx (F := Ideal) a1)) a0 a2 a3 a4 a5 a6 a7 a8 a9 a10 a11
      = Cert.ReferenceIdeal.RefRun.result a0 a1 a2 a3 a4 a5 a6 a7 a8 a9 a10 a11)
    (hpre : Cert.Pre_finite_inputs.fn (F := Ideal) a0 a1 a2 a3 a4 a5 a6 a7 a8 a9 a10 a11 = (fun _ => 1#1)) :
    X = Cert.ReferenceIdeal.RefRun.result a0 a1 a2 a3 a4 a5 a6 a7 a8 a9 a10 a11 := by
  obtain ⟨h0, h2, h3, h4, h5, h6, h7, h8, h9, h10, h11⟩ := Cert.PreFinite.finite_args a0 a1 a2 a3 a4 a5 a6 a7 a8 a9 a10 a11 hpre
  rw [hchain, scatterV_eq, scatterM_eq, scatter1_eq, srcW_eq, dstW_eq, dstC_eq]
  exact hspec h0 h2 h3 h4 h5 h6 h7 h8 h9 h10 h11

/-- The same with the arrays read off a launch memory `m` on core `c` and the precondition as the claim states it:
    what the kernel program's run leaves in its result buffer (`X`, with `hchain`) is the reference's result. -/
theorem result_eq_of (m : (ℓ : Loc Cert.KernelIdeal.nD Cert.KernelIdeal.τ Cert.KernelIdeal.sig) → Buf (Elt Ideal) ℓ) (c : Dev Cert.KernelIdeal.nD)
    (X : Buf (Elt Ideal) ((c.tc : Thread Cert.KernelIdeal.nD Cert.KernelIdeal.τ).loc Cert.KernelIdeal.main_v62))
    (hchain : X = Cert.GcnSpec.result Cert.KernelIdeal.scatter_S50000_S800000x1_S800000_n_0_0_1 Cert.KernelIdeal.scatter_S50000x128_S800000x1_S800000x128_1_0_0_1 Cert.KernelIdeal.scatter_S50000x1_S800000x1_S800000x1_1_0_0_1
        (Cert.KernelIdeal.HandHost.srcW (m ((c.tc : Thread Cert.KernelIdeal.nD Cert.KernelIdeal.τ).loc Cert.KernelIdeal.main_arg1))) (Cert.KernelIdeal.HandHost.dstW (m ((c.tc : Thread Cert.KernelIdeal.nD Cert.KernelIdeal.τ).loc Cert.KernelIdeal.main_arg1))) (Cert.KernelIdeal.HandHost.dstC (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
    (hspec : ∀ (a0 : Cert.ReferenceIdeal.RefRun.Arr Ideal Cert.ReferenceIdeal.S50000x128 .f32) (a1 : Cert.ReferenceIdeal.RefRun.Arr Ideal Cert.ReferenceIdeal.S2x800000 .i32) (a2 : Cert.ReferenceIdeal.RefRun.Arr Ideal Cert.ReferenceIdeal.S128x128 .f32) (a3 a4 a5 : Cert.ReferenceIdeal.RefRun.Arr Ideal Cert.ReferenceIdeal.S128 .f32) (a6 : Cert.ReferenceIdeal.RefRun.Arr Ideal Cert.ReferenceIdeal.S128x128 .f32) (a7 a8 a9 : Cert.ReferenceIdeal.RefRun.Arr Ideal Cert.ReferenceIdeal.S128 .f32) (a10 : Cert.ReferenceIdeal.RefRun.Arr Ideal Cert.ReferenceIdeal.S128x1 .f32) (a11 : Cert.ReferenceIdeal.RefRun.Arr Ideal Cert.ReferenceIdeal.S1 .f32), (∀ i, ∃ r : ℝ, a0 i = (r : EReal)) → (∀ i, ∃ r : ℝ, a2 i = (r : EReal)) → (∀ i, ∃ r : ℝ, a3 i = (r : EReal)) → (∀ i, ∃ r : ℝ, a4 i = (r : EReal)) → (∀ i, ∃ r : ℝ, a5 i = (r : EReal)) → (∀ i, ∃ r : ℝ, a6 i = (r : EReal)) → (∀ i, ∃ r : ℝ, a7 i = (r : EReal)) → (∀ i, ∃ r : ℝ, a8 i = (r : EReal)) → (∀ i, ∃ r : ℝ, a9 i = (r : EReal)) → (∀ i, ∃ r : ℝ, a10 i = (r : EReal)) → (∀ i, ∃ r : ℝ, a11 i = (r : EReal)) →
      Cert.GcnSpec.result Cert.ReferenceIdeal.scatter_S50000_S800000x1_S800000_n_0_0_1 Cert.ReferenceIdeal.scatter_S50000x128_S800000x1_S800000x128_1_0_0_1 Cert.ReferenceIdeal.scatter_S50000x1_S800000x1_S800000x1_1_0_0_1
        (Cert.ReferenceIdeal.RefRun.wrap (F := Ideal) (Cert.ReferenceIdeal.RefRun.srcIdx (F := Ideal) a1)) (Cert.ReferenceIdeal.RefRun.wrap (F := Ideal) (Cert.ReferenceIdeal.RefRun.dstIdx (F := Ideal) a1))
        (Cert.ReferenceIdeal.RefRun.col (F := Ideal) (Cert.ReferenceIdeal.RefRun.dstIdx (F := Ideal) a1)) a0 a2 a3 a4 a5 a6 a7 a8 a9 a10 a11
      = Cert.ReferenceIdeal.RefRun.result a0 a1 a2 a3 a4 a5 a6 a7 a8 a9 a10 a11)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) = (fun _ => 1#1)) :
    X = Cert.ReferenceIdeal.RefRun.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) :=
  bridge_core _ _ _ _ _ _ _ _ _ _ _ _ X hchain (hspec _ _ _ _ _ _ _ _ _ _ _ _) hpre

end Cert.Bridge

end
-- ==== Proof.LibPlainDot.lean ====
/-
  The plain matrix product `M×K` by `K×N` (dimension numbers `[1] × [0]`, no batch axis) read at an entry, at the exact instance,
  for any extents: entry `(p, q)` is `Σ_k x p k · w k q` over the `K` contracted positions — for the vector unit's product onto a
  zero accumulator, onto any accumulator (the accumulator's entry added), and for the host's `dot_general`. A printed dimension
  record of this form differs from `DotDims.plain M K N` only in the proof of its well-formedness, so it equals it by `rfl`, and
  these lemmas then apply to the printed record after one rewrite.
-/
import Idealize.ShloMosaic.Lib.ValueIdx
import Idealize.ShloMosaic.PureOps.Ideal.Laws

noncomputable section

open Idealize.ShloMosaic ValueIdx

namespace LibPlainDot

variable (M K N : ℕ)

/-- The contracted positions of the plain product are `Fin K`. -/
abbrev contrK : (DotDims.plain M K N).contr.Idx ≃ Fin K := contrEquiv1 (DotDims.plain M K N) K rfl rfl

/-- The left operand's entry a product term reads: the output entry's row, the contraction's position. -/
theorem lhs_at (p : Fin M) (q : Fin N) (k : Fin K) :
    (DotDims.plain M K N).lhsIdx (ix2 p q) ((contrK M K N).symm k) = ix2 p k := by
  funext a
  match a with
  | ⟨0, _⟩ => exact Fin.ext rfl
  | ⟨1, _⟩ => exact Fin.ext ((DotDims.lhsIdx_val_of_single (DotDims.plain M K N) (cl := ⟨1, Nat.one_lt_two⟩) rfl _ _).trans
      (contrEquiv1_symm_val (DotDims.plain M K N) K rfl rfl k))

/-- The right operand's entry: the contraction's position, the output entry's column. -/
theorem rhs_at (p : Fin M) (q : Fin N) (k : Fin K) :
    (DotDims.plain M K N).rhsIdx (ix2 p q) ((contrK M K N).symm k) = ix2 k q := by
  funext a
  match a with
  | ⟨0, _⟩ => exact Fin.ext ((DotDims.rhsIdx_val_of_single (DotDims.plain M K N) (cr := ⟨0, Nat.two_pos⟩) rfl _ _).trans
      (contrEquiv1_symm_val (DotDims.plain M K N) K rfl rfl k))
  | ⟨1, _⟩ => exact Fin.ext rfl

/-- The contraction of the plain product, re-indexed by `Fin K`. -/
theorem sum_at {φ₁ φ₂ : FTy} (x : FVec Ideal ⟨2, ![M, K]⟩ φ₁) (w : FVec Ideal ⟨2, ![K, N]⟩ φ₂) (p : Fin M) (q : Fin N) :
    (∑ k : (DotDims.plain M K N).contr.Idx, x ((DotDims.plain M K N).lhsIdx (ix2 p q) k) * w ((DotDims.plain M K N).rhsIdx (ix2 p q) k))
      = ∑ k : Fin K, x (ix2 p k) * w (ix2 k q) := by
  rw [← Equiv.sum_comp (contrK M K N).symm]
  exact Finset.sum_congr rfl fun k _ => by rw [lhs_at, rhs_at]

/-- The vector unit's product onto a zero accumulator, at an entry. -/
theorem matmul_zero_at {φ₁ φ₂ : FTy} (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant (F := Ideal) ⟨2, ![M, N]⟩ .f32 0x00000000#32) (ix2 p q)
      = ∑ k : Fin K, x (ix2 p k) * w (ix2 k q) :=
  (Ideal.matmul_constant_zero_apply (DotDims.plain M K N) prec x w (ix2 p q)).trans (sum_at M K N x w p q)

/-- The vector unit's product onto any accumulator, at an entry: the accumulator's entry plus the contraction. -/
theorem matmul_at {φ₁ φ₂ : FTy} (prec : Option ContractPrecision) (x : FVec Ideal ⟨2, ![M, K]⟩ φ₁) (w : FVec Ideal ⟨2, ![K, N]⟩ φ₂)
    (acc : FVec Ideal ⟨2, ![M, N]⟩ .f32) (p : Fin M) (q : Fin N) :
    FloatOps.matmul (DotDims.plain M K N) prec x w acc (ix2 p q) = acc (ix2 p q) + ∑ k : Fin K, x (ix2 p k) * w (ix2 k q) :=
  (Ideal.matmul_apply (DotDims.plain M K N) prec x w acc (ix2 p q)).trans (congrArg (acc (ix2 p q) + ·) (sum_at M K N x w p q))

/-- The host's `dot_general`, at an entry: the same contraction. -/
theorem dotGeneral_at {φ₁ φ₂ : FTy} (prec : Option ContractPrecision) (x : FVec Ideal ⟨2, ![M, K]⟩ φ₁) (w : FVec Ideal ⟨2, ![K, N]⟩ φ₂)
    (p : Fin M) (q : Fin N) :
    Host.dotGeneral (DotDims.plain M K N) prec x w (ix2 p q) = ∑ k : Fin K, x (ix2 p k) * w (ix2 k q) :=
  (Ideal.dotGeneral_apply (DotDims.plain M K N) prec .single x w (ix2 p q)).trans (sum_at M K N x w p q)

end LibPlainDot

end
-- ==== Proof.KIValue0.lean ====
/- What region 0 leaves in its two output arrays, at the exact (extended-real) instance, as functions of the region's
   three input arrays read at an index: entry (n, j) of the first is the product row  Σ_k x n k · w k j  (the rounding
   of x on the way in is the identity at this instance), and of the second that sum times d n, where x, w, d are the
   arrays of windows 0, 1, 2. Each grid point writes back the 2000 rows of its block, and the 25 blocks tile the
   50000 rows. -/
import proofs.«181351_j65970697667357_2_alg».proof.Proof.KIRegion0
import proofs.«181351_j65970697667357_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

-- the TensorCore's buffer contents when the region is entered, at the exact instance
variable (V : (c : Dev nD) → (b : Ref sig .tc) → Buf (Elt Ideal) ((c : Thread nD τ).loc b))

/-- The zero offsets of a whole-block access, as a constant function. -/
theorem zeros0 : (![0, 0] : Fin 2 → Nat) = fun _ => 0 := funext fun a => by fin_cases a <;> rfl

/-- The region's three input arrays as it finds them, each at its literal shape. -/
abbrev arr0_0 (c : Dev nD) : S50000x128.Idx → EReal := V c (Pipeline.arrRef spec0 0)
abbrev arr0_1 (c : Dev nD) : S128x128.Idx → EReal := V c (Pipeline.arrRef spec0 1)
abbrev arr0_2 (c : Dev nD) : S50000x1.Idx → EReal := V c (Pipeline.arrRef spec0 2)

/-- The product array as one function of the two input arrays it reads, index by index. -/
def prod0 (a0 : S50000x128.Idx → EReal) (a1 : S128x128.Idx → EReal) : S50000x128.Idx → EReal :=
  fun i => ∑ k : Fin 128, a0 (ix2 (i 0) k) * a1 (ix2 k (i 1))

/-- The row-scaled product array as one function of the three input arrays. -/
def scaled0 (a0 : S50000x128.Idx → EReal) (a1 : S128x128.Idx → EReal) (a2 : S50000x1.Idx → EReal) : S50000x128.Idx → EReal :=
  fun i => (∑ k : Fin 128, a0 (ix2 (i 0) k) * a1 (ix2 k (i 1))) * a2 (ix2 (i 0) 0)

/-- The printed dimension record is the plain 2000×128 by 128×128 product's. -/
theorem dot0_eq : dot_S2000x128_S128x128_S2000x128_1_0_0_1_n_n = DotDims.plain 2000 128 128 := rfl

/-- The first payload at an entry of the block: the rounding and the cast to the same shape are identities at this
    instance, and the product onto the zero accumulator is the contraction's sum. -/
theorem pay0_1_at (x0 : FVec Ideal S2000x128 .f32) (x2 : FVec Ideal S128x128 .bf16) (p : Fin 2000) (q : Fin 128) :
    k0_pay1 x0 x2 (ix2 p q) = ∑ k : Fin 128, x0 (ix2 p k) * x2 (ix2 k q) := by
  unfold k0_pay1
  simp only [shapeCast_self]
  show FloatOps.matmul dot_S2000x128_S128x128_S2000x128_1_0_0_1_n_n none (truncf .bf16 x0 bitsLt_bf16_f32) x2
      (constant (F := Ideal) S2000x128 .f32 0x00000000#32) (ix2 p q) = _
  rw [dot0_eq]
  exact LibPlainDot.matmul_zero_at 2000 128 128 none (truncf .bf16 x0 bitsLt_bf16_f32) x2 p q

/-- The second payload at an entry: the first times the row's entry of the one-column block, broadcast along the row. -/
theorem pay0_2_at (x0 : FVec Ideal S2000x128 .f32) (x2 : FVec Ideal S128x128 .bf16) (x6 : FVec Ideal S2000x1 .f32) (p : Fin 2000) (q : Fin 128) :
    k0_pay2 x0 x2 x6 (ix2 p q) = (∑ k : Fin 128, x0 (ix2 p k) * x2 (ix2 k q)) * x6 (ix2 p 0) := by
  unfold k0_pay2
  simp only [shapeCast_self]
  show k0_pay1 x0 x2 (ix2 p q) * broadcastTo S2000x128 x6 broadcasts_S2000x1_S2000x128 (ix2 p q) = _
  rw [pay0_1_at, broadcastTo_apply x6 broadcasts_S2000x1_S2000x128 (ix2 p q) (ix2 p 0) (fun a => by match a with | ⟨0, _⟩ => rfl | ⟨1, _⟩ => rfl)]

/-- The printed index maps, decided over the grid: windows 0 and 2 move down the rows with the output windows,
    window 1 stays at its one block, and the outputs' block index is the grid point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Every block of rows is some point's, for either output window. -/
theorem idx_onto0_3 : ∀ q : Fin 25, ∃ t : Fin cfg0.N, win0_3.index t = ![q.val, 0] :=
  (by decide +kernel : ∀ q : Fin 25, ∃ t : Fin grid0.N, win0_3.index t = ![q.val, 0])
theorem idx_onto0_4 : ∀ q : Fin 25, ∃ t : Fin cfg0.N, win0_4.index t = ![q.val, 0] :=
  (by decide +kernel : ∀ q : Fin 25, ∃ t : Fin grid0.N, win0_4.index t = ![q.val, 0])

/-- Where an entry of each window's block at point `t` sits in the window's array: a block's coordinate is its block
    index times the block size plus the coordinate inside the block, so row `p` of the row blocks is row
    `r = t · 2000 + p` of the array, and the one block of window 1 sits at the array's origin. -/
theorem emb0_0 (t : Fin cfg0.N) (p : Fin 2000) (k : Fin 128) (r : Fin 50000) (hr : r.val = t.val * 2000 + p.val) :
    ((cfg0.win 0).blk t).view.emb (ix2 p k) = (ix2 r k : S50000x128.Idx) := by
  obtain ⟨e00, e01, e10, e11, e20, e21, e30, e31, e40, e41⟩ := idx_facts0 t
  funext a; apply Fin.ext
  match a with
  | ⟨0, _⟩ => show win0_0.index t (0 : Fin 2) * 2000 + 1 * p.val = r.val; omega
  | ⟨1, _⟩ => show win0_0.index t (1 : Fin 2) * 128 + 1 * k.val = k.val; omega
theorem emb0_1 (t : Fin cfg0.N) (k : Fin 128) (q : Fin 128) :
    ((cfg0.win 1).blk t).view.emb (ix2 k q) = (ix2 k q : S128x128.Idx) := by
  obtain ⟨e00, e01, e10, e11, e20, e21, e30, e31, e40, e41⟩ := idx_facts0 t
  funext a; apply Fin.ext
  match a with
  | ⟨0, _⟩ => show win0_1.index t (0 : Fin 2) * 128 + 1 * k.val = k.val; omega
  | ⟨1, _⟩ => show win0_1.index t (1 : Fin 2) * 128 + 1 * q.val = q.val; omega
theorem emb0_2 (t : Fin cfg0.N) (p : Fin 2000) (r : Fin 50000) (hr : r.val = t.val * 2000 + p.val) :
    ((cfg0.win 2).blk t).view.emb (ix2 p 0) = (ix2 r 0 : S50000x1.Idx) := by
  obtain ⟨e00, e01, e10, e11, e20, e21, e30, e31, e40, e41⟩ := idx_facts0 t
  funext a; apply Fin.ext
  match a with
  | ⟨0, _⟩ => show win0_2.index t (0 : Fin 2) * 2000 + 1 * p.val = r.val; omega
  | ⟨1, _⟩ => show win0_2.index t (1 : Fin 2) * 1 + 1 * 0 = 0; omega
theorem emb0_3 (t : Fin cfg0.N) (p : Fin 2000) (q : Fin 128) (r : Fin 50000) (hr : r.val = t.val * 2000 + p.val) :
    ((cfg0.win 3).blk t).view.emb (ix2 p q) = (ix2 r q : S50000x128.Idx) := by
  obtain ⟨e00, e01, e10, e11, e20, e21, e30, e31, e40, e41⟩ := idx_facts0 t
  funext a; apply Fin.ext
  match a with
  | ⟨0, _⟩ => show win0_3.index t (0 : Fin 2) * 2000 + 1 * p.val = r.val; omega
  | ⟨1, _⟩ => show win0_3.index t (1 : Fin 2) * 128 + 1 * q.val = q.val; omega
theorem emb0_4 (t : Fin cfg0.N) (p : Fin 2000) (q : Fin 128) (r : Fin 50000) (hr : r.val = t.val * 2000 + p.val) :
    ((cfg0.win 4).blk t).view.emb (ix2 p q) = (ix2 r q : S50000x128.Idx) := by
  obtain ⟨e00, e01, e10, e11, e20, e21, e30, e31, e40, e41⟩ := idx_facts0 t
  funext a; apply Fin.ext
  match a with
  | ⟨0, _⟩ => show win0_4.index t (0 : Fin 2) * 2000 + 1 * p.val = r.val; omega
  | ⟨1, _⟩ => show win0_4.index t (1 : Fin 2) * 128 + 1 * q.val = q.val; omega

/-- The grid has 25 points, so row `t · 2000 + p` is a row of the array. -/
theorem row_lt0 (t : Fin cfg0.N) (p : Fin 2000) : t.val * 2000 + p.val < 50000 := by
  have ht : t.val < 25 := lt_of_lt_of_eq t.isLt N_0
  have hp : p.val < 2000 := p.isLt
  omega

/-- What point `t` writes back to window 3's array is block `t` of `prod0` of the input arrays as the region finds them. -/
theorem flushed0_3_eq (c : Dev nD) (t : Fin cfg0.N) :
    (dat0 V c).flushed 3 t = ((cfg0.win 3).blk t).view.read (Elt Ideal) (prod0 (arr0_0 V c) (arr0_1 V c)) := by
  show (cfg0.win 3).cut (grid0.coords t) ((dat0 V c).after 3 t) = _
  rw [after0_3]
  unfold out0_3
  rw [View.canon_unit_zero zeros0]
  simp only [View.ld_unit_zero (S := S2000x128) zeros0, View.ld_unit_zero (S := S128x128) zeros0]
  funext j
  obtain ⟨p, q, rfl⟩ : ∃ (p : Fin 2000) (q : Fin 128), j = ix2 p q := ⟨j 0, j 1, eq_ix2 j⟩
  show k0_pay1 (iblk0 V c 0 t) (iblk0 V c 1 t) (ix2 p q) = prod0 (arr0_0 V c) (arr0_1 V c) (((cfg0.win 3).blk t).view.emb (ix2 p q))
  refine (pay0_1_at (iblk0 V c 0 t) (iblk0 V c 1 t) p q).trans ?_
  refine Eq.trans ?_ (congrArg (prod0 (arr0_0 V c) (arr0_1 V c)) (emb0_3 t p q ⟨t.val * 2000 + p.val, row_lt0 t p⟩ rfl)).symm
  show (∑ k : Fin 128, arr0_0 V c (((cfg0.win 0).blk t).view.emb (ix2 p k)) * arr0_1 V c (((cfg0.win 1).blk t).view.emb (ix2 k q)))
    = ∑ k : Fin 128, arr0_0 V c (ix2 (⟨t.val * 2000 + p.val, row_lt0 t p⟩ : Fin 50000) k) * arr0_1 V c (ix2 k q)
  refine Finset.sum_congr rfl fun k _ => ?_
  rw [emb0_0 t p k ⟨t.val * 2000 + p.val, row_lt0 t p⟩ rfl, emb0_1 t k q]

/-- What point `t` writes back to window 4's array is block `t` of `scaled0` of the input arrays. -/
theorem flushed0_4_eq (c : Dev nD) (t : Fin cfg0.N) :
    (dat0 V c).flushed 4 t = ((cfg0.win 4).blk t).view.read (Elt Ideal) (scaled0 (arr0_0 V c) (arr0_1 V c) (arr0_2 V c)) := by
  show (cfg0.win 4).cut (grid0.coords t) ((dat0 V c).after 4 t) = _
  rw [after0_4]
  unfold out0_4
  rw [View.canon_unit_zero zeros0]
  simp only [View.ld_unit_zero (S := S2000x128) zeros0, View.ld_unit_zero (S := S128x128) zeros0, View.ld_unit_zero (S := S2000x1) zeros0]
  funext j
  obtain ⟨p, q, rfl⟩ : ∃ (p : Fin 2000) (q : Fin 128), j = ix2 p q := ⟨j 0, j 1, eq_ix2 j⟩
  show k0_pay2 (iblk0 V c 0 t) (iblk0 V c 1 t) (iblk0 V c 2 t) (ix2 p q)
    = scaled0 (arr0_0 V c) (arr0_1 V c) (arr0_2 V c) (((cfg0.win 4).blk t).view.emb (ix2 p q))
  refine (pay0_2_at (iblk0 V c 0 t) (iblk0 V c 1 t) (iblk0 V c 2 t) p q).trans ?_
  refine Eq.trans ?_ (congrArg (scaled0 (arr0_0 V c) (arr0_1 V c) (arr0_2 V c)) (emb0_4 t p q ⟨t.val * 2000 + p.val, row_lt0 t p⟩ rfl)).symm
  show (∑ k : Fin 128, arr0_0 V c (((cfg0.win 0).blk t).view.emb (ix2 p k)) * arr0_1 V c (((cfg0.win 1).blk t).view.emb (ix2 k q)))
      * arr0_2 V c (((cfg0.win 2).blk t).view.emb (ix2 p 0))
    = (∑ k : Fin 128, arr0_0 V c (ix2 (⟨t.val * 2000 + p.val, row_lt0 t p⟩ : Fin 50000) k) * arr0_1 V c (ix2 k q))
      * arr0_2 V c (ix2 (⟨t.val * 2000 + p.val, row_lt0 t p⟩ : Fin 50000) 0)
  rw [emb0_2 t p ⟨t.val * 2000 + p.val, row_lt0 t p⟩ rfl]
  refine congrArg (· * _) (Finset.sum_congr rfl fun k _ => ?_)
  rw [emb0_0 t p k ⟨t.val * 2000 + p.val, row_lt0 t p⟩ rfl, emb0_1 t k q]

/-- An index of an output array is in point `t`'s block iff each coordinate is in the block's range on its axis. -/
theorem mem_blk0_3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v27_0).slice (win0_3.rect t)).set ↔ _
  rw [View.set_slice_whole, Rect.mem_set_unit]
  exact Iff.rfl
theorem mem_blk0_4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v27_1).slice (win0_4.rect t)).set ↔ _
  rw [View.set_slice_whole, Rect.mem_set_unit]
  exact Iff.rfl

/-- Every index of an output array is in some point's block: row `r` is in block `r / 2000`. -/
theorem cover0_3_arr (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto0_3 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega
theorem cover0_4_arr (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto0_4 ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_blk0_4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- The output arrays after the region, as whole-array functions of the input arrays as the region finds them. -/
theorem final0_3 (c : Dev nD) : (dat0 V c).arrAt 3 cfg0.N = prod0 (arr0_0 V c) (arr0_1 V c) :=
  (dat0 V c).arrAt_eq_of_cover 3 _ (fun t _ => flushed0_3_eq V c t) cover0_3_arr
theorem final0_4 (c : Dev nD) : (dat0 V c).arrAt 4 cfg0.N = scaled0 (arr0_0 V c) (arr0_1 V c) (arr0_2 V c) :=
  (dat0 V c).arrAt_eq_of_cover 4 _ (fun t _ => flushed0_4_eq V c t) cover0_4_arr

/-- Region 0's first output array after the region, read at an entry: the product row. -/
theorem value0_3 (c : Dev nD) (n : Fin 50000) (j : Fin 128) :
    (dat0 (F := Ideal) V c).arrAt 3 cfg0.N (ix2 n j)
      = ∑ k : Fin 128, arr0_0 V c (ix2 n k) * arr0_1 V c (ix2 k j) :=
  congrFun (final0_3 V c) (ix2 n j)

/-- Region 0's second output array after the region, read at an entry: the product row times the row's scale. -/
theorem value0_4 (c : Dev nD) (n : Fin 50000) (j : Fin 128) :
    (dat0 (F := Ideal) V c).arrAt 4 cfg0.N (ix2 n j)
      = (∑ k : Fin 128, arr0_0 V c (ix2 n k) * arr0_1 V c (ix2 k j))
        * arr0_2 V c (ix2 n 0) :=
  congrFun (final0_4 V c) (ix2 n j)

end Cert.KernelIdeal.HandValue

end
-- ==== Proof.KIValueCommon.lean ====
/- The arithmetic the two normalize-activate-multiply regions share, at the exact instance (every float an extended
   real): one entry normalized by its column's mean and variance, scaled, shifted and leaky-rectified; and two broadcasts
   read at an entry. The rectifier is the specification's. -/
import proofs.«181351_j65970697667357_2_alg».proof.Proof.GcnSpec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Idealize.ShloMosaic Idealize.ShloMosaic.ValueIdx

/-- One entry normalized by its column's mean and variance, scaled and shifted, then leaky-rectified (kept where
    nonnegative, multiplied by the slope elsewhere), in the order the body computes it. -/
def bnAct (x mean var gamma beta : EReal) : EReal :=
  Cert.GcnSpec.leaky ((x - mean) * Ideal.rsqrt (var + Ideal.ofBits .f32 0x3727C5AC#32) * gamma + beta)

/-- The same, spelt out. -/
theorem bnAct_eq (x mean var gamma beta : EReal) :
    bnAct x mean var gamma beta
      = Cert.GcnSpec.leaky ((x - mean) * Ideal.rsqrt (var + Ideal.ofBits .f32 0x3727C5AC#32) * gamma + beta) := rfl

/-- The reciprocal square root of a vector, at an entry. -/
theorem rsqrt_at {s : Shape} {φ : FTy} (a : FVec Ideal s φ) (i : s.Idx) : rsqrt a i = FloatOps.rsqrt (a i) := rfl

/-- A row broadcast down the rows, read at an entry: the row's entry in that column. -/
theorem row_down {α : Type} {R C : Nat} (x : (⟨2, ![1, C]⟩ : Shape).Idx → α) (h : (⟨2, ![1, C]⟩ : Shape).Broadcasts ⟨2, ![R, C]⟩)
    (p : Fin R) (k : Fin C) : broadcastTo ⟨2, ![R, C]⟩ x h (ix2 p k) = x (ix2 0 k) :=
  broadcastTo_apply x h (ix2 p k) (ix2 0 k) fun a => by
    match a with
    | ⟨0, _⟩ => rfl
    | ⟨1, _⟩ =>
      show k.val = if C = 1 then 0 else k.val
      split
      · have := k.isLt; omega
      · rfl

/-- A column broadcast along the rows, read at an entry: the column's entry in that row. -/
theorem col_along {α : Type} {R C : Nat} (x : (⟨2, ![R, 1]⟩ : Shape).Idx → α) (h : (⟨2, ![R, 1]⟩ : Shape).Broadcasts ⟨2, ![R, C]⟩)
    (p : Fin R) (k : Fin C) : broadcastTo ⟨2, ![R, C]⟩ x h (ix2 p k) = x (ix2 p 0) :=
  broadcastTo_apply x h (ix2 p k) (ix2 p 0) fun a => by
    match a with
    | ⟨0, _⟩ =>
      show p.val = if R = 1 then 0 else p.val
      split
      · have := p.isLt; omega
      · rfl
    | ⟨1, _⟩ => rfl

/-- The zero offsets of a whole-buffer access. -/
theorem hz : (![0, 0] : Fin 2 → Nat) = fun _ => 0 := funext fun a => by fin_cases a <;> rfl

end Cert.KernelIdeal.HandValue
-- ==== Proof.LibBlockedSum.lean ====
/-
  Sums taken block by block. A contraction over an axis of `n * b` entries, computed as `n` partial sums of `b` consecutive
  entries each and accumulated one block after the other from a cleared accumulator, is the sum over the whole axis. Everything
  here holds in any commutative additive monoid — in particular on the extended reals, where regrouping a sum needs no
  finiteness (only cancellation and distributivity do).
-/
import Mathlib.Algebra.BigOperators.Fin
import Mathlib.Algebra.BigOperators.Intervals
import Mathlib.Logic.Equiv.Fin.Basic

open Finset

namespace LibBlockedSum

variable {M : Type*} [AddCommMonoid M]

/-- Entry `k` of block `j`, of `n` blocks of `b` consecutive entries, as a position on the whole axis: `j * b + k`. -/
def blockIdx (n b : ℕ) (j : Fin n) (k : Fin b) : Fin (n * b) :=
  ⟨j.val * b + k.val, by
    have hj : j.val + 1 ≤ n := j.isLt
    calc j.val * b + k.val < j.val * b + b := Nat.add_lt_add_left k.isLt _
      _ = (j.val + 1) * b := (Nat.succ_mul _ _).symm
      _ ≤ n * b := Nat.mul_le_mul_right _ hj⟩

@[simp] theorem blockIdx_val (n b : ℕ) (j : Fin n) (k : Fin b) : (blockIdx n b j k).val = j.val * b + k.val := rfl

/-- The positions `j * b + k` are the product order's enumeration of the axis. -/
theorem blockIdx_eq (n b : ℕ) (j : Fin n) (k : Fin b) : blockIdx n b j k = finProdFinEquiv (j, k) :=
  Fin.ext (by simp [blockIdx, finProdFinEquiv, Nat.mul_comm, Nat.add_comm])

/-- A sum over an axis of `n * b` entries is the sum over the `n` blocks of each block's `b` entries. -/
theorem sum_blocks (n b : ℕ) (f : Fin (n * b) → M) :
    ∑ i, f i = ∑ j : Fin n, ∑ k : Fin b, f (blockIdx n b j k) := by
  simp only [blockIdx_eq]
  rw [← finProdFinEquiv.sum_comp, Fintype.sum_prod_type]

/-- A sum over an axis whose length is written `n * b` is the sum over the same axis written `m`. -/
theorem sum_cast {m n b : ℕ} (h : n * b = m) (f : Fin m → M) : ∑ i : Fin (n * b), f (i.cast h) = ∑ i : Fin m, f i :=
  Equiv.sum_comp (finCongr h) f

/-- The accumulator after block `j`: cleared before the first block (`0 + s 0`: the clearing store, then the first
    partial sum added), every later block's partial sum added to what the block before left. -/
def accAfter (s : ℕ → M) : ℕ → M
  | 0 => 0 + s 0
  | j + 1 => accAfter s j + s (j + 1)

/-- After block `j` the accumulator holds the first `j + 1` partial sums. -/
theorem accAfter_eq_sum_range (s : ℕ → M) (j : ℕ) : accAfter s j = ∑ i ∈ range (j + 1), s i := by
  induction j with
  | zero => simp [accAfter]
  | succ j ih => rw [accAfter, ih, sum_range_succ _ (j + 1)]

/-- After the last of `n + 1` blocks the accumulator holds all the partial sums. -/
theorem accAfter_last (n : ℕ) (s : ℕ → M) : accAfter s n = ∑ j : Fin (n + 1), s j.val := by
  rw [accAfter_eq_sum_range, Finset.sum_range]

/-- THE BLOCKED CONTRACTION. With the axis cut into `n + 1` blocks of `b` entries, the accumulator after the last block — each
    block's partial sum `∑ k, f (j * b + k)` added in turn to a cleared accumulator — is the sum over the whole axis. -/
theorem accAfter_blocks (n b : ℕ) (f : Fin ((n + 1) * b) → M) (s : ℕ → M)
    (hs : ∀ j : Fin (n + 1), s j.val = ∑ k : Fin b, f (blockIdx (n + 1) b j k)) :
    accAfter s n = ∑ i, f i := by
  rw [accAfter_last, sum_blocks]
  exact Finset.sum_congr rfl fun j _ => hs j

/-- THE BLOCKED CONTRACTION OF PRODUCTS, in the form a tiled matrix product gives it: block `j`'s partial sum is
    `∑ k, x j k * w j k` over the block's own `b` positions, and the two factors along the whole axis are `fx`, `fw` with block `j`
    holding positions `j * b + k`. Only a multiplication is assumed, no distributivity: the products are regrouped, never expanded. -/
theorem accAfter_products [Mul M] (n b : ℕ) (x w : Fin (n + 1) → Fin b → M) (fx fw : Fin ((n + 1) * b) → M)
    (hx : ∀ (j : Fin (n + 1)) (k : Fin b), x j k = fx (blockIdx (n + 1) b j k))
    (hw : ∀ (j : Fin (n + 1)) (k : Fin b), w j k = fw (blockIdx (n + 1) b j k)) :
    accAfter (fun j => if h : j < n + 1 then ∑ k : Fin b, x ⟨j, h⟩ k * w ⟨j, h⟩ k else 0) n = ∑ i, fx i * fw i := by
  refine accAfter_blocks n b (fun i => fx i * fw i) _ fun j => ?_
  show (if h : j.val < n + 1 then _ else _) = _
  rw [dif_pos j.isLt]
  exact Finset.sum_congr rfl fun k _ => by rw [hx j k, hw j k]

end LibBlockedSum
-- ==== Proof.KIValue1.lean ====
/- What region 1 leaves in its three output arrays, at the exact (extended-real) instance, as functions of the region's
   four input arrays: output 4 is the layer's output, node by node; outputs 5 and 6 are its column means and clamped
   one-pass column variances over the 50000 nodes. Each grid point stores the layer's output on its block of 2000 rows
   and adds the block's column sums (of the values and of their squares) to two accumulators cleared at the first
   point; the last point stores the statistics from the accumulators, which by then hold the whole column sums. -/
import proofs.«181351_j65970697667357_2_alg».proof.Proof.KIRegion1
import proofs.«181351_j65970697667357_2_alg».proof.Proof.KIValueCommon
import proofs.«181351_j65970697667357_2_alg».proof.Proof.LibBlockedSum
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand Idealize.ShloMosaic Idealize.ShloMosaic.TcCoe Idealize.ShloMosaic.Tactic Idealize.SL.Sem
open Idealize.ShloMosaic.Pipeline (Dat)
open Idealize.ShloMosaic.ValueIdx

/-! ## What each case leaves, as the payloads of the input blocks -/

section Pieces
variable {F : FTy → Type} [FloatOps F] [Named F]

/-- At the first point output 4 holds its payload of the input blocks. -/
theorem out1_A_4_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) :
    out1_A_4 c i arg1 harg1 arg2 harg2 arg3 harg3 arg4 harg4 arg5 harg5 arg6 harg6 arg7 harg7 arg8 harg8 arg9 harg9 hc0 hc1 x0 x1 x2 x3 = k1_pay6 x2 x0 x1 x3 := by
  unfold out1_A_4
  rw [View.read_writes_eq_canon _ _ _ (cover1_A_4 c i arg1 harg1 arg2 harg2 arg3 harg3 arg4 harg4 arg5 harg5 arg6 harg6 arg7 harg7 arg8 harg8 arg9 harg9 hc0 hc1 x0 x1 x2 x3)]
  unfold kernelRun1_A
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At the first point the first accumulator, cleared, then holds the block's column sums added to the cleared row. -/
theorem sout1_A_0_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) :
    sout1_A_0 c i arg1 harg1 arg2 harg2 arg3 harg3 arg4 harg4 arg5 harg5 arg6 harg6 arg7 harg7 arg8 harg8 arg9 harg9 hc0 hc1 x0 x1 x2 x3 = k1_pay7 x2 x0 x1 x3 k1_pay4 := by
  unfold sout1_A_0
  rw [View.read_writes_eq_canon _ _ _ (scover1_A_0 c i arg1 harg1 arg2 harg2 arg3 harg3 arg4 harg4 arg5 harg5 arg6 harg6 arg7 harg7 arg8 harg8 arg9 harg9 hc0 hc1 x0 x1 x2 x3)]
  unfold kernelRun1_A
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At the first point the second accumulator, cleared, then holds the block's column sums of squares added to the cleared row. -/
theorem sout1_A_1_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) :
    sout1_A_1 c i arg1 harg1 arg2 harg2 arg3 harg3 arg4 harg4 arg5 harg5 arg6 harg6 arg7 harg7 arg8 harg8 arg9 harg9 hc0 hc1 x0 x1 x2 x3 = k1_pay1 (k1_pay8 x2 x0 x1 x3 k1_pay5) := by
  unfold sout1_A_1
  rw [View.read_writes_eq_canon _ _ _ (scover1_A_1 c i arg1 harg1 arg2 harg2 arg3 harg3 arg4 harg4 arg5 harg5 arg6 harg6 arg7 harg7 arg8 harg8 arg9 harg9 hc0 hc1 x0 x1 x2 x3)]
  unfold kernelRun1_A
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At a middle point output 4 holds its payload of the input blocks. -/
theorem out1_B_4_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    out1_B_4 c i arg1 harg1 arg2 harg2 arg3 harg3 arg4 harg4 arg5 harg5 arg6 harg6 arg7 harg7 arg8 harg8 arg9 harg9 hc0 hc1 x0 x1 x2 x3 xs0 xs1 = k1_pay6 x2 x0 x1 x3 := by
  unfold out1_B_4
  rw [View.read_writes_eq_canon _ _ _ (cover1_B_4 c i arg1 harg1 arg2 harg2 arg3 harg3 arg4 harg4 arg5 harg5 arg6 harg6 arg7 harg7 arg8 harg8 arg9 harg9 hc0 hc1 x0 x1 x2 x3 xs0 xs1)]
  unfold kernelRun1_B
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At a middle point the first accumulator holds what it held plus the block's column sums. -/
theorem sout1_B_0_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    sout1_B_0 c i arg1 harg1 arg2 harg2 arg3 harg3 arg4 harg4 arg5 harg5 arg6 harg6 arg7 harg7 arg8 harg8 arg9 harg9 hc0 hc1 x0 x1 x2 x3 xs0 xs1 = k1_pay7 x2 x0 x1 x3 xs0 := by
  unfold sout1_B_0
  rw [View.read_writes_eq_canon _ _ _ (scover1_B_0 c i arg1 harg1 arg2 harg2 arg3 harg3 arg4 harg4 arg5 harg5 arg6 harg6 arg7 harg7 arg8 harg8 arg9 harg9 hc0 hc1 x0 x1 x2 x3 xs0 xs1)]
  unfold kernelRun1_B
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At a middle point the second accumulator holds what it held plus the block's column sums of squares. -/
theorem sout1_B_1_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    sout1_B_1 c i arg1 harg1 arg2 harg2 arg3 harg3 arg4 harg4 arg5 harg5 arg6 harg6 arg7 harg7 arg8 harg8 arg9 harg9 hc0 hc1 x0 x1 x2 x3 xs0 xs1 = k1_pay1 (k1_pay8 x2 x0 x1 x3 xs1) := by
  unfold sout1_B_1
  rw [View.read_writes_eq_canon _ _ _ (scover1_B_1 c i arg1 harg1 arg2 harg2 arg3 harg3 arg4 harg4 arg5 harg5 arg6 harg6 arg7 harg7 arg8 harg8 arg9 harg9 hc0 hc1 x0 x1 x2 x3 xs0 xs1)]
  unfold kernelRun1_B
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At the last point output 4 holds its payload of the input blocks. -/
theorem out1_C_4_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    out1_C_4 c i arg1 harg1 arg2 harg2 arg3 harg3 arg4 harg4 arg5 harg5 arg6 harg6 arg7 harg7 arg8 harg8 arg9 harg9 hc0 hc1 x0 x1 x2 x3 xs0 xs1 = k1_pay6 x2 x0 x1 x3 := by
  unfold out1_C_4
  rw [View.read_writes_eq_canon _ _ _ (cover1_C_4 c i arg1 harg1 arg2 harg2 arg3 harg3 arg4 harg4 arg5 harg5 arg6 harg6 arg7 harg7 arg8 harg8 arg9 harg9 hc0 hc1 x0 x1 x2 x3 xs0 xs1)]
  unfold kernelRun1_C
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At the last point the first accumulator holds what it held plus the block's column sums. -/
theorem sout1_C_0_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    sout1_C_0 c i arg1 harg1 arg2 harg2 arg3 harg3 arg4 harg4 arg5 harg5 arg6 harg6 arg7 harg7 arg8 harg8 arg9 harg9 hc0 hc1 x0 x1 x2 x3 xs0 xs1 = k1_pay7 x2 x0 x1 x3 xs0 := by
  unfold sout1_C_0
  rw [View.read_writes_eq_canon _ _ _ (scover1_C_0 c i arg1 harg1 arg2 harg2 arg3 harg3 arg4 harg4 arg5 harg5 arg6 harg6 arg7 harg7 arg8 harg8 arg9 harg9 hc0 hc1 x0 x1 x2 x3 xs0 xs1)]
  unfold kernelRun1_C
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At the last point the second accumulator holds what it held plus the block's column sums of squares. -/
theorem sout1_C_1_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    sout1_C_1 c i arg1 harg1 arg2 harg2 arg3 harg3 arg4 harg4 arg5 harg5 arg6 harg6 arg7 harg7 arg8 harg8 arg9 harg9 hc0 hc1 x0 x1 x2 x3 xs0 xs1 = k1_pay1 (k1_pay8 x2 x0 x1 x3 xs1) := by
  unfold sout1_C_1
  rw [View.read_writes_eq_canon _ _ _ (scover1_C_1 c i arg1 harg1 arg2 harg2 arg3 harg3 arg4 harg4 arg5 harg5 arg6 harg6 arg7 harg7 arg8 harg8 arg9 harg9 hc0 hc1 x0 x1 x2 x3 xs0 xs1)]
  unfold kernelRun1_C
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At the last point output 5 holds its payload of the first accumulator as this point leaves it. -/
theorem out1_C_5_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    out1_C_5 c i arg1 harg1 arg2 harg2 arg3 harg3 arg4 harg4 arg5 harg5 arg6 harg6 arg7 harg7 arg8 harg8 arg9 harg9 hc0 hc1 x0 x1 x2 x3 xs0 xs1 = k1_pay2 (k1_pay7 x2 x0 x1 x3 xs0) := by
  unfold out1_C_5
  rw [View.read_writes_eq_canon _ _ _ (cover1_C_5 c i arg1 harg1 arg2 harg2 arg3 harg3 arg4 harg4 arg5 harg5 arg6 harg6 arg7 harg7 arg8 harg8 arg9 harg9 hc0 hc1 x0 x1 x2 x3 xs0 xs1)]
  unfold kernelRun1_C
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At the last point output 6 holds its payload of the two accumulators as this point leaves them. -/
theorem out1_C_6_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    out1_C_6 c i arg1 harg1 arg2 harg2 arg3 harg3 arg4 harg4 arg5 harg5 arg6 harg6 arg7 harg7 arg8 harg8 arg9 harg9 hc0 hc1 x0 x1 x2 x3 xs0 xs1 = k1_pay3 (k1_pay7 x2 x0 x1 x3 xs0) (k1_pay1 (k1_pay8 x2 x0 x1 x3 xs1)) := by
  unfold out1_C_6
  rw [View.read_writes_eq_canon _ _ _ (cover1_C_6 c i arg1 harg1 arg2 harg2 arg3 harg3 arg4 harg4 arg5 harg5 arg6 harg6 arg7 harg7 arg8 harg8 arg9 harg9 hc0 hc1 x0 x1 x2 x3 xs0 xs1)]
  unfold kernelRun1_C
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

end Pieces

/-! ## The payloads at an entry, at the exact instance -/

/-- The named reciprocal count is the rational at the exact instance. -/
theorem inv_count1 : Named.named (F := Ideal) Cert.KernelIdeal.κ "inv_50000" (φ := .f32) 0x37A7C5AC#32 = ((1 / 50000 : ℝ) : EReal) :=
  IdealRules.named_const.ideal_named_scalar _ _ _ _ rfl

/-- The source index over column `q` with row `p` inserted. -/
theorem lift_col1 (p : Fin 2000) (q : Fin 128) : reduces_S2000x128_S128.lift (ix1 q) p = ix2 p q := by
  funext c; apply Fin.ext
  match c with
  | ⟨0, _⟩ => rfl
  | ⟨1, _⟩ => rfl

/-- A block's column sums, kept as a row, read at an entry. -/
theorem colsum_at1 (src : FVec Ideal S2000x128 .f32) (q : Fin 128) :
    shapeCast S1x128 (multiReduction (F := Ideal) .add [0] S128 src 0x00000000#32 reduces_S2000x128_S128 (.inl rfl) rfl) shapeCasts_S128_S1x128 (ix2 0 q)
      = ∑ p : Fin 2000, src (ix2 p q) := by
  refine (shapeCast_addUnit_apply (n := 1) ![128] _ shapeCasts_S128_S1x128 (ix2 0 q)).trans ?_
  have e : (fun a : Fin 1 => (ix2 (0 : Fin 1) q : S1x128.Idx) a.succ) = ix1 q := by
    funext a; match a with | ⟨0, _⟩ => rfl
  rw [e]
  refine (Ideal.multiReduction_add_single src 0x00000000#32 reduces_S2000x128_S128 (.inl rfl) rfl (ix1 q)).trans ?_
  exact Finset.sum_congr rfl fun p _ => congrArg src (lift_col1 p q)

/-- Output 4's payload at an entry: the row's scale times the neighbourhood sum, the self term, the bias. -/
theorem pay1_6_at (v3 : FVec Ideal S2000x1 .f32) (v6 v10 : FVec Ideal S2000x128 .f32) (v15 : FVec Ideal S1x128 .f32) (p : Fin 2000) (q : Fin 128) :
    k1_pay6 v3 v6 v10 v15 (ix2 p q) = v3 (ix2 p 0) * v6 (ix2 p q) + v10 (ix2 p q) * (v3 (ix2 p 0) * v3 (ix2 p 0)) + v15 (ix2 0 q) := by
  unfold k1_pay6
  simp only [shapeCast_self]
  show broadcastTo S2000x128 v3 broadcasts_S2000x1_S2000x128 (ix2 p q) * v6 (ix2 p q)
      + v10 (ix2 p q) * broadcastTo S2000x128 (mulf v3 v3) broadcasts_S2000x1_S2000x128 (ix2 p q)
      + broadcastTo S2000x128 v15 broadcasts_S1x128_S2000x128 (ix2 p q) = _
  rw [col_along v3 broadcasts_S2000x1_S2000x128 p q, col_along (mulf v3 v3) broadcasts_S2000x1_S2000x128 p q, row_down v15 broadcasts_S1x128_S2000x128 p q]
  rfl

/-- The first accumulator's payload at an entry: what it held plus the block's column sum. -/
theorem pay1_7_at (v3 : FVec Ideal S2000x1 .f32) (v6 v10 : FVec Ideal S2000x128 .f32) (v15 v20 : FVec Ideal S1x128 .f32) (q : Fin 128) :
    k1_pay7 v3 v6 v10 v15 v20 (ix2 0 q) = v20 (ix2 0 q) + ∑ p : Fin 2000, k1_pay6 v3 v6 v10 v15 (ix2 p q) := by
  unfold k1_pay7
  simp only [shapeCast_self]
  show v20 (ix2 0 q) + shapeCast S1x128 (multiReduction (F := Ideal) .add [0] S128 (k1_pay6 v3 v6 v10 v15) 0x00000000#32 reduces_S2000x128_S128 (.inl rfl) rfl) shapeCasts_S128_S1x128 (ix2 0 q) = _
  rw [colsum_at1]

/-- The second accumulator's payload at an entry: what it held plus the block's column sum of squares. -/
theorem pay1_8_at (v3 : FVec Ideal S2000x1 .f32) (v6 v10 : FVec Ideal S2000x128 .f32) (v15 v27 : FVec Ideal S1x128 .f32) (q : Fin 128) :
    k1_pay8 v3 v6 v10 v15 v27 (ix2 0 q) = v27 (ix2 0 q) + ∑ p : Fin 2000, k1_pay6 v3 v6 v10 v15 (ix2 p q) * k1_pay6 v3 v6 v10 v15 (ix2 p q) := by
  unfold k1_pay8
  show v27 (ix2 0 q) + shapeCast S1x128 (multiReduction (F := Ideal) .add [0] S128 (mulf (k1_pay6 v3 v6 v10 v15) (k1_pay6 v3 v6 v10 v15)) 0x00000000#32 reduces_S2000x128_S128 (.inl rfl) rfl) shapeCasts_S128_S1x128 (ix2 0 q) = _
  rw [colsum_at1]
  rfl

/-- The cast to the same shape is the identity. -/
theorem pay1_1_eq (v31 : FVec Ideal S1x128 .f32) : k1_pay1 v31 = v31 := by
  unfold k1_pay1; simp only [shapeCast_self]

/-- The mean's payload at an entry: the first accumulator times the reciprocal count. -/
theorem pay1_2_at (v38 : FVec Ideal S1x128 .f32) (q : Fin 128) :
    k1_pay2 v38 (ix2 0 q) = v38 (ix2 0 q) * ((1 / 50000 : ℝ) : EReal) := by
  unfold k1_pay2
  show v38 (ix2 0 q) * Named.named (F := Ideal) Cert.KernelIdeal.κ "inv_50000" (φ := .f32) 0x37A7C5AC#32 = _
  rw [inv_count1]

/-- The variance's payload at an entry: the mean of the squares less the square of the mean, clamped at zero. -/
theorem pay1_3_at (v38 v41 : FVec Ideal S1x128 .f32) (q : Fin 128) :
    k1_pay3 v38 v41 (ix2 0 q) = max (v41 (ix2 0 q) * ((1 / 50000 : ℝ) : EReal) - k1_pay2 v38 (ix2 0 q) * k1_pay2 v38 (ix2 0 q)) 0 := by
  unfold k1_pay3
  show max (v41 (ix2 0 q) * Named.named (F := Ideal) Cert.KernelIdeal.κ "inv_50000" (φ := .f32) 0x37A7C5AC#32 - k1_pay2 v38 (ix2 0 q) * k1_pay2 v38 (ix2 0 q)) (Ideal.ofBits .f32 0x00000000#32) = _
  rw [inv_count1, Ideal.ofBits_zero_f32]

/-- The clearing payloads are zero at every entry. -/
theorem pay1_4_at (q : Fin 128) : k1_pay4 (F := Ideal) (ix2 0 q) = 0 := by
  unfold k1_pay4; simp only [shapeCast_self]
  exact Ideal.ofBits_zero_f32
theorem pay1_5_at (q : Fin 128) : k1_pay5 (F := Ideal) (ix2 0 q) = 0 := by
  unfold k1_pay5; simp only [shapeCast_self]
  exact Ideal.ofBits_zero_f32

/-! ## The region's arrays and the layer's output as one function of them -/

-- the TensorCore's buffer contents when the region is entered, at the exact instance
variable (V : (c : Dev nD) → (b : Ref sig .tc) → Buf (Elt Ideal) ((c : Thread nD τ).loc b))

/-- The region's four input arrays as it finds them, each at its literal type. -/
abbrev arr1_0 (c : Dev nD) : S50000x128.Idx → EReal := V c (Pipeline.arrRef spec1 0)
abbrev arr1_1 (c : Dev nD) : S50000x128.Idx → EReal := V c (Pipeline.arrRef spec1 1)
abbrev arr1_2 (c : Dev nD) : S50000x1.Idx → EReal := V c (Pipeline.arrRef spec1 2)
abbrev arr1_3 (c : Dev nD) : S1x128.Idx → EReal := V c (Pipeline.arrRef spec1 3)

omit V in
/-- The layer's output as one function of four arrays — the neighbourhood sums, the nodes' own rows, the nodes' scales,
    the bias —: at node `n`, column `j`, the node's scale times the neighbourhood sum, plus the node's own row times the
    square of its scale, plus the bias. -/
def outFn1_4 (agg xw : S50000x128.Idx → EReal) (dinv : S50000x1.Idx → EReal) (b : S1x128.Idx → EReal) : S50000x128.Idx → EReal := fun i =>
  dinv (ix2 (i 0) 0) * agg i + xw i * (dinv (ix2 (i 0) 0) * dinv (ix2 (i 0) 0)) + b (ix2 0 (i 1))

omit V in
/-- Its column means over the 50000 nodes, -/
def outFn1_5 (agg xw : S50000x128.Idx → EReal) (dinv : S50000x1.Idx → EReal) (b : S1x128.Idx → EReal) : S1x128.Idx → EReal := fun i =>
  (∑ n : Fin 50000, outFn1_4 agg xw dinv b (ix2 n (i 1))) * ((1 / 50000 : ℝ) : EReal)

omit V in
/-- and its one-pass column variances, clamped at zero. -/
def outFn1_6 (agg xw : S50000x128.Idx → EReal) (dinv : S50000x1.Idx → EReal) (b : S1x128.Idx → EReal) : S1x128.Idx → EReal := fun i =>
  max ((∑ n : Fin 50000, outFn1_4 agg xw dinv b (ix2 n (i 1)) * outFn1_4 agg xw dinv b (ix2 n (i 1))) * ((1 / 50000 : ℝ) : EReal)
    - outFn1_5 agg xw dinv b i * outFn1_5 agg xw dinv b i) 0

/-- The same of the region's arrays. -/
abbrev hval1 (c : Dev nD) : S50000x128.Idx → EReal := outFn1_4 (arr1_0 V c) (arr1_1 V c) (arr1_2 V c) (arr1_3 V c)
abbrev meanv1 (c : Dev nD) : S1x128.Idx → EReal := outFn1_5 (arr1_0 V c) (arr1_1 V c) (arr1_2 V c) (arr1_3 V c)
abbrev varv1 (c : Dev nD) : S1x128.Idx → EReal := outFn1_6 (arr1_0 V c) (arr1_1 V c) (arr1_2 V c) (arr1_3 V c)

/-- The printed index maps, decided over the grid: windows 0, 1, 2 and 4 move down the rows with the grid point; the bias
    and the two statistics rows stay at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row `p` of point `t`'s block, as a row of the arrays. -/
def rowOf1 (t : Fin cfg1.N) (p : Fin 2000) : Fin 50000 := ⟨t.val * 2000 + p.val, by have := N_val1 t; omega⟩

/-- Output 4's payload on point `t`'s input blocks, at an entry, is the layer's output at that row of the arrays. -/
theorem hblk1 (c : Dev nD) (t : Fin cfg1.N) (p : Fin 2000) (q : Fin 128) :
    k1_pay6 (iblk1 V c 2 t) (iblk1 V c 0 t) (iblk1 V c 1 t) (iblk1 V c 3 t) (ix2 p q) = hval1 V c (ix2 (rowOf1 t p) q) := by
  refine (pay1_6_at (iblk1 V c 2 t) (iblk1 V c 0 t) (iblk1 V c 1 t) (iblk1 V c 3 t) p q).trans ?_
  obtain ⟨e00, e01, e10, e11, e20, e21, e30, e31, e40, e41, e50, e51, e60, e61⟩ := idx_facts1 t
  show arr1_2 V c (((cfg1.win 2).blk t).view.emb (ix2 p 0)) * arr1_0 V c (((cfg1.win 0).blk t).view.emb (ix2 p q))
      + arr1_1 V c (((cfg1.win 1).blk t).view.emb (ix2 p q)) * (arr1_2 V c (((cfg1.win 2).blk t).view.emb (ix2 p 0)) * arr1_2 V c (((cfg1.win 2).blk t).view.emb (ix2 p 0)))
      + arr1_3 V c (((cfg1.win 3).blk t).view.emb (ix2 0 q))
    = arr1_2 V c (ix2 (rowOf1 t p) 0) * arr1_0 V c (ix2 (rowOf1 t p) q)
      + arr1_1 V c (ix2 (rowOf1 t p) q) * (arr1_2 V c (ix2 (rowOf1 t p) 0) * arr1_2 V c (ix2 (rowOf1 t p) 0))
      + arr1_3 V c (ix2 0 q)
  have h0 : ((cfg1.win 0).blk t).view.emb (ix2 p q) = ix2 (rowOf1 t p) q := by
    funext a; apply Fin.ext
    match a with
    | ⟨0, _⟩ => show win1_0.index t (0 : Fin 2) * 2000 + 1 * p.val = t.val * 2000 + p.val; omega
    | ⟨1, _⟩ => show win1_0.index t (1 : Fin 2) * 128 + 1 * q.val = q.val; omega
  have h1 : ((cfg1.win 1).blk t).view.emb (ix2 p q) = ix2 (rowOf1 t p) q := by
    funext a; apply Fin.ext
    match a with
    | ⟨0, _⟩ => show win1_1.index t (0 : Fin 2) * 2000 + 1 * p.val = t.val * 2000 + p.val; omega
    | ⟨1, _⟩ => show win1_1.index t (1 : Fin 2) * 128 + 1 * q.val = q.val; omega
  have h2 : ((cfg1.win 2).blk t).view.emb (ix2 p 0) = ix2 (rowOf1 t p) 0 := by
    funext a; apply Fin.ext
    match a with
    | ⟨0, _⟩ => show win1_2.index t (0 : Fin 2) * 2000 + 1 * p.val = t.val * 2000 + p.val; omega
    | ⟨1, _⟩ => show win1_2.index t (1 : Fin 2) * 1 + 1 * 0 = 0; omega
  have h3 : ((cfg1.win 3).blk t).view.emb (ix2 0 q) = ix2 0 q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  rw [h0, h1, h2, h3]

/-! ## Output 4: every point stores the layer's output on its block -/

/-- After any point output 4's staging buffer holds its payload on the point's input blocks, whichever case the point is. -/
theorem out4_at1 (c : Dev nD) (t : Fin cfg1.N) :
    (outsAt1 V c t.val t.isLt).1 = k1_pay6 (iblk1 V c 2 t) (iblk1 V c 0 t) (iblk1 V c 1 t) (iblk1 V c 3 t) := by
  by_cases hz : t.val = 0
  · rw [outsAt1_first V c t hz]; unfold first1; dsimp only; rw [out1_A_4_eq]
  · by_cases h1 : t.val % 25 = 24
    · rw [outsAt1_last V c t hz h1]; unfold last1; dsimp only; rw [out1_C_4_eq]
    · rw [outsAt1_middle V c t hz h1]; unfold middle1; dsimp only; rw [out1_B_4_eq]

/-- What point `t` writes back to output 4's array is block `t` of the layer's output. -/
theorem flushed1_4_eq (c : Dev nD) (t : Fin cfg1.N) :
    (dat1 V c).flushed 4 t = ((cfg1.win 4).blk t).view.read (Elt Ideal) (hval1 V c) := by
  show (cfg1.win 4).cut (grid1.coords t) ((dat1 V c).after 4 t) = _
  rw [after1_4, out4_at1]
  obtain ⟨e00, e01, e10, e11, e20, e21, e30, e31, e40, e41, e50, e51, e60, e61⟩ := idx_facts1 t
  funext j
  obtain ⟨p, q, rfl⟩ : ∃ (p : Fin 2000) (q : Fin 128), j = ix2 p q := ⟨j 0, j 1, eq_ix2 j⟩
  show k1_pay6 (iblk1 V c 2 t) (iblk1 V c 0 t) (iblk1 V c 1 t) (iblk1 V c 3 t) (ix2 p q) = hval1 V c (((cfg1.win 4).blk t).view.emb (ix2 p q))
  have h4 : ((cfg1.win 4).blk t).view.emb (ix2 p q) = ix2 (rowOf1 t p) q := by
    funext a; apply Fin.ext
    match a with
    | ⟨0, _⟩ => show win1_4.index t (0 : Fin 2) * 2000 + 1 * p.val = t.val * 2000 + p.val; omega
    | ⟨1, _⟩ => show win1_4.index t (1 : Fin 2) * 128 + 1 * q.val = q.val; omega
  rw [h4]
  exact hblk1 V c t p q

theorem idx_onto1_4 : ∀ q : Fin 25, ∃ t : Fin cfg1.N, win1_4.index t = ![q.val, 0] :=
  (by decide +kernel : ∀ q : Fin 25, ∃ t : Fin grid1.N, win1_4.index t = ![q.val, 0])

theorem mem_blk1_4 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v38_0).slice (win1_4.rect t)).set ↔ _
  rw [View.set_slice_whole, Rect.mem_set_unit]
  exact Iff.rfl

/-- Every index of output 4's array is in some point's block: row `r` is in block `r / 2000`. -/
theorem cover1_4_arr (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto1_4 ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk1_4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- Output 4's array after the region is the layer's output. -/
theorem layer1_final (c : Dev nD) : (dat1 V c).arrAt 4 cfg1.N = hval1 V c :=
  (dat1 V c).arrAt_eq_of_cover 4 _ (fun t _ => flushed1_4_eq V c t) cover1_4_arr

/-- Output 4's array after the region, read at an entry. -/
theorem layer1_value (c : Dev nD) (n : Fin 50000) (j : Fin 128) :
    (dat1 (F := Ideal) V c).arrAt 4 cfg1.N (ix2 n j)
      = arr1_2 V c (ix2 n 0) * arr1_0 V c (ix2 n j)
        + arr1_1 V c (ix2 n j) * (arr1_2 V c (ix2 n 0) * arr1_2 V c (ix2 n 0))
        + arr1_3 V c (ix2 0 j) :=
  congrFun (layer1_final V c) (ix2 n j)

/-! ## The accumulators: cleared at the first point, each point adding its block's column sums -/

/-- Block `j`'s column sum of the layer's output in column `q`, and of its squares. -/
def bsum1 (c : Dev nD) (q : Fin 128) (j : ℕ) : EReal :=
  if h : j < 25 then ∑ p : Fin 2000, hval1 V c (ix2 (⟨j * 2000 + p.val, by omega⟩ : Fin 50000) q) else 0
def bsq1 (c : Dev nD) (q : Fin 128) (j : ℕ) : EReal :=
  if h : j < 25 then ∑ p : Fin 2000, hval1 V c (ix2 (⟨j * 2000 + p.val, by omega⟩ : Fin 50000) q) * hval1 V c (ix2 (⟨j * 2000 + p.val, by omega⟩ : Fin 50000) q) else 0

theorem bsum1_eq (c : Dev nD) (q : Fin 128) (t : Fin cfg1.N) :
    ∑ p : Fin 2000, k1_pay6 (iblk1 V c 2 t) (iblk1 V c 0 t) (iblk1 V c 1 t) (iblk1 V c 3 t) (ix2 p q) = bsum1 V c q t.val := by
  unfold bsum1; rw [dif_pos (N_val1 t)]
  exact Finset.sum_congr rfl fun p _ => hblk1 V c t p q
theorem bsq1_eq (c : Dev nD) (q : Fin 128) (t : Fin cfg1.N) :
    ∑ p : Fin 2000, k1_pay6 (iblk1 V c 2 t) (iblk1 V c 0 t) (iblk1 V c 1 t) (iblk1 V c 3 t) (ix2 p q) * k1_pay6 (iblk1 V c 2 t) (iblk1 V c 0 t) (iblk1 V c 1 t) (iblk1 V c 3 t) (ix2 p q) = bsq1 V c q t.val := by
  unfold bsq1; rw [dif_pos (N_val1 t)]
  exact Finset.sum_congr rfl fun p _ => by rw [hblk1 V c t p q]; rfl

/-- After point `n` the two accumulators hold, in column `q`, the running sums of the blocks' column sums from a cleared start. -/
theorem acc1 (c : Dev nD) (q : Fin 128) : ∀ (n : ℕ) (hn : n < cfg1.N),
    (outsAt1 V c n hn).2.2.2.1 (ix2 0 q) = LibBlockedSum.accAfter (bsum1 V c q) n
      ∧ (outsAt1 V c n hn).2.2.2.2 (ix2 0 q) = LibBlockedSum.accAfter (bsq1 V c q) n
  | 0, hn => by
    have e : outsAt1 V c 0 hn = first1 V c ⟨0, hn⟩ rfl := outsAt1_first V c ⟨0, hn⟩ rfl
    rw [e]; unfold first1; dsimp only
    rw [sout1_A_0_eq, sout1_A_1_eq]
    refine ⟨?_, ?_⟩
    · rw [pay1_7_at, pay1_4_at, bsum1_eq V c q ⟨0, hn⟩]; rfl
    · rw [pay1_1_eq, pay1_8_at, pay1_5_at, bsq1_eq V c q ⟨0, hn⟩]; rfl
  | n + 1, hn => by
    obtain ⟨ih0, ih1⟩ := acc1 c q n (Nat.lt_of_succ_lt hn)
    by_cases h1 : (n + 1) % 25 = 24
    · have e : outsAt1 V c (n + 1) hn = last1 V c ⟨n + 1, hn⟩ (Nat.succ_ne_zero n) h1
          (outsAt1 V c n (Nat.lt_of_succ_lt hn)).2.2.2.1 (outsAt1 V c n (Nat.lt_of_succ_lt hn)).2.2.2.2 :=
        outsAt1_last V c ⟨n + 1, hn⟩ (Nat.succ_ne_zero n) h1
      rw [e]; unfold last1; dsimp only
      rw [sout1_C_0_eq, sout1_C_1_eq]
      refine ⟨?_, ?_⟩
      · rw [pay1_7_at, ih0, bsum1_eq V c q ⟨n + 1, hn⟩]; rfl
      · rw [pay1_1_eq, pay1_8_at, ih1, bsq1_eq V c q ⟨n + 1, hn⟩]; rfl
    · have e : outsAt1 V c (n + 1) hn = middle1 V c ⟨n + 1, hn⟩ (Nat.succ_ne_zero n) h1
          (outsAt1 V c n (Nat.lt_of_succ_lt hn)).2.2.2.1 (outsAt1 V c n (Nat.lt_of_succ_lt hn)).2.2.2.2 :=
        outsAt1_middle V c ⟨n + 1, hn⟩ (Nat.succ_ne_zero n) h1
      rw [e]; unfold middle1; dsimp only
      rw [sout1_B_0_eq, sout1_B_1_eq]
      refine ⟨?_, ?_⟩
      · rw [pay1_7_at, ih0, bsum1_eq V c q ⟨n + 1, hn⟩]; rfl
      · rw [pay1_1_eq, pay1_8_at, ih1, bsq1_eq V c q ⟨n + 1, hn⟩]; rfl

/-- After the last point the accumulators hold the whole column sums. -/
theorem total1_0 (c : Dev nD) (q : Fin 128) (t : Fin cfg1.N) (h24 : t.val = 24) :
    (outsAt1 V c t.val t.isLt).2.2.2.1 (ix2 0 q) = ∑ n : Fin 50000, hval1 V c (ix2 n q) := by
  rw [(acc1 V c q t.val t.isLt).1, h24]
  have hs : ∀ j : Fin (24 + 1), bsum1 V c q j.val
      = ∑ k : Fin 2000, (fun i : Fin ((24 + 1) * 2000) => hval1 V c (ix2 (i.cast (by norm_num : (24 + 1) * 2000 = 50000)) q)) (LibBlockedSum.blockIdx (24 + 1) 2000 j k) := fun j => by
    unfold bsum1; rw [dif_pos j.isLt]; exact Finset.sum_congr rfl fun k _ => rfl
  exact (LibBlockedSum.accAfter_blocks 24 2000 _ _ hs).trans
    (LibBlockedSum.sum_cast (by norm_num : (24 + 1) * 2000 = 50000) (fun i => hval1 V c (ix2 i q)))
theorem total1_1 (c : Dev nD) (q : Fin 128) (t : Fin cfg1.N) (h24 : t.val = 24) :
    (outsAt1 V c t.val t.isLt).2.2.2.2 (ix2 0 q) = ∑ n : Fin 50000, hval1 V c (ix2 n q) * hval1 V c (ix2 n q) := by
  rw [(acc1 V c q t.val t.isLt).2, h24]
  have hs : ∀ j : Fin (24 + 1), bsq1 V c q j.val
      = ∑ k : Fin 2000, (fun i : Fin ((24 + 1) * 2000) => hval1 V c (ix2 (i.cast (by norm_num : (24 + 1) * 2000 = 50000)) q) * hval1 V c (ix2 (i.cast (by norm_num : (24 + 1) * 2000 = 50000)) q)) (LibBlockedSum.blockIdx (24 + 1) 2000 j k) := fun j => by
    unfold bsq1; rw [dif_pos j.isLt]; exact Finset.sum_congr rfl fun k _ => rfl
  exact (LibBlockedSum.accAfter_blocks 24 2000 _ _ hs).trans
    (LibBlockedSum.sum_cast (by norm_num : (24 + 1) * 2000 = 50000) (fun i => hval1 V c (ix2 i q) * hval1 V c (ix2 i q)))

/-! ## Outputs 5 and 6: stored and written back at the last point, whole -/

/-- At the last point outputs 5 and 6 hold their payloads on the accumulators as that point leaves them. -/
theorem out56_last1 (c : Dev nD) (t : Fin cfg1.N) (hz : t.val ≠ 0) (h1 : t.val % 25 = 24) :
    (outsAt1 V c t.val t.isLt).2.1 = k1_pay2 (outsAt1 V c t.val t.isLt).2.2.2.1
      ∧ (outsAt1 V c t.val t.isLt).2.2.1 = k1_pay3 (outsAt1 V c t.val t.isLt).2.2.2.1 (outsAt1 V c t.val t.isLt).2.2.2.2 := by
  rw [outsAt1_last V c t hz h1]; unfold last1; dsimp only
  rw [out1_C_5_eq, out1_C_6_eq, sout1_C_0_eq, sout1_C_1_eq]
  exact ⟨rfl, rfl⟩

theorem last_of_flush1_5 (t : Fin cfg1.N) (hf : (cfg1.win 5).flush t = true) : t.val = 24 := by
  have h := (flush1_5 t).mp hf; have := N_val1 t; omega
theorem last_of_flush1_6 (t : Fin cfg1.N) (hf : (cfg1.win 6).flush t = true) : t.val = 24 := by
  have h := (flush1_6 t).mp hf; have := N_val1 t; omega

/-- What the last point writes back to output 5's array is the column means. -/
theorem flushed1_5_eq (c : Dev nD) (t : Fin cfg1.N) (hf : (cfg1.win 5).flush t = true) :
    (dat1 V c).flushed 5 t = ((cfg1.win 5).blk t).view.read (Elt Ideal) (meanv1 V c) := by
  have h24 := last_of_flush1_5 t hf
  show (cfg1.win 5).cut (grid1.coords t) ((dat1 V c).after 5 t) = _
  rw [after1_5, (out56_last1 V c t (by omega) (by omega)).1]
  obtain ⟨e00, e01, e10, e11, e20, e21, e30, e31, e40, e41, e50, e51, e60, e61⟩ := idx_facts1 t
  funext j
  obtain ⟨p, q, rfl⟩ : ∃ (p : Fin 1) (q : Fin 128), j = ix2 p q := ⟨j 0, j 1, eq_ix2 j⟩
  obtain rfl : p = 0 := Subsingleton.elim _ _
  show k1_pay2 (outsAt1 V c t.val t.isLt).2.2.2.1 (ix2 0 q) = meanv1 V c (((cfg1.win 5).blk t).view.emb (ix2 0 q))
  have h5 : ((cfg1.win 5).blk t).view.emb (ix2 0 q) = ix2 0 q := by
    funext a; apply Fin.ext
    match a with
    | ⟨0, _⟩ => show win1_5.index t (0 : Fin 2) * 1 + 1 * 0 = 0; omega
    | ⟨1, _⟩ => show win1_5.index t (1 : Fin 2) * 128 + 1 * q.val = q.val; omega
  rw [h5, pay1_2_at, total1_0 V c q t h24]
  rfl

/-- What the last point writes back to output 6's array is the column variances. -/
theorem flushed1_6_eq (c : Dev nD) (t : Fin cfg1.N) (hf : (cfg1.win 6).flush t = true) :
    (dat1 V c).flushed 6 t = ((cfg1.win 6).blk t).view.read (Elt Ideal) (varv1 V c) := by
  have h24 := last_of_flush1_6 t hf
  show (cfg1.win 6).cut (grid1.coords t) ((dat1 V c).after 6 t) = _
  rw [after1_6, (out56_last1 V c t (by omega) (by omega)).2]
  obtain ⟨e00, e01, e10, e11, e20, e21, e30, e31, e40, e41, e50, e51, e60, e61⟩ := idx_facts1 t
  funext j
  obtain ⟨p, q, rfl⟩ : ∃ (p : Fin 1) (q : Fin 128), j = ix2 p q := ⟨j 0, j 1, eq_ix2 j⟩
  obtain rfl : p = 0 := Subsingleton.elim _ _
  show k1_pay3 (outsAt1 V c t.val t.isLt).2.2.2.1 (outsAt1 V c t.val t.isLt).2.2.2.2 (ix2 0 q) = varv1 V c (((cfg1.win 6).blk t).view.emb (ix2 0 q))
  have h6 : ((cfg1.win 6).blk t).view.emb (ix2 0 q) = ix2 0 q := by
    funext a; apply Fin.ext
    match a with
    | ⟨0, _⟩ => show win1_6.index t (0 : Fin 2) * 1 + 1 * 0 = 0; omega
    | ⟨1, _⟩ => show win1_6.index t (1 : Fin 2) * 128 + 1 * q.val = q.val; omega
  rw [h6, pay1_3_at, pay1_2_at, total1_0 V c q t h24, total1_1 V c q t h24]
  rfl

theorem mem_blk1_5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole main_v38_1).slice (win1_5.rect t)).set ↔ _
  rw [View.set_slice_whole, Rect.mem_set_unit]
  exact Iff.rfl
theorem mem_blk1_6 (t : Fin cfg1.N) (i : S1x128.Idx) :
    i ∈ ((cfg1.win 6).blk t).view.set ↔ ∀ a : Fin 2, win1_6.index t a * S1x128.size a ≤ (i a).val ∧ (i a).val < win1_6.index t a * S1x128.size a + S1x128.size a := by
  show i ∈ ((View.whole main_v38_2).slice (win1_6.rect t)).set ↔ _
  rw [View.set_slice_whole, Rect.mem_set_unit]
  exact Iff.rfl

/-- The last point. -/
def lastPt1 : Fin cfg1.N := ⟨24, by rw [show cfg1.N = 25 from N_1]; omega⟩

/-- The one block of outputs 5 and 6, written back at the last point, is their whole array. -/
theorem cover1_5_arr (i : S1x128.Idx) : ∃ t : Fin cfg1.N, (cfg1.win 5).flush t = true ∧ i ∈ ((cfg1.win 5).blk t).view.set := by
  have hi0 : (i 0).val < 1 := (i 0).isLt
  have hi1 : (i 1).val < 128 := (i 1).isLt
  obtain ⟨e00, e01, e10, e11, e20, e21, e30, e31, e40, e41, e50, e51, e60, e61⟩ := idx_facts1 lastPt1
  refine ⟨lastPt1, (flush1_5 lastPt1).mpr rfl, ?_⟩
  rw [mem_blk1_5]
  intro a
  match a with
  | ⟨0, _⟩ => show win1_5.index lastPt1 (0 : Fin 2) * 1 ≤ (i 0).val ∧ (i 0).val < win1_5.index lastPt1 (0 : Fin 2) * 1 + 1; omega
  | ⟨1, _⟩ => show win1_5.index lastPt1 (1 : Fin 2) * 128 ≤ (i 1).val ∧ (i 1).val < win1_5.index lastPt1 (1 : Fin 2) * 128 + 128; omega
theorem cover1_6_arr (i : S1x128.Idx) : ∃ t : Fin cfg1.N, (cfg1.win 6).flush t = true ∧ i ∈ ((cfg1.win 6).blk t).view.set := by
  have hi0 : (i 0).val < 1 := (i 0).isLt
  have hi1 : (i 1).val < 128 := (i 1).isLt
  obtain ⟨e00, e01, e10, e11, e20, e21, e30, e31, e40, e41, e50, e51, e60, e61⟩ := idx_facts1 lastPt1
  refine ⟨lastPt1, (flush1_6 lastPt1).mpr rfl, ?_⟩
  rw [mem_blk1_6]
  intro a
  match a with
  | ⟨0, _⟩ => show win1_6.index lastPt1 (0 : Fin 2) * 1 ≤ (i 0).val ∧ (i 0).val < win1_6.index lastPt1 (0 : Fin 2) * 1 + 1; omega
  | ⟨1, _⟩ => show win1_6.index lastPt1 (1 : Fin 2) * 128 ≤ (i 1).val ∧ (i 1).val < win1_6.index lastPt1 (1 : Fin 2) * 128 + 128; omega

/-- Outputs 5 and 6's arrays after the region: the column means and variances of the layer's output. -/
theorem final1_5 (c : Dev nD) : (dat1 V c).arrAt 5 cfg1.N = meanv1 V c :=
  (dat1 V c).arrAt_eq_of_cover 5 _ (fun t hf => flushed1_5_eq V c t hf) cover1_5_arr
theorem final1_6 (c : Dev nD) : (dat1 V c).arrAt 6 cfg1.N = varv1 V c :=
  (dat1 V c).arrAt_eq_of_cover 6 _ (fun t hf => flushed1_6_eq V c t hf) cover1_6_arr

/-- Output 5's array after the region, read at an entry: the column's mean. -/
theorem value1_5 (c : Dev nD) (j : Fin 128) :
    (dat1 (F := Ideal) V c).arrAt 5 cfg1.N (ix2 0 j) = (∑ n : Fin 50000, hval1 V c (ix2 n j)) * ((1 / 50000 : ℝ) : EReal) :=
  congrFun (final1_5 V c) (ix2 0 j)

/-- Output 6's array after the region, read at an entry: the column's clamped one-pass variance. -/
theorem value1_6 (c : Dev nD) (j : Fin 128) :
    (dat1 (F := Ideal) V c).arrAt 6 cfg1.N (ix2 0 j)
      = max ((∑ n : Fin 50000, hval1 V c (ix2 n j) * hval1 V c (ix2 n j)) * ((1 / 50000 : ℝ) : EReal)
          - (∑ n : Fin 50000, hval1 V c (ix2 n j)) * ((1 / 50000 : ℝ) : EReal) * ((∑ n : Fin 50000, hval1 V c (ix2 n j)) * ((1 / 50000 : ℝ) : EReal))) 0 :=
  congrFun (final1_6 V c) (ix2 0 j)

end Cert.KernelIdeal.HandValue

end
-- ==== Proof.KIValue2.lean ====
/- What the two output arrays of region 2 hold after the region, at the exact instance (every float an extended real),
   as one function of the region's input arrays, entry by entry: output 7 at (n, j) is the sum over the 128 columns k of the
   normalized, scaled, shifted, leaky-rectified entry (n, k) of the first input times the weight's entry (k, j); output 8
   is that, times the row's entry of the last input. The body's payloads are read at an entry; each input block's entry is
   the array's entry 2000·t rows further down (the one-block inputs: the same entry); the write-back of point t is block t
   of the whole-array function; the 25 blocks cover the array (row r is in block r / 2000). -/
import proofs.«181351_j65970697667357_2_alg».proof.Proof.KIRegion2
import proofs.«181351_j65970697667357_2_alg».proof.Proof.KIValueCommon
import proofs.«181351_j65970697667357_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The region's input arrays as it finds them, named at their literal types -/

abbrev arr2_0 (c : Dev nD) : S50000x128.Idx → EReal := V c (Pipeline.arrRef spec2 0)
abbrev arr2_1 (c : Dev nD) : S1x128.Idx → EReal := V c (Pipeline.arrRef spec2 1)
abbrev arr2_2 (c : Dev nD) : S1x128.Idx → EReal := V c (Pipeline.arrRef spec2 2)
abbrev arr2_3 (c : Dev nD) : S1x128.Idx → EReal := V c (Pipeline.arrRef spec2 3)
abbrev arr2_4 (c : Dev nD) : S1x128.Idx → EReal := V c (Pipeline.arrRef spec2 4)
abbrev arr2_5 (c : Dev nD) : S128x128.Idx → EReal := V c (Pipeline.arrRef spec2 5)
abbrev arr2_6 (c : Dev nD) : S50000x1.Idx → EReal := V c (Pipeline.arrRef spec2 6)

/-! ## The outputs as plain functions of arrays -/

/-- Output 7 as one function of the input arrays: at (n, j), the activated row n of the first input against column j of the
    weight. -/
def outFn2_7 (a0 : S50000x128.Idx → EReal) (a1 a2 a3 a4 : S1x128.Idx → EReal) (a5 : S128x128.Idx → EReal) : S50000x128.Idx → EReal :=
  fun i => ∑ k : Fin 128, bnAct (a0 (ix2 (i 0) k)) (a1 (ix2 0 k)) (a2 (ix2 0 k)) (a3 (ix2 0 k)) (a4 (ix2 0 k)) * a5 (ix2 k (i 1))

/-- Output 8: output 7, each row times that row's entry of the last input. -/
def outFn2_8 (a0 : S50000x128.Idx → EReal) (a1 a2 a3 a4 : S1x128.Idx → EReal) (a5 : S128x128.Idx → EReal) (a6 : S50000x1.Idx → EReal) : S50000x128.Idx → EReal :=
  fun i => outFn2_7 a0 a1 a2 a3 a4 a5 i * a6 (ix2 (i 0) 0)

namespace Region2

/-! ## The body's payloads at an entry -/

set_option maxHeartbeats 400000 in
/-- The first payload at an entry: the activated row of the first input against the weight's column. -/
theorem pay1_at (x0 : Vec Ideal S2000x128 .f32) (xv xm xg xb : Vec Ideal S1x128 .f32) (w : Vec Ideal S128x128 .bf16)
    (p : Fin 2000) (q : Fin 128) :
    k2_pay1 x0 xv xm xg xb w (ix2 p q)
      = ∑ k : Fin 128, bnAct (x0 (ix2 p k)) (xm (ix2 0 k)) (xv (ix2 0 k)) (xg (ix2 0 k)) (xb (ix2 0 k)) * (w (ix2 k q) : EReal) := by
  unfold k2_pay1
  simp only [shapeCast_self]
  refine (LibPlainDot.matmul_zero_at (φ₁ := .bf16) (φ₂ := .bf16) 2000 128 128 none _ _ p q).trans ?_
  refine Finset.sum_congr rfl fun k _ => ?_
  simp only [truncf_apply, select_apply, cmpf_apply, mulf_apply, addf_apply, subf_apply, broadcast_apply, rsqrt_at, row_down]
  rfl

/-- The second payload at an entry: the first, times the row's entry of the last input. -/
theorem pay2_at (x0 : Vec Ideal S2000x128 .f32) (xv xm xg xb : Vec Ideal S1x128 .f32) (w : Vec Ideal S128x128 .bf16)
    (x6 : Vec Ideal S2000x1 .f32) (p : Fin 2000) (q : Fin 128) :
    k2_pay2 x0 xv xm xg xb w x6 (ix2 p q) = k2_pay1 x0 xv xm xg xb w (ix2 p q) * x6 (ix2 p 0) := by
  unfold k2_pay2
  simp only [shapeCast_self]
  rw [mulf_apply, col_along]

/-! ## The blocks, as entries of the arrays -/

/-- The windows' block indices, decided over the 25 points: the row-blocked windows (0, 6, 7, 8) are on block row t, the
    others on their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- Window 0's block at point t is rows 2000·t … 2000·t + 1999 of its array. -/
theorem iblk_0_at (c : Dev nD) (t : Fin cfg2.N) (p : Fin 2000) (k : Fin 128) (n : Fin 50000) (hn : n.val = 2000 * t.val + p.val) :
    (iblk2 V c 0 t : Vec Ideal S2000x128 .f32) (ix2 p k) = (arr2_0 V c) (ix2 n k) := by
  obtain ⟨e00, e01, e10, e11, e20, e21, e30, e31, e40, e41, e50, e51, e60, e61, e70, e71, e80, e81⟩ := idx_facts t
  show (arr2_0 V c) (((cfg2.win 0).blk t).view.emb (ix2 p k)) = _
  refine congrArg (arr2_0 V c) ?_
  funext d; apply Fin.ext
  match d with
  | ⟨0, _⟩ => show win2_0.index t (0 : Fin 2) * 2000 + 1 * p.val = n.val; rw [e00, hn]; omega
  | ⟨1, _⟩ => show win2_0.index t (1 : Fin 2) * 128 + 1 * k.val = k.val; rw [e01]; omega

/-- Window 6's block at point t is rows 2000·t … 2000·t + 1999 of its array. -/
theorem iblk_6_at (c : Dev nD) (t : Fin cfg2.N) (p : Fin 2000) (k : Fin 1) (n : Fin 50000) (hn : n.val = 2000 * t.val + p.val) :
    (iblk2 V c 6 t : Vec Ideal S2000x1 .f32) (ix2 p k) = (arr2_6 V c) (ix2 n k) := by
  obtain ⟨e00, e01, e10, e11, e20, e21, e30, e31, e40, e41, e50, e51, e60, e61, e70, e71, e80, e81⟩ := idx_facts t
  show (arr2_6 V c) (((cfg2.win 6).blk t).view.emb (ix2 p k)) = _
  refine congrArg (arr2_6 V c) ?_
  funext d; apply Fin.ext
  match d with
  | ⟨0, _⟩ => show win2_6.index t (0 : Fin 2) * 2000 + 1 * p.val = n.val; rw [e60, hn]; omega
  | ⟨1, _⟩ => show win2_6.index t (1 : Fin 2) * 1 + 1 * k.val = k.val; rw [e61]; omega

/-- Window 1's block is its whole one-block array at every point. -/
theorem iblk_1_at (c : Dev nD) (t : Fin cfg2.N) (a : Fin 1) (b : Fin 128) :
    (iblk2 V c 1 t : Vec Ideal S1x128 .f32) (ix2 a b) = (arr2_1 V c) (ix2 a b) := by
  obtain ⟨e00, e01, e10, e11, e20, e21, e30, e31, e40, e41, e50, e51, e60, e61, e70, e71, e80, e81⟩ := idx_facts t
  show (arr2_1 V c) (((cfg2.win 1).blk t).view.emb (ix2 a b)) = _
  refine congrArg (arr2_1 V c) ?_
  funext d; apply Fin.ext
  match d with
  | ⟨0, _⟩ => show win2_1.index t (0 : Fin 2) * 1 + 1 * a.val = a.val; rw [e10]; omega
  | ⟨1, _⟩ => show win2_1.index t (1 : Fin 2) * 128 + 1 * b.val = b.val; rw [e11]; omega

/-- Window 2's block is its whole one-block array at every point. -/
theorem iblk_2_at (c : Dev nD) (t : Fin cfg2.N) (a : Fin 1) (b : Fin 128) :
    (iblk2 V c 2 t : Vec Ideal S1x128 .f32) (ix2 a b) = (arr2_2 V c) (ix2 a b) := by
  obtain ⟨e00, e01, e10, e11, e20, e21, e30, e31, e40, e41, e50, e51, e60, e61, e70, e71, e80, e81⟩ := idx_facts t
  show (arr2_2 V c) (((cfg2.win 2).blk t).view.emb (ix2 a b)) = _
  refine congrArg (arr2_2 V c) ?_
  funext d; apply Fin.ext
  match d with
  | ⟨0, _⟩ => show win2_2.index t (0 : Fin 2) * 1 + 1 * a.val = a.val; rw [e20]; omega
  | ⟨1, _⟩ => show win2_2.index t (1 : Fin 2) * 128 + 1 * b.val = b.val; rw [e21]; omega

/-- Window 3's block is its whole one-block array at every point. -/
theorem iblk_3_at (c : Dev nD) (t : Fin cfg2.N) (a : Fin 1) (b : Fin 128) :
    (iblk2 V c 3 t : Vec Ideal S1x128 .f32) (ix2 a b) = (arr2_3 V c) (ix2 a b) := by
  obtain ⟨e00, e01, e10, e11, e20, e21, e30, e31, e40, e41, e50, e51, e60, e61, e70, e71, e80, e81⟩ := idx_facts t
  show (arr2_3 V c) (((cfg2.win 3).blk t).view.emb (ix2 a b)) = _
  refine congrArg (arr2_3 V c) ?_
  funext d; apply Fin.ext
  match d with
  | ⟨0, _⟩ => show win2_3.index t (0 : Fin 2) * 1 + 1 * a.val = a.val; rw [e30]; omega
  | ⟨1, _⟩ => show win2_3.index t (1 : Fin 2) * 128 + 1 * b.val = b.val; rw [e31]; omega

/-- Window 4's block is its whole one-block array at every point. -/
theorem iblk_4_at (c : Dev nD) (t : Fin cfg2.N) (a : Fin 1) (b : Fin 128) :
    (iblk2 V c 4 t : Vec Ideal S1x128 .f32) (ix2 a b) = (arr2_4 V c) (ix2 a b) := by
  obtain ⟨e00, e01, e10, e11, e20, e21, e30, e31, e40, e41, e50, e51, e60, e61, e70, e71, e80, e81⟩ := idx_facts t
  show (arr2_4 V c) (((cfg2.win 4).blk t).view.emb (ix2 a b)) = _
  refine congrArg (arr2_4 V c) ?_
  funext d; apply Fin.ext
  match d with
  | ⟨0, _⟩ => show win2_4.index t (0 : Fin 2) * 1 + 1 * a.val = a.val; rw [e40]; omega
  | ⟨1, _⟩ => show win2_4.index t (1 : Fin 2) * 128 + 1 * b.val = b.val; rw [e41]; omega

/-- Window 5's block is its whole one-block array at every point. -/
theorem iblk_5_at (c : Dev nD) (t : Fin cfg2.N) (a : Fin 128) (b : Fin 128) :
    (iblk2 V c 5 t : Vec Ideal S128x128 .bf16) (ix2 a b) = (arr2_5 V c) (ix2 a b) := by
  obtain ⟨e00, e01, e10, e11, e20, e21, e30, e31, e40, e41, e50, e51, e60, e61, e70, e71, e80, e81⟩ := idx_facts t
  show (arr2_5 V c) (((cfg2.win 5).blk t).view.emb (ix2 a b)) = _
  refine congrArg (arr2_5 V c) ?_
  funext d; apply Fin.ext
  match d with
  | ⟨0, _⟩ => show win2_5.index t (0 : Fin 2) * 128 + 1 * a.val = a.val; rw [e50]; omega
  | ⟨1, _⟩ => show win2_5.index t (1 : Fin 2) * 128 + 1 * b.val = b.val; rw [e51]; omega

/-! ## What each point writes back -/

/-- An output window's blocks are never cut: the part a write-back moves is the whole block. -/
theorem cut_7 (t : Fin cfg2.N) (X : Vec Ideal S2000x128 .f32) : (cfg2.win 7).cut (grid2.coords t) X = X := rfl
theorem cut_8 (t : Fin cfg2.N) (X : Vec Ideal S2000x128 .f32) : (cfg2.win 8).cut (grid2.coords t) X = X := rfl

/-- A whole array read through point t's block, at an entry of the block: the array's entry under it. -/
theorem read_7 (t : Fin cfg2.N) (G : S50000x128.Idx → EReal) (y : S2000x128.Idx) :
    ((cfg2.win 7).blk t).view.read (Elt Ideal) G y = G (((cfg2.win 7).blk t).view.emb y) := rfl
theorem read_8 (t : Fin cfg2.N) (G : S50000x128.Idx → EReal) (y : S2000x128.Idx) :
    ((cfg2.win 8).blk t).view.read (Elt Ideal) G y = G (((cfg2.win 8).blk t).view.emb y) := rfl

set_option maxHeartbeats 400000 in
/-- What point t writes back to output 7's array is block t of the whole-array function of the input arrays. -/
theorem flushed_7_eq (c : Dev nD) (t : Fin cfg2.N) :
    (dat2 V c).flushed 7 t = ((cfg2.win 7).blk t).view.read (Elt Ideal) (outFn2_7 (arr2_0 V c) (arr2_1 V c) (arr2_2 V c) (arr2_3 V c) (arr2_4 V c) (arr2_5 V c)) := by
  show (cfg2.win 7).cut (grid2.coords t) ((dat2 V c).after 7 t) = _
  rw [after2_7]
  unfold out2_7
  rw [View.canon_unit_zero hz]
  simp only [View.ld_unit_zero (S := S2000x128) hz, View.ld_unit_zero (S := S1x128) hz, View.ld_unit_zero (S := S128x128) hz, View.ld_unit_zero (S := S2000x1) hz]
  rw [cut_7]
  funext y
  obtain ⟨p, q, rfl⟩ : ∃ (p : Fin 2000) (q : Fin 128), y = ix2 p q := ⟨y 0, y 1, eq_ix2 y⟩
  obtain ⟨e00, e01, e10, e11, e20, e21, e30, e31, e40, e41, e50, e51, e60, e61, e70, e71, e80, e81⟩ := idx_facts t
  have ht : t.val < 25 := by have h := t.isLt; have hN : cfg2.N = 25 := N_2; omega
  have hrow : 2000 * t.val + p.val < 50000 := by have := p.isLt; omega
  have hemb : ((cfg2.win 7).blk t).view.emb (ix2 p q) = (ix2 (⟨2000 * t.val + p.val, hrow⟩ : Fin 50000) q : S50000x128.Idx) := by
    funext d; apply Fin.ext
    match d with
    | ⟨0, _⟩ => show win2_7.index t (0 : Fin 2) * 2000 + 1 * p.val = 2000 * t.val + p.val; rw [e70]; omega
    | ⟨1, _⟩ => show win2_7.index t (1 : Fin 2) * 128 + 1 * q.val = q.val; rw [e71]; omega
  refine Eq.trans ?_ (read_7 t _ (ix2 p q)).symm
  rw [hemb]
  refine (pay1_at _ _ _ _ _ _ p q).trans ?_
  show _ = ∑ k : Fin 128, bnAct ((arr2_0 V c) (ix2 (⟨2000 * t.val + p.val, hrow⟩ : Fin 50000) k)) ((arr2_1 V c) (ix2 0 k)) ((arr2_2 V c) (ix2 0 k)) ((arr2_3 V c) (ix2 0 k)) ((arr2_4 V c) (ix2 0 k)) * (arr2_5 V c) (ix2 k q)
  refine Finset.sum_congr rfl fun k _ => ?_
  rw [iblk_0_at V c t p k ⟨2000 * t.val + p.val, hrow⟩ rfl, iblk_1_at, iblk_2_at, iblk_3_at, iblk_4_at, iblk_5_at]

set_option maxHeartbeats 400000 in
/-- What point t writes back to output 8's array is block t of the whole-array function of the input arrays. -/
theorem flushed_8_eq (c : Dev nD) (t : Fin cfg2.N) :
    (dat2 V c).flushed 8 t = ((cfg2.win 8).blk t).view.read (Elt Ideal) (outFn2_8 (arr2_0 V c) (arr2_1 V c) (arr2_2 V c) (arr2_3 V c) (arr2_4 V c) (arr2_5 V c) (arr2_6 V c)) := by
  show (cfg2.win 8).cut (grid2.coords t) ((dat2 V c).after 8 t) = _
  rw [after2_8]
  unfold out2_8
  rw [View.canon_unit_zero hz]
  simp only [View.ld_unit_zero (S := S2000x128) hz, View.ld_unit_zero (S := S1x128) hz, View.ld_unit_zero (S := S128x128) hz, View.ld_unit_zero (S := S2000x1) hz]
  rw [cut_8]
  funext y
  obtain ⟨p, q, rfl⟩ : ∃ (p : Fin 2000) (q : Fin 128), y = ix2 p q := ⟨y 0, y 1, eq_ix2 y⟩
  obtain ⟨e00, e01, e10, e11, e20, e21, e30, e31, e40, e41, e50, e51, e60, e61, e70, e71, e80, e81⟩ := idx_facts t
  have ht : t.val < 25 := by have h := t.isLt; have hN : cfg2.N = 25 := N_2; omega
  have hrow : 2000 * t.val + p.val < 50000 := by have := p.isLt; omega
  have hemb : ((cfg2.win 8).blk t).view.emb (ix2 p q) = (ix2 (⟨2000 * t.val + p.val, hrow⟩ : Fin 50000) q : S50000x128.Idx) := by
    funext d; apply Fin.ext
    match d with
    | ⟨0, _⟩ => show win2_8.index t (0 : Fin 2) * 2000 + 1 * p.val = 2000 * t.val + p.val; rw [e80]; omega
    | ⟨1, _⟩ => show win2_8.index t (1 : Fin 2) * 128 + 1 * q.val = q.val; rw [e81]; omega
  refine Eq.trans ?_ (read_8 t _ (ix2 p q)).symm
  rw [hemb]
  refine (pay2_at _ _ _ _ _ _ _ p q).trans ?_
  refine (congrArg (· * _) (pay1_at _ _ _ _ _ _ p q)).trans ?_
  show _ = (∑ k : Fin 128, bnAct ((arr2_0 V c) (ix2 (⟨2000 * t.val + p.val, hrow⟩ : Fin 50000) k)) ((arr2_1 V c) (ix2 0 k)) ((arr2_2 V c) (ix2 0 k)) ((arr2_3 V c) (ix2 0 k)) ((arr2_4 V c) (ix2 0 k)) * (arr2_5 V c) (ix2 k q)) * (arr2_6 V c) (ix2 (⟨2000 * t.val + p.val, hrow⟩ : Fin 50000) 0)
  rw [iblk_6_at V c t p _ ⟨2000 * t.val + p.val, hrow⟩ rfl]
  refine congrArg (· * _) ?_
  refine Finset.sum_congr rfl fun k _ => ?_
  rw [iblk_0_at V c t p k ⟨2000 * t.val + p.val, hrow⟩ rfl, iblk_1_at, iblk_2_at, iblk_3_at, iblk_4_at, iblk_5_at]

/-! ## The blocks cover the arrays -/

/-- Every entry of output 7's array is in the block of the point its row falls in: row r in block r / 2000. -/
theorem cover_7 (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 25 := N_2
  have hlt : (i 0).val / 2000 < cfg2.N := by rw [hN]; omega
  obtain ⟨e00, e01, e10, e11, e20, e21, e30, e31, e40, e41, e50, e51, e60, e61, e70, e71, e80, e81⟩ := idx_facts (⟨(i 0).val / 2000, hlt⟩ : Fin cfg2.N)
  refine ⟨⟨(i 0).val / 2000, hlt⟩, flush2_7 _, ?_⟩
  show i ∈ ((View.whole main_v39_0).slice (win2_7.rect ⟨(i 0).val / 2000, hlt⟩)).set
  rw [View.set_slice_whole, Rect.mem_set_unit]
  intro a
  match a with
  | ⟨0, _⟩ =>
    show win2_7.index ⟨(i 0).val / 2000, hlt⟩ (0 : Fin 2) * 2000 ≤ (i 0).val ∧ (i 0).val < win2_7.index ⟨(i 0).val / 2000, hlt⟩ (0 : Fin 2) * 2000 + 2000
    rw [e70]; show (i 0).val / 2000 * 2000 ≤ (i 0).val ∧ (i 0).val < (i 0).val / 2000 * 2000 + 2000; omega
  | ⟨1, _⟩ =>
    show win2_7.index ⟨(i 0).val / 2000, hlt⟩ (1 : Fin 2) * 128 ≤ (i 1).val ∧ (i 1).val < win2_7.index ⟨(i 0).val / 2000, hlt⟩ (1 : Fin 2) * 128 + 128
    rw [e71]; omega

/-- Every entry of output 8's array is in the block of the point its row falls in: row r in block r / 2000. -/
theorem cover_8 (i : S50000x128.Idx) : ∃ t : Fin cfg2.N, (cfg2.win 8).flush t = true ∧ i ∈ ((cfg2.win 8).blk t).view.set := by
  have hi0 : (i 0).val < 50000 := (i 0).isLt
  have hi1 : (i 1).val < 128 := (i 1).isLt
  have hN : cfg2.N = 25 := N_2
  have hlt : (i 0).val / 2000 < cfg2.N := by rw [hN]; omega
  obtain ⟨e00, e01, e10, e11, e20, e21, e30, e31, e40, e41, e50, e51, e60, e61, e70, e71, e80, e81⟩ := idx_facts (⟨(i 0).val / 2000, hlt⟩ : Fin cfg2.N)
  refine ⟨⟨(i 0).val / 2000, hlt⟩, flush2_8 _, ?_⟩
  show i ∈ ((View.whole main_v39_1).slice (win2_8.rect ⟨(i 0).val / 2000, hlt⟩)).set
  rw [View.set_slice_whole, Rect.mem_set_unit]
  intro a
  match a with
  | ⟨0, _⟩ =>
    show win2_8.index ⟨(i 0).val / 2000, hlt⟩ (0 : Fin 2) * 2000 ≤ (i 0).val ∧ (i 0).val < win2_8.index ⟨(i 0).val / 2000, hlt⟩ (0 : Fin 2) * 2000 + 2000
    rw [e80]; show (i 0).val / 2000 * 2000 ≤ (i 0).val ∧ (i 0).val < (i 0).val / 2000 * 2000 + 2000; omega
  | ⟨1, _⟩ =>
    show win2_8.index ⟨(i 0).val / 2000, hlt⟩ (1 : Fin 2) * 128 ≤ (i 1).val ∧ (i 1).val < win2_8.index ⟨(i 0).val / 2000, hlt⟩ (1 : Fin 2) * 128 + 128
    rw [e81]; omega

end Region2

/-! ## The arrays after the region -/

/-- Output 7's array after the last point is that function of the input arrays. -/
theorem final2_7 (c : Dev nD) : (dat2 (F := Ideal) V c).arrAt 7 cfg2.N = outFn2_7 (arr2_0 V c) (arr2_1 V c) (arr2_2 V c) (arr2_3 V c) (arr2_4 V c) (arr2_5 V c) :=
  (dat2 V c).arrAt_eq_of_cover 7 _ (fun t _ => Region2.flushed_7_eq V c t) Region2.cover_7

/-- Output 8's array after the last point likewise. -/
theorem final2_8 (c : Dev nD) : (dat2 (F := Ideal) V c).arrAt 8 cfg2.N = outFn2_8 (arr2_0 V c) (arr2_1 V c) (arr2_2 V c) (arr2_3 V c) (arr2_4 V c) (arr2_5 V c) (arr2_6 V c) :=
  (dat2 V c).arrAt_eq_of_cover 8 _ (fun t _ => Region2.flushed_8_eq V c t) Region2.cover_8

/-- Output 7 after the region, at entry (n, j): the activated row n of the first input against column j of the weight. -/
theorem value2_7 (c : Dev nD) (n : Fin 50000) (j : Fin 128) :
    (dat2 (F := Ideal) V c).arrAt 7 cfg2.N (ix2 n j)
      = ∑ k : Fin 128, Cert.GcnSpec.leaky (((arr2_0 V c) (ix2 n k) - (arr2_1 V c) (ix2 0 k)) * Ideal.rsqrt ((arr2_2 V c) (ix2 0 k) + Ideal.ofBits .f32 0x3727C5AC#32) * (arr2_3 V c) (ix2 0 k) + (arr2_4 V c) (ix2 0 k)) * (arr2_5 V c) (ix2 k j) :=
  congrFun (final2_7 V c) (ix2 n j)

/-- Output 8 after the region, at entry (n, j): output 7's entry times row n's entry of the last input. -/
theorem value2_8 (c : Dev nD) (n : Fin 50000) (j : Fin 128) :
    (dat2 (F := Ideal) V c).arrAt 8 cfg2.N (ix2 n j)
      = (∑ k : Fin 128, Cert.GcnSpec.leaky (((arr2_0 V c) (ix2 n k) - (arr2_1 V c) (ix2 0 k)) * Ideal.rsqrt ((arr2_2 V c) (ix2 0 k) + Ideal.ofBits .f32 0x3727C5AC#32) * (arr2_3 V c) (ix2 0 k) + (arr2_4 V c) (ix2 0 k)) * (arr2_5 V c) (ix2 k j)) * (arr2_6 V c) (ix2 n 0) :=
  congrFun (final2_8 V c) (ix2 n j)

end Cert.KernelIdeal.HandValue
-- ==== Proof.KIValue3.lean ====
/- What region 3 leaves in its three output arrays, at the exact (extended-real) instance, as functions of the region's
   four input arrays: output 4 is the layer's output, node by node; outputs 5 and 6 are its column means and clamped
   one-pass column variances over the 50000 nodes. Each grid point stores the layer's output on its block of 2000 rows
   and adds the block's column sums (of the values and of their squares) to two accumulators cleared at the first
   point; the last point stores the statistics from the accumulators, which by then hold the whole column sums. -/
import proofs.«181351_j65970697667357_2_alg».proof.Proof.KIRegion3
import proofs.«181351_j65970697667357_2_alg».proof.Proof.KIValueCommon
import proofs.«181351_j65970697667357_2_alg».proof.Proof.LibBlockedSum
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand Idealize.ShloMosaic Idealize.ShloMosaic.TcCoe Idealize.ShloMosaic.Tactic Idealize.SL.Sem
open Idealize.ShloMosaic.Pipeline (Dat)
open Idealize.ShloMosaic.ValueIdx

/-! ## What each case leaves, as the payloads of the input blocks -/

section Pieces
variable {F : FTy → Type} [FloatOps F] [Named F]

/-- At the first point output 4 holds its payload of the input blocks. -/
theorem out3_A_4_eq (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) :
    out3_A_4 c i arg1 harg1 arg2 harg2 arg3 harg3 arg4 harg4 arg5 harg5 arg6 harg6 arg7 harg7 arg8 harg8 arg9 harg9 hc0 hc1 x0 x1 x2 x3 = k3_pay6 x2 x0 x1 x3 := by
  unfold out3_A_4
  rw [View.read_writes_eq_canon _ _ _ (cover3_A_4 c i arg1 harg1 arg2 harg2 arg3 harg3 arg4 harg4 arg5 harg5 arg6 harg6 arg7 harg7 arg8 harg8 arg9 harg9 hc0 hc1 x0 x1 x2 x3)]
  unfold kernelRun3_A
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At the first point the first accumulator, cleared, then holds the block's column sums added to the cleared row. -/
theorem sout3_A_0_eq (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) :
    sout3_A_0 c i arg1 harg1 arg2 harg2 arg3 harg3 arg4 harg4 arg5 harg5 arg6 harg6 arg7 harg7 arg8 harg8 arg9 harg9 hc0 hc1 x0 x1 x2 x3 = k3_pay7 x2 x0 x1 x3 k3_pay4 := by
  unfold sout3_A_0
  rw [View.read_writes_eq_canon _ _ _ (scover3_A_0 c i arg1 harg1 arg2 harg2 arg3 harg3 arg4 harg4 arg5 harg5 arg6 harg6 arg7 harg7 arg8 harg8 arg9 harg9 hc0 hc1 x0 x1 x2 x3)]
  unfold kernelRun3_A
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At the first point the second accumulator, cleared, then holds the block's column sums of squares added to the cleared row. -/
theorem sout3_A_1_eq (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) :
    sout3_A_1 c i arg1 harg1 arg2 harg2 arg3 harg3 arg4 harg4 arg5 harg5 arg6 harg6 arg7 harg7 arg8 harg8 arg9 harg9 hc0 hc1 x0 x1 x2 x3 = k3_pay1 (k3_pay8 x2 x0 x1 x3 k3_pay5) := by
  unfold sout3_A_1
  rw [View.read_writes_eq_canon _ _ _ (scover3_A_1 c i arg1 harg1 arg2 harg2 arg3 harg3 arg4 harg4 arg5 harg5 arg6 harg6 arg7 harg7 arg8 harg8 arg9 harg9 hc0 hc1 x0 x1 x2 x3)]
  unfold kernelRun3_A
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At a middle point output 4 holds its payload of the input blocks. -/
theorem out3_B_4_eq (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    out3_B_4 c i arg1 harg1 arg2 harg2 arg3 harg3 arg4 harg4 arg5 harg5 arg6 harg6 arg7 harg7 arg8 harg8 arg9 harg9 hc0 hc1 x0 x1 x2 x3 xs0 xs1 = k3_pay6 x2 x0 x1 x3 := by
  unfold out3_B_4
  rw [View.read_writes_eq_canon _ _ _ (cover3_B_4 c i arg1 harg1 arg2 harg2 arg3 harg3 arg4 harg4 arg5 harg5 arg6 harg6 arg7 harg7 arg8 harg8 arg9 harg9 hc0 hc1 x0 x1 x2 x3 xs0 xs1)]
  unfold kernelRun3_B
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At a middle point the first accumulator holds what it held plus the block's column sums. -/
theorem sout3_B_0_eq (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    sout3_B_0 c i arg1 harg1 arg2 harg2 arg3 harg3 arg4 harg4 arg5 harg5 arg6 harg6 arg7 harg7 arg8 harg8 arg9 harg9 hc0 hc1 x0 x1 x2 x3 xs0 xs1 = k3_pay7 x2 x0 x1 x3 xs0 := by
  unfold sout3_B_0
  rw [View.read_writes_eq_canon _ _ _ (scover3_B_0 c i arg1 harg1 arg2 harg2 arg3 harg3 arg4 harg4 arg5 harg5 arg6 harg6 arg7 harg7 arg8 harg8 arg9 harg9 hc0 hc1 x0 x1 x2 x3 xs0 xs1)]
  unfold kernelRun3_B
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At a middle point the second accumulator holds what it held plus the block's column sums of squares. -/
theorem sout3_B_1_eq (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    sout3_B_1 c i arg1 harg1 arg2 harg2 arg3 harg3 arg4 harg4 arg5 harg5 arg6 harg6 arg7 harg7 arg8 harg8 arg9 harg9 hc0 hc1 x0 x1 x2 x3 xs0 xs1 = k3_pay1 (k3_pay8 x2 x0 x1 x3 xs1) := by
  unfold sout3_B_1
  rw [View.read_writes_eq_canon _ _ _ (scover3_B_1 c i arg1 harg1 arg2 harg2 arg3 harg3 arg4 harg4 arg5 harg5 arg6 harg6 arg7 harg7 arg8 harg8 arg9 harg9 hc0 hc1 x0 x1 x2 x3 xs0 xs1)]
  unfold kernelRun3_B
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At the last point output 4 holds its payload of the input blocks. -/
theorem out3_C_4_eq (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    out3_C_4 c i arg1 harg1 arg2 harg2 arg3 harg3 arg4 harg4 arg5 harg5 arg6 harg6 arg7 harg7 arg8 harg8 arg9 harg9 hc0 hc1 x0 x1 x2 x3 xs0 xs1 = k3_pay6 x2 x0 x1 x3 := by
  unfold out3_C_4
  rw [View.read_writes_eq_canon _ _ _ (cover3_C_4 c i arg1 harg1 arg2 harg2 arg3 harg3 arg4 harg4 arg5 harg5 arg6 harg6 arg7 harg7 arg8 harg8 arg9 harg9 hc0 hc1 x0 x1 x2 x3 xs0 xs1)]
  unfold kernelRun3_C
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At the last point the first accumulator holds what it held plus the block's column sums. -/
theorem sout3_C_0_eq (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    sout3_C_0 c i arg1 harg1 arg2 harg2 arg3 harg3 arg4 harg4 arg5 harg5 arg6 harg6 arg7 harg7 arg8 harg8 arg9 harg9 hc0 hc1 x0 x1 x2 x3 xs0 xs1 = k3_pay7 x2 x0 x1 x3 xs0 := by
  unfold sout3_C_0
  rw [View.read_writes_eq_canon _ _ _ (scover3_C_0 c i arg1 harg1 arg2 harg2 arg3 harg3 arg4 harg4 arg5 harg5 arg6 harg6 arg7 harg7 arg8 harg8 arg9 harg9 hc0 hc1 x0 x1 x2 x3 xs0 xs1)]
  unfold kernelRun3_C
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At the last point the second accumulator holds what it held plus the block's column sums of squares. -/
theorem sout3_C_1_eq (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    sout3_C_1 c i arg1 harg1 arg2 harg2 arg3 harg3 arg4 harg4 arg5 harg5 arg6 harg6 arg7 harg7 arg8 harg8 arg9 harg9 hc0 hc1 x0 x1 x2 x3 xs0 xs1 = k3_pay1 (k3_pay8 x2 x0 x1 x3 xs1) := by
  unfold sout3_C_1
  rw [View.read_writes_eq_canon _ _ _ (scover3_C_1 c i arg1 harg1 arg2 harg2 arg3 harg3 arg4 harg4 arg5 harg5 arg6 harg6 arg7 harg7 arg8 harg8 arg9 harg9 hc0 hc1 x0 x1 x2 x3 xs0 xs1)]
  unfold kernelRun3_C
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At the last point output 5 holds its payload of the first accumulator as this point leaves it. -/
theorem out3_C_5_eq (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    out3_C_5 c i arg1 harg1 arg2 harg2 arg3 harg3 arg4 harg4 arg5 harg5 arg6 harg6 arg7 harg7 arg8 harg8 arg9 harg9 hc0 hc1 x0 x1 x2 x3 xs0 xs1 = k3_pay2 (k3_pay7 x2 x0 x1 x3 xs0) := by
  unfold out3_C_5
  rw [View.read_writes_eq_canon _ _ _ (cover3_C_5 c i arg1 harg1 arg2 harg2 arg3 harg3 arg4 harg4 arg5 harg5 arg6 harg6 arg7 harg7 arg8 harg8 arg9 harg9 hc0 hc1 x0 x1 x2 x3 xs0 xs1)]
  unfold kernelRun3_C
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

/-- At the last point output 6 holds its payload of the two accumulators as this point leaves them. -/
theorem out3_C_6_eq (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    out3_C_6 c i arg1 harg1 arg2 harg2 arg3 harg3 arg4 harg4 arg5 harg5 arg6 harg6 arg7 harg7 arg8 harg8 arg9 harg9 hc0 hc1 x0 x1 x2 x3 xs0 xs1 = k3_pay3 (k3_pay7 x2 x0 x1 x3 xs0) (k3_pay1 (k3_pay8 x2 x0 x1 x3 xs1)) := by
  unfold out3_C_6
  rw [View.read_writes_eq_canon _ _ _ (cover3_C_6 c i arg1 harg1 arg2 harg2 arg3 harg3 arg4 harg4 arg5 harg5 arg6 harg6 arg7 harg7 arg8 harg8 arg9 harg9 hc0 hc1 x0 x1 x2 x3 xs0 xs1)]
  unfold kernelRun3_C
  dsimp only
  sl_unfold_run_names
  rw [View.canon_cons_unit_zero hz]
  simp only [View.readCov_unit_zero (S := S1x128) _ hz, View.readAt_eq_ld, harg1.read_unread, harg2.read_unread, harg3.read_unread, harg4.read_unread, harg8.read_unread, harg9.read_unread,
    View.ld_unit_zero (S := S2000x128) hz, View.ld_unit_zero (S := S2000x1) hz, View.ld_unit_zero (S := S1x128) hz]

end Pieces

/-! ## The payloads at an entry, at the exact instance -/

/-- The named reciprocal count is the rational at the exact instance. -/
theorem inv_count3 : Named.named (F := Ideal) Cert.KernelIdeal.κ "inv_50000" (φ := .f32) 0x37A7C5AC#32 = ((1 / 50000 : ℝ) : EReal) :=
  IdealRules.named_const.ideal_named_scalar _ _ _ _ rfl

/-- The source index over column `q` with row `p` inserted. -/
theorem lift_col3 (p : Fin 2000) (q : Fin 128) : reduces_S2000x128_S128.lift (ix1 q) p = ix2 p q := by
  funext c; apply Fin.ext
  match c with
  | ⟨0, _⟩ => rfl
  | ⟨1, _⟩ => rfl

/-- A block's column sums, kept as a row, read at an entry. -/
theorem colsum_at3 (src : FVec Ideal S2000x128 .f32) (q : Fin 128) :
    shapeCast S1x128 (multiReduction (F := Ideal) .add [0] S128 src 0x00000000#32 reduces_S2000x128_S128 (.inl rfl) rfl) shapeCasts_S128_S1x128 (ix2 0 q)
      = ∑ p : Fin 2000, src (ix2 p q) := by
  refine (shapeCast_addUnit_apply (n := 1) ![128] _ shapeCasts_S128_S1x128 (ix2 0 q)).trans ?_
  have e : (fun a : Fin 1 => (ix2 (0 : Fin 1) q : S1x128.Idx) a.succ) = ix1 q := by
    funext a; match a with | ⟨0, _⟩ => rfl
  rw [e]
  refine (Ideal.multiReduction_add_single src 0x00000000#32 reduces_S2000x128_S128 (.inl rfl) rfl (ix1 q)).trans ?_
  exact Finset.sum_congr rfl fun p _ => congrArg src (lift_col3 p q)

/-- Output 4's payload at an entry: the row's scale times the neighbourhood sum, the self term, the bias. -/
theorem pay3_6_at (v3 : FVec Ideal S2000x1 .f32) (v6 v10 : FVec Ideal S2000x128 .f32) (v15 : FVec Ideal S1x128 .f32) (p : Fin 2000) (q : Fin 128) :
    k3_pay6 v3 v6 v10 v15 (ix2 p q) = v3 (ix2 p 0) * v6 (ix2 p q) + v10 (ix2 p q) * (v3 (ix2 p 0) * v3 (ix2 p 0)) + v15 (ix2 0 q) := by
  unfold k3_pay6
  simp only [shapeCast_self]
  show broadcastTo S2000x128 v3 broadcasts_S2000x1_S2000x128 (ix2 p q) * v6 (ix2 p q)
      + v10 (ix2 p q) * broadcastTo S2000x128 (mulf v3 v3) broadcasts_S2000x1_S2000x128 (ix2 p q)
      + broadcastTo S2000x128 v15 broadcasts_S1x128_S2000x128 (ix2 p q) = _
  rw [col_along v3 broadcasts_S2000x1_S2000x128 p q, col_along (mulf v3 v3) broadcasts_S2000x1_S2000x128 p q, row_down v15 broadcasts_S1x128_S2000x128 p q]
  rfl

/-- The first accumulator's payload at an entry: what it held plus the block's column sum. -/
theorem pay3_7_at (v3 : FVec Ideal S2000x1 .f32) (v6 v10 : FVec Ideal S2000x128 .f32) (v15 v20 : FVec Ideal S1x128 .f32) (q : Fin 128) :
    k3_pay7 v3 v6 v10 v15 v20 (ix2 0 q) = v20 (ix2 0 q) + ∑ p : Fin 2000, k3_pay6 v3 v6 v10 v15 (ix2 p q) := by
  unfold k3_pay7
  simp only [shapeCast_self]
  show v20 (ix2 0 q) + shapeCast S1x128 (multiReduction (F := Ideal) .add [0] S128 (k3_pay6 v3 v6 v10 v15) 0x00000000#32 reduces_S2000x128_S128 (.inl rfl) rfl) shapeCasts_S128_S1x128 (ix2 0 q) = _
  rw [colsum_at3]

/-- The second accumulator's payload at an entry: what it held plus the block's column sum of squares. -/
theorem pay3_8_at (v3 : FVec Ideal S2000x1 .f32) (v6 v10 : FVec Ideal S2000x128 .f32) (v15 v27 : FVec Ideal S1x128 .f32) (q : Fin 128) :
    k3_pay8 v3 v6 v10 v15 v27 (ix2 0 q) = v27 (ix2 0 q) + ∑ p : Fin 2000, k3_pay6 v3 v6 v10 v15 (ix2 p q) * k3_pay6 v3 v6 v10 v15 (ix2 p q) := by
  unfold k3_pay8
  show v27 (ix2 0 q) + shapeCast S1x128 (multiReduction (F := Ideal) .add [0] S128 (mulf (k3_pay6 v3 v6 v10 v15) (k3_pay6 v3 v6 v10 v15)) 0x00000000#32 reduces_S2000x128_S128 (.inl rfl) rfl) shapeCasts_S128_S1x128 (ix2 0 q) = _
  rw [colsum_at3]
  rfl

/-- The cast to the same shape is the identity. -/
theorem pay3_1_eq (v31 : FVec Ideal S1x128 .f32) : k3_pay1 v31 = v31 := by
  unfold k3_pay1; simp only [shapeCast_self]

/-- The mean's payload at an entry: the first accumulator times the reciprocal count. -/
theorem pay3_2_at (v38 : FVec Ideal S1x128 .f32) (q : Fin 128) :
    k3_pay2 v38 (ix2 0 q) = v38 (ix2 0 q) * ((1 / 50000 : ℝ) : EReal) := by
  unfold k3_pay2
  show v38 (ix2 0 q) * Named.named (F := Ideal) Cert.KernelIdeal.κ "inv_50000" (φ := .f32) 0x37A7C5AC#32 = _
  rw [inv_count3]

/-- The variance's payload at an entry: the mean of the squares less the square of the mean, clamped at zero. -/
theorem pay3_3_at (v38 v41 : FVec Ideal S1x128 .f32) (q : Fin 128) :
    k3_pay3 v38 v41 (ix2 0 q) = max (v41 (ix2 0 q) * ((1 / 50000 : ℝ) : EReal) - k3_pay2 v38 (ix2 0 q) * k3_pay2 v38 (ix2 0 q)) 0 := by
  unfold k3_pay3
  show max (v41 (ix2 0 q) * Named.named (F := Ideal) Cert.KernelIdeal.κ "inv_50000" (φ := .f32) 0x37A7C5AC#32 - k3_pay2 v38 (ix2 0 q) * k3_pay2 v38 (ix2 0 q)) (Ideal.ofBits .f32 0x00000000#32) = _
  rw [inv_count3, Ideal.ofBits_zero_f32]

/-- The clearing payloads are zero at every entry. -/
theorem pay3_4_at (q : Fin 128) : k3_pay4 (F := Ideal) (ix2 0 q) = 0 := by
  unfold k3_pay4; simp only [shapeCast_self]
  exact Ideal.ofBits_zero_f32
theorem pay3_5_at (q : Fin 128) : k3_pay5 (F := Ideal) (ix2 0 q) = 0 := by
  unfold k3_pay5; simp only [shapeCast_self]
  exact Ideal.ofBits_zero_f32

/-! ## The region's arrays and the layer's output as one function of them -/

-- the TensorCore's buffer contents when the region is entered, at the exact instance
variable (V : (c : Dev nD) → (b : Ref sig .tc) → Buf (Elt Ideal) ((c : Thread nD τ).loc b))

/-- The region's four input arrays as it finds them, each at its literal type. -/
abbrev arr3_0 (c : Dev nD) : S50000x128.Idx → EReal := V c (Pipeline.arrRef spec3 0)
abbrev arr3_1 (c : Dev nD) : S50000x128.Idx → EReal := V c (Pipeline.arrRef spec3 1)
abbrev arr3_2 (c : Dev nD) : S50000x1.Idx → EReal := V c (Pipeline.arrRef spec3 2)
abbrev arr3_3 (c : Dev nD) : S1x128.Idx → EReal := V c (Pipeline.arrRef spec3 3)

omit V in
/-- The layer's output as one function of four arrays — the neighbourhood sums, the nodes' own rows, the nodes' scales,
    the bias —: at node `n`, column `j`, the node's scale times the neighbourhood sum, plus the node's own row times the
    square of its scale, plus the bias. -/
def outFn3_4 (agg xw : S50000x128.Idx → EReal) (dinv : S50000x1.Idx → EReal) (b : S1x128.Idx → EReal) : S50000x128.Idx → EReal := fun i =>
  dinv (ix2 (i 0) 0) * agg i + xw i * (dinv (ix2 (i 0) 0) * dinv (ix2 (i 0) 0)) + b (ix2 0 (i 1))

omit V in
/-- Its column means over the 50000 nodes, -/
def outFn3_5 (agg xw : S50000x128.Idx → EReal) (dinv : S50000x1.Idx → EReal) (b : S1x128.Idx → EReal) : S1x128.Idx → EReal := fun i =>
  (∑ n : Fin 50000, outFn3_4 agg xw dinv b (ix2 n (i 1))) * ((1 / 50000 : ℝ) : EReal)

omit V in
/-- and its one-pass column variances, clamped at zero. -/
def outFn3_6 (agg xw : S50000x128.Idx → EReal) (dinv : S50000x1.Idx → EReal) (b : S1x128.Idx → EReal) : S1x128.Idx → EReal := fun i =>
  max ((∑ n : Fin 50000, outFn3_4 agg xw dinv b (ix2 n (i 1)) * outFn3_4 agg xw dinv b (ix2 n (i 1))) * ((1 / 50000 : ℝ) : EReal)
    - outFn3_5 agg xw dinv b i * outFn3_5 agg xw dinv b i) 0

/-- The same of the region's arrays. -/
abbrev hval3 (c : Dev nD) : S50000x128.Idx → EReal := outFn3_4 (arr3_0 V c) (arr3_1 V c) (arr3_2 V c) (arr3_3 V c)
abbrev meanv3 (c : Dev nD) : S1x128.Idx → EReal := outFn3_5 (arr3_0 V c) (arr3_1 V c) (arr3_2 V c) (arr3_3 V c)
abbrev varv3 (c : Dev nD) : S1x128.Idx → EReal := outFn3_6 (arr3_0 V c) (arr3_1 V c) (arr3_2 V c) (arr3_3 V c)

/-- The printed index maps, decided over the grid: windows 0, 1, 2 and 4 move down the rows with the grid point; the bias
    and the two statistics rows stay at their one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Row `p` of point `t`'s block, as a row of the arrays. -/
def rowOf3 (t : Fin cfg3.N) (p : Fin 2000) : Fin 50000 := ⟨t.val * 2000 + p.val, by have := N_val3 t; omega⟩

/-- Output 4's payload on point `t`'s input blocks, at an entry, is the layer's output at that row of the arrays. -/
theorem hblk3 (c : Dev nD) (t : Fin cfg3.N) (p : Fin 2000) (q : Fin 128) :
    k3_pay6 (iblk3 V c 2 t) (iblk3 V c 0 t) (iblk3 V c 1 t) (iblk3 V c 3 t) (ix2 p q) = hval3 V c (ix2 (rowOf3 t p) q) := by
  refine (pay3_6_at (iblk3 V c 2 t) (iblk3 V c 0 t) (iblk3 V c 1 t) (iblk3 V c 3 t) p q).trans ?_
  obtain ⟨e00, e01, e10, e11, e20, e21, e30, e31, e40, e41, e50, e51, e60, e61⟩ := idx_facts3 t
  show arr3_2 V c (((cfg3.win 2).blk t).view.emb (ix2 p 0)) * arr3_0 V c (((cfg3.win 0).blk t).view.emb (ix2 p q))
      + arr3_1 V c (((cfg3.win 1).blk t).view.emb (ix2 p q)) * (arr3_2 V c (((cfg3.win 2).blk t).view.emb (ix2 p 0)) * arr3_2 V c (((cfg3.win 2).blk t).view.emb (ix2 p 0)))
      + arr3_3 V c (((cfg3.win 3).blk t).view.emb (ix2 0 q))
    = arr3_2 V c (ix2 (rowOf3 t p) 0) * arr3_0 V c (ix2 (rowOf3 t p) q)
      + arr3_1 V c (ix2 (rowOf3 t p) q) * (arr3_2 V c (ix2 (rowOf3 t p) 0) * arr3_2 V c (ix2 (rowOf3 t p) 0))
      + arr3_3 V c (ix2 0 q)
  have h0 : ((cfg3.win 0).blk t).view.emb (ix2 p q) = ix2 (rowOf3 t p) q := by
    funext a; apply Fin.ext
    match a with
    | ⟨0, _⟩ => show win3_0.index t (0 : Fin 2) * 2000 + 1 * p.val = t.val * 2000 + p.val; omega
    | ⟨1, _⟩ => show win3_0.index t (1 : Fin 2) * 128 + 1 * q.val = q.val; omega
  have h1 : ((cfg3.win 1).blk t).view.emb (ix2 p q) = ix2 (rowOf3 t p) q := by
    funext a; apply Fin.ext
    match a with
    | ⟨0, _⟩ => show win3_1.index t (0 : Fin 2) * 2000 + 1 * p.val = t.val * 2000 + p.val; omega
    | ⟨1, _⟩ => show win3_1.index t (1 : Fin 2) * 128 + 1 * q.val = q.val; omega
  have h2 : ((cfg3.win 2).blk t).view.emb (ix2 p 0) = ix2 (rowOf3 t p) 0 := by
    funext a; apply Fin.ext
    match a with
    | ⟨0, _⟩ => show win3_2.index t (0 : Fin 2) * 2000 + 1 * p.val = t.val * 2000 + p.val; omega
    | ⟨1, _⟩ => show win3_2.index t (1 : Fin 2) * 1 + 1 * 0 = 0; omega
  have h3 : ((cfg3.win 3).blk t).view.emb (ix2 0 q) = ix2 0 q := by
    funext a; apply Fin.ext
    match a with
    | ⟨0, _⟩ => show win3_3.index t (0 : Fin 2) * 1 + 1 * 0 = 0; omega
    | ⟨1, _⟩ => show win3_3.index t (1 : Fin 2) * 128 + 1 * q.val = q.val; omega
  rw [h0, h1, h2, h3]

/-! ## Output 4: every point stores the layer's output on its block -/

/-- After any point output 4's staging buffer holds its payload on the point's input blocks, whichever case the point is. -/
theorem out4_at3 (c : Dev nD) (t : Fin cfg3.N) :
    (outsAt3 V c t.val t.isLt).1 = k3_pay6 (iblk3 V c 2 t) (iblk3 V c 0 t) (iblk3 V c 1 t) (iblk3 V c 3 t) := by
  by_cases hz : t.val = 0
  · rw [outsAt3_first V c t hz]; unfold first3; dsimp only; rw [out3_A_4_eq]
  · by_cases h1 : t.val % 25 = 24
    · rw [outsAt3_last V c t hz h1]; unfold last3; dsimp only; rw [out3_C_4_eq]
    · rw [outsAt3_middle V c t hz h1]; unfold middle3; dsimp only; rw [out3_B_4_eq]

/-- What point `t` writes back to output 4's array is block `t` of the layer's output. -/
theorem flushed3_4_eq (c : Dev nD) (t : Fin cfg3.N) :
    (dat3 V c).flushed 4 t = ((cfg3.win 4).blk t).view.read (Elt Ideal) (hval3 V c) := by
  show (cfg3.win 4).cut (grid3.coords t) ((dat3 V c).after 4 t) = _
  rw [after3_4, out4_at3]
  obtain ⟨e00, e01, e10, e11, e20, e21, e30, e31, e40, e41, e50, e51, e60, e61⟩ := idx_facts3 t
  funext j
  obtain ⟨p, q, rfl⟩ : ∃ (p : Fin 2000) (q : Fin 128), j = ix2 p q := ⟨j 0, j 1, eq_ix2 j⟩
  show k3_pay6 (iblk3 V c 2 t) (iblk3 V c 0 t) (iblk3 V c 1 t) (iblk3 V c 3 t) (ix2 p q) = hval3 V c (((cfg3.win 4).blk t).view.emb (ix2 p q))
  have h4 : ((cfg3.win 4).blk t).view.emb (ix2 p q) = ix2 (rowOf3 t p) q := by
    funext a; apply Fin.ext
    match a with
    | ⟨0, _⟩ => show win3_4.index t (0 : Fin 2) * 2000 + 1 * p.val = t.val * 2000 + p.val; omega
    | ⟨1, _⟩ => show win3_4.index t (1 : Fin 2) * 128 + 1 * q.val = q.val; omega
  rw [h4]
  exact hblk3 V c t p q

theorem idx_onto3_4 : ∀ q : Fin 25, ∃ t : Fin cfg3.N, win3_4.index t = ![q.val, 0] :=
  (by decide +kernel : ∀ q : Fin 25, ∃ t : Fin grid3.N, win3_4.index t = ![q.val, 0])

theorem mem_blk3_4 (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v50_0).slice (win3_4.rect t)).set ↔ _
  rw [View.set_slice_whole, Rect.mem_set_unit]
  exact Iff.rfl

/-- Every index of output 4's array is in some point's block: row `r` is in block `r / 2000`. -/
theorem cover3_4_arr (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := idx_onto3_4 ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_blk3_4]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- Output 4's array after the region is the layer's output. -/
theorem layer3_final (c : Dev nD) : (dat3 V c).arrAt 4 cfg3.N = hval3 V c :=
  (dat3 V c).arrAt_eq_of_cover 4 _ (fun t _ => flushed3_4_eq V c t) cover3_4_arr

/-- Output 4's array after the region, read at an entry. -/
theorem layer3_value (c : Dev nD) (n : Fin 50000) (j : Fin 128) :
    (dat3 (F := Ideal) V c).arrAt 4 cfg3.N (ix2 n j)
      = arr3_2 V c (ix2 n 0) * arr3_0 V c (ix2 n j)
        + arr3_1 V c (ix2 n j) * (arr3_2 V c (ix2 n 0) * arr3_2 V c (ix2 n 0))
        + arr3_3 V c (ix2 0 j) :=
  congrFun (layer3_final V c) (ix2 n j)

/-! ## The accumulators: cleared at the first point, each point adding its block's column sums -/

/-- Block `j`'s column sum of the layer's output in column `q`, and of its squares. -/
def bsum3 (c : Dev nD) (q : Fin 128) (j : ℕ) : EReal :=
  if h : j < 25 then ∑ p : Fin 2000, hval3 V c (ix2 (⟨j * 2000 + p.val, by omega⟩ : Fin 50000) q) else 0
def bsq3 (c : Dev nD) (q : Fin 128) (j : ℕ) : EReal :=
  if h : j < 25 then ∑ p : Fin 2000, hval3 V c (ix2 (⟨j * 2000 + p.val, by omega⟩ : Fin 50000) q) * hval3 V c (ix2 (⟨j * 2000 + p.val, by omega⟩ : Fin 50000) q) else 0

theorem bsum3_eq (c : Dev nD) (q : Fin 128) (t : Fin cfg3.N) :
    ∑ p : Fin 2000, k3_pay6 (iblk3 V c 2 t) (iblk3 V c 0 t) (iblk3 V c 1 t) (iblk3 V c 3 t) (ix2 p q) = bsum3 V c q t.val := by
  unfold bsum3; rw [dif_pos (N_val3 t)]
  exact Finset.sum_congr rfl fun p _ => hblk3 V c t p q
theorem bsq3_eq (c : Dev nD) (q : Fin 128) (t : Fin cfg3.N) :
    ∑ p : Fin 2000, k3_pay6 (iblk3 V c 2 t) (iblk3 V c 0 t) (iblk3 V c 1 t) (iblk3 V c 3 t) (ix2 p q) * k3_pay6 (iblk3 V c 2 t) (iblk3 V c 0 t) (iblk3 V c 1 t) (iblk3 V c 3 t) (ix2 p q) = bsq3 V c q t.val := by
  unfold bsq3; rw [dif_pos (N_val3 t)]
  exact Finset.sum_congr rfl fun p _ => by rw [hblk3 V c t p q]; rfl

/-- After point `n` the two accumulators hold, in column `q`, the running sums of the blocks' column sums from a cleared start. -/
theorem acc3 (c : Dev nD) (q : Fin 128) : ∀ (n : ℕ) (hn : n < cfg3.N),
    (outsAt3 V c n hn).2.2.2.1 (ix2 0 q) = LibBlockedSum.accAfter (bsum3 V c q) n
      ∧ (outsAt3 V c n hn).2.2.2.2 (ix2 0 q) = LibBlockedSum.accAfter (bsq3 V c q) n
  | 0, hn => by
    have e : outsAt3 V c 0 hn = first3 V c ⟨0, hn⟩ rfl := outsAt3_first V c ⟨0, hn⟩ rfl
    rw [e]; unfold first3; dsimp only
    rw [sout3_A_0_eq, sout3_A_1_eq]
    refine ⟨?_, ?_⟩
    · rw [pay3_7_at, pay3_4_at, bsum3_eq V c q ⟨0, hn⟩]; rfl
    · rw [pay3_1_eq, pay3_8_at, pay3_5_at, bsq3_eq V c q ⟨0, hn⟩]; rfl
  | n + 1, hn => by
    obtain ⟨ih0, ih1⟩ := acc3 c q n (Nat.lt_of_succ_lt hn)
    by_cases h1 : (n + 1) % 25 = 24
    · have e : outsAt3 V c (n + 1) hn = last3 V c ⟨n + 1, hn⟩ (Nat.succ_ne_zero n) h1
          (outsAt3 V c n (Nat.lt_of_succ_lt hn)).2.2.2.1 (outsAt3 V c n (Nat.lt_of_succ_lt hn)).2.2.2.2 :=
        outsAt3_last V c ⟨n + 1, hn⟩ (Nat.succ_ne_zero n) h1
      rw [e]; unfold last3; dsimp only
      rw [sout3_C_0_eq, sout3_C_1_eq]
      refine ⟨?_, ?_⟩
      · rw [pay3_7_at, ih0, bsum3_eq V c q ⟨n + 1, hn⟩]; rfl
      · rw [pay3_1_eq, pay3_8_at, ih1, bsq3_eq V c q ⟨n + 1, hn⟩]; rfl
    · have e : outsAt3 V c (n + 1) hn = middle3 V c ⟨n + 1, hn⟩ (Nat.succ_ne_zero n) h1
          (outsAt3 V c n (Nat.lt_of_succ_lt hn)).2.2.2.1 (outsAt3 V c n (Nat.lt_of_succ_lt hn)).2.2.2.2 :=
        outsAt3_middle V c ⟨n + 1, hn⟩ (Nat.succ_ne_zero n) h1
      rw [e]; unfold middle3; dsimp only
      rw [sout3_B_0_eq, sout3_B_1_eq]
      refine ⟨?_, ?_⟩
      · rw [pay3_7_at, ih0, bsum3_eq V c q ⟨n + 1, hn⟩]; rfl
      · rw [pay3_1_eq, pay3_8_at, ih1, bsq3_eq V c q ⟨n + 1, hn⟩]; rfl

/-- After the last point the accumulators hold the whole column sums. -/
theorem total3_0 (c : Dev nD) (q : Fin 128) (t : Fin cfg3.N) (h24 : t.val = 24) :
    (outsAt3 V c t.val t.isLt).2.2.2.1 (ix2 0 q) = ∑ n : Fin 50000, hval3 V c (ix2 n q) := by
  rw [(acc3 V c q t.val t.isLt).1, h24]
  have hs : ∀ j : Fin (24 + 1), bsum3 V c q j.val
      = ∑ k : Fin 2000, (fun i : Fin ((24 + 1) * 2000) => hval3 V c (ix2 (i.cast (by norm_num : (24 + 1) * 2000 = 50000)) q)) (LibBlockedSum.blockIdx (24 + 1) 2000 j k) := fun j => by
    unfold bsum3; rw [dif_pos j.isLt]; exact Finset.sum_congr rfl fun k _ => rfl
  exact (LibBlockedSum.accAfter_blocks 24 2000 _ _ hs).trans
    (LibBlockedSum.sum_cast (by norm_num : (24 + 1) * 2000 = 50000) (fun i => hval3 V c (ix2 i q)))
theorem total3_1 (c : Dev nD) (q : Fin 128) (t : Fin cfg3.N) (h24 : t.val = 24) :
    (outsAt3 V c t.val t.isLt).2.2.2.2 (ix2 0 q) = ∑ n : Fin 50000, hval3 V c (ix2 n q) * hval3 V c (ix2 n q) := by
  rw [(acc3 V c q t.val t.isLt).2, h24]
  have hs : ∀ j : Fin (24 + 1), bsq3 V c q j.val
      = ∑ k : Fin 2000, (fun i : Fin ((24 + 1) * 2000) => hval3 V c (ix2 (i.cast (by norm_num : (24 + 1) * 2000 = 50000)) q) * hval3 V c (ix2 (i.cast (by norm_num : (24 + 1) * 2000 = 50000)) q)) (LibBlockedSum.blockIdx (24 + 1) 2000 j k) := fun j => by
    unfold bsq3; rw [dif_pos j.isLt]; exact Finset.sum_congr rfl fun k _ => rfl
  exact (LibBlockedSum.accAfter_blocks 24 2000 _ _ hs).trans
    (LibBlockedSum.sum_cast (by norm_num : (24 + 1) * 2000 = 50000) (fun i => hval3 V c (ix2 i q) * hval3 V c (ix2 i q)))

/-! ## Outputs 5 and 6: stored and written back at the last point, whole -/

/-- At the last point outputs 5 and 6 hold their payloads on the accumulators as that point leaves them. -/
theorem out56_last3 (c : Dev nD) (t : Fin cfg3.N) (hz : t.val ≠ 0) (h1 : t.val % 25 = 24) :
    (outsAt3 V c t.val t.isLt).2.1 = k3_pay2 (outsAt3 V c t.val t.isLt).2.2.2.1
      ∧ (outsAt3 V c t.val t.isLt).2.2.1 = k3_pay3 (outsAt3 V c t.val t.isLt).2.2.2.1 (outsAt3 V c t.val t.isLt).2.2.2.2 := by
  rw [outsAt3_last V c t hz h1]; unfold last3; dsimp only
  rw [out3_C_5_eq, out3_C_6_eq, sout3_C_0_eq, sout3_C_1_eq]
  exact ⟨rfl, rfl⟩

theorem last_of_flush3_5 (t : Fin cfg3.N) (hf : (cfg3.win 5).flush t = true) : t.val = 24 := by
  have h := (flush3_5 t).mp hf; have := N_val3 t; omega
theorem last_of_flush3_6 (t : Fin cfg3.N) (hf : (cfg3.win 6).flush t = true) : t.val = 24 := by
  have h := (flush3_6 t).mp hf; have := N_val3 t; omega

/-- What the last point writes back to output 5's array is the column means. -/
theorem flushed3_5_eq (c : Dev nD) (t : Fin cfg3.N) (hf : (cfg3.win 5).flush t = true) :
    (dat3 V c).flushed 5 t = ((cfg3.win 5).blk t).view.read (Elt Ideal) (meanv3 V c) := by
  have h24 := last_of_flush3_5 t hf
  show (cfg3.win 5).cut (grid3.coords t) ((dat3 V c).after 5 t) = _
  rw [after3_5, (out56_last3 V c t (by omega) (by omega)).1]
  obtain ⟨e00, e01, e10, e11, e20, e21, e30, e31, e40, e41, e50, e51, e60, e61⟩ := idx_facts3 t
  funext j
  obtain ⟨p, q, rfl⟩ : ∃ (p : Fin 1) (q : Fin 128), j = ix2 p q := ⟨j 0, j 1, eq_ix2 j⟩
  obtain rfl : p = 0 := Subsingleton.elim _ _
  show k3_pay2 (outsAt3 V c t.val t.isLt).2.2.2.1 (ix2 0 q) = meanv3 V c (((cfg3.win 5).blk t).view.emb (ix2 0 q))
  have h5 : ((cfg3.win 5).blk t).view.emb (ix2 0 q) = ix2 0 q := by
    funext a; apply Fin.ext
    match a with
    | ⟨0, _⟩ => show win3_5.index t (0 : Fin 2) * 1 + 1 * 0 = 0; omega
    | ⟨1, _⟩ => show win3_5.index t (1 : Fin 2) * 128 + 1 * q.val = q.val; omega
  rw [h5, pay3_2_at, total3_0 V c q t h24]
  rfl

/-- What the last point writes back to output 6's array is the column variances. -/
theorem flushed3_6_eq (c : Dev nD) (t : Fin cfg3.N) (hf : (cfg3.win 6).flush t = true) :
    (dat3 V c).flushed 6 t = ((cfg3.win 6).blk t).view.read (Elt Ideal) (varv3 V c) := by
  have h24 := last_of_flush3_6 t hf
  show (cfg3.win 6).cut (grid3.coords t) ((dat3 V c).after 6 t) = _
  rw [after3_6, (out56_last3 V c t (by omega) (by omega)).2]
  obtain ⟨e00, e01, e10, e11, e20, e21, e30, e31, e40, e41, e50, e51, e60, e61⟩ := idx_facts3 t
  funext j
  obtain ⟨p, q, rfl⟩ : ∃ (p : Fin 1) (q : Fin 128), j = ix2 p q := ⟨j 0, j 1, eq_ix2 j⟩
  obtain rfl : p = 0 := Subsingleton.elim _ _
  show k3_pay3 (outsAt3 V c t.val t.isLt).2.2.2.1 (outsAt3 V c t.val t.isLt).2.2.2.2 (ix2 0 q) = varv3 V c (((cfg3.win 6).blk t).view.emb (ix2 0 q))
  have h6 : ((cfg3.win 6).blk t).view.emb (ix2 0 q) = ix2 0 q := by
    funext a; apply Fin.ext
    match a with
    | ⟨0, _⟩ => show win3_6.index t (0 : Fin 2) * 1 + 1 * 0 = 0; omega
    | ⟨1, _⟩ => show win3_6.index t (1 : Fin 2) * 128 + 1 * q.val = q.val; omega
  rw [h6, pay3_3_at, pay3_2_at, total3_0 V c q t h24, total3_1 V c q t h24]
  rfl

theorem mem_blk3_5 (t : Fin cfg3.N) (i : S1x128.Idx) :
    i ∈ ((cfg3.win 5).blk t).view.set ↔ ∀ a : Fin 2, win3_5.index t a * S1x128.size a ≤ (i a).val ∧ (i a).val < win3_5.index t a * S1x128.size a + S1x128.size a := by
  show i ∈ ((View.whole main_v50_1).slice (win3_5.rect t)).set ↔ _
  rw [View.set_slice_whole, Rect.mem_set_unit]
  exact Iff.rfl
theorem mem_blk3_6 (t : Fin cfg3.N) (i : S1x128.Idx) :
    i ∈ ((cfg3.win 6).blk t).view.set ↔ ∀ a : Fin 2, win3_6.index t a * S1x128.size a ≤ (i a).val ∧ (i a).val < win3_6.index t a * S1x128.size a + S1x128.size a := by
  show i ∈ ((View.whole main_v50_2).slice (win3_6.rect t)).set ↔ _
  rw [View.set_slice_whole, Rect.mem_set_unit]
  exact Iff.rfl

/-- The last point. -/
def lastPt3 : Fin cfg3.N := ⟨24, by rw [show cfg3.N = 25 from N_3]; omega⟩

/-- The one block of outputs 5 and 6, written back at the last point, is their whole array. -/
theorem cover3_5_arr (i : S1x128.Idx) : ∃ t : Fin cfg3.N, (cfg3.win 5).flush t = true ∧ i ∈ ((cfg3.win 5).blk t).view.set := by
  have hi0 : (i 0).val < 1 := (i 0).isLt
  have hi1 : (i 1).val < 128 := (i 1).isLt
  obtain ⟨e00, e01, e10, e11, e20, e21, e30, e31, e40, e41, e50, e51, e60, e61⟩ := idx_facts3 lastPt3
  refine ⟨lastPt3, (flush3_5 lastPt3).mpr rfl, ?_⟩
  rw [mem_blk3_5]
  intro a
  match a with
  | ⟨0, _⟩ => show win3_5.index lastPt3 (0 : Fin 2) * 1 ≤ (i 0).val ∧ (i 0).val < win3_5.index lastPt3 (0 : Fin 2) * 1 + 1; omega
  | ⟨1, _⟩ => show win3_5.index lastPt3 (1 : Fin 2) * 128 ≤ (i 1).val ∧ (i 1).val < win3_5.index lastPt3 (1 : Fin 2) * 128 + 128; omega
theorem cover3_6_arr (i : S1x128.Idx) : ∃ t : Fin cfg3.N, (cfg3.win 6).flush t = true ∧ i ∈ ((cfg3.win 6).blk t).view.set := by
  have hi0 : (i 0).val < 1 := (i 0).isLt
  have hi1 : (i 1).val < 128 := (i 1).isLt
  obtain ⟨e00, e01, e10, e11, e20, e21, e30, e31, e40, e41, e50, e51, e60, e61⟩ := idx_facts3 lastPt3
  refine ⟨lastPt3, (flush3_6 lastPt3).mpr rfl, ?_⟩
  rw [mem_blk3_6]
  intro a
  match a with
  | ⟨0, _⟩ => show win3_6.index lastPt3 (0 : Fin 2) * 1 ≤ (i 0).val ∧ (i 0).val < win3_6.index lastPt3 (0 : Fin 2) * 1 + 1; omega
  | ⟨1, _⟩ => show win3_6.index lastPt3 (1 : Fin 2) * 128 ≤ (i 1).val ∧ (i 1).val < win3_6.index lastPt3 (1 : Fin 2) * 128 + 128; omega

/-- Outputs 5 and 6's arrays after the region: the column means and variances of the layer's output. -/
theorem final3_5 (c : Dev nD) : (dat3 V c).arrAt 5 cfg3.N = meanv3 V c :=
  (dat3 V c).arrAt_eq_of_cover 5 _ (fun t hf => flushed3_5_eq V c t hf) cover3_5_arr
theorem final3_6 (c : Dev nD) : (dat3 V c).arrAt 6 cfg3.N = varv3 V c :=
  (dat3 V c).arrAt_eq_of_cover 6 _ (fun t hf => flushed3_6_eq V c t hf) cover3_6_arr

/-- Output 5's array after the region, read at an entry: the column's mean. -/
theorem value3_5 (c : Dev nD) (j : Fin 128) :
    (dat3 (F := Ideal) V c).arrAt 5 cfg3.N (ix2 0 j) = (∑ n : Fin 50000, hval3 V c (ix2 n j)) * ((1 / 50000 : ℝ) : EReal) :=
  congrFun (final3_5 V c) (ix2 0 j)

/-- Output 6's array after the region, read at an entry: the column's clamped one-pass variance. -/
theorem value3_6 (c : Dev nD) (j : Fin 128) :
    (dat3 (F := Ideal) V c).arrAt 6 cfg3.N (ix2 0 j)
      = max ((∑ n : Fin 50000, hval3 V c (ix2 n j) * hval3 V c (ix2 n j)) * ((1 / 50000 : ℝ) : EReal)
          - (∑ n : Fin 50000, hval3 V c (ix2 n j)) * ((1 / 50000 : ℝ) : EReal) * ((∑ n : Fin 50000, hval3 V c (ix2 n j)) * ((1 / 50000 : ℝ) : EReal))) 0 :=
  congrFun (final3_6 V c) (ix2 0 j)

end Cert.KernelIdeal.HandValue

end
-- ==== Proof.KIValue4.lean ====
/- What the two output arrays of region 4 hold after the region, at the exact instance (every float an extended real),
   as one function of the region's input arrays, entry by entry: output 7 at (n, j) is the sum over the 128 columns k of the
   normalized, scaled, shifted, leaky-rectified entry (n, k) of the first input times the weight's entry (k, j); output 8
   is that, times the row's entry of the last input. The body's payloads are read at an entry; each input block's entry is
   the array's entry 2000·t rows further down (the one-block inputs: the same entry); the write-back of point t is block t
   of the whole-array function; the 25 blocks cover the array (row r is in block r / 2000). -/
import proofs.«181351_j65970697667357_2_alg».proof.Proof.KIRegion4
import proofs.«181351_j65970697667357_2_alg».proof.Proof.KIValueCommon
import proofs.«181351_j65970697667357_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The region's input arrays as it finds them, named at their literal types -/

abbrev arr4_0 (c : Dev nD) : S50000x128.Idx → EReal := V c (Pipeline.arrRef spec4 0)
abbrev arr4_1 (c : Dev nD) : S1x128.Idx → EReal := V c (Pipeline.arrRef spec4 1)
abbrev arr4_2 (c : Dev nD) : S1x128.Idx → EReal := V c (Pipeline.arrRef spec4 2)
abbrev arr4_3 (c : Dev nD) : S1x128.Idx → EReal := V c (Pipeline.arrRef spec4 3)
abbrev arr4_4 (c : Dev nD) : S1x128.Idx → EReal := V c (Pipeline.arrRef spec4 4)
abbrev arr4_5 (c : Dev nD) : S128x1.Idx → EReal := V c (Pipeline.arrRef spec4 5)
abbrev arr4_6 (c : Dev nD) : S50000x1.Idx → EReal := V c (Pipeline.arrRef spec4 6)

/-! ## The outputs as plain functions of arrays -/

/-- Output 7 as one function of the input arrays: at (n, j), the activated row n of the first input against column j of the
    weight. -/
def outFn4_7 (a0 : S50000x128.Idx → EReal) (a1 a2 a3 a4 : S1x128.Idx → EReal) (a5 : S128x1.Idx → EReal) : S50000x1.Idx → EReal :=
  fun i => ∑ k : Fin 128, bnAct (a0 (ix2 (i 0) k)) (a1 (ix2 0 k)) (a2 (ix2 0 k)) (a3 (ix2 0 k)) (a4 (ix2 0 k)) * a5 (ix2 k (i 1))

/-- Output 8: output 7, each row times that row's entry of the last input. -/
def outFn4_8 (a0 : S50000x128.Idx → EReal) (a1 a2 a3 a4 : S1x128.Idx → EReal) (a5 : S128x1.Idx → EReal) (a6 : S50000x1.Idx → EReal) : S50000x1.Idx → EReal :=
  fun i => outFn4_7 a0 a1 a2 a3 a4 a5 i * a6 (ix2 (i 0) (i 1))

namespace Region4

/-! ## The body's payloads at an entry -/

set_option maxHeartbeats 400000 in
/-- The first payload at an entry: the activated row of the first input against the weight's column. -/
theorem pay1_at (x0 : Vec Ideal S2000x128 .f32) (xv xm xg xb : Vec Ideal S1x128 .f32) (w : Vec Ideal S128x1 .bf16)
    (p : Fin 2000) (q : Fin 1) :
    k4_pay1 x0 xv xm xg xb w (ix2 p q)
      = ∑ k : Fin 128, bnAct (x0 (ix2 p k)) (xm (ix2 0 k)) (xv (ix2 0 k)) (xg (ix2 0 k)) (xb (ix2 0 k)) * (w (ix2 k q) : EReal) := by
  unfold k4_pay1
  simp only [shapeCast_self]
  refine (LibPlainDot.matmul_zero_at (φ₁ := .bf16) (φ₂ := .bf16) 2000 128 1 none _ _ p q).trans ?_
  refine Finset.sum_congr rfl fun k _ => ?_
  simp only [truncf_apply, select_apply, cmpf_apply, mulf_apply, addf_apply, subf_apply, broadcast_apply, rsqrt_at, row_down]
  rfl

/-- The second payload at an entry: the first, times the row's entry of the last input. -/
theorem pay2_at (x0 : Vec Ideal S2000x128 .f32) (xv xm xg xb : Vec Ideal S1x128 .f32) (w : Vec Ideal S128x1 .bf16)
    (x6 : Vec Ideal S2000x1 .f32) (p : Fin 2000) (q : Fin 1) :
    k4_pay2 x0 xv xm xg xb w x6 (ix2 p q) = k4_pay1 x0 xv xm xg xb w (ix2 p q) * x6 (ix2 p q) := by
  unfold k4_pay2
  simp only [shapeCast_self]
  rw [mulf_apply]

/-! ## The blocks, as entries of the arrays -/

/-- The windows' block indices, decided over the 25 points: the row-blocked windows (0, 6, 7, 8) are on block row t, the
    others on their one block. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0 :=
  (by decide +kernel : ∀ t : Fin grid4.N, _)

/-- Window 0's block at point t is rows 2000·t … 2000·t + 1999 of its array. -/
theorem iblk_0_at (c : Dev nD) (t : Fin cfg4.N) (p : Fin 2000) (k : Fin 128) (n : Fin 50000) (hn : n.val = 2000 * t.val + p.val) :
    (iblk4 V c 0 t : Vec Ideal S2000x128 .f32) (ix2 p k) = (arr4_0 V c) (ix2 n k) := by
  obtain ⟨e00, e01, e10, e11, e20, e21, e30, e31, e40, e41, e50, e51, e60, e61, e70, e71, e80, e81⟩ := idx_facts t
  show (arr4_0 V c) (((cfg4.win 0).blk t).view.emb (ix2 p k)) = _
  refine congrArg (arr4_0 V c) ?_
  funext d; apply Fin.ext
  match d with
  | ⟨0, _⟩ => show win4_0.index t (0 : Fin 2) * 2000 + 1 * p.val = n.val; rw [e00, hn]; omega
  | ⟨1, _⟩ => show win4_0.index t (1 : Fin 2) * 128 + 1 * k.val = k.val; rw [e01]; omega

/-- Window 6's block at point t is rows 2000·t … 2000·t + 1999 of its array. -/
theorem iblk_6_at (c : Dev nD) (t : Fin cfg4.N) (p : Fin 2000) (k : Fin 1) (n : Fin 50000) (hn : n.val = 2000 * t.val + p.val) :
    (iblk4 V c 6 t : Vec Ideal S2000x1 .f32) (ix2 p k) = (arr4_6 V c) (ix2 n k) := by
  obtain ⟨e00, e01, e10, e11, e20, e21, e30, e31, e40, e41, e50, e51, e60, e61, e70, e71, e80, e81⟩ := idx_facts t
  show (arr4_6 V c) (((cfg4.win 6).blk t).view.emb (ix2 p k)) = _
  refine congrArg (arr4_6 V c) ?_
  funext d; apply Fin.ext
  match d with
  | ⟨0, _⟩ => show win4_6.index t (0 : Fin 2) * 2000 + 1 * p.val = n.val; rw [e60, hn]; omega
  | ⟨1, _⟩ => show win4_6.index t (1 : Fin 2) * 1 + 1 * k.val = k.val; rw [e61]; omega

/-- Window 1's block is its whole one-block array at every point. -/
theorem iblk_1_at (c : Dev nD) (t : Fin cfg4.N) (a : Fin 1) (b : Fin 128) :
    (iblk4 V c 1 t : Vec Ideal S1x128 .f32) (ix2 a b) = (arr4_1 V c) (ix2 a b) := by
  obtain ⟨e00, e01, e10, e11, e20, e21, e30, e31, e40, e41, e50, e51, e60, e61, e70, e71, e80, e81⟩ := idx_facts t
  show (arr4_1 V c) (((cfg4.win 1).blk t).view.emb (ix2 a b)) = _
  refine congrArg (arr4_1 V c) ?_
  funext d; apply Fin.ext
  match d with
  | ⟨0, _⟩ => show win4_1.index t (0 : Fin 2) * 1 + 1 * a.val = a.val; rw [e10]; omega
  | ⟨1, _⟩ => show win4_1.index t (1 : Fin 2) * 128 + 1 * b.val = b.val; rw [e11]; omega

/-- Window 2's block is its whole one-block array at every point. -/
theorem iblk_2_at (c : Dev nD) (t : Fin cfg4.N) (a : Fin 1) (b : Fin 128) :
    (iblk4 V c 2 t : Vec Ideal S1x128 .f32) (ix2 a b) = (arr4_2 V c) (ix2 a b) := by
  obtain ⟨e00, e01, e10, e11, e20, e21, e30, e31, e40, e41, e50, e51, e60, e61, e70, e71, e80, e81⟩ := idx_facts t
  show (arr4_2 V c) (((cfg4.win 2).blk t).view.emb (ix2 a b)) = _
  refine congrArg (arr4_2 V c) ?_
  funext d; apply Fin.ext
  match d with
  | ⟨0, _⟩ => show win4_2.index t (0 : Fin 2) * 1 + 1 * a.val = a.val; rw [e20]; omega
  | ⟨1, _⟩ => show win4_2.index t (1 : Fin 2) * 128 + 1 * b.val = b.val; rw [e21]; omega

/-- Window 3's block is its whole one-block array at every point. -/
theorem iblk_3_at (c : Dev nD) (t : Fin cfg4.N) (a : Fin 1) (b : Fin 128) :
    (iblk4 V c 3 t : Vec Ideal S1x128 .f32) (ix2 a b) = (arr4_3 V c) (ix2 a b) := by
  obtain ⟨e00, e01, e10, e11, e20, e21, e30, e31, e40, e41, e50, e51, e60, e61, e70, e71, e80, e81⟩ := idx_facts t
  show (arr4_3 V c) (((cfg4.win 3).blk t).view.emb (ix2 a b)) = _
  refine congrArg (arr4_3 V c) ?_
  funext d; apply Fin.ext
  match d with
  | ⟨0, _⟩ => show win4_3.index t (0 : Fin 2) * 1 + 1 * a.val = a.val; rw [e30]; omega
  | ⟨1, _⟩ => show win4_3.index t (1 : Fin 2) * 128 + 1 * b.val = b.val; rw [e31]; omega

/-- Window 4's block is its whole one-block array at every point. -/
theorem iblk_4_at (c : Dev nD) (t : Fin cfg4.N) (a : Fin 1) (b : Fin 128) :
    (iblk4 V c 4 t : Vec Ideal S1x128 .f32) (ix2 a b) = (arr4_4 V c) (ix2 a b) := by
  obtain ⟨e00, e01, e10, e11, e20, e21, e30, e31, e40, e41, e50, e51, e60, e61, e70, e71, e80, e81⟩ := idx_facts t
  show (arr4_4 V c) (((cfg4.win 4).blk t).view.emb (ix2 a b)) = _
  refine congrArg (arr4_4 V c) ?_
  funext d; apply Fin.ext
  match d with
  | ⟨0, _⟩ => show win4_4.index t (0 : Fin 2) * 1 + 1 * a.val = a.val; rw [e40]; omega
  | ⟨1, _⟩ => show win4_4.index t (1 : Fin 2) * 128 + 1 * b.val = b.val; rw [e41]; omega

/-- Window 5's block is its whole one-block array at every point. -/
theorem iblk_5_at (c : Dev nD) (t : Fin cfg4.N) (a : Fin 128) (b : Fin 1) :
    (iblk4 V c 5 t : Vec Ideal S128x1 .bf16) (ix2 a b) = (arr4_5 V c) (ix2 a b) := by
  obtain ⟨e00, e01, e10, e11, e20, e21, e30, e31, e40, e41, e50, e51, e60, e61, e70, e71, e80, e81⟩ := idx_facts t
  show (arr4_5 V c) (((cfg4.win 5).blk t).view.emb (ix2 a b)) = _
  refine congrArg (arr4_5 V c) ?_
  funext d; apply Fin.ext
  match d with
  | ⟨0, _⟩ => show win4_5.index t (0 : Fin 2) * 128 + 1 * a.val = a.val; rw [e50]; omega
  | ⟨1, _⟩ => show win4_5.index t (1 : Fin 2) * 1 + 1 * b.val = b.val; rw [e51]; omega

/-! ## What each point writes back -/

/-- An output window's blocks are never cut: the part a write-back moves is the whole block. -/
theorem cut_7 (t : Fin cfg4.N) (X : Vec Ideal S2000x1 .f32) : (cfg4.win 7).cut (grid4.coords t) X = X := rfl
theorem cut_8 (t : Fin cfg4.N) (X : Vec Ideal S2000x1 .f32) : (cfg4.win 8).cut (grid4.coords t) X = X := rfl

/-- A whole array read through point t's block, at an entry of the block: the array's entry under it. -/
theorem read_7 (t : Fin cfg4.N) (G : S50000x1.Idx → EReal) (y : S2000x1.Idx) :
    ((cfg4.win 7).blk t).view.read (Elt Ideal) G y = G (((cfg4.win 7).blk t).view.emb y) := rfl
theorem read_8 (t : Fin cfg4.N) (G : S50000x1.Idx → EReal) (y : S2000x1.Idx) :
    ((cfg4.win 8).blk t).view.read (Elt Ideal) G y = G (((cfg4.win 8).blk t).view.emb y) := rfl

set_option maxHeartbeats 400000 in
/-- What point t writes back to output 7's array is block t of the whole-array function of the input arrays. -/
theorem flushed_7_eq (c : Dev nD) (t : Fin cfg4.N) :
    (dat4 V c).flushed 7 t = ((cfg4.win 7).blk t).view.read (Elt Ideal) (outFn4_7 (arr4_0 V c) (arr4_1 V c) (arr4_2 V c) (arr4_3 V c) (arr4_4 V c) (arr4_5 V c)) := by
  show (cfg4.win 7).cut (grid4.coords t) ((dat4 V c).after 7 t) = _
  rw [after4_7]
  unfold out4_7
  rw [View.canon_unit_zero hz]
  simp only [View.ld_unit_zero (S := S2000x128) hz, View.ld_unit_zero (S := S1x128) hz, View.ld_unit_zero (S := S128x1) hz, View.ld_unit_zero (S := S2000x1) hz]
  rw [cut_7]
  funext y
  obtain ⟨p, q, rfl⟩ : ∃ (p : Fin 2000) (q : Fin 1), y = ix2 p q := ⟨y 0, y 1, eq_ix2 y⟩
  obtain ⟨e00, e01, e10, e11, e20, e21, e30, e31, e40, e41, e50, e51, e60, e61, e70, e71, e80, e81⟩ := idx_facts t
  have ht : t.val < 25 := by have h := t.isLt; have hN : cfg4.N = 25 := N_4; omega
  have hrow : 2000 * t.val + p.val < 50000 := by have := p.isLt; omega
  have hemb : ((cfg4.win 7).blk t).view.emb (ix2 p q) = (ix2 (⟨2000 * t.val + p.val, hrow⟩ : Fin 50000) q : S50000x1.Idx) := by
    funext d; apply Fin.ext
    match d with
    | ⟨0, _⟩ => show win4_7.index t (0 : Fin 2) * 2000 + 1 * p.val = 2000 * t.val + p.val; rw [e70]; omega
    | ⟨1, _⟩ => show win4_7.index t (1 : Fin 2) * 1 + 1 * q.val = q.val; rw [e71]; omega
  refine Eq.trans ?_ (read_7 t _ (ix2 p q)).symm
  rw [hemb]
  refine (pay1_at _ _ _ _ _ _ p q).trans ?_
  show _ = ∑ k : Fin 128, bnAct ((arr4_0 V c) (ix2 (⟨2000 * t.val + p.val, hrow⟩ : Fin 50000) k)) ((arr4_1 V c) (ix2 0 k)) ((arr4_2 V c) (ix2 0 k)) ((arr4_3 V c) (ix2 0 k)) ((arr4_4 V c) (ix2 0 k)) * (arr4_5 V c) (ix2 k q)
  refine Finset.sum_congr rfl fun k _ => ?_
  rw [iblk_0_at V c t p k ⟨2000 * t.val + p.val, hrow⟩ rfl, iblk_1_at, iblk_2_at, iblk_3_at, iblk_4_at, iblk_5_at]

set_option maxHeartbeats 400000 in
/-- What point t writes back to output 8's array is block t of the whole-array function of the input arrays. -/
theorem flushed_8_eq (c : Dev nD) (t : Fin cfg4.N) :
    (dat4 V c).flushed 8 t = ((cfg4.win 8).blk t).view.read (Elt Ideal) (outFn4_8 (arr4_0 V c) (arr4_1 V c) (arr4_2 V c) (arr4_3 V c) (arr4_4 V c) (arr4_5 V c) (arr4_6 V c)) := by
  show (cfg4.win 8).cut (grid4.coords t) ((dat4 V c).after 8 t) = _
  rw [after4_8]
  unfold out4_8
  rw [View.canon_unit_zero hz]
  simp only [View.ld_unit_zero (S := S2000x128) hz, View.ld_unit_zero (S := S1x128) hz, View.ld_unit_zero (S := S128x1) hz, View.ld_unit_zero (S := S2000x1) hz]
  rw [cut_8]
  funext y
  obtain ⟨p, q, rfl⟩ : ∃ (p : Fin 2000) (q : Fin 1), y = ix2 p q := ⟨y 0, y 1, eq_ix2 y⟩
  obtain ⟨e00, e01, e10, e11, e20, e21, e30, e31, e40, e41, e50, e51, e60, e61, e70, e71, e80, e81⟩ := idx_facts t
  have ht : t.val < 25 := by have h := t.isLt; have hN : cfg4.N = 25 := N_4; omega
  have hrow : 2000 * t.val + p.val < 50000 := by have := p.isLt; omega
  have hemb : ((cfg4.win 8).blk t).view.emb (ix2 p q) = (ix2 (⟨2000 * t.val + p.val, hrow⟩ : Fin 50000) q : S50000x1.Idx) := by
    funext d; apply Fin.ext
    match d with
    | ⟨0, _⟩ => show win4_8.index t (0 : Fin 2) * 2000 + 1 * p.val = 2000 * t.val + p.val; rw [e80]; omega
    | ⟨1, _⟩ => show win4_8.index t (1 : Fin 2) * 1 + 1 * q.val = q.val; rw [e81]; omega
  refine Eq.trans ?_ (read_8 t _ (ix2 p q)).symm
  rw [hemb]
  refine (pay2_at _ _ _ _ _ _ _ p q).trans ?_
  refine (congrArg (· * _) (pay1_at _ _ _ _ _ _ p q)).trans ?_
  show _ = (∑ k : Fin 128, bnAct ((arr4_0 V c) (ix2 (⟨2000 * t.val + p.val, hrow⟩ : Fin 50000) k)) ((arr4_1 V c) (ix2 0 k)) ((arr4_2 V c) (ix2 0 k)) ((arr4_3 V c) (ix2 0 k)) ((arr4_4 V c) (ix2 0 k)) * (arr4_5 V c) (ix2 k q)) * (arr4_6 V c) (ix2 (⟨2000 * t.val + p.val, hrow⟩ : Fin 50000) q)
  rw [iblk_6_at V c t p _ ⟨2000 * t.val + p.val, hrow⟩ rfl]
  refine congrArg (· * _) ?_
  refine Finset.sum_congr rfl fun k _ => ?_
  rw [iblk_0_at V c t p k ⟨2000 * t.val + p.val, hrow⟩ rfl, iblk_1_at, iblk_2_at, iblk_3_at, iblk_4_at, iblk_5_at]

/-! ## The blocks cover the arrays -/

/-- Every entry of output 7's array is in the block of the point its row falls in: row r in block r / 2000. -/
theorem cover_7 (i : S50000x1.Idx) : ∃ t : Fin cfg4.N, (cfg4.win 7).flush t = true ∧ i ∈ ((cfg4.win 7).blk t).view.set := by
  have hi0 : (i 0).val < 50000 := (i 0).isLt
  have hi1 : (i 1).val < 1 := (i 1).isLt
  have hN : cfg4.N = 25 := N_4
  have hlt : (i 0).val / 2000 < cfg4.N := by rw [hN]; omega
  obtain ⟨e00, e01, e10, e11, e20, e21, e30, e31, e40, e41, e50, e51, e60, e61, e70, e71, e80, e81⟩ := idx_facts (⟨(i 0).val / 2000, hlt⟩ : Fin cfg4.N)
  refine ⟨⟨(i 0).val / 2000, hlt⟩, flush4_7 _, ?_⟩
  show i ∈ ((View.whole main_v51_0).slice (win4_7.rect ⟨(i 0).val / 2000, hlt⟩)).set
  rw [View.set_slice_whole, Rect.mem_set_unit]
  intro a
  match a with
  | ⟨0, _⟩ =>
    show win4_7.index ⟨(i 0).val / 2000, hlt⟩ (0 : Fin 2) * 2000 ≤ (i 0).val ∧ (i 0).val < win4_7.index ⟨(i 0).val / 2000, hlt⟩ (0 : Fin 2) * 2000 + 2000
    rw [e70]; show (i 0).val / 2000 * 2000 ≤ (i 0).val ∧ (i 0).val < (i 0).val / 2000 * 2000 + 2000; omega
  | ⟨1, _⟩ =>
    show win4_7.index ⟨(i 0).val / 2000, hlt⟩ (1 : Fin 2) * 1 ≤ (i 1).val ∧ (i 1).val < win4_7.index ⟨(i 0).val / 2000, hlt⟩ (1 : Fin 2) * 1 + 1
    rw [e71]; omega

/-- Every entry of output 8's array is in the block of the point its row falls in: row r in block r / 2000. -/
theorem cover_8 (i : S50000x1.Idx) : ∃ t : Fin cfg4.N, (cfg4.win 8).flush t = true ∧ i ∈ ((cfg4.win 8).blk t).view.set := by
  have hi0 : (i 0).val < 50000 := (i 0).isLt
  have hi1 : (i 1).val < 1 := (i 1).isLt
  have hN : cfg4.N = 25 := N_4
  have hlt : (i 0).val / 2000 < cfg4.N := by rw [hN]; omega
  obtain ⟨e00, e01, e10, e11, e20, e21, e30, e31, e40, e41, e50, e51, e60, e61, e70, e71, e80, e81⟩ := idx_facts (⟨(i 0).val / 2000, hlt⟩ : Fin cfg4.N)
  refine ⟨⟨(i 0).val / 2000, hlt⟩, flush4_8 _, ?_⟩
  show i ∈ ((View.whole main_v51_1).slice (win4_8.rect ⟨(i 0).val / 2000, hlt⟩)).set
  rw [View.set_slice_whole, Rect.mem_set_unit]
  intro a
  match a with
  | ⟨0, _⟩ =>
    show win4_8.index ⟨(i 0).val / 2000, hlt⟩ (0 : Fin 2) * 2000 ≤ (i 0).val ∧ (i 0).val < win4_8.index ⟨(i 0).val / 2000, hlt⟩ (0 : Fin 2) * 2000 + 2000
    rw [e80]; show (i 0).val / 2000 * 2000 ≤ (i 0).val ∧ (i 0).val < (i 0).val / 2000 * 2000 + 2000; omega
  | ⟨1, _⟩ =>
    show win4_8.index ⟨(i 0).val / 2000, hlt⟩ (1 : Fin 2) * 1 ≤ (i 1).val ∧ (i 1).val < win4_8.index ⟨(i 0).val / 2000, hlt⟩ (1 : Fin 2) * 1 + 1
    rw [e81]; omega

end Region4

/-! ## The arrays after the region -/

/-- Output 7's array after the last point is that function of the input arrays. -/
theorem final4_7 (c : Dev nD) : (dat4 (F := Ideal) V c).arrAt 7 cfg4.N = outFn4_7 (arr4_0 V c) (arr4_1 V c) (arr4_2 V c) (arr4_3 V c) (arr4_4 V c) (arr4_5 V c) :=
  (dat4 V c).arrAt_eq_of_cover 7 _ (fun t _ => Region4.flushed_7_eq V c t) Region4.cover_7

/-- Output 8's array after the last point likewise. -/
theorem final4_8 (c : Dev nD) : (dat4 (F := Ideal) V c).arrAt 8 cfg4.N = outFn4_8 (arr4_0 V c) (arr4_1 V c) (arr4_2 V c) (arr4_3 V c) (arr4_4 V c) (arr4_5 V c) (arr4_6 V c) :=
  (dat4 V c).arrAt_eq_of_cover 8 _ (fun t _ => Region4.flushed_8_eq V c t) Region4.cover_8

/-- Output 7 after the region, at entry (n, j): the activated row n of the first input against column j of the weight. -/
theorem value4_7 (c : Dev nD) (n : Fin 50000) (j : Fin 1) :
    (dat4 (F := Ideal) V c).arrAt 7 cfg4.N (ix2 n j)
      = ∑ k : Fin 128, Cert.GcnSpec.leaky (((arr4_0 V c) (ix2 n k) - (arr4_1 V c) (ix2 0 k)) * Ideal.rsqrt ((arr4_2 V c) (ix2 0 k) + Ideal.ofBits .f32 0x3727C5AC#32) * (arr4_3 V c) (ix2 0 k) + (arr4_4 V c) (ix2 0 k)) * (arr4_5 V c) (ix2 k j) :=
  congrFun (final4_7 V c) (ix2 n j)

/-- Output 8 after the region, at entry (n, j): output 7's entry times row n's entry of the last input. -/
theorem value4_8 (c : Dev nD) (n : Fin 50000) (j : Fin 1) :
    (dat4 (F := Ideal) V c).arrAt 8 cfg4.N (ix2 n j)
      = (∑ k : Fin 128, Cert.GcnSpec.leaky (((arr4_0 V c) (ix2 n k) - (arr4_1 V c) (ix2 0 k)) * Ideal.rsqrt ((arr4_2 V c) (ix2 0 k) + Ideal.ofBits .f32 0x3727C5AC#32) * (arr4_3 V c) (ix2 0 k) + (arr4_4 V c) (ix2 0 k)) * (arr4_5 V c) (ix2 k j)) * (arr4_6 V c) (ix2 n j) :=
  congrFun (final4_8 V c) (ix2 n j)

end Cert.KernelIdeal.HandValue
-- ==== Proof.KIValue5.lean ====
/- What region 5 leaves in its output array, at the exact (extended-real) instance, as one function of the region's
   four input arrays read at an index: entry (n, 0) is  d n · p n + q n · (d n · d n) + b,  where p, q, d are the columns
   of windows 0, 1, 2 and b the single entry of window 3. Each grid point writes back the 2000 rows of its block, and
   the 25 blocks tile the 50000 rows. -/
import proofs.«181351_j65970697667357_2_alg».proof.Proof.KIRegion5
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

-- the TensorCore's buffer contents when the region is entered, at the exact instance
variable (V : (c : Dev nD) → (b : Ref sig .tc) → Buf (Elt Ideal) ((c : Thread nD τ).loc b))

/-- The zero offsets of a whole-block access, as a constant function. -/
theorem zeros5 : (![0, 0] : Fin 2 → Nat) = fun _ => 0 := funext fun a => by fin_cases a <;> rfl

/-- The region's four input arrays as it finds them, each at its literal shape. -/
abbrev arr5_0 (c : Dev nD) : S50000x1.Idx → EReal := V c (Pipeline.arrRef spec5 0)
abbrev arr5_1 (c : Dev nD) : S50000x1.Idx → EReal := V c (Pipeline.arrRef spec5 1)
abbrev arr5_2 (c : Dev nD) : S50000x1.Idx → EReal := V c (Pipeline.arrRef spec5 2)
abbrev arr5_3 (c : Dev nD) : S1x1.Idx → EReal := V c (Pipeline.arrRef spec5 3)

/-- The output column as one function of the four input arrays, index by index, in the order the body computes it. -/
def col5 (a0 a1 a2 : S50000x1.Idx → EReal) (a3 : S1x1.Idx → EReal) : S50000x1.Idx → EReal :=
  fun i => a2 i * a0 i + a1 i * (a2 i * a2 i) + a3 (ix2 0 0)

/-- The body's payload at a row of the block: the casts to the same shape are identities, the products and sums are
    pointwise, and the broadcast of the one-entry block reads its entry. -/
theorem pay5_at (x0 x3 x6 : Vec Ideal S2000x1 .f32) (x10 : Vec Ideal S1x1 .f32) (y : S2000x1.Idx) :
    k5_pay1 x0 x3 x6 x10 y = x0 y * x3 y + x6 y * (x0 y * x0 y) + x10 (ix2 0 0) := by
  unfold k5_pay1
  simp only [shapeCast_self]
  show x0 y * x3 y + x6 y * (x0 y * x0 y) + broadcastTo S2000x1 x10 broadcasts_S1x1_S2000x1 y = _
  rw [broadcastTo_apply x10 broadcasts_S1x1_S2000x1 y (ix2 0 0) (fun a => by match a with | ⟨0, _⟩ => rfl | ⟨1, _⟩ => rfl)]

/-- The printed index maps, decided over the grid: windows 0, 1, 2 move with the output window, window 3 stays at
    its one block, and the output's block index is the grid point. -/
theorem idx_facts5 : ∀ t : Fin cfg5.N,
    win5_0.index t (0 : Fin 2) = win5_4.index t (0 : Fin 2) ∧ win5_0.index t (1 : Fin 2) = win5_4.index t (1 : Fin 2)
    ∧ win5_1.index t (0 : Fin 2) = win5_4.index t (0 : Fin 2) ∧ win5_1.index t (1 : Fin 2) = win5_4.index t (1 : Fin 2)
    ∧ win5_2.index t (0 : Fin 2) = win5_4.index t (0 : Fin 2) ∧ win5_2.index t (1 : Fin 2) = win5_4.index t (1 : Fin 2)
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Every block of rows is some point's. -/
theorem idx_onto5 : ∀ q : Fin 25, ∃ t : Fin cfg5.N, win5_4.index t = ![q.val, 0] :=
  (by decide +kernel : ∀ q : Fin 25, ∃ t : Fin grid5.N, win5_4.index t = ![q.val, 0])

/-- What point `t` writes back is block `t` of `col5` of the input arrays as the region finds them. -/
theorem flushed5_4_eq (c : Dev nD) (t : Fin cfg5.N) :
    (dat5 V c).flushed 4 t = ((cfg5.win 4).blk t).view.read (Elt Ideal)
      (col5 (arr5_0 V c) (arr5_1 V c) (arr5_2 V c) (arr5_3 V c)) := by
  show (cfg5.win 4).cut (grid5.coords t) ((dat5 V c).after 4 t) = _
  rw [after5_4]
  unfold out5_4
  rw [View.canon_unit_zero zeros5]
  simp only [View.ld_unit_zero (S := S2000x1) zeros5, View.ld_unit_zero (S := S1x1) zeros5]
  obtain ⟨e00, e01, e10, e11, e20, e21, e30, e31, e40, e41⟩ := idx_facts5 t
  funext j
  show k5_pay1 (iblk5 V c 2 t) (iblk5 V c 0 t) (iblk5 V c 1 t) (iblk5 V c 3 t) j = _
  refine (pay5_at (iblk5 V c 2 t) (iblk5 V c 0 t) (iblk5 V c 1 t) (iblk5 V c 3 t) j).trans ?_
  show arr5_2 V c (((cfg5.win 2).blk t).view.emb j) * arr5_0 V c (((cfg5.win 0).blk t).view.emb j)
      + arr5_1 V c (((cfg5.win 1).blk t).view.emb j)
        * (arr5_2 V c (((cfg5.win 2).blk t).view.emb j) * arr5_2 V c (((cfg5.win 2).blk t).view.emb j))
      + arr5_3 V c (((cfg5.win 3).blk t).view.emb (ix2 0 0))
    = arr5_2 V c (((cfg5.win 4).blk t).view.emb j) * arr5_0 V c (((cfg5.win 4).blk t).view.emb j)
      + arr5_1 V c (((cfg5.win 4).blk t).view.emb j)
        * (arr5_2 V c (((cfg5.win 4).blk t).view.emb j) * arr5_2 V c (((cfg5.win 4).blk t).view.emb j))
      + arr5_3 V c (ix2 0 0)
  have h0 : ((cfg5.win 0).blk t).view.emb j = ((cfg5.win 4).blk t).view.emb j := by
    funext a; apply Fin.ext
    match a with
    | ⟨0, _⟩ => show win5_0.index t (0 : Fin 2) * 2000 + 1 * (j 0).val = win5_4.index t (0 : Fin 2) * 2000 + 1 * (j 0).val; omega
    | ⟨1, _⟩ => show win5_0.index t (1 : Fin 2) * 1 + 1 * (j 1).val = win5_4.index t (1 : Fin 2) * 1 + 1 * (j 1).val; omega
  have h1 : ((cfg5.win 1).blk t).view.emb j = ((cfg5.win 4).blk t).view.emb j := by
    funext a; apply Fin.ext
    match a with
    | ⟨0, _⟩ => show win5_1.index t (0 : Fin 2) * 2000 + 1 * (j 0).val = win5_4.index t (0 : Fin 2) * 2000 + 1 * (j 0).val; omega
    | ⟨1, _⟩ => show win5_1.index t (1 : Fin 2) * 1 + 1 * (j 1).val = win5_4.index t (1 : Fin 2) * 1 + 1 * (j 1).val; omega
  have h2 : ((cfg5.win 2).blk t).view.emb j = ((cfg5.win 4).blk t).view.emb j := by
    funext a; apply Fin.ext
    match a with
    | ⟨0, _⟩ => show win5_2.index t (0 : Fin 2) * 2000 + 1 * (j 0).val = win5_4.index t (0 : Fin 2) * 2000 + 1 * (j 0).val; omega
    | ⟨1, _⟩ => show win5_2.index t (1 : Fin 2) * 1 + 1 * (j 1).val = win5_4.index t (1 : Fin 2) * 1 + 1 * (j 1).val; omega
  have h3 : ((cfg5.win 3).blk t).view.emb (ix2 0 0) = ix2 0 0 := by
    funext a; apply Fin.ext
    match a with
    | ⟨0, _⟩ => show win5_3.index t (0 : Fin 2) * 1 + 1 * 0 = 0; omega
    | ⟨1, _⟩ => show win5_3.index t (1 : Fin 2) * 1 + 1 * 0 = 0; omega
  rw [h0, h1, h2, h3]

/-- An index of the array is in point `t`'s block iff each coordinate is in the block's range on its axis. -/
theorem mem_blk5_4 (t : Fin cfg5.N) (i : S50000x1.Idx) :
    i ∈ ((cfg5.win 4).blk t).view.set ↔ ∀ a : Fin 2, win5_4.index t a * S2000x1.size a ≤ (i a).val ∧ (i a).val < win5_4.index t a * S2000x1.size a + S2000x1.size a := by
  show i ∈ ((View.whole main_v62).slice (win5_4.rect t)).set ↔ _
  rw [View.set_slice_whole, Rect.mem_set_unit]
  exact Iff.rfl

/-- Every index of the array is in some point's block: row `r` is in block `r / 2000`. -/
theorem cover5_4_arr (i : S50000x1.Idx) : ∃ t : Fin cfg5.N, (cfg5.win 4).flush t = true ∧ i ∈ ((cfg5.win 4).blk t).view.set := by
  have hi0 : (i 0).val < 50000 := (i 0).isLt
  have hi1 : (i 1).val < 1 := (i 1).isLt
  obtain ⟨t, ht⟩ := idx_onto5 ⟨(i 0).val / 2000, by omega⟩
  have q0 : win5_4.index t (0 : Fin 2) = (i 0).val / 2000 := congrFun ht 0
  have q1 : win5_4.index t (1 : Fin 2) = 0 := congrFun ht 1
  refine ⟨t, flush5_4 t, ?_⟩
  rw [mem_blk5_4]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 1 ≤ (i 1).val ∧ (i 1).val < win5_4.index t (1 : Fin 2) * 1 + 1; omega

/-- The output array after the region is `col5` of the input arrays as the region finds them. -/
theorem final5_4 (c : Dev nD) :
    (dat5 V c).arrAt 4 cfg5.N
      = col5 (arr5_0 V c) (arr5_1 V c) (arr5_2 V c) (arr5_3 V c) :=
  (dat5 V c).arrAt_eq_of_cover 4 _ (fun t _ => flushed5_4_eq V c t) cover5_4_arr

/-- Region 5's output array after the region, read at an entry. -/
theorem value5_4 (c : Dev nD) (n : Fin 50000) (j : Fin 1) :
    (dat5 (F := Ideal) V c).arrAt 4 cfg5.N (ix2 n j)
      = arr5_2 V c (ix2 n j) * arr5_0 V c (ix2 n j)
        + arr5_1 V c (ix2 n j)
          * (arr5_2 V c (ix2 n j) * arr5_2 V c (ix2 n j))
        + arr5_3 V c (ix2 0 0) :=
  congrFun (final5_4 V c) (ix2 n j)

end Cert.KernelIdeal.HandValue

end
-- ==== Proof.KIChain.lean ====
/-
  The kernel program's result, read back through its ten items. Between two items the buffers are at a named
  valuation; each host stretch and each kernel region has been read upstream as a plain function of the arrays it is
  entered with. Here the stages are composed bottom-up, one array equation per buffer a later item reads: the
  inverse square root degrees and the reshaped parameters after the first stretch, the product and its row scaling
  after region 0, the neighbourhood sums after the second stretch, the layer's output with its column means and
  variances after region 1, and so on to the last region's output column, which is the specification's network of the
  twelve argument arrays.
-/
import proofs.«181351_j65970697667357_2_alg».proof.Proof.KIRun
import proofs.«181351_j65970697667357_2_alg».proof.Proof.KIHost
import proofs.«181351_j65970697667357_2_alg».proof.Proof.GcnSpec
import proofs.«181351_j65970697667357_2_alg».proof.Proof.KIValue0
import proofs.«181351_j65970697667357_2_alg».proof.Proof.KIValue1
import proofs.«181351_j65970697667357_2_alg».proof.Proof.KIValue2
import proofs.«181351_j65970697667357_2_alg».proof.Proof.KIValue3
import proofs.«181351_j65970697667357_2_alg».proof.Proof.KIValue4
import proofs.«181351_j65970697667357_2_alg».proof.Proof.KIValue5

set_option maxRecDepth 16384

noncomputable section

namespace Cert.KernelIdeal.HandChain

open Cert.KernelIdeal Cert.KernelIdeal.Gen Cert.KernelIdeal.Hand Cert.KernelIdeal.HandHost Cert.KernelIdeal.HandValue
open Idealize.ShloMosaic Idealize.ShloMosaic.TcCoe Idealize.ShloMosaic.ValueIdx Idealize.SL.Sem
open Cert.GcnSpec (Mat Vct)

/-! ## The three scatter records and the stages of the network as plain functions of the argument arrays -/

abbrev dV : ScatterDims S50000 S800000x1 S800000 := scatter_S50000_S800000x1_S800000_n_0_0_1
abbrev dM : ScatterDims S50000x128 S800000x1 S800000x128 := scatter_S50000x128_S800000x1_S800000x128_1_0_0_1
abbrev d1 : ScatterDims S50000x1 S800000x1 S800000x1 := scatter_S50000x1_S800000x1_S800000x1_1_0_0_1

section Forms
variable (E : IVec S2x800000 32) (X : Mat 50000 128) (W1 : Mat 128 128) (B1 G1 Be1 : Vct 128)
  (W2 : Mat 128 128) (B2 G2 Be2 : Vct 128) (W3 : Mat 128 1) (B3 : Vct 1)

/-- The inverse square root degrees. -/
def dvF : Vct 50000 := Cert.GcnSpec.dinv dV (dstW E)
/-- One layer from its product: the neighbourhood sums of the pre-scaled product, then the layer's output. -/
def aggF {D : Nat} (dS : ScatterDims ⟨2, ![50000, D]⟩ ⟨2, ![800000, 1]⟩ ⟨2, ![800000, D]⟩) (P : Mat 50000 D) : Mat 50000 D :=
  Cert.GcnSpec.agg dS (srcW E) (dstC E) (Cert.GcnSpec.xws P (dvF E))
def layerF {D : Nat} (dS : ScatterDims ⟨2, ![50000, D]⟩ ⟨2, ![800000, 1]⟩ ⟨2, ![800000, D]⟩) (P : Mat 50000 D) (B : Vct D) : Mat 50000 D :=
  Cert.GcnSpec.conv P (dvF E) (aggF E dS P) B
/-- Normalise with the array's own column statistics, scale, shift, rectify. -/
def bnF (H : Mat 50000 128) (G Be : Vct 128) : Mat 50000 128 :=
  Cert.GcnSpec.act H (Cert.GcnSpec.mean H) (Cert.GcnSpec.var H) G Be

def h1F : Mat 50000 128 := layerF E dM (Cert.GcnSpec.xw X W1) B1
def h2F : Mat 50000 128 := layerF E dM (Cert.GcnSpec.xw (bnF (h1F E X W1 B1) G1 Be1) W2) B2
def outF : Mat 50000 1 := layerF E d1 (Cert.GcnSpec.xw (bnF (h2F E X W1 B1 G1 Be1 W2 B2) G2 Be2) W3) B3

/-- The stages composed are the specification's network. -/
theorem outF_eq :
    outF E X W1 B1 G1 Be1 W2 B2 G2 Be2 W3 B3
      = Cert.GcnSpec.result dV dM d1 (srcW E) (dstW E) (dstC E) X W1 B1 G1 Be1 W2 B2 G2 Be2 W3 B3 := rfl

end Forms

variable (m : (ℓ : Loc nD τ sig) → Buf (Elt Ideal) ℓ) (ρ : Dev nD → PrngReg) (c : Dev nD)

/-! ## The argument arrays as launched, each at its literal type -/

abbrev ei : IVec S2x800000 32 := m ((c.tc : Thread nD τ).loc main_arg1)
abbrev x0 : S50000x128.Idx → EReal := m ((c.tc : Thread nD τ).loc main_arg0)
abbrev w1 : S128x128.Idx → EReal := m ((c.tc : Thread nD τ).loc main_arg2)
abbrev b1 : S128.Idx → EReal := m ((c.tc : Thread nD τ).loc main_arg3)
abbrev g1 : S128.Idx → EReal := m ((c.tc : Thread nD τ).loc main_arg4)
abbrev be1 : S128.Idx → EReal := m ((c.tc : Thread nD τ).loc main_arg5)
abbrev w2 : S128x128.Idx → EReal := m ((c.tc : Thread nD τ).loc main_arg6)
abbrev b2 : S128.Idx → EReal := m ((c.tc : Thread nD τ).loc main_arg7)
abbrev g2 : S128.Idx → EReal := m ((c.tc : Thread nD τ).loc main_arg8)
abbrev be2 : S128.Idx → EReal := m ((c.tc : Thread nD τ).loc main_arg9)
abbrev w3 : S128x1.Idx → EReal := m ((c.tc : Thread nD τ).loc main_arg10)
abbrev b3 : S1.Idx → EReal := m ((c.tc : Thread nD τ).loc main_arg11)

/-! ## After the first host stretch -/

theorem dinv_1 : (W1 (F := Ideal) m ρ c (Proc.devRef .tc main_v16) : S50000x1.Idx → EReal) = fun i => dvF (ei m c) (ix1 (i 0)) :=
  host0_dinv (W0 m ρ c)
theorem src_1 : (W1 (F := Ideal) m ρ c (Proc.devRef .tc main_v1) : S800000.Idx → BitVec 32) = srcRow (ei m c) := host0_v1 (W0 m ρ c)
theorem dst_1 : (W1 (F := Ideal) m ρ c (Proc.devRef .tc main_v3) : S800000.Idx → BitVec 32) = dstRow (ei m c) := host0_v3 (W0 m ρ c)
theorem x_1 : (W1 (F := Ideal) m ρ c (Proc.devRef .tc main_arg0) : S50000x128.Idx → EReal) = x0 m c :=
  (host_keeps hostOps0 hostOps0_W _ hostOps0_writes main_arg0 (by decide)).trans rfl
theorem w1_1 : (W1 (F := Ideal) m ρ c (Proc.devRef .tc main_v17) : S128x128.Idx → EReal) = w1 m c := host0_v17 (W0 m ρ c)
theorem w2_1 : (W1 (F := Ideal) m ρ c (Proc.devRef .tc main_v18) : S128x128.Idx → EReal) = w2 m c := host0_v18 (W0 m ρ c)
theorem w3_1 : (W1 (F := Ideal) m ρ c (Proc.devRef .tc main_v19) : S128x1.Idx → EReal) = w3 m c := host0_v19 (W0 m ρ c)
theorem b1_1 : (W1 (F := Ideal) m ρ c (Proc.devRef .tc main_v20) : S1x128.Idx → EReal) = fun i => b1 m c (ix1 (i 1)) := host0_v20 (W0 m ρ c)
theorem b2_1 : (W1 (F := Ideal) m ρ c (Proc.devRef .tc main_v21) : S1x128.Idx → EReal) = fun i => b2 m c (ix1 (i 1)) := host0_v21 (W0 m ρ c)
theorem b3_1 : (W1 (F := Ideal) m ρ c (Proc.devRef .tc main_v22) : S1x1.Idx → EReal) = fun i => b3 m c (ix1 (i 1)) := host0_v22 (W0 m ρ c)
theorem g1_1 : (W1 (F := Ideal) m ρ c (Proc.devRef .tc main_v23) : S1x128.Idx → EReal) = fun i => g1 m c (ix1 (i 1)) := host0_v23 (W0 m ρ c)
theorem be1_1 : (W1 (F := Ideal) m ρ c (Proc.devRef .tc main_v24) : S1x128.Idx → EReal) = fun i => be1 m c (ix1 (i 1)) := host0_v24 (W0 m ρ c)
theorem g2_1 : (W1 (F := Ideal) m ρ c (Proc.devRef .tc main_v25) : S1x128.Idx → EReal) = fun i => g2 m c (ix1 (i 1)) := host0_v25 (W0 m ρ c)
theorem be2_1 : (W1 (F := Ideal) m ρ c (Proc.devRef .tc main_v26) : S1x128.Idx → EReal) = fun i => be2 m c (ix1 (i 1)) := host0_v26 (W0 m ρ c)

/-! ## Buffers no item between two boundaries writes -/

theorem keep_main_v16_3 : W3 m ρ c (Proc.devRef .tc main_v16) = W1 m ρ c (Proc.devRef .tc main_v16) :=
  (host_keeps hostOps1 hostOps1_W _ hostOps1_writes main_v16 (by decide)).trans <| (W2_in m ρ c 2 rfl)
theorem keep_main_v16_4 : W4 m ρ c (Proc.devRef .tc main_v16) = W1 m ρ c (Proc.devRef .tc main_v16) :=
  (W4_in m ρ c 2 rfl).trans <| (host_keeps hostOps1 hostOps1_W _ hostOps1_writes main_v16 (by decide)).trans <| (W2_in m ρ c 2 rfl)
theorem keep_main_v16_6 : W6 m ρ c (Proc.devRef .tc main_v16) = W1 m ρ c (Proc.devRef .tc main_v16) :=
  (host_keeps hostOps3 hostOps3_W _ hostOps3_writes main_v16 (by decide)).trans <| (W5_in m ρ c 6 rfl).trans <| (W4_in m ρ c 2 rfl).trans <| (host_keeps hostOps1 hostOps1_W _ hostOps1_writes main_v16 (by decide)).trans <| (W2_in m ρ c 2 rfl)
theorem keep_main_v16_7 : W7 m ρ c (Proc.devRef .tc main_v16) = W1 m ρ c (Proc.devRef .tc main_v16) :=
  (W7_in m ρ c 2 rfl).trans <| (host_keeps hostOps3 hostOps3_W _ hostOps3_writes main_v16 (by decide)).trans <| (W5_in m ρ c 6 rfl).trans <| (W4_in m ρ c 2 rfl).trans <| (host_keeps hostOps1 hostOps1_W _ hostOps1_writes main_v16 (by decide)).trans <| (W2_in m ρ c 2 rfl)
theorem keep_main_v16_9 : W9 m ρ c (Proc.devRef .tc main_v16) = W1 m ρ c (Proc.devRef .tc main_v16) :=
  (host_keeps hostOps5 hostOps5_W _ hostOps5_writes main_v16 (by decide)).trans <| (W8_in m ρ c 6 rfl).trans <| (W7_in m ρ c 2 rfl).trans <| (host_keeps hostOps3 hostOps3_W _ hostOps3_writes main_v16 (by decide)).trans <| (W5_in m ρ c 6 rfl).trans <| (W4_in m ρ c 2 rfl).trans <| (host_keeps hostOps1 hostOps1_W _ hostOps1_writes main_v16 (by decide)).trans <| (W2_in m ρ c 2 rfl)
theorem keep_main_v1_2 : W2 m ρ c (Proc.devRef .tc main_v1) = W1 m ρ c (Proc.devRef .tc main_v1) :=
  (W2_of_ne m ρ c main_v1 (by decide))
theorem keep_main_v3_2 : W2 m ρ c (Proc.devRef .tc main_v3) = W1 m ρ c (Proc.devRef .tc main_v3) :=
  (W2_of_ne m ρ c main_v3 (by decide))
theorem keep_main_v1_5 : W5 m ρ c (Proc.devRef .tc main_v1) = W1 m ρ c (Proc.devRef .tc main_v1) :=
  (W5_of_ne m ρ c main_v1 (by decide)).trans <| (W4_of_ne m ρ c main_v1 (by decide)).trans <| (host_keeps hostOps1 hostOps1_W _ hostOps1_writes main_v1 (by decide)).trans <| (W2_of_ne m ρ c main_v1 (by decide))
theorem keep_main_v3_5 : W5 m ρ c (Proc.devRef .tc main_v3) = W1 m ρ c (Proc.devRef .tc main_v3) :=
  (W5_of_ne m ρ c main_v3 (by decide)).trans <| (W4_of_ne m ρ c main_v3 (by decide)).trans <| (host_keeps hostOps1 hostOps1_W _ hostOps1_writes main_v3 (by decide)).trans <| (W2_of_ne m ρ c main_v3 (by decide))
theorem keep_main_v1_8 : W8 m ρ c (Proc.devRef .tc main_v1) = W1 m ρ c (Proc.devRef .tc main_v1) :=
  (W8_of_ne m ρ c main_v1 (by decide)).trans <| (W7_of_ne m ρ c main_v1 (by decide)).trans <| (host_keeps hostOps3 hostOps3_W _ hostOps3_writes main_v1 (by decide)).trans <| (W5_of_ne m ρ c main_v1 (by decide)).trans <| (W4_of_ne m ρ c main_v1 (by decide)).trans <| (host_keeps hostOps1 hostOps1_W _ hostOps1_writes main_v1 (by decide)).trans <| (W2_of_ne m ρ c main_v1 (by decide))
theorem keep_main_v3_8 : W8 m ρ c (Proc.devRef .tc main_v3) = W1 m ρ c (Proc.devRef .tc main_v3) :=
  (W8_of_ne m ρ c main_v3 (by decide)).trans <| (W7_of_ne m ρ c main_v3 (by decide)).trans <| (host_keeps hostOps3 hostOps3_W _ hostOps3_writes main_v3 (by decide)).trans <| (W5_of_ne m ρ c main_v3 (by decide)).trans <| (W4_of_ne m ρ c main_v3 (by decide)).trans <| (host_keeps hostOps1 hostOps1_W _ hostOps1_writes main_v3 (by decide)).trans <| (W2_of_ne m ρ c main_v3 (by decide))
theorem keep_main_v20_3 : W3 m ρ c (Proc.devRef .tc main_v20) = W1 m ρ c (Proc.devRef .tc main_v20) :=
  (host_keeps hostOps1 hostOps1_W _ hostOps1_writes main_v20 (by decide)).trans <| (W2_of_ne m ρ c main_v20 (by decide))
theorem keep_main_v23_4 : W4 m ρ c (Proc.devRef .tc main_v23) = W1 m ρ c (Proc.devRef .tc main_v23) :=
  (W4_of_ne m ρ c main_v23 (by decide)).trans <| (host_keeps hostOps1 hostOps1_W _ hostOps1_writes main_v23 (by decide)).trans <| (W2_of_ne m ρ c main_v23 (by decide))
theorem keep_main_v24_4 : W4 m ρ c (Proc.devRef .tc main_v24) = W1 m ρ c (Proc.devRef .tc main_v24) :=
  (W4_of_ne m ρ c main_v24 (by decide)).trans <| (host_keeps hostOps1 hostOps1_W _ hostOps1_writes main_v24 (by decide)).trans <| (W2_of_ne m ρ c main_v24 (by decide))
theorem keep_main_v18_4 : W4 m ρ c (Proc.devRef .tc main_v18) = W1 m ρ c (Proc.devRef .tc main_v18) :=
  (W4_of_ne m ρ c main_v18 (by decide)).trans <| (host_keeps hostOps1 hostOps1_W _ hostOps1_writes main_v18 (by decide)).trans <| (W2_of_ne m ρ c main_v18 (by decide))
theorem keep_main_v21_6 : W6 m ρ c (Proc.devRef .tc main_v21) = W1 m ρ c (Proc.devRef .tc main_v21) :=
  (host_keeps hostOps3 hostOps3_W _ hostOps3_writes main_v21 (by decide)).trans <| (W5_of_ne m ρ c main_v21 (by decide)).trans <| (W4_of_ne m ρ c main_v21 (by decide)).trans <| (host_keeps hostOps1 hostOps1_W _ hostOps1_writes main_v21 (by decide)).trans <| (W2_of_ne m ρ c main_v21 (by decide))
theorem keep_main_v25_7 : W7 m ρ c (Proc.devRef .tc main_v25) = W1 m ρ c (Proc.devRef .tc main_v25) :=
  (W7_of_ne m ρ c main_v25 (by decide)).trans <| (host_keeps hostOps3 hostOps3_W _ hostOps3_writes main_v25 (by decide)).trans <| (W5_of_ne m ρ c main_v25 (by decide)).trans <| (W4_of_ne m ρ c main_v25 (by decide)).trans <| (host_keeps hostOps1 hostOps1_W _ hostOps1_writes main_v25 (by decide)).trans <| (W2_of_ne m ρ c main_v25 (by decide))
theorem keep_main_v26_7 : W7 m ρ c (Proc.devRef .tc main_v26) = W1 m ρ c (Proc.devRef .tc main_v26) :=
  (W7_of_ne m ρ c main_v26 (by decide)).trans <| (host_keeps hostOps3 hostOps3_W _ hostOps3_writes main_v26 (by decide)).trans <| (W5_of_ne m ρ c main_v26 (by decide)).trans <| (W4_of_ne m ρ c main_v26 (by decide)).trans <| (host_keeps hostOps1 hostOps1_W _ hostOps1_writes main_v26 (by decide)).trans <| (W2_of_ne m ρ c main_v26 (by decide))
theorem keep_main_v19_7 : W7 m ρ c (Proc.devRef .tc main_v19) = W1 m ρ c (Proc.devRef .tc main_v19) :=
  (W7_of_ne m ρ c main_v19 (by decide)).trans <| (host_keeps hostOps3 hostOps3_W _ hostOps3_writes main_v19 (by decide)).trans <| (W5_of_ne m ρ c main_v19 (by decide)).trans <| (W4_of_ne m ρ c main_v19 (by decide)).trans <| (host_keeps hostOps1 hostOps1_W _ hostOps1_writes main_v19 (by decide)).trans <| (W2_of_ne m ρ c main_v19 (by decide))
theorem keep_main_v22_9 : W9 m ρ c (Proc.devRef .tc main_v22) = W1 m ρ c (Proc.devRef .tc main_v22) :=
  (host_keeps hostOps5 hostOps5_W _ hostOps5_writes main_v22 (by decide)).trans <| (W8_of_ne m ρ c main_v22 (by decide)).trans <| (W7_of_ne m ρ c main_v22 (by decide)).trans <| (host_keeps hostOps3 hostOps3_W _ hostOps3_writes main_v22 (by decide)).trans <| (W5_of_ne m ρ c main_v22 (by decide)).trans <| (W4_of_ne m ρ c main_v22 (by decide)).trans <| (host_keeps hostOps1 hostOps1_W _ hostOps1_writes main_v22 (by decide)).trans <| (W2_of_ne m ρ c main_v22 (by decide))
theorem keep_main_v27_0_3 : W3 m ρ c (Proc.devRef .tc main_v27_0) = W2 m ρ c (Proc.devRef .tc main_v27_0) :=
  (host_keeps hostOps1 hostOps1_W _ hostOps1_writes main_v27_0 (by decide))
theorem keep_main_v39_0_6 : W6 m ρ c (Proc.devRef .tc main_v39_0) = W5 m ρ c (Proc.devRef .tc main_v39_0) :=
  (host_keeps hostOps3 hostOps3_W _ hostOps3_writes main_v39_0 (by decide))
theorem keep_main_v51_0_9 : W9 m ρ c (Proc.devRef .tc main_v51_0) = W8 m ρ c (Proc.devRef .tc main_v51_0) :=
  (host_keeps hostOps5 hostOps5_W _ hostOps5_writes main_v51_0 (by decide))

/-! ## The regions' output functions against the specification's stages

Each region's output array is stated upstream as a plain function of its input arrays. A one-dimensional parameter
reaches a region as a one-row matrix and the degrees as a one-column matrix; read that way, each output function is
one of the specification's stages. -/

theorem prod0_spec (a0 : S50000x128.Idx → EReal) (a1 : S128x128.Idx → EReal) : prod0 a0 a1 = Cert.GcnSpec.xw a0 a1 := rfl

theorem scaled0_spec (a0 : S50000x128.Idx → EReal) (a1 : S128x128.Idx → EReal) (dv : Vct 50000) :
    scaled0 a0 a1 (fun i => dv (ix1 (i 0))) = Cert.GcnSpec.xws (Cert.GcnSpec.xw a0 a1) dv := rfl

theorem outFn1_4_spec (A P : Mat 50000 128) (dv : Vct 50000) (B : Vct 128) :
    outFn1_4 A P (fun i => dv (ix1 (i 0))) (fun i => B (ix1 (i 1))) = Cert.GcnSpec.conv P dv A B := rfl
theorem outFn1_5_spec (A P : Mat 50000 128) (dv : Vct 50000) (B : Vct 128) :
    outFn1_5 A P (fun i => dv (ix1 (i 0))) (fun i => B (ix1 (i 1))) = fun i => Cert.GcnSpec.mean (Cert.GcnSpec.conv P dv A B) (ix1 (i 1)) := rfl
theorem outFn1_6_spec (A P : Mat 50000 128) (dv : Vct 50000) (B : Vct 128) :
    outFn1_6 A P (fun i => dv (ix1 (i 0))) (fun i => B (ix1 (i 1))) = fun i => Cert.GcnSpec.var (Cert.GcnSpec.conv P dv A B) (ix1 (i 1)) := rfl
theorem outFn3_4_spec (A P : Mat 50000 128) (dv : Vct 50000) (B : Vct 128) :
    outFn3_4 A P (fun i => dv (ix1 (i 0))) (fun i => B (ix1 (i 1))) = Cert.GcnSpec.conv P dv A B := rfl
theorem outFn3_5_spec (A P : Mat 50000 128) (dv : Vct 50000) (B : Vct 128) :
    outFn3_5 A P (fun i => dv (ix1 (i 0))) (fun i => B (ix1 (i 1))) = fun i => Cert.GcnSpec.mean (Cert.GcnSpec.conv P dv A B) (ix1 (i 1)) := rfl
theorem outFn3_6_spec (A P : Mat 50000 128) (dv : Vct 50000) (B : Vct 128) :
    outFn3_6 A P (fun i => dv (ix1 (i 0))) (fun i => B (ix1 (i 1))) = fun i => Cert.GcnSpec.var (Cert.GcnSpec.conv P dv A B) (ix1 (i 1)) := rfl

theorem col5_spec (P A : Mat 50000 1) (dv : Vct 50000) (B : Vct 1) :
    col5 A P (fun i => dv (ix1 (i 0))) (fun i => B (ix1 (i 1))) = Cert.GcnSpec.conv P dv A B := by
  funext i
  have hi : i 1 = (0 : Fin 1) := by
    apply Fin.ext
    have h := idx2_lt1 i
    show (i 1).val = 0
    omega
  unfold col5 Cert.GcnSpec.conv
  rw [hi]

theorem outFn2_7_spec (H : Mat 50000 128) (mu v g be : Vct 128) (Wt : Mat 128 128) :
    outFn2_7 H (fun i => mu (ix1 (i 1))) (fun i => v (ix1 (i 1))) (fun i => g (ix1 (i 1))) (fun i => be (ix1 (i 1))) Wt
      = Cert.GcnSpec.xw (Cert.GcnSpec.act H mu v g be) Wt := rfl
theorem outFn2_8_spec (H : Mat 50000 128) (mu v g be : Vct 128) (Wt : Mat 128 128) (dv : Vct 50000) :
    outFn2_8 H (fun i => mu (ix1 (i 1))) (fun i => v (ix1 (i 1))) (fun i => g (ix1 (i 1))) (fun i => be (ix1 (i 1))) Wt (fun i => dv (ix1 (i 0)))
      = Cert.GcnSpec.xws (Cert.GcnSpec.xw (Cert.GcnSpec.act H mu v g be) Wt) dv := rfl
theorem outFn4_7_spec (H : Mat 50000 128) (mu v g be : Vct 128) (Wt : Mat 128 1) :
    outFn4_7 H (fun i => mu (ix1 (i 1))) (fun i => v (ix1 (i 1))) (fun i => g (ix1 (i 1))) (fun i => be (ix1 (i 1))) Wt
      = Cert.GcnSpec.xw (Cert.GcnSpec.act H mu v g be) Wt := rfl
theorem outFn4_8_spec (H : Mat 50000 128) (mu v g be : Vct 128) (Wt : Mat 128 1) (dv : Vct 50000) :
    outFn4_8 H (fun i => mu (ix1 (i 1))) (fun i => v (ix1 (i 1))) (fun i => g (ix1 (i 1))) (fun i => be (ix1 (i 1))) Wt (fun i => dv (ix1 (i 0)))
      = Cert.GcnSpec.xws (Cert.GcnSpec.xw (Cert.GcnSpec.act H mu v g be) Wt) dv := rfl

/-! ## Region 0: the first product and its row scaling -/

theorem xw_2 : (W2 m ρ c (Proc.devRef .tc main_v27_0) : S50000x128.Idx → EReal) = Cert.GcnSpec.xw (x0 m c) (w1 m c) := by
  refine (W2_arr m ρ c 3).trans ((final0_3 (V1 m ρ) c).trans ?_)
  rw [show arr0_0 (V1 m ρ) c = x0 m c from x_1 m ρ c, show arr0_1 (V1 m ρ) c = w1 m c from w1_1 m ρ c]
  exact prod0_spec (x0 m c) (w1 m c)
theorem xws_2 : (W2 m ρ c (Proc.devRef .tc main_v27_1) : S50000x128.Idx → EReal)
    = Cert.GcnSpec.xws (Cert.GcnSpec.xw (x0 m c) (w1 m c)) (dvF (ei m c)) := by
  refine (W2_arr m ρ c 4).trans ((final0_4 (V1 m ρ) c).trans ?_)
  rw [show arr0_0 (V1 m ρ) c = x0 m c from x_1 m ρ c, show arr0_1 (V1 m ρ) c = w1 m c from w1_1 m ρ c,
    show arr0_2 (V1 m ρ) c = (fun i => dvF (ei m c) (ix1 (i 0))) from dinv_1 m ρ c]
  exact scaled0_spec (x0 m c) (w1 m c) (dvF (ei m c))

/-! ## The gather-and-scatter stretches -/

theorem agg_3 : (W3 (F := Ideal) m ρ c (Proc.devRef .tc main_v37) : S50000x128.Idx → EReal)
    = aggF (ei m c) dM (Cert.GcnSpec.xw (x0 m c) (w1 m c)) := by
  have h := host1_agg (W2 m ρ c)
  rw [show (W2 m ρ c (Proc.devRef .tc main_v1) : S800000.Idx → BitVec 32) = srcRow (ei m c) from (keep_main_v1_2 m ρ c).trans (src_1 m ρ c),
    show (W2 m ρ c (Proc.devRef .tc main_v3) : S800000.Idx → BitVec 32) = dstRow (ei m c) from (keep_main_v3_2 m ρ c).trans (dst_1 m ρ c),
    xws_2 m ρ c] at h
  exact h

/-! ## Region 1: the layer's output and its column statistics -/

theorem in1_0 : arr1_0 (V3 m ρ) c = aggF (ei m c) dM (Cert.GcnSpec.xw (x0 m c) (w1 m c)) := agg_3 m ρ c
theorem in1_1 : arr1_1 (V3 m ρ) c = Cert.GcnSpec.xw (x0 m c) (w1 m c) := (keep_main_v27_0_3 m ρ c).trans (xw_2 m ρ c)
theorem in1_2 : arr1_2 (V3 m ρ) c = (fun i => dvF (ei m c) (ix1 (i 0))) := (keep_main_v16_3 m ρ c).trans (dinv_1 m ρ c)
theorem in1_3 : arr1_3 (V3 m ρ) c = (fun i => b1 m c (ix1 (i 1))) := (keep_main_v20_3 m ρ c).trans (b1_1 m ρ c)

theorem h_4 : (W4 m ρ c (Proc.devRef .tc main_v38_0) : S50000x128.Idx → EReal) = h1F (ei m c) (x0 m c) (w1 m c) (b1 m c) := by
  refine (W4_arr m ρ c 4).trans ((layer1_final (V3 m ρ) c).trans ?_)
  show outFn1_4 (arr1_0 (V3 m ρ) c) (arr1_1 (V3 m ρ) c) (arr1_2 (V3 m ρ) c) (arr1_3 (V3 m ρ) c) = _
  rw [in1_0, in1_1, in1_2, in1_3]
  exact outFn1_4_spec (aggF (ei m c) dM (Cert.GcnSpec.xw (x0 m c) (w1 m c))) (Cert.GcnSpec.xw (x0 m c) (w1 m c)) (dvF (ei m c)) (b1 m c)
theorem mean_4 : (W4 m ρ c (Proc.devRef .tc main_v38_1) : S1x128.Idx → EReal)
    = fun i => Cert.GcnSpec.mean (h1F (ei m c) (x0 m c) (w1 m c) (b1 m c)) (ix1 (i 1)) := by
  refine (W4_arr m ρ c 5).trans ((final1_5 (V3 m ρ) c).trans ?_)
  show outFn1_5 (arr1_0 (V3 m ρ) c) (arr1_1 (V3 m ρ) c) (arr1_2 (V3 m ρ) c) (arr1_3 (V3 m ρ) c) = _
  rw [in1_0, in1_1, in1_2, in1_3]
  exact outFn1_5_spec (aggF (ei m c) dM (Cert.GcnSpec.xw (x0 m c) (w1 m c))) (Cert.GcnSpec.xw (x0 m c) (w1 m c)) (dvF (ei m c)) (b1 m c)
theorem var_4 : (W4 m ρ c (Proc.devRef .tc main_v38_2) : S1x128.Idx → EReal)
    = fun i => Cert.GcnSpec.var (h1F (ei m c) (x0 m c) (w1 m c) (b1 m c)) (ix1 (i 1)) := by
  refine (W4_arr m ρ c 6).trans ((final1_6 (V3 m ρ) c).trans ?_)
  show outFn1_6 (arr1_0 (V3 m ρ) c) (arr1_1 (V3 m ρ) c) (arr1_2 (V3 m ρ) c) (arr1_3 (V3 m ρ) c) = _
  rw [in1_0, in1_1, in1_2, in1_3]
  exact outFn1_6_spec (aggF (ei m c) dM (Cert.GcnSpec.xw (x0 m c) (w1 m c))) (Cert.GcnSpec.xw (x0 m c) (w1 m c)) (dvF (ei m c)) (b1 m c)

/-! ## Region 2: normalise with the column statistics, rectify, multiply by the next weights; and the row scaling -/

theorem in2_0 : arr2_0 (V4 m ρ) c = h1F (ei m c) (x0 m c) (w1 m c) (b1 m c) := h_4 m ρ c
theorem in2_1 : arr2_1 (V4 m ρ) c = fun i => Cert.GcnSpec.mean (h1F (ei m c) (x0 m c) (w1 m c) (b1 m c)) (ix1 (i 1)) := mean_4 m ρ c
theorem in2_2 : arr2_2 (V4 m ρ) c = fun i => Cert.GcnSpec.var (h1F (ei m c) (x0 m c) (w1 m c) (b1 m c)) (ix1 (i 1)) := var_4 m ρ c
theorem in2_3 : arr2_3 (V4 m ρ) c = fun i => g1 m c (ix1 (i 1)) := (keep_main_v23_4 m ρ c).trans (g1_1 m ρ c)
theorem in2_4 : arr2_4 (V4 m ρ) c = fun i => be1 m c (ix1 (i 1)) := (keep_main_v24_4 m ρ c).trans (be1_1 m ρ c)
theorem in2_5 : arr2_5 (V4 m ρ) c = w2 m c := (keep_main_v18_4 m ρ c).trans (w2_1 m ρ c)
theorem in2_6 : arr2_6 (V4 m ρ) c = fun i => dvF (ei m c) (ix1 (i 0)) := (keep_main_v16_4 m ρ c).trans (dinv_1 m ρ c)

theorem xw_5 : (W5 m ρ c (Proc.devRef .tc main_v39_0) : S50000x128.Idx → EReal) = Cert.GcnSpec.xw (bnF (h1F (ei m c) (x0 m c) (w1 m c) (b1 m c)) (g1 m c) (be1 m c)) (w2 m c) := by
  refine (W5_arr m ρ c 7).trans ((final2_7 (V4 m ρ) c).trans ?_)
  rw [in2_0, in2_1, in2_2, in2_3, in2_4, in2_5]
  exact outFn2_7_spec (h1F (ei m c) (x0 m c) (w1 m c) (b1 m c)) (Cert.GcnSpec.mean (h1F (ei m c) (x0 m c) (w1 m c) (b1 m c))) (Cert.GcnSpec.var (h1F (ei m c) (x0 m c) (w1 m c) (b1 m c))) (g1 m c) (be1 m c) (w2 m c)
theorem xws_5 : (W5 m ρ c (Proc.devRef .tc main_v39_1) : S50000x128.Idx → EReal)
    = Cert.GcnSpec.xws (Cert.GcnSpec.xw (bnF (h1F (ei m c) (x0 m c) (w1 m c) (b1 m c)) (g1 m c) (be1 m c)) (w2 m c)) (dvF (ei m c)) := by
  refine (W5_arr m ρ c 8).trans ((final2_8 (V4 m ρ) c).trans ?_)
  rw [in2_0, in2_1, in2_2, in2_3, in2_4, in2_5, in2_6]
  exact outFn2_8_spec (h1F (ei m c) (x0 m c) (w1 m c) (b1 m c)) (Cert.GcnSpec.mean (h1F (ei m c) (x0 m c) (w1 m c) (b1 m c))) (Cert.GcnSpec.var (h1F (ei m c) (x0 m c) (w1 m c) (b1 m c))) (g1 m c) (be1 m c) (w2 m c) (dvF (ei m c))

theorem agg_6 : (W6 (F := Ideal) m ρ c (Proc.devRef .tc main_v49) : S50000x128.Idx → EReal)
    = aggF (ei m c) dM (Cert.GcnSpec.xw (bnF (h1F (ei m c) (x0 m c) (w1 m c) (b1 m c)) (g1 m c) (be1 m c)) (w2 m c)) := by
  have h := host3_agg (W5 m ρ c)
  rw [show (W5 m ρ c (Proc.devRef .tc main_v1) : S800000.Idx → BitVec 32) = srcRow (ei m c) from (keep_main_v1_5 m ρ c).trans (src_1 m ρ c),
    show (W5 m ρ c (Proc.devRef .tc main_v3) : S800000.Idx → BitVec 32) = dstRow (ei m c) from (keep_main_v3_5 m ρ c).trans (dst_1 m ρ c),
    xws_5 m ρ c] at h
  exact h

/-! ## Region 3: the layer's output and its column statistics -/

theorem in3_0 : arr3_0 (V6 m ρ) c = aggF (ei m c) dM (Cert.GcnSpec.xw (bnF (h1F (ei m c) (x0 m c) (w1 m c) (b1 m c)) (g1 m c) (be1 m c)) (w2 m c)) := agg_6 m ρ c
theorem in3_1 : arr3_1 (V6 m ρ) c = Cert.GcnSpec.xw (bnF (h1F (ei m c) (x0 m c) (w1 m c) (b1 m c)) (g1 m c) (be1 m c)) (w2 m c) := (keep_main_v39_0_6 m ρ c).trans (xw_5 m ρ c)
theorem in3_2 : arr3_2 (V6 m ρ) c = (fun i => dvF (ei m c) (ix1 (i 0))) := (keep_main_v16_6 m ρ c).trans (dinv_1 m ρ c)
theorem in3_3 : arr3_3 (V6 m ρ) c = (fun i => b2 m c (ix1 (i 1))) := (keep_main_v21_6 m ρ c).trans (b2_1 m ρ c)

theorem h_7 : (W7 m ρ c (Proc.devRef .tc main_v50_0) : S50000x128.Idx → EReal) = h2F (ei m c) (x0 m c) (w1 m c) (b1 m c) (g1 m c) (be1 m c) (w2 m c) (b2 m c) := by
  refine (W7_arr m ρ c 4).trans ((layer3_final (V6 m ρ) c).trans ?_)
  show outFn3_4 (arr3_0 (V6 m ρ) c) (arr3_1 (V6 m ρ) c) (arr3_2 (V6 m ρ) c) (arr3_3 (V6 m ρ) c) = _
  rw [in3_0, in3_1, in3_2, in3_3]
  exact outFn3_4_spec (aggF (ei m c) dM (Cert.GcnSpec.xw (bnF (h1F (ei m c) (x0 m c) (w1 m c) (b1 m c)) (g1 m c) (be1 m c)) (w2 m c))) (Cert.GcnSpec.xw (bnF (h1F (ei m c) (x0 m c) (w1 m c) (b1 m c)) (g1 m c) (be1 m c)) (w2 m c)) (dvF (ei m c)) (b2 m c)
theorem mean_7 : (W7 m ρ c (Proc.devRef .tc main_v50_1) : S1x128.Idx → EReal)
    = fun i => Cert.GcnSpec.mean (h2F (ei m c) (x0 m c) (w1 m c) (b1 m c) (g1 m c) (be1 m c) (w2 m c) (b2 m c)) (ix1 (i 1)) := by
  refine (W7_arr m ρ c 5).trans ((final3_5 (V6 m ρ) c).trans ?_)
  show outFn3_5 (arr3_0 (V6 m ρ) c) (arr3_1 (V6 m ρ) c) (arr3_2 (V6 m ρ) c) (arr3_3 (V6 m ρ) c) = _
  rw [in3_0, in3_1, in3_2, in3_3]
  exact outFn3_5_spec (aggF (ei m c) dM (Cert.GcnSpec.xw (bnF (h1F (ei m c) (x0 m c) (w1 m c) (b1 m c)) (g1 m c) (be1 m c)) (w2 m c))) (Cert.GcnSpec.xw (bnF (h1F (ei m c) (x0 m c) (w1 m c) (b1 m c)) (g1 m c) (be1 m c)) (w2 m c)) (dvF (ei m c)) (b2 m c)
theorem var_7 : (W7 m ρ c (Proc.devRef .tc main_v50_2) : S1x128.Idx → EReal)
    = fun i => Cert.GcnSpec.var (h2F (ei m c) (x0 m c) (w1 m c) (b1 m c) (g1 m c) (be1 m c) (w2 m c) (b2 m c)) (ix1 (i 1)) := by
  refine (W7_arr m ρ c 6).trans ((final3_6 (V6 m ρ) c).trans ?_)
  show outFn3_6 (arr3_0 (V6 m ρ) c) (arr3_1 (V6 m ρ) c) (arr3_2 (V6 m ρ) c) (arr3_3 (V6 m ρ) c) = _
  rw [in3_0, in3_1, in3_2, in3_3]
  exact outFn3_6_spec (aggF (ei m c) dM (Cert.GcnSpec.xw (bnF (h1F (ei m c) (x0 m c) (w1 m c) (b1 m c)) (g1 m c) (be1 m c)) (w2 m c))) (Cert.GcnSpec.xw (bnF (h1F (ei m c) (x0 m c) (w1 m c) (b1 m c)) (g1 m c) (be1 m c)) (w2 m c)) (dvF (ei m c)) (b2 m c)

/-! ## Region 4: normalise with the column statistics, rectify, multiply by the next weights; and the row scaling -/

theorem in4_0 : arr4_0 (V7 m ρ) c = h2F (ei m c) (x0 m c) (w1 m c) (b1 m c) (g1 m c) (be1 m c) (w2 m c) (b2 m c) := h_7 m ρ c
theorem in4_1 : arr4_1 (V7 m ρ) c = fun i => Cert.GcnSpec.mean (h2F (ei m c) (x0 m c) (w1 m c) (b1 m c) (g1 m c) (be1 m c) (w2 m c) (b2 m c)) (ix1 (i 1)) := mean_7 m ρ c
theorem in4_2 : arr4_2 (V7 m ρ) c = fun i => Cert.GcnSpec.var (h2F (ei m c) (x0 m c) (w1 m c) (b1 m c) (g1 m c) (be1 m c) (w2 m c) (b2 m c)) (ix1 (i 1)) := var_7 m ρ c
theorem in4_3 : arr4_3 (V7 m ρ) c = fun i => g2 m c (ix1 (i 1)) := (keep_main_v25_7 m ρ c).trans (g2_1 m ρ c)
theorem in4_4 : arr4_4 (V7 m ρ) c = fun i => be2 m c (ix1 (i 1)) := (keep_main_v26_7 m ρ c).trans (be2_1 m ρ c)
theorem in4_5 : arr4_5 (V7 m ρ) c = w3 m c := (keep_main_v19_7 m ρ c).trans (w3_1 m ρ c)
theorem in4_6 : arr4_6 (V7 m ρ) c = fun i => dvF (ei m c) (ix1 (i 0)) := (keep_main_v16_7 m ρ c).trans (dinv_1 m ρ c)

theorem xw_8 : (W8 m ρ c (Proc.devRef .tc main_v51_0) : S50000x1.Idx → EReal) = Cert.GcnSpec.xw (bnF (h2F (ei m c) (x0 m c) (w1 m c) (b1 m c) (g1 m c) (be1 m c) (w2 m c) (b2 m c)) (g2 m c) (be2 m c)) (w3 m c) := by
  refine (W8_arr m ρ c 7).trans ((final4_7 (V7 m ρ) c).trans ?_)
  rw [in4_0, in4_1, in4_2, in4_3, in4_4, in4_5]
  exact outFn4_7_spec (h2F (ei m c) (x0 m c) (w1 m c) (b1 m c) (g1 m c) (be1 m c) (w2 m c) (b2 m c)) (Cert.GcnSpec.mean (h2F (ei m c) (x0 m c) (w1 m c) (b1 m c) (g1 m c) (be1 m c) (w2 m c) (b2 m c))) (Cert.GcnSpec.var (h2F (ei m c) (x0 m c) (w1 m c) (b1 m c) (g1 m c) (be1 m c) (w2 m c) (b2 m c))) (g2 m c) (be2 m c) (w3 m c)
theorem xws_8 : (W8 m ρ c (Proc.devRef .tc main_v51_1) : S50000x1.Idx → EReal)
    = Cert.GcnSpec.xws (Cert.GcnSpec.xw (bnF (h2F (ei m c) (x0 m c) (w1 m c) (b1 m c) (g1 m c) (be1 m c) (w2 m c) (b2 m c)) (g2 m c) (be2 m c)) (w3 m c)) (dvF (ei m c)) := by
  refine (W8_arr m ρ c 8).trans ((final4_8 (V7 m ρ) c).trans ?_)
  rw [in4_0, in4_1, in4_2, in4_3, in4_4, in4_5, in4_6]
  exact outFn4_8_spec (h2F (ei m c) (x0 m c) (w1 m c) (b1 m c) (g1 m c) (be1 m c) (w2 m c) (b2 m c)) (Cert.GcnSpec.mean (h2F (ei m c) (x0 m c) (w1 m c) (b1 m c) (g1 m c) (be1 m c) (w2 m c) (b2 m c))) (Cert.GcnSpec.var (h2F (ei m c) (x0 m c) (w1 m c) (b1 m c) (g1 m c) (be1 m c) (w2 m c) (b2 m c))) (g2 m c) (be2 m c) (w3 m c) (dvF (ei m c))

theorem agg_9 : (W9 (F := Ideal) m ρ c (Proc.devRef .tc main_v61) : S50000x1.Idx → EReal)
    = aggF (ei m c) d1 (Cert.GcnSpec.xw (bnF (h2F (ei m c) (x0 m c) (w1 m c) (b1 m c) (g1 m c) (be1 m c) (w2 m c) (b2 m c)) (g2 m c) (be2 m c)) (w3 m c)) := by
  have h := host5_agg (W8 m ρ c)
  rw [show (W8 m ρ c (Proc.devRef .tc main_v1) : S800000.Idx → BitVec 32) = srcRow (ei m c) from (keep_main_v1_8 m ρ c).trans (src_1 m ρ c),
    show (W8 m ρ c (Proc.devRef .tc main_v3) : S800000.Idx → BitVec 32) = dstRow (ei m c) from (keep_main_v3_8 m ρ c).trans (dst_1 m ρ c),
    xws_8 m ρ c] at h
  exact h

/-! ## Region 5: the last layer's output -/

theorem out_10 : (W10 m ρ c (Proc.devRef .tc main_v62) : S50000x1.Idx → EReal)
    = outF (ei m c) (x0 m c) (w1 m c) (b1 m c) (g1 m c) (be1 m c) (w2 m c) (b2 m c) (g2 m c) (be2 m c) (w3 m c) (b3 m c) := by
  refine (W10_arr m ρ c 4).trans ((final5_4 (V9 m ρ) c).trans ?_)
  rw [show arr5_0 (V9 m ρ) c = aggF (ei m c) d1 (Cert.GcnSpec.xw (bnF (h2F (ei m c) (x0 m c) (w1 m c) (b1 m c) (g1 m c) (be1 m c) (w2 m c) (b2 m c)) (g2 m c) (be2 m c)) (w3 m c)) from agg_9 m ρ c,
    show arr5_1 (V9 m ρ) c = Cert.GcnSpec.xw (bnF (h2F (ei m c) (x0 m c) (w1 m c) (b1 m c) (g1 m c) (be1 m c) (w2 m c) (b2 m c)) (g2 m c) (be2 m c)) (w3 m c) from (keep_main_v51_0_9 m ρ c).trans (xw_8 m ρ c),
    show arr5_2 (V9 m ρ) c = (fun i => dvF (ei m c) (ix1 (i 0))) from (keep_main_v16_9 m ρ c).trans (dinv_1 m ρ c),
    show arr5_3 (V9 m ρ) c = (fun i => b3 m c (ix1 (i 1))) from (keep_main_v22_9 m ρ c).trans (b3_1 m ρ c)]
  exact col5_spec (Cert.GcnSpec.xw (bnF (h2F (ei m c) (x0 m c) (w1 m c) (b1 m c) (g1 m c) (be1 m c) (w2 m c) (b2 m c)) (g2 m c) (be2 m c)) (w3 m c)) (aggF (ei m c) d1 (Cert.GcnSpec.xw (bnF (h2F (ei m c) (x0 m c) (w1 m c) (b1 m c) (g1 m c) (be1 m c) (w2 m c) (b2 m c)) (g2 m c) (be2 m c)) (w3 m c))) (dvF (ei m c)) (b3 m c)

/-- The kernel program's result buffer after the whole run is the specification's network of the argument arrays. -/
theorem result_spec :
    (W10 (F := Ideal) m ρ c (Proc.devRef .tc main_v62) : S50000x1.Idx → EReal)
      = Cert.GcnSpec.result dV dM d1 (srcW (ei m c)) (dstW (ei m c)) (dstC (ei m c)) (x0 m c) (w1 m c) (b1 m c) (g1 m c) (be1 m c)
          (w2 m c) (b2 m c) (g2 m c) (be2 m c) (w3 m c) (b3 m c) :=
  (out_10 m ρ c).trans (outF_eq _ _ _ _ _ _ _ _ _ _ _ _)

end Cert.KernelIdeal.HandChain

end
-- ==== Proof.GcnAlgebra.lean ====
/-
  The mathematics of the value claim, with no program in sight.

  At the ideal instance a float is an extended real and every operation is exact, so the two
  programs differ only by algebra: one normalises a graph convolution per node before the
  gather, the other per edge after it; one computes a variance as E[x²] − (E x)², clamped at 0,
  the other as E[(x − E x)²].  Such identities hold for REAL numbers and fail at the infinities
  (distributivity does), so every statement below carries the hypothesis that its data are real
  (IsReal) and returns, with the equality, the fact that the result is real again, ready to be
  the next layer's input.

  Contents:
    § 1  real extended reals: IsReal, its closure under the operations, coe_sum;
    § 2  the reciprocal square root and the quotient on positive reals; the degree;
    § 3  one graph-convolution layer: the two normalisations agree (layer_core, layer_eq);
    § 4  batch-norm statistics: the two means and the two variances agree (bn_stats_eq),
         the normalised value and the activation stay real.
-/
import Idealize.ShloMosaic.PureOps.Ideal
import Idealize.ShloMosaic.PureOps.Ideal.Laws

namespace Cert.GcnAlgebra

open Idealize.ShloMosaic
open scoped BigOperators

/-! ## § 1  Extended reals that are real numbers -/

/-- An extended real that is (the coercion of) a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- Neither infinity: a real. -/
theorem isReal_of_ne {x : EReal} (hb : x ≠ ⊥) (ht : x ≠ ⊤) : IsReal x :=
  ⟨x.toReal, (EReal.coe_toReal ht hb).symm⟩

theorem IsReal.ne_bot {x : EReal} (h : IsReal x) : x ≠ ⊥ := by
  obtain ⟨r, rfl⟩ := h; exact EReal.coe_ne_bot r
theorem IsReal.ne_top {x : EReal} (h : IsReal x) : x ≠ ⊤ := by
  obtain ⟨r, rfl⟩ := h; exact EReal.coe_ne_top r

/-- A real is the coercion of its own real part. -/
theorem IsReal.coe_toReal {x : EReal} (h : IsReal x) : ((x.toReal : ℝ) : EReal) = x := by
  obtain ⟨r, rfl⟩ := h; rw [EReal.toReal_coe]

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases le_total x y with h | h
  · rwa [max_eq_right h]
  · rwa [max_eq_left h]

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of reals is a real: the coercion of the sum of the real parts. -/
theorem sum_eq_coe {ι : Type*} (s : Finset ι) (f : ι → EReal) (h : ∀ i ∈ s, IsReal (f i)) :
    ∑ i ∈ s, f i = ((∑ i ∈ s, (f i).toReal : ℝ) : EReal) := by
  rw [coe_sum]
  exact Finset.sum_congr rfl (fun i hi => ((h i hi).coe_toReal).symm)

theorem IsReal.sum {ι : Type*} (s : Finset ι) (f : ι → EReal) (h : ∀ i ∈ s, IsReal (f i)) :
    IsReal (∑ i ∈ s, f i) := ⟨_, sum_eq_coe s f h⟩

/-- A contraction of real rows onto a real accumulator is real. -/
theorem isReal_dot {κ : Type*} (s : Finset κ) (acc : EReal) (u v : κ → EReal) (hacc : IsReal acc)
    (hu : ∀ k ∈ s, IsReal (u k)) (hv : ∀ k ∈ s, IsReal (v k)) : IsReal (acc + ∑ k ∈ s, u k * v k) :=
  hacc.add (IsReal.sum s _ (fun k hk => (hu k hk).mul (hv k hk)))

/-- A choice between two reals is real, whatever the condition bit. -/
theorem isReal_select (c : BitVec 1) {x y : EReal} (hx : IsReal x) (hy : IsReal y) :
    IsReal (Scalar.select c x y) := by
  unfold Scalar.select
  split
  · exact hx
  · exact hy

/-! ## § 2  Reciprocal square root, quotient, degree -/

/-- On a positive real the reciprocal square root is the real one. -/
theorem rsqrt_coe_pos {r : ℝ} (hr : 0 < r) :
    Ideal.rsqrt (r : EReal) = (((Real.sqrt r)⁻¹ : ℝ) : EReal) := by
  rw [Ideal.rsqrt_coe, if_neg (not_lt.2 hr.le), if_neg hr.ne']

theorem inv_sqrt_pos {r : ℝ} (hr : 0 < r) : 0 < (Real.sqrt r)⁻¹ := inv_pos.2 (Real.sqrt_pos.2 hr)

/-- The reciprocal square root of a positive real is a positive real. -/
theorem rsqrt_pos_real {x : EReal} (hx : ∃ r : ℝ, 0 < r ∧ x = (r : EReal)) :
    ∃ q : ℝ, 0 < q ∧ Ideal.rsqrt x = (q : EReal) := by
  obtain ⟨r, hr, rfl⟩ := hx
  exact ⟨_, inv_sqrt_pos hr, rsqrt_coe_pos hr⟩

/-- Dividing by a nonzero real is multiplying by its reciprocal. -/
theorem div_coe_real {y : ℝ} (hy : y ≠ 0) (x : ℝ) :
    Ideal.div (x : EReal) (y : EReal) = ((x * (1 / y) : ℝ) : EReal) := by
  rw [Ideal.div_coe hy, ← EReal.coe_mul]

/-- The squared reciprocal square root of a positive real is its reciprocal: what one program
    writes rsqrt d * rsqrt d the other writes 1 / d. -/
theorem rsqrt_mul_self {r : ℝ} (hr : 0 < r) :
    Ideal.rsqrt (r : EReal) * Ideal.rsqrt (r : EReal) = Ideal.div 1 (r : EReal) := by
  rw [rsqrt_coe_pos hr, Ideal.div_coe hr.ne', one_mul, ← EReal.coe_mul]
  congr 1
  rw [← mul_inv, Real.mul_self_sqrt hr.le, one_div]

theorem rsqrt_mul_self' {x : EReal} (hx : ∃ r : ℝ, 0 < r ∧ x = (r : EReal)) :
    Ideal.rsqrt x * Ideal.rsqrt x = Ideal.div 1 x := by
  obtain ⟨r, hr, rfl⟩ := hx
  exact rsqrt_mul_self hr

/-- A degree, as the scatter-add of ones onto zero followed by the self-loop's one, is the real
    number of edges landing on the node plus one. -/
theorem deg_eq {ε : Type*} (s : Finset ε) :
    (0 + ∑ _e ∈ s, (1 : EReal)) + 1 = (((s.card : ℝ) + 1 : ℝ) : EReal) := by
  have h : ∑ _e ∈ s, (1 : EReal) = ((s.card : ℝ) : EReal) := by
    have h1 := coe_sum s (fun _ => (1 : ℝ))
    rw [Finset.sum_const, nsmul_eq_mul, mul_one] at h1
    rw [h1]
    rfl
  rw [h, zero_add, EReal.coe_add, EReal.coe_one]

/-- A degree is a real at least one, in particular positive. -/
theorem deg_pos {ε : Type*} (s : Finset ε) :
    ∃ r : ℝ, 1 ≤ r ∧ (0 + ∑ _e ∈ s, (1 : EReal)) + 1 = (r : EReal) :=
  ⟨(s.card : ℝ) + 1, le_add_of_nonneg_left (Nat.cast_nonneg _), deg_eq s⟩

theorem deg_pos' {ε : Type*} (s : Finset ε) :
    ∃ r : ℝ, 0 < r ∧ (0 + ∑ _e ∈ s, (1 : EReal)) + 1 = (r : EReal) := by
  obtain ⟨r, hr, h⟩ := deg_pos s
  exact ⟨r, lt_of_lt_of_le one_pos hr, h⟩

/-! ## § 3  One graph-convolution layer

  One output element of a layer.  In is the (finite) set of update elements that the scatter-add
  lands on this output element; an update element u carries the real value a u gathered at its
  source node se u, and its gathered destination node ge u is the output's node n.  One side
  scales the value by the source's reciprocal root degree before the scatter and by the
  destination's after it, and writes the self-loop's weight as the squared reciprocal root; the
  other scales each message by the product of the two and writes the self-loop's weight as the
  reciprocal of the degree. -/

/-- The two normalisations of a graph-convolution layer agree at an output element, and the
    common value is real.  Nothing is asked of the sets In beyond ge = n on them. -/
theorem layer_core {U N : Type*} (In : Finset U) (a : U → EReal) (se ge : U → N)
    (deg : N → EReal) (n : N) (x c : EReal)
    (ha : ∀ u ∈ In, IsReal (a u)) (hx : IsReal x) (hc : IsReal c)
    (hdeg : ∀ m, ∃ r : ℝ, 0 < r ∧ deg m = (r : EReal))
    (hge : ∀ u ∈ In, ge u = n) :
    ∃ r : ℝ,
      Ideal.rsqrt (deg n) * (0 + ∑ u ∈ In, a u * Ideal.rsqrt (deg (se u)))
          + x * (Ideal.rsqrt (deg n) * Ideal.rsqrt (deg n)) + c = (r : EReal) ∧
      ((0 + ∑ u ∈ In, a u * (Ideal.rsqrt (deg (se u)) * Ideal.rsqrt (deg (ge u))))
          + x * Ideal.div 1 (deg n)) + c = (r : EReal) := by
  classical
  -- the reciprocal root degrees are reals R m, and 1 / deg m is R m * R m
  have key : ∀ m, ∃ q : ℝ, Ideal.rsqrt (deg m) = (q : EReal)
      ∧ Ideal.div 1 (deg m) = ((q * q : ℝ) : EReal) := by
    intro m
    obtain ⟨r, hr, hm⟩ := hdeg m
    refine ⟨(Real.sqrt r)⁻¹, ?_, ?_⟩
    · rw [hm, rsqrt_coe_pos hr]
    · rw [hm, ← rsqrt_mul_self hr, rsqrt_coe_pos hr, ← EReal.coe_mul]
  choose R hR hdiv using key
  obtain ⟨X, rfl⟩ := hx
  obtain ⟨C, rfl⟩ := hc
  -- the two scatter sums, as coercions of real sums
  have hs1 : ∑ u ∈ In, a u * Ideal.rsqrt (deg (se u))
      = ((∑ u ∈ In, (a u).toReal * R (se u) : ℝ) : EReal) := by
    rw [coe_sum]
    refine Finset.sum_congr rfl (fun u hu => ?_)
    rw [hR, EReal.coe_mul, (ha u hu).coe_toReal]
  have hs2 : ∑ u ∈ In, a u * (Ideal.rsqrt (deg (se u)) * Ideal.rsqrt (deg (ge u)))
      = ((∑ u ∈ In, (a u).toReal * (R (se u) * R n) : ℝ) : EReal) := by
    rw [coe_sum]
    refine Finset.sum_congr rfl (fun u hu => ?_)
    rw [hR, hR, hge u hu, EReal.coe_mul, EReal.coe_mul, (ha u hu).coe_toReal]
  refine ⟨R n * (∑ u ∈ In, (a u).toReal * R (se u)) + X * (R n * R n) + C, ?_, ?_⟩
  · rw [hs1, hR n, zero_add]
    simp only [EReal.coe_mul, EReal.coe_add]
  · -- the destination's factor comes out of the sum
    have hsum : ∑ u ∈ In, (a u).toReal * (R (se u) * R n)
        = R n * ∑ u ∈ In, (a u).toReal * R (se u) := by
      rw [Finset.mul_sum]
      exact Finset.sum_congr rfl (fun u _ => by ring)
    rw [hs2, hdiv n, zero_add, hsum]
    simp only [EReal.coe_mul, EReal.coe_add]

/-- layer_core with the gathered value spelt as the product array xw read at the update
    element's source node and column, the self-loop's value as xw at the output element, and the
    bias as b at its column. -/
theorem layer_eq {U N J : Type*} (In : Finset U) (xw : N → J → EReal) (b : J → EReal)
    (se ge : U → N) (ce : U → J) (deg : N → EReal) (n : N) (j : J)
    (hxw : ∀ m i, IsReal (xw m i)) (hb : ∀ i, IsReal (b i))
    (hdeg : ∀ m, ∃ r : ℝ, 0 < r ∧ deg m = (r : EReal))
    (hge : ∀ u ∈ In, ge u = n) :
    ∃ r : ℝ,
      Ideal.rsqrt (deg n) * (0 + ∑ u ∈ In, xw (se u) (ce u) * Ideal.rsqrt (deg (se u)))
          + xw n j * (Ideal.rsqrt (deg n) * Ideal.rsqrt (deg n)) + b j = (r : EReal) ∧
      ((0 + ∑ u ∈ In, xw (se u) (ce u) * (Ideal.rsqrt (deg (se u)) * Ideal.rsqrt (deg (ge u))))
          + xw n j * Ideal.div 1 (deg n)) + b j = (r : EReal) :=
  layer_core In (fun u => xw (se u) (ce u)) se ge deg n (xw n j) (b j) (fun _ _ => hxw _ _)
    (hxw n j) (hb j) hdeg hge

/-! ## § 4  Batch-norm statistics

  Over a finite set s of cnt elements: one side has the mean as the sum times the real 1 / cnt
  and the variance as E[x²] − (E x)² clamped below at 0; the other has the mean as the sum
  divided by cnt and the variance as E[(x − E x)²].  For reals the two means are one number, the
  two variances are one number, and it is nonnegative, so the clamp is the identity. -/

/-- The two means agree, the two variances agree, all are real and the variance is nonnegative. -/
theorem bn_stats_eq {ι : Type*} (s : Finset ι) (o : ι → EReal) (cnt : ℝ)
    (ho : ∀ i ∈ s, IsReal (o i)) (hcard : (s.card : ℝ) = cnt) (hpos : 0 < cnt) :
    ∃ m v : ℝ, 0 ≤ v ∧
      (∑ i ∈ s, o i) * ((1 / cnt : ℝ) : EReal) = (m : EReal) ∧
      Ideal.div (0 + ∑ i ∈ s, o i) (cnt : EReal) = (m : EReal) ∧
      max ((∑ i ∈ s, o i * o i) * ((1 / cnt : ℝ) : EReal)
            - (∑ i ∈ s, o i) * ((1 / cnt : ℝ) : EReal)
              * ((∑ i ∈ s, o i) * ((1 / cnt : ℝ) : EReal))) 0 = (v : EReal) ∧
      Ideal.div (0 + ∑ i ∈ s, (o i - Ideal.div (0 + ∑ i ∈ s, o i) (cnt : EReal))
                              * (o i - Ideal.div (0 + ∑ i ∈ s, o i) (cnt : EReal)))
          (cnt : EReal) = (v : EReal) := by
  classical
  have hne : cnt ≠ 0 := hpos.ne'
  obtain ⟨O, hO⟩ : ∃ O : ι → ℝ, ∀ i ∈ s, o i = (O i : EReal) :=
    ⟨fun i => (o i).toReal, fun i hi => ((ho i hi).coe_toReal).symm⟩
  have hS : ∑ i ∈ s, o i = ((∑ i ∈ s, O i : ℝ) : EReal) := by
    rw [coe_sum]; exact Finset.sum_congr rfl hO
  have hQ : ∑ i ∈ s, o i * o i = ((∑ i ∈ s, O i * O i : ℝ) : EReal) := by
    rw [coe_sum]; exact Finset.sum_congr rfl (fun i hi => by rw [hO i hi, EReal.coe_mul])
  obtain ⟨m, hm⟩ : ∃ m : ℝ, m = (∑ i ∈ s, O i) * (1 / cnt) := ⟨_, rfl⟩
  have hmk : (∑ i ∈ s, o i) * ((1 / cnt : ℝ) : EReal) = (m : EReal) := by
    rw [hS, ← EReal.coe_mul, hm]
  have hmr : Ideal.div (0 + ∑ i ∈ s, o i) (cnt : EReal) = (m : EReal) := by
    rw [zero_add, hS, div_coe_real hne, hm]
  have hD : ∑ i ∈ s, (o i - (m : EReal)) * (o i - (m : EReal))
      = ((∑ i ∈ s, (O i - m) * (O i - m) : ℝ) : EReal) := by
    rw [coe_sum]
    exact Finset.sum_congr rfl (fun i hi => by rw [hO i hi, EReal.coe_mul, EReal.coe_sub])
  -- the real identity E[x²] − (E x)² = E[(x − E x)²]
  have hreal : (∑ i ∈ s, O i * O i) * (1 / cnt) - m * m
      = (∑ i ∈ s, (O i - m) * (O i - m)) * (1 / cnt) := by
    have e1 : ∀ i ∈ s, (O i - m) * (O i - m) = O i * O i - 2 * m * O i + m * m :=
      fun i _ => by ring
    have e : ∑ i ∈ s, (O i - m) * (O i - m)
        = (∑ i ∈ s, O i * O i) - 2 * m * (∑ i ∈ s, O i) + cnt * (m * m) := by
      rw [Finset.sum_congr rfl e1, Finset.sum_add_distrib, Finset.sum_sub_distrib,
        ← Finset.mul_sum, Finset.sum_const, nsmul_eq_mul, hcard]
    rw [e, hm]
    field_simp
    ring
  have hv : 0 ≤ (∑ i ∈ s, (O i - m) * (O i - m)) * (1 / cnt) :=
    mul_nonneg (Finset.sum_nonneg (fun i _ => mul_self_nonneg _)) (one_div_pos.2 hpos).le
  refine ⟨m, (∑ i ∈ s, (O i - m) * (O i - m)) * (1 / cnt), hv, hmk, hmr, ?_, ?_⟩
  · rw [hmk, hQ, ← EReal.coe_mul, ← EReal.coe_mul, ← EReal.coe_sub, hreal]
    exact max_eq_left (EReal.coe_nonneg.2 hv)
  · rw [hmr, zero_add, hD, div_coe_real hne]

/-- A nonnegative real variance plus a positive real epsilon has a positive real reciprocal
    square root. -/
theorem rsqrt_var_eps {v eps : EReal} (hv : ∃ r : ℝ, 0 ≤ r ∧ v = (r : EReal))
    (he : ∃ r : ℝ, 0 < r ∧ eps = (r : EReal)) :
    ∃ q : ℝ, 0 < q ∧ Ideal.rsqrt (v + eps) = (q : EReal) := by
  obtain ⟨vr, hvr, rfl⟩ := hv
  obtain ⟨er, her, rfl⟩ := he
  exact rsqrt_pos_real ⟨vr + er, add_pos_of_nonneg_of_pos hvr her, (EReal.coe_add vr er).symm⟩

/-- The normalised value (x − mean) · rsqrt (var + eps) · gamma + beta is real. -/
theorem bn_norm_real {x m v eps g be : EReal} (hx : IsReal x) (hm : IsReal m)
    (hv : ∃ r : ℝ, 0 ≤ r ∧ v = (r : EReal)) (he : ∃ r : ℝ, 0 < r ∧ eps = (r : EReal))
    (hg : IsReal g) (hbe : IsReal be) :
    IsReal ((x - m) * Ideal.rsqrt (v + eps) * g + be) := by
  obtain ⟨q, _, hq⟩ := rsqrt_var_eps hv he
  rw [hq]
  exact (((hx.sub hm).mul (isReal_coe q)).mul hg).add hbe

/-- The leaky activation of a real, as a choice between the value and a real multiple of it, is
    real, whatever the condition bit. -/
theorem leaky_real (c : BitVec 1) {y k : EReal} (hy : IsReal y) (hk : IsReal k) :
    IsReal (Scalar.select c y (k * y)) := isReal_select c hy (hk.mul hy)
theorem leaky_real' (c : BitVec 1) {y k : EReal} (hy : IsReal y) (hk : IsReal k) :
    IsReal (Scalar.select c y (y * k)) := isReal_select c hy (hy.mul hk)

end Cert.GcnAlgebra
-- ==== Proof.RefRead.lean ====
/- The reference's stages read at an index, at the exact values (extended reals): each stage of the composed
   reference function, applied at one element, is the textbook expression over the elements of its operands.
   A product is a sum over the contracted axis; a scatter-add is the operand's element plus the sum of the updates
   that land on it; a gather is the operand at the clamped start index; a reduction over the rows is the initial
   value plus the sum over the 50000 rows. -/
import proofs.«181351_j65970697667357_2_alg».proof.Proof.RefStages
import proofs.«181351_j65970697667357_2_alg».proof.Proof.LibGatherScatter
import proofs.«181351_j65970697667357_2_alg».proof.Proof.LibPlainDot
import proofs.«181351_j65970697667357_2_alg».proof.Proof.GcnSpec
import Idealize.ShloMosaic.Lib.IdealHost
import Idealize.ShloMosaic.Lib.Pipeline.Value

noncomputable section

open scoped BigOperators

namespace Cert.ReferenceIdeal.RefRead

open Cert.ReferenceIdeal Cert.ReferenceIdeal.Gen Cert.ReferenceIdeal.RefRun Idealize.ShloMosaic Idealize.ShloMosaic.ValueIdx
  Idealize.ShloMosaic.GatherScatterIdx
open Cert.GcnSpec (grow)

/-- the three scatters' dimension numbers, by short names -/
abbrev dV : ScatterDims S50000 S800000x1 S800000 := scatter_S50000_S800000x1_S800000_n_0_0_1
abbrev dM : ScatterDims S50000x128 S800000x1 S800000x128 := scatter_S50000x128_S800000x1_S800000x128_1_0_0_1
abbrev d1 : ScatterDims S50000x1 S800000x1 S800000x1 := scatter_S50000x1_S800000x1_S800000x1_1_0_0_1

theorem dV_eq : dV = vecScatterDims 50000 800000 Gen.scatter_S50000_S800000x1_S800000_n_0_0_1_wf := rfl
theorem dM_eq : dM = rowScatterDims 50000 128 800000 Gen.scatter_S50000x128_S800000x1_S800000x128_1_0_0_1_wf := rfl
theorem d1_eq : d1 = rowScatterDims 50000 1 800000 Gen.scatter_S50000x1_S800000x1_S800000x1_1_0_0_1_wf := rfl

/-! ## Constants -/

set_option maxHeartbeats 400000 in
theorem fill_apply (s : Shape) (h : S_.BroadcastsInDim s (![] : Fin 0 → Fin s.rank)) (b : BitVec 32) (i : s.Idx) :
    fill (F := Ideal) s h b i = Ideal.ofBits .f32 b := rfl

/-! ## Host operations at an index, for any shapes (definitional) -/

section Generic
variable {s si su : Shape} {w : Nat}

/-- the host's accumulating scatter at an element: the operand there plus the updates that land on it -/
theorem scatterAdd_apply (d : ScatterDims s si su) (x : FVec Ideal s .f32) (idx : IVec si w) (upd : FVec Ideal su .f32) (i : s.Idx) :
    Host.scatterAdd d x idx upd i = x i + ∑ j ∈ Finset.univ.filter (fun j => d.resultIdx? j idx = some i), upd j := rfl

/-- the host's reciprocal square root at an element -/
theorem hostRsqrt_apply (x : FVec Ideal s .f32) (i : s.Idx) : Host.rsqrt x i = Ideal.rsqrt (x i) := rfl

end Generic

set_option maxHeartbeats 400000 in
/-- the pattern 0x47435000 is 50000: exponent 142, fraction 4411392, so (2²³ + 4411392) · 2⁻⁸ -/
theorem ofBits_count : Ideal.ofBits .f32 0x47435000#32 = ((50000 : ℝ) : EReal) := by
  simp [Ideal.ofBits, Ideal.ieee, -EReal.coe_mul]; norm_num

set_option maxHeartbeats 400000 in
/-- the pattern of ε is a positive real -/
theorem ofBits_eps_pos : ∃ r : ℝ, 0 < r ∧ Ideal.ofBits .f32 0x3727C5AC#32 = (r : EReal) := by
  refine ⟨(10995116 : ℝ) * (2 : ℝ) ^ (-40 : ℤ), by positivity, ?_⟩
  simp [Ideal.ofBits, Ideal.ieee, -EReal.coe_mul]

set_option maxHeartbeats 400000 in
/-- the pattern of the slope 0.01 is a positive real -/
theorem ofBits_slope_pos : ∃ r : ℝ, 0 < r ∧ Ideal.ofBits .f32 0x3C23D70A#32 = (r : EReal) := by
  refine ⟨(10737418 : ℝ) * (2 : ℝ) ^ (-30 : ℤ), by positivity, ?_⟩
  simp [Ideal.ofBits, Ideal.ieee, -EReal.coe_mul]

/-! ## Broadcasts, index columns -/

set_option maxHeartbeats 400000 in
theorem rows128_apply (v : Arr Ideal S128 .f32) (n : Fin 50000) (j : Fin 128) :
    rows128 v (ix2 n j) = v (ix1 j) := by
  unfold rows128
  rw [broadcastInDim_apply ![0, 1] bcast_S1x128_S50000x128_0_1 _ (ix2 n j) (ix2 (0 : Fin 1) j)
    (fun a => by match a with | ⟨0, _⟩ => rfl | ⟨1, _⟩ => rfl)]
  exact broadcastInDim_apply ![1] bcast_S128_S1x128_1 v (ix2 (0 : Fin 1) j) (ix1 j)
    (fun a => by match a with | ⟨0, _⟩ => rfl)

set_option maxHeartbeats 400000 in
theorem epsRow_apply (j : Fin 128) : epsRow (F := Ideal) (ix1 j) = Ideal.ofBits .f32 0x3727C5AC#32 := rfl

set_option maxHeartbeats 400000 in
theorem col_apply (i : Arr Ideal S800000 .i32) (e : Fin 800000) :
    col (F := Ideal) i (ix2 e (0 : Fin 1)) = i (ix1 e) := by
  unfold col
  exact broadcastInDim_apply ![0] bcast_S800000_S800000x1_0 i (ix2 e (0 : Fin 1)) (ix1 e)
    (fun a => by match a with | ⟨0, _⟩ => rfl)

set_option maxHeartbeats 400000 in
theorem wrap_apply (i : Arr Ideal S800000 .i32) (e : Fin 800000) :
    wrap (F := Ideal) i (ix2 e (0 : Fin 1))
      = Scalar.select (IntOp.cmpi .slt (i (ix1 e)) 0#32) (IntOp.addi (i (ix1 e)) 50000#32) (i (ix1 e)) := by
  unfold wrap wrapWith
  rw [broadcastInDim_apply ![0] bcast_S800000_S800000x1_0 _ (ix2 e (0 : Fin 1)) (ix1 e)
    (fun a => by match a with | ⟨0, _⟩ => rfl)]
  rfl

/-! ## The products -/

set_option maxHeartbeats 400000 in
theorem matmul128_apply (h : Arr Ideal S50000x128 .f32) (W : Arr Ideal S128x128 .f32) (n : Fin 50000) (j : Fin 128) :
    matmul128 h W (ix2 n j) = ∑ k : Fin 128, h (ix2 n k) * W (ix2 k j) :=
  LibPlainDot.dotGeneral_at 50000 128 128 none h W n j

set_option maxHeartbeats 400000 in
theorem matmul1_apply (h : Arr Ideal S50000x128 .f32) (W : Arr Ideal S128x1 .f32) (n : Fin 50000) (j : Fin 1) :
    matmul1 h W (ix2 n j) = ∑ k : Fin 128, h (ix2 n k) * W (ix2 k j) :=
  LibPlainDot.dotGeneral_at 50000 128 1 none h W n j

/-! ## Degrees -/

set_option maxHeartbeats 400000 in
theorem degree_apply (dst : Arr Ideal S800000 .i32) (n : Fin 50000) :
    degree (F := Ideal) dst (ix1 n)
      = (0 + ∑ e ∈ Finset.univ.filter (fun e => dV.resultIdx? e (wrap (F := Ideal) dst) = some (ix1 n)), (1 : EReal)) + 1 := by
  unfold degree
  rw [addf_apply, scatterAdd_apply, fill_apply, fill_apply, Ideal.ofBits_zero_f32, Ideal.ofBits_one_f32]
  simp only [fill_apply, Ideal.ofBits_one_f32]

set_option maxHeartbeats 400000 in
theorem dinvOf_apply (deg : Arr Ideal S50000 .f32) (n : Fin 50000) : dinvOf deg (ix1 n) = Ideal.rsqrt (deg (ix1 n)) := rfl

set_option maxHeartbeats 400000 in
theorem invDeg_apply (deg : Arr Ideal S50000 .f32) (n : Fin 50000) : invDeg deg (ix1 n) = Ideal.div 1 (deg (ix1 n)) := by
  unfold invDeg
  rw [hostDivf_apply, fill_apply, Ideal.ofBits_one_f32]

set_option maxHeartbeats 400000 in
theorem atNodes_apply (v : Arr Ideal S50000 .f32) (ix : Arr Ideal S800000x1 .i32) (e : Fin 800000) :
    atNodes v ix (ix1 e) = v (ix1 (grow ix e)) :=
  gather_vec_apply (N := 50000) (E := 800000) (by decide) Gen.gather_S50000_S800000x1_S800000_n_0_n_n_0_1_1_wf v ix e

/-! ## One convolution -/

-- a coordinate `u 0` of an index has the type `Fin 800000` only after the shape's size vector is unfolded
set_option backward.isDefEq.respectTransparency.types false in
set_option maxHeartbeats 400000 in
/-- an edge's coefficient: 1/√deg at its two gathered nodes, multiplied -/
theorem coefWith_apply (dinv : Arr Ideal S50000 .f32) (sIx dIx : Arr Ideal S800000x1 .i32) (u : S800000x1.Idx) :
    coefWith dinv sIx dIx u = dinv (ix1 (grow sIx (u 0))) * dinv (ix1 (grow dIx (u 0))) := by
  unfold coefWith
  refine (broadcastInDim_apply ![0] bcast_S800000_S800000x1_0 _ u (ix1 (u 0)) (fun a => by match a with | ⟨0, _⟩ => rfl)).trans ?_
  exact congrArg₂ (· * ·) (atNodes_apply dinv sIx (u 0)) (atNodes_apply dinv dIx (u 0))

set_option backward.isDefEq.respectTransparency.types false in
theorem coefWith_apply' (dinv : Arr Ideal S50000 .f32) (sIx dIx : Arr Ideal S800000x1 .i32) (e : Fin 800000) :
    coefWith dinv sIx dIx (ix2 e (0 : Fin 1)) = dinv (ix1 (grow sIx e)) * dinv (ix1 (grow dIx e)) :=
  coefWith_apply dinv sIx dIx (ix2 e (0 : Fin 1))

-- a coordinate `u 0` of an index has the type `Fin 800000` only after the shape's size vector is unfolded
set_option backward.isDefEq.respectTransparency.types false in
set_option maxHeartbeats 400000 in
/-- a message: the gathered row's entry times the edge's coefficient -/
theorem msg128With_apply (xw : Arr Ideal S50000x128 .f32) (sIx : Arr Ideal S800000x1 .i32) (c : Arr Ideal S800000x1 .f32)
    (u : S800000x128.Idx) :
    msg128With xw sIx c u = xw (ix2 (grow sIx (u 0)) (u 1)) * c (ix2 (u 0) (0 : Fin 1)) := by
  unfold msg128With
  rw [mulf_apply, broadcastInDim_apply ![0, 1] bcast_S800000x1_S800000x128_0_1 c u (ix2 (u 0) (0 : Fin 1))
    (fun a => by match a with | ⟨0, _⟩ => rfl | ⟨1, _⟩ => rfl)]
  refine congrArg (· * c (ix2 (u 0) (0 : Fin 1))) ?_
  conv_lhs => rw [eq_ix2 u]
  exact gather_rows_apply (N := 50000) (D := 128) (E := 800000) (by decide)
    Gen.gather_S50000x128_S800000x1_S800000x128_1_0_n_n_0_1_1128_wf xw sIx (u 0) (u 1)

set_option maxHeartbeats 400000 in
/-- the scatter-add into zeros at an entry: the sum of the update entries that land on it -/
theorem agg128_apply (msg : Arr Ideal S800000x128 .f32) (dst : Arr Ideal S800000 .i32) (n : Fin 50000) (j : Fin 128) :
    agg128 msg dst (ix2 n j)
      = 0 + ∑ u ∈ Finset.univ.filter (fun u => dM.resultIdx? u (col (F := Ideal) dst) = some (ix2 n j)), msg u := by
  unfold agg128
  rw [scatterAdd_apply, fill_apply, Ideal.ofBits_zero_f32]

set_option maxHeartbeats 400000 in
theorem self128_apply (xw : Arr Ideal S50000x128 .f32) (r : Arr Ideal S50000 .f32) (n : Fin 50000) (j : Fin 128) :
    self128 xw r (ix2 n j) = xw (ix2 n j) * r (ix1 n) := by
  unfold self128
  rw [mulf_apply, broadcastInDim_apply ![0, 1] bcast_S50000x1_S50000x128_0_1 _ (ix2 n j) (ix2 n (0 : Fin 1))
    (fun a => by match a with | ⟨0, _⟩ => rfl | ⟨1, _⟩ => rfl),
    broadcastInDim_apply ![0] bcast_S50000_S50000x1_0 r (ix2 n (0 : Fin 1)) (ix1 n) (fun a => by match a with | ⟨0, _⟩ => rfl)]

-- a coordinate `u 0` of an index has the type `Fin 800000` only after the shape's size vector is unfolded
set_option backward.isDefEq.respectTransparency.types false in
set_option maxHeartbeats 400000 in
theorem conv128From_apply (xw : Arr Ideal S50000x128 .f32) (deg dinv : Arr Ideal S50000 .f32) (sIx : Arr Ideal S800000x1 .i32)
    (src dst : Arr Ideal S800000 .i32) (b : Arr Ideal S128 .f32) (n : Fin 50000) (j : Fin 128) :
    conv128From xw deg dinv sIx src dst b (ix2 n j)
      = ((0 + ∑ u ∈ Finset.univ.filter (fun u => dM.resultIdx? u (col (F := Ideal) dst) = some (ix2 n j)),
              xw (ix2 (grow (wrap (F := Ideal) src) (u 0)) (u 1))
                * (dinv (ix1 (grow sIx (u 0))) * dinv (ix1 (grow (wrap (F := Ideal) dst) (u 0)))))
          + xw (ix2 n j) * Ideal.div 1 (deg (ix1 n))) + b (ix1 j) := by
  unfold conv128From convOut128
  rw [addf_apply, addf_apply, agg128_apply, self128_apply, rows128_apply, invDeg_apply]
  refine congrArg (fun s => ((0 + s) + xw (ix2 n j) * Ideal.div 1 (deg (ix1 n))) + b (ix1 j)) (Finset.sum_congr rfl fun u _ => ?_)
  rw [msg128With_apply, coefWith_apply']

-- a coordinate `u 0` of an index has the type `Fin 800000` only after the shape's size vector is unfolded
set_option backward.isDefEq.respectTransparency.types false in
set_option maxHeartbeats 400000 in
theorem conv128_apply (xw : Arr Ideal S50000x128 .f32) (src dst : Arr Ideal S800000 .i32) (b : Arr Ideal S128 .f32) (n : Fin 50000) (j : Fin 128) :
    conv128 xw src dst b (ix2 n j)
      = ((0 + ∑ u ∈ Finset.univ.filter (fun u => dM.resultIdx? u (col (F := Ideal) dst) = some (ix2 n j)),
              xw (ix2 (grow (wrap (F := Ideal) src) (u 0)) (u 1))
                * (dinvOf (degree (F := Ideal) dst) (ix1 (grow (wrap (F := Ideal) src) (u 0)))
                    * dinvOf (degree (F := Ideal) dst) (ix1 (grow (wrap (F := Ideal) dst) (u 0)))))
          + xw (ix2 n j) * Ideal.div 1 (degree (F := Ideal) dst (ix1 n))) + b (ix1 j) :=
  conv128From_apply xw (degree dst) (dinvOf (degree dst)) (wrap src) src dst b n j

-- a coordinate `u 0` of an index has the type `Fin 800000` only after the shape's size vector is unfolded
set_option backward.isDefEq.respectTransparency.types false in
set_option maxHeartbeats 400000 in
/-- a message of the last layer: the gathered node's value times the edge's coefficient -/
theorem msg1With_apply (xw : Arr Ideal S50000x1 .f32) (sIx : Arr Ideal S800000x1 .i32) (c : Arr Ideal S800000x1 .f32)
    (u : S800000x1.Idx) :
    msg1With xw sIx c u = xw (ix2 (grow sIx (u 0)) (u 1)) * c u := by
  unfold msg1With
  rw [mulf_apply]
  refine congrArg (· * c u) ?_
  conv_lhs => rw [eq_ix2 u]
  exact gather_rows_apply (N := 50000) (D := 1) (E := 800000) (by decide)
    Gen.gather_S50000x1_S800000x1_S800000x1_1_0_n_n_0_1_11_wf xw sIx (u 0) (u 1)

-- a coordinate `u 0` of an index has the type `Fin 800000` only after the shape's size vector is unfolded
set_option backward.isDefEq.respectTransparency.types false in
set_option maxHeartbeats 400000 in
theorem conv1_apply (xw : Arr Ideal S50000x1 .f32) (src dst : Arr Ideal S800000 .i32) (b : Arr Ideal S1 .f32) (n : Fin 50000) :
    conv1 xw src dst b (ix2 n (0 : Fin 1))
      = ((0 + ∑ u ∈ Finset.univ.filter (fun u => d1.resultIdx? u (col (F := Ideal) dst) = some (ix2 n (0 : Fin 1))),
              xw (ix2 (grow (wrap (F := Ideal) src) (u 0)) (u 1))
                * (dinvOf (degree (F := Ideal) dst) (ix1 (grow (wrap (F := Ideal) src) (u 0)))
                    * dinvOf (degree (F := Ideal) dst) (ix1 (grow (wrap (F := Ideal) dst) (u 0)))))
          + xw (ix2 n (0 : Fin 1)) * Ideal.div 1 (degree (F := Ideal) dst (ix1 n))) + b (ix1 (0 : Fin 1)) := by
  unfold conv1 convOut1
  rw [addf_apply, addf_apply, scatterAdd_apply, fill_apply, Ideal.ofBits_zero_f32, mulf_apply,
    broadcastInDim_apply ![0] bcast_S50000_S50000x1_0 (invDeg (degree dst)) (ix2 n (0 : Fin 1)) (ix1 n)
      (fun a => by match a with | ⟨0, _⟩ => rfl),
    broadcastInDim_apply ![0, 1] bcast_S1x1_S50000x1_0_1 _ (ix2 n (0 : Fin 1)) (ix2 (0 : Fin 1) (0 : Fin 1))
      (fun a => by match a with | ⟨0, _⟩ => rfl | ⟨1, _⟩ => rfl),
    broadcastInDim_apply ![1] bcast_S1_S1x1_1 b (ix2 (0 : Fin 1) (0 : Fin 1)) (ix1 (0 : Fin 1))
      (fun a => by match a with | ⟨0, _⟩ => rfl),
    invDeg_apply]
  refine congrArg (fun s => ((0 + s) + xw (ix2 n (0 : Fin 1)) * Ideal.div 1 (degree (F := Ideal) dst (ix1 n))) + b (ix1 (0 : Fin 1)))
    (Finset.sum_congr rfl fun u _ => ?_)
  unfold coef
  rw [msg1With_apply, coefWith_apply]

/-! ## Batch normalisation and the activation -/

set_option maxHeartbeats 400000 in
/-- the sum over the rows at a column: the initial zero plus the sum over the 50000 rows -/
theorem colSum_apply (x : Arr Ideal S50000x128 .f32) (j : Fin 128) :
    colSum x (ix1 j) = 0 + ∑ n : Fin 50000, x (ix2 n j) := by
  have hR : S50000x128.Reduces [0] S128 := by decide
  unfold colSum
  rw [hostReduceAdd_apply, Ideal.hostReduceAdd_single reducesTo_S50000x128_S128_d0 hR, constant_apply, Ideal.ofBits_zero_f32]
  refine congrArg (0 + ·) (Finset.sum_congr rfl fun n _ => congrArg x (funext fun a => ?_))
  match a with
  | ⟨0, _⟩ => exact Fin.ext rfl
  | ⟨1, _⟩ => exact Fin.ext rfl

set_option maxHeartbeats 400000 in
theorem centredBy_apply (x : Arr Ideal S50000x128 .f32) (mu : Arr Ideal S128 .f32) (n : Fin 50000) (j : Fin 128) :
    centredBy x mu (ix2 n j) = x (ix2 n j) - mu (ix1 j) := by
  unfold centredBy
  rw [subf_apply, rows128_apply]

set_option maxHeartbeats 400000 in
theorem colMean_apply (x : Arr Ideal S50000x128 .f32) (j : Fin 128) :
    colMean x (ix1 j) = Ideal.div (0 + ∑ n : Fin 50000, x (ix2 n j)) ((50000 : ℝ) : EReal) := by
  unfold colMean
  rw [hostDivf_apply, colSum_apply, fill_apply, ofBits_count]

set_option maxHeartbeats 400000 in
theorem colVar_apply (x : Arr Ideal S50000x128 .f32) (j : Fin 128) :
    colVar x (ix1 j)
      = Ideal.div (0 + ∑ n : Fin 50000, (x (ix2 n j) - colMean x (ix1 j)) * (x (ix2 n j) - colMean x (ix1 j))) ((50000 : ℝ) : EReal) := by
  unfold colVar
  rw [hostDivf_apply, colSum_apply, fill_apply, ofBits_count]
  refine congrArg (fun s => Ideal.div (0 + s) ((50000 : ℝ) : EReal)) (Finset.sum_congr rfl fun n _ => ?_)
  rw [mulf_apply, centredBy_apply]

set_option maxHeartbeats 400000 in
theorem batchNorm_apply (x : Arr Ideal S50000x128 .f32) (g beta : Arr Ideal S128 .f32) (n : Fin 50000) (j : Fin 128) :
    batchNorm x g beta (ix2 n j)
      = (x (ix2 n j) - colMean x (ix1 j)) * Ideal.rsqrt (colVar x (ix1 j) + Ideal.ofBits .f32 0x3727C5AC#32) * g (ix1 j) + beta (ix1 j) := by
  unfold batchNorm normWith
  rw [addf_apply, mulf_apply, mulf_apply, centredBy_apply, rows128_apply, rows128_apply, rows128_apply, hostRsqrt_apply,
    addf_apply, epsRow_apply]

set_option maxHeartbeats 400000 in
theorem leakyRelu_apply (x : Arr Ideal S50000x128 .f32) (i : S50000x128.Idx) :
    leakyRelu x i = Cert.GcnSpec.leaky (x i) := rfl

/-! ## Where a scattered update lands, and the gather at the same edge -/

set_option maxHeartbeats 400000 in
/-- a node index that is not negative is its own wrapped form -/
theorem wrap_of_nonneg (i : Arr Ideal S800000 .i32) (e : Fin 800000) (h : 0 ≤ (i (ix1 e)).toInt) :
    wrap (F := Ideal) i (ix2 e (0 : Fin 1)) = i (ix1 e) := by
  rw [wrap_apply]
  have hs : BitVec.slt (i (ix1 e)) 0#32 = false := by
    rw [BitVec.slt, BitVec.toInt_zero]
    exact decide_eq_false (by omega)
  show Scalar.select (BitVec.ofBool (BitVec.slt (i (ix1 e)) 0#32)) _ _ = _
  rw [hs]
  exact select_zero _ _

set_option maxHeartbeats 400000 in
/-- a raw destination that is a node index n is gathered, wrapped, at node n -/
theorem grow_wrap_of_start (dst : Arr Ideal S800000 .i32) (e : Fin 800000) (n : Fin 50000)
    (h : (col (F := Ideal) dst (ix2 e (0 : Fin 1))).toInt = (n.val : Int)) : grow (wrap (F := Ideal) dst) e = n := by
  rw [col_apply] at h
  have hn : n.val < 50000 := n.isLt
  refine Fin.ext ?_
  show min ((wrap (F := Ideal) dst) (ix2 e (0 : Fin 1))).toInt.toNat 49999 = n.val
  rw [wrap_of_nonneg dst e (by omega), h]
  simp only [Int.toNat_natCast]
  omega

-- a coordinate `u 0` of an index has the type `Fin 800000` only after the shape's size vector is unfolded
set_option backward.isDefEq.respectTransparency.types false in
set_option maxHeartbeats 400000 in
theorem grow_wrap_of_lands_rows (dst : Arr Ideal S800000 .i32) (u : S800000x128.Idx) (n : Fin 50000) (j : Fin 128)
    (h : dM.resultIdx? u (col (F := Ideal) dst) = some (ix2 n j)) : grow (wrap (F := Ideal) dst) (u 0) = n ∧ u 1 = j := by
  have hl := lands_rows' (N := 50000) (D := 128) (E := 800000) Gen.scatter_S50000x128_S800000x1_S800000x128_1_0_0_1_wf
    (col (F := Ideal) dst) u n j h
  exact ⟨grow_wrap_of_start dst (u 0) n hl.2, hl.1⟩

-- a coordinate `u 0` of an index has the type `Fin 800000` only after the shape's size vector is unfolded
set_option backward.isDefEq.respectTransparency.types false in
set_option maxHeartbeats 400000 in
theorem grow_wrap_of_lands_col (dst : Arr Ideal S800000 .i32) (u : S800000x1.Idx) (n : Fin 50000)
    (h : d1.resultIdx? u (col (F := Ideal) dst) = some (ix2 n (0 : Fin 1))) : grow (wrap (F := Ideal) dst) (u 0) = n := by
  have hl := lands_rows' (N := 50000) (D := 1) (E := 800000) Gen.scatter_S50000x1_S800000x1_S800000x1_1_0_0_1_wf
    (col (F := Ideal) dst) u n (0 : Fin 1) h
  exact grow_wrap_of_start dst (u 0) n hl.2

end Cert.ReferenceIdeal.RefRead

end
-- ==== Proof.SpecEq.lean ====
/-
  THE TWO FORMS OF THE NETWORK AGREE.  The network written at node granularity (rows pre-scaled by the
  reciprocal root degree before the gather, the sum scaled again after the scatter, the self-loop weighted by
  the squared reciprocal root, the variance in one pass and clamped at zero) equals the reference's composed
  stages (each message scaled by the product of its two reciprocal root degrees, the self-loop weighted by the
  reciprocal degree, the variance in two passes), for real inputs.

  It is proved stage by stage, each stage as "real inputs give equal AND real outputs", so that the next stage
  may use it: a convolution layer (the algebra is layer_eq; what a layer needs beside it is that an edge whose raw
  destination is a node lands its messages on the node the wrapped-and-clamped destination names), the column
  statistics (bn_stats_eq), the normalise-and-rectify step, and the last layer, one column wide.
-/
import proofs.«181351_j65970697667357_2_alg».proof.Proof.GcnAlgebra
import proofs.«181351_j65970697667357_2_alg».proof.Proof.LibGatherScatter
import proofs.«181351_j65970697667357_2_alg».proof.Proof.GcnSpec
import proofs.«181351_j65970697667357_2_alg».proof.Proof.RefStages
import proofs.«181351_j65970697667357_2_alg».proof.Proof.RefRead

noncomputable section

open scoped BigOperators

namespace Cert.SpecEq

open Idealize.ShloMosaic Idealize.ShloMosaic.ValueIdx Idealize.ShloMosaic.GatherScatterIdx
open Cert.GcnAlgebra Cert.GcnSpec
open Cert.ReferenceIdeal Cert.ReferenceIdeal.Gen Cert.ReferenceIdeal.RefRun Cert.ReferenceIdeal.RefRead

/-! ## The index columns: raw, and wrapped -/

/-- A vector of per-edge values made a column, read at [e, 0]. -/
theorem edgeCol_at {α : Type} (x : S800000.Idx → α) (e : Fin 800000) :
    broadcastInDim S800000x1 ![0] bcast_S800000_S800000x1_0 x (ix2 e (0 : Fin 1)) = x (ix1 e) := by
  unfold broadcastInDim
  refine congrArg x ?_
  funext a
  match a with
  | ⟨0, _⟩ => rfl

/-- The raw column at [e, 0] is the index of edge e. -/
theorem col_at (i : Arr Ideal S800000 .i32) (e : Fin 800000) : col (F := Ideal) i (ix2 e (0 : Fin 1)) = i (ix1 e) :=
  edgeCol_at i e

/-- A word that is non-negative as a signed integer is left alone by the wrap. -/
theorem wrap_word (x : BitVec 32) (h : 0 ≤ x.toInt) :
    Scalar.select (IntOp.cmpi .slt x 0#32) (IntOp.addi x 50000#32) x = x := by
  have : IntOp.cmpi .slt x 0#32 = 0#1 := by
    unfold IntOp.cmpi
    have hs : x.slt 0#32 = false := by
      rw [BitVec.slt]; simp; omega
    simp [hs]
  rw [this, select_zero]

/-- The wrapped column at [e, 0]. -/
theorem wrap_at (i : Arr Ideal S800000 .i32) (e : Fin 800000) :
    wrap (F := Ideal) i (ix2 e (0 : Fin 1))
      = Scalar.select (IntOp.cmpi .slt (i (ix1 e)) 0#32) (IntOp.addi (i (ix1 e)) 50000#32) (i (ix1 e)) := by
  unfold wrap wrapWith
  exact (edgeCol_at _ e).trans rfl

/-- An edge whose raw destination is the node n names the same node through the wrapped column once that is
    clamped: the gathers at the wrapped column read the node the raw scatter lands on. -/
theorem grow_wrap_of_col (i : Arr Ideal S800000 .i32) (e : Fin 800000) (n : Fin 50000)
    (h : (col (F := Ideal) i (ix2 e (0 : Fin 1))).toInt = (n.val : Int)) : grow (wrap (F := Ideal) i) e = n := by
  rw [col_at] at h
  have h0 : 0 ≤ (i (ix1 e)).toInt := by omega
  refine Fin.ext ?_
  show min ((wrap (F := Ideal) i) (ix2 e 0)).toInt.toNat 49999 = n.val
  rw [wrap_at, wrap_word _ h0, h]
  have := n.isLt
  simp only [Int.toNat_natCast]
  omega

/-! ## One layer: the node-granularity form against the edge-granularity form -/

section Layer
variable {D : Nat}

/-- At one output element: the node-granularity layer over any scatter records of the row kind equals the
    edge-granularity expression, and is real. hland says that an edge whose raw destination is a node is gathered
    at that node. -/
theorem conv_layer (dV : ScatterDims (⟨1, ![50000]⟩ : Shape) (⟨2, ![800000, 1]⟩ : Shape) (⟨1, ![800000]⟩ : Shape))
    (dM : ScatterDims (⟨2, ![50000, D]⟩ : Shape) (⟨2, ![800000, 1]⟩ : Shape) (⟨2, ![800000, D]⟩ : Shape))
    (wfM : ScatterDims.WF ⟨2, ![50000, D]⟩ ⟨2, ![800000, 1]⟩ ⟨2, ![800000, D]⟩ [1] [0] [0] 1)
    (hdM : dM = rowScatterDims 50000 D 800000 wfM) (srcW dstW dstC : IdxCol)
    (hland : ∀ (e : Fin 800000) (n : Fin 50000), (dstC (ix2 e (0 : Fin 1))).toInt = (n.val : Int) → grow dstW e = n)
    (xwv : Mat 50000 D) (b : Vct D) (hx : ∀ i, IsReal (xwv i)) (hb : ∀ i, IsReal (b i)) (n : Fin 50000) (j : Fin D) :
    ∃ r : ℝ,
      conv xwv (dinv dV dstW) (agg dM srcW dstC (xws xwv (dinv dV dstW))) b (ix2 n j) = (r : EReal) ∧
      ((0 + ∑ u ∈ Finset.univ.filter (fun u => dM.resultIdx? u dstC = some (ix2 n j)),
            xwv (ix2 (grow srcW (u 0)) (u 1)) * (dinv dV dstW (ix1 (grow srcW (u 0))) * dinv dV dstW (ix1 (grow dstW (u 0)))))
          + xwv (ix2 n j) * Ideal.div 1 (deg dV dstW (ix1 n))) + b (ix1 j) = (r : EReal) := by
  subst hdM
  have hge : ∀ u ∈ Finset.univ.filter (fun u => (rowScatterDims 50000 D 800000 wfM).resultIdx? u dstC = some (ix2 n j)),
      grow dstW (u 0) = n := by
    intro u hu
    exact hland (u 0) n (lands_rows' wfM dstC u n j (Finset.mem_filter.1 hu).2).2
  obtain ⟨r, h1, h2⟩ := layer_eq (Finset.univ.filter (fun u => (rowScatterDims 50000 D 800000 wfM).resultIdx? u dstC = some (ix2 n j)))
    (fun (m : Fin 50000) (c : Fin D) => xwv (ix2 m c)) (fun c => b (ix1 c)) (fun u => grow srcW (u 0)) (fun u => grow dstW (u 0))
    (fun u => u 1) (fun m => deg dV dstW (ix1 m)) n j (fun m c => hx _) (fun c => hb _) (fun m => deg_pos' _) hge
  refine ⟨r, ?_, ?_⟩
  · unfold conv agg xws dinv
    exact h1
  · unfold dinv
    exact h2

end Layer

/-- A product of real matrices is real. -/
theorem xw_real {D : Nat} (h : Mat 50000 128) (W : Mat 128 D) (hh : ∀ i, IsReal (h i)) (hW : ∀ i, IsReal (W i)) (i) :
    IsReal (GcnSpec.xw h W i) :=
  IsReal.sum _ _ (fun k _ => (hh _).mul (hW _))

/-- The reference's degrees and reciprocal root degrees are the specification's. -/
theorem degree_eq (dst : Arr Ideal S800000 .i32) (m : Fin 50000) :
    degree (F := Ideal) dst (ix1 m) = deg RefRead.dV (wrap (F := Ideal) dst) (ix1 m) := degree_apply dst m
theorem dinvOf_eq (dst : Arr Ideal S800000 .i32) (m : Fin 50000) :
    dinvOf (degree (F := Ideal) dst) (ix1 m) = dinv RefRead.dV (wrap (F := Ideal) dst) (ix1 m) := by
  rw [dinvOf_apply, degree_eq]; rfl

set_option maxHeartbeats 400000 in
/-- A 128-wide layer: the two forms agree as arrays, and the array is real. -/
theorem layer128_eq (h : Arr Ideal S50000x128 .f32) (W : Arr Ideal S128x128 .f32) (b : Arr Ideal S128 .f32)
    (src dst : Arr Ideal S800000 .i32) (hh : ∀ i, IsReal (h i)) (hW : ∀ i, IsReal (W i)) (hb : ∀ i, IsReal (b i)) :
    conv (GcnSpec.xw h W) (dinv RefRead.dV (wrap (F := Ideal) dst))
        (agg RefRead.dM (wrap (F := Ideal) src) (col (F := Ideal) dst) (xws (GcnSpec.xw h W) (dinv RefRead.dV (wrap (F := Ideal) dst)))) b
      = conv128 (matmul128 h W) src dst b
    ∧ ∀ i, IsReal (conv128 (matmul128 h W) src dst b i) := by
  have hmm : matmul128 h W = GcnSpec.xw h W := by
    funext i
    obtain ⟨n, j, rfl⟩ : ∃ n j, i = ix2 n j := ⟨i 0, i 1, eq_ix2 i⟩
    rw [matmul128_apply]; rfl
  rw [hmm]
  have key : ∀ (n : Fin 50000) (j : Fin 128), ∃ r : ℝ,
      conv (GcnSpec.xw h W) (dinv RefRead.dV (wrap (F := Ideal) dst))
        (agg RefRead.dM (wrap (F := Ideal) src) (col (F := Ideal) dst) (xws (GcnSpec.xw h W) (dinv RefRead.dV (wrap (F := Ideal) dst)))) b (ix2 n j) = (r : EReal)
      ∧ conv128 (GcnSpec.xw h W) src dst b (ix2 n j) = (r : EReal) := by
    intro n j
    obtain ⟨r, k1, k2⟩ := conv_layer RefRead.dV RefRead.dM _ dM_eq (wrap (F := Ideal) src) (wrap (F := Ideal) dst) (col (F := Ideal) dst)
      (fun e n => grow_wrap_of_col dst e n) (GcnSpec.xw h W) b (xw_real h W hh hW) hb n j
    refine ⟨r, k1, ?_⟩
    rw [conv128_apply]
    simp only [dinvOf_eq, degree_eq]
    exact k2
  constructor
  · funext i
    obtain ⟨n, j, rfl⟩ : ∃ n j, i = ix2 n j := ⟨i 0, i 1, eq_ix2 i⟩
    obtain ⟨r, k1, k2⟩ := key n j
    exact k1.trans k2.symm
  · intro i
    obtain ⟨n, j, rfl⟩ : ∃ n j, i = ix2 n j := ⟨i 0, i 1, eq_ix2 i⟩
    obtain ⟨r, _, k2⟩ := key n j
    exact ⟨r, k2⟩

set_option maxHeartbeats 400000 in
/-- The last layer, one column wide: the two forms agree as arrays. -/
theorem layer1w_eq (h : Arr Ideal S50000x128 .f32) (W : Arr Ideal S128x1 .f32) (b : Arr Ideal S1 .f32)
    (src dst : Arr Ideal S800000 .i32) (hh : ∀ i, IsReal (h i)) (hW : ∀ i, IsReal (W i)) (hb : ∀ i, IsReal (b i)) :
    conv (GcnSpec.xw h W) (dinv RefRead.dV (wrap (F := Ideal) dst))
        (agg RefRead.d1 (wrap (F := Ideal) src) (col (F := Ideal) dst) (xws (GcnSpec.xw h W) (dinv RefRead.dV (wrap (F := Ideal) dst)))) b
      = conv1 (matmul1 h W) src dst b := by
  have hmm : matmul1 h W = GcnSpec.xw h W := by
    funext i
    obtain ⟨n, j, rfl⟩ : ∃ n j, i = ix2 n j := ⟨i 0, i 1, eq_ix2 i⟩
    rw [matmul1_apply]; rfl
  rw [hmm]
  funext i
  obtain ⟨n, j, rfl⟩ : ∃ n j, i = ix2 n j := ⟨i 0, i 1, eq_ix2 i⟩
  obtain rfl : j = 0 := Subsingleton.elim _ _
  obtain ⟨r, k1, k2⟩ := conv_layer RefRead.dV RefRead.d1 _ d1_eq (wrap (F := Ideal) src) (wrap (F := Ideal) dst) (col (F := Ideal) dst)
    (fun e n => grow_wrap_of_col dst e n) (GcnSpec.xw h W) b (xw_real h W hh hW) hb n 0
  rw [conv1_apply]
  simp only [dinvOf_eq, degree_eq]
  exact k1.trans k2.symm

/-! ## The statistics, the normalisation, the rectifier -/

/-- For a real array: the one-pass mean and clamped variance of a column against the two-pass ones, spelt out. -/
theorem bn_stats (H : Mat 50000 128) (hH : ∀ i, IsReal (H i)) (j : Fin 128) :
    ∃ m v : ℝ, 0 ≤ v ∧ GcnSpec.mean H (ix1 j) = (m : EReal)
      ∧ Ideal.div (0 + ∑ n : Fin 50000, H (ix2 n j)) ((50000 : ℝ) : EReal) = (m : EReal)
      ∧ GcnSpec.var H (ix1 j) = (v : EReal)
      ∧ Ideal.div (0 + ∑ n : Fin 50000, (H (ix2 n j) - Ideal.div (0 + ∑ n : Fin 50000, H (ix2 n j)) ((50000 : ℝ) : EReal))
            * (H (ix2 n j) - Ideal.div (0 + ∑ n : Fin 50000, H (ix2 n j)) ((50000 : ℝ) : EReal))) ((50000 : ℝ) : EReal) = (v : EReal) :=
  bn_stats_eq Finset.univ (fun n => H (ix2 n j)) 50000 (fun n _ => hH _) (by simp) (by norm_num)

/-- The specification's column statistics are the reference's; the mean is real, the variance a nonnegative real. -/
theorem stats_eq (H : Arr Ideal S50000x128 .f32) (hH : ∀ i, IsReal (H i)) (j : Fin 128) :
    GcnSpec.mean H (ix1 j) = colMean H (ix1 j) ∧ GcnSpec.var H (ix1 j) = colVar H (ix1 j)
      ∧ IsReal (colMean H (ix1 j)) ∧ ∃ v : ℝ, 0 ≤ v ∧ colVar H (ix1 j) = (v : EReal) := by
  obtain ⟨m, v, hv, k1, k2, k3, k4⟩ := bn_stats H hH j
  have hm : colMean H (ix1 j) = (m : EReal) := (colMean_apply H j).trans k2
  have hvv : colVar H (ix1 j) = (v : EReal) := by
    rw [colVar_apply, colMean_apply]; exact k4
  exact ⟨k1.trans hm.symm, k3.trans hvv.symm, ⟨m, hm⟩, v, hv, hvv⟩

/-- Normalise-and-rectify: the two forms agree as arrays, and the array is real. -/
theorem act_eq (H : Arr Ideal S50000x128 .f32) (g β : Arr Ideal S128 .f32) (hH : ∀ i, IsReal (H i))
    (hg : ∀ i, IsReal (g i)) (hβ : ∀ i, IsReal (β i)) :
    act H (GcnSpec.mean H) (GcnSpec.var H) g β = leakyRelu (batchNorm H g β)
      ∧ ∀ i, IsReal (leakyRelu (batchNorm H g β) i) := by
  have key : ∀ (n : Fin 50000) (j : Fin 128),
      act H (GcnSpec.mean H) (GcnSpec.var H) g β (ix2 n j) = leakyRelu (batchNorm H g β) (ix2 n j)
        ∧ IsReal (leakyRelu (batchNorm H g β) (ix2 n j)) := by
    intro n j
    obtain ⟨e1, e2, hm, hv⟩ := stats_eq H hH j
    rw [leakyRelu_apply, batchNorm_apply]
    constructor
    · show leaky ((H (ix2 n j) - GcnSpec.mean H (ix1 j))
          * Ideal.rsqrt (GcnSpec.var H (ix1 j) + Ideal.ofBits .f32 0x3727C5AC#32) * g (ix1 j) + β (ix1 j)) = _
      rw [e1, e2]
    · have hy := bn_norm_real (hH (ix2 n j)) hm hv RefRead.ofBits_eps_pos (hg (ix1 j)) (hβ (ix1 j))
      obtain ⟨s, _, hs⟩ := RefRead.ofBits_slope_pos
      have hsl : IsReal (Ideal.ofBits .f32 0x3C23D70A#32) := ⟨s, hs⟩
      unfold leaky
      exact isReal_select _ hy (hsl.mul hy)
  constructor
  · funext i
    obtain ⟨n, j, rfl⟩ : ∃ n j, i = ix2 n j := ⟨i 0, i 1, eq_ix2 i⟩
    exact (key n j).1
  · intro i
    obtain ⟨n, j, rfl⟩ : ∃ n j, i = ix2 n j := ⟨i 0, i 1, eq_ix2 i⟩
    exact (key n j).2

/-! ## The network -/

set_option maxHeartbeats 400000 in
/-- THE TWO FORMS OF THE NETWORK AGREE on real inputs. -/
theorem spec_eq (a0 : Arr Ideal S50000x128 .f32) (a1 : Arr Ideal S2x800000 .i32) (a2 : Arr Ideal S128x128 .f32)
    (a3 a4 a5 : Arr Ideal S128 .f32) (a6 : Arr Ideal S128x128 .f32) (a7 a8 a9 : Arr Ideal S128 .f32)
    (a10 : Arr Ideal S128x1 .f32) (a11 : Arr Ideal S1 .f32)
    (h0 : ∀ i, ∃ r : ℝ, a0 i = (r : EReal)) (h2 : ∀ i, ∃ r : ℝ, a2 i = (r : EReal)) (h3 : ∀ i, ∃ r : ℝ, a3 i = (r : EReal))
    (h4 : ∀ i, ∃ r : ℝ, a4 i = (r : EReal)) (h5 : ∀ i, ∃ r : ℝ, a5 i = (r : EReal)) (h6 : ∀ i, ∃ r : ℝ, a6 i = (r : EReal))
    (h7 : ∀ i, ∃ r : ℝ, a7 i = (r : EReal)) (h8 : ∀ i, ∃ r : ℝ, a8 i = (r : EReal)) (h9 : ∀ i, ∃ r : ℝ, a9 i = (r : EReal))
    (h10 : ∀ i, ∃ r : ℝ, a10 i = (r : EReal)) (h11 : ∀ i, ∃ r : ℝ, a11 i = (r : EReal)) :
    GcnSpec.result scatter_S50000_S800000x1_S800000_n_0_0_1 scatter_S50000x128_S800000x1_S800000x128_1_0_0_1
        scatter_S50000x1_S800000x1_S800000x1_1_0_0_1
        (wrap (F := Ideal) (srcIdx (F := Ideal) a1)) (wrap (F := Ideal) (dstIdx (F := Ideal) a1)) (col (F := Ideal) (dstIdx (F := Ideal) a1))
        a0 a2 a3 a4 a5 a6 a7 a8 a9 a10 a11
      = RefRun.result a0 a1 a2 a3 a4 a5 a6 a7 a8 a9 a10 a11 := by
  obtain ⟨E1, R1⟩ := layer128_eq a0 a2 a3 (srcIdx (F := Ideal) a1) (dstIdx (F := Ideal) a1) h0 h2 h3
  obtain ⟨E2, R2⟩ := act_eq _ a4 a5 R1 h4 h5
  obtain ⟨E3, R3⟩ := layer128_eq _ a6 a7 (srcIdx (F := Ideal) a1) (dstIdx (F := Ideal) a1) R2 h6 h7
  obtain ⟨E4, R4⟩ := act_eq _ a8 a9 R3 h8 h9
  have E5 := layer1w_eq _ a10 a11 (srcIdx (F := Ideal) a1) (dstIdx (F := Ideal) a1) R4 h10 h11
  unfold GcnSpec.result RefRun.result hidden2 hidden1 layer2 layer1
  simp only []
  rw [E1, E2, E3, E4]
  exact E5

end Cert.SpecEq

end
-- ==== Proof.Bridge.lean ====
/- The kernel program's result is the reference's: the run of the kernel program read as the network's node-granularity
   form, the two forms of the network equal on real inputs, and the two programs' spellings identified. -/
import proofs.«181351_j65970697667357_2_alg».proof.Proof.BridgeCore
import proofs.«181351_j65970697667357_2_alg».proof.Proof.KIChain
import proofs.«181351_j65970697667357_2_alg».proof.Proof.SpecEq

noncomputable section

namespace Cert.Bridge

open Idealize.ShloMosaic Idealize.SL.Sem

/-- Under the precondition, what the kernel program leaves in its result buffer on core `c` is the reference's result
    of the same twelve argument arrays. -/
theorem result_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) = (fun _ => 1#1)) :
    Cert.KernelIdeal.Hand.W10 (F := Ideal) m ρ c (Proc.devRef .tc Cert.KernelIdeal.main_v62)
      = Cert.ReferenceIdeal.RefRun.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) :=
  result_eq_of m c _ (Cert.KernelIdeal.HandChain.result_spec m ρ c) Cert.SpecEq.spec_eq hpre

end Cert.Bridge

end
-- ==== Proof.lean ====
/-
  The five claims about the three printed programs of a three-layer graph convolution (50000 nodes, 800000 edges).
  The word-level kernel program and its idealization each run to the end, fault nowhere and leave their twelve argument
  arrays as launched: @main is a chain of ten items — four stretches of host operations and six kernel regions — and
  the several-regions launch theorem runs it from one proof-data record per region (Proof/KRun.lean, Proof/KIRun.lean,
  over the regions' halves Proof/KRegion*.lean, Proof/KIRegion*.lean). The reference is a straight host program whose
  run is read back operation by operation (Proof/RefRun.lean). The idealization's four rewrites all name the literal
  0x37A7C5AC as the rational 1/50000. At the ideal instance the kernel program's result is the network written in the
  kernels' node-granularity form (Proof/GcnSpec.lean, read off the run in Proof/KIChain.lean), and for finite inputs
  that function is the reference's (Proof/SpecEq.lean, joined in Proof/Bridge.lean): the edge weight dinv[src]·dinv[dst] is separable, so scaling
  the gathered rows by dinv[src] before the sum and the sum by dinv[dst] after it is the reference's per-edge product
  (distributivity over a finite sum of reals), dinv·dinv is 1/deg, and the one-pass variance E[x²] − (E x)² is the
  two-pass one and is never negative, so the clamp at zero changes nothing.
-/
import proofs.«181351_j65970697667357_2_alg».proof.Defs
import proofs.«181351_j65970697667357_2_alg».proof.Proof.Gen.Kernel
import proofs.«181351_j65970697667357_2_alg».proof.Proof.Gen.KernelIdeal
import proofs.«181351_j65970697667357_2_alg».proof.Proof.Gen.ReferenceIdeal
import proofs.«181351_j65970697667357_2_alg».proof.Proof.Gen.Pre_finite_inputs
import proofs.«181351_j65970697667357_2_alg».proof.Proof.KRun
import proofs.«181351_j65970697667357_2_alg».proof.Proof.KIRun
import proofs.«181351_j65970697667357_2_alg».proof.Proof.RefRun
import proofs.«181351_j65970697667357_2_alg».proof.Proof.Bridge
import Idealize.ShloMosaic.Adequacy
import Idealize.ShloMosaic.Init

noncomputable section

namespace Cert.Proof

open Idealize.ShloMosaic Idealize.SL.Sem

/-- The word-level program's frame: the run of its ten items at the bit-exact instance. -/
theorem frame_k : Cert.frame_Kernel := fun m ρ _ => Cert.Kernel.Hand.frame (F := Bits) m ρ

/-- The idealized program's frame: the same run at the ideal instance. -/
theorem frame_ki : Cert.frame_KernelIdeal := fun m ρ _ => Cert.KernelIdeal.Hand.frame (F := Ideal) m ρ

/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- One ledger entry: the table gives "inv_50000" the value 1/50000, and the printed constant is that value at the ideal instance. -/
theorem inv_n_statement :
    IdealRules.named_const.Statement Cert.KernelIdeal.κ "inv_50000" .f32 0x37A7C5AC#32 ((1 / 50000 : ℝ) : EReal) :=
  IdealRules.named_const.statement Cert.KernelIdeal.κ "inv_50000" .f32 0x37A7C5AC#32 ((1 / 50000 : ℝ) : EReal) rfl

/-- The four rewrites of the ideal pass are that one entry, at the two statistics kernels' two uses each. -/
theorem preserves : Cert.preserves_Kernel_KernelIdeal := ⟨inv_n_statement, inv_n_statement, inv_n_statement, inv_n_statement⟩

/-- Equal results at the ideal instance: the kernel program's run ends with its result buffer at the last valuation's
    contents, which is the reference's result term of the same (finite) arguments; the reference's run ends at that term. -/
theorem algebraic : Cert.algebraic_KernelIdeal_ReferenceIdeal := by
  intro m ρ m' ρ' hpre hagree
  refine ⟨_, Cert.KernelIdeal.Hand.run_result (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11⟩ := hagree c
  rw [e0, e1, e2, e3, e4, e5, e6, e7, e8, e9, e10, e11]
  exact (Cert.Bridge.result_eq m ρ c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
